-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1024x2 : Shape := ⟨3, ![16, 1024, 2]⟩
abbrev S16x1024x64 : Shape := ⟨3, ![16, 1024, 64]⟩
abbrev S16x1024x16 : Shape := ⟨3, ![16, 1024, 16]⟩
abbrev S2x16x1024x1024 : Shape := ⟨4, ![2, 16, 1024, 1024]⟩
abbrev S146x64 : Shape := ⟨2, ![146, 64]⟩
abbrev S64 : Shape := ⟨1, ![64]⟩
abbrev S780x192 : Shape := ⟨2, ![780, 192]⟩
abbrev S192 : Shape := ⟨1, ![192]⟩
abbrev S780x64 : Shape := ⟨2, ![780, 64]⟩
abbrev S_ : Shape := ⟨0, ![]⟩

class Facts : Prop where
  bcast_S_S16x1024x2 : S_.BroadcastsInDim S16x1024x2 (![] : Fin 0 → Fin S16x1024x2.rank)
  reducesTo_S16x1024x2_S_d0_1_2 : S16x1024x2.ReducesTo [0, 1, 2] S_
  h_S_ : 0 < S_.numel
  bcast_S_S16x1024x64 : S_.BroadcastsInDim S16x1024x64 (![] : Fin 0 → Fin S16x1024x64.rank)
  reducesTo_S16x1024x64_S_d0_1_2 : S16x1024x64.ReducesTo [0, 1, 2] S_
  bcast_S_S16x1024x16 : S_.BroadcastsInDim S16x1024x16 (![] : Fin 0 → Fin S16x1024x16.rank)
  reducesTo_S16x1024x16_S_d0_1_2 : S16x1024x16.ReducesTo [0, 1, 2] S_
  bcast_S_S2x16x1024x1024 : S_.BroadcastsInDim S2x16x1024x1024 (![] : Fin 0 → Fin S2x16x1024x1024.rank)
  reducesTo_S2x16x1024x1024_S_d0_1_2_3 : S2x16x1024x1024.ReducesTo [0, 1, 2, 3] S_
  bcast_S_S146x64 : S_.BroadcastsInDim S146x64 (![] : Fin 0 → Fin S146x64.rank)
  reducesTo_S146x64_S_d0_1 : S146x64.ReducesTo [0, 1] S_
  bcast_S_S64 : S_.BroadcastsInDim S64 (![] : Fin 0 → Fin S64.rank)
  reducesTo_S64_S_d0 : S64.ReducesTo [0] S_
  bcast_S_S780x192 : S_.BroadcastsInDim S780x192 (![] : Fin 0 → Fin S780x192.rank)
  reducesTo_S780x192_S_d0_1 : S780x192.ReducesTo [0, 1] S_
  bcast_S_S192 : S_.BroadcastsInDim S192 (![] : Fin 0 → Fin S192.rank)
  reducesTo_S192_S_d0 : S192.ReducesTo [0] S_
  bcast_S_S780x64 : S_.BroadcastsInDim S780x64 (![] : Fin 0 → Fin S780x64.rank)
  reducesTo_S780x64_S_d0_1 : S780x64.ReducesTo [0, 1] S_

variable [Facts]

def fn_part3 {F : FTy → Type} [FloatOps F] (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  main_v53

def fn_part2 {F : FTy → Type} [FloatOps F] (main_arg7 : FVec F S780x192 .f32) (main_arg8 : FVec F S192 .f32) (main_arg9 : FVec F S780x64 .f32) (main_arg10 : FVec F S64 .f32) (main_v33 : IVec S_ 1) : IVec S_ 1 :=
  let main_v34 : FVec F S780x192 .f32 := Host.absf main_arg7
  let main_cst_12 : FVec F S_ .f32 := constant S_ .f32 0x7F800000#32
  let main_v35 : FVec F S780x192 .f32 := broadcastInDim S780x192 ![] bcast_S_S780x192 main_cst_12
  let main_v36 : IVec S780x192 1 := cmpf .olt main_v34 main_v35
  let main_c_13 : IVec S_ 1 := constantI S_ 1 1#1
  let main_v37 : IVec S_ 1 := (fun x v => Host.reduce IntOp.andi x v reducesTo_S780x192_S_d0_1 h_S_) main_v36 main_c_13
  let main_v38 : IVec S_ 1 := andi main_v33 main_v37
  let main_v39 : FVec F S192 .f32 := Host.absf main_arg8
  let main_cst_14 : FVec F S_ .f32 := constant S_ .f32 0x7F800000#32
  let main_v40 : FVec F S192 .f32 := broadcastInDim S192 ![] bcast_S_S192 main_cst_14
  let main_v41 : IVec S192 1 := cmpf .olt main_v39 main_v40
  let main_c_15 : IVec S_ 1 := constantI S_ 1 1#1
  let main_v42 : IVec S_ 1 := (fun x v => Host.reduce IntOp.andi x v reducesTo_S192_S_d0 h_S_) main_v41 main_c_15
  let main_v43 : IVec S_ 1 := andi main_v38 main_v42
  let main_v44 : FVec F S780x64 .f32 := Host.absf main_arg9
  let main_cst_16 : FVec F S_ .f32 := constant S_ .f32 0x7F800000#32
  let main_v45 : FVec F S780x64 .f32 := broadcastInDim S780x64 ![] bcast_S_S780x64 main_cst_16
  let main_v46 : IVec S780x64 1 := cmpf .olt main_v44 main_v45
  let main_c_17 : IVec S_ 1 := constantI S_ 1 1#1
  let main_v47 : IVec S_ 1 := (fun x v => Host.reduce IntOp.andi x v reducesTo_S780x64_S_d0_1 h_S_) main_v46 main_c_17
  let main_v48 : IVec S_ 1 := andi main_v43 main_v47
  let main_v49 : FVec F S64 .f32 := Host.absf main_arg10
  let main_cst_18 : FVec F S_ .f32 := constant S_ .f32 0x7F800000#32
  let main_v50 : FVec F S64 .f32 := broadcastInDim S64 ![] bcast_S_S64 main_cst_18
  fn_part3 (F := F) main_v48 main_v49 main_v50

def fn_part1 {F : FTy → Type} [FloatOps F] (main_arg4 : FVec F S2x16x1024x1024 .f32) (main_arg5 : FVec F S146x64 .f32) (main_arg6 : FVec F S64 .f32) (main_arg7 : FVec F S780x192 .f32) (main_arg8 : FVec F S192 .f32) (main_arg9 : FVec F S780x64 .f32) (main_arg10 : FVec F S64 .f32) (main_v13 : IVec S_ 1) (main_v16 : IVec S16x1024x16 1) : IVec S_ 1 :=
  let main_c_5 : IVec S_ 1 := constantI S_ 1 1#1
  let main_v17 : IVec S_ 1 := (fun x v => Host.reduce IntOp.andi x v reducesTo_S16x1024x16_S_d0_1_2 h_S_) main_v16 main_c_5
  let main_v18 : IVec S_ 1 := andi main_v13 main_v17
  let main_v19 : FVec F S2x16x1024x1024 .f32 := Host.absf main_arg4
  let main_cst_6 : FVec F S_ .f32 := constant S_ .f32 0x7F800000#32
  let main_v20 : FVec F S2x16x1024x1024 .f32 := broadcastInDim S2x16x1024x1024 ![] bcast_S_S2x16x1024x1024 main_cst_6
  let main_v21 : IVec S2x16x1024x1024 1 := cmpf .olt main_v19 main_v20
  let main_c_7 : IVec S_ 1 := constantI S_ 1 1#1
  let main_v22 : IVec S_ 1 := (fun x v => Host.reduce IntOp.andi x v reducesTo_S2x16x1024x1024_S_d0_1_2_3 h_S_) main_v21 main_c_7
  let main_v23 : IVec S_ 1 := andi main_v18 main_v22
  let main_v24 : FVec F S146x64 .f32 := Host.absf main_arg5
  let main_cst_8 : FVec F S_ .f32 := constant S_ .f32 0x7F800000#32
  let main_v25 : FVec F S146x64 .f32 := broadcastInDim S146x64 ![] bcast_S_S146x64 main_cst_8
  let main_v26 : IVec S146x64 1 := cmpf .olt main_v24 main_v25
  let main_c_9 : IVec S_ 1 := constantI S_ 1 1#1
  let main_v27 : IVec S_ 1 := (fun x v => Host.reduce IntOp.andi x v reducesTo_S146x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S16x1024x2 .f32) (main_arg1 : FVec F S16x1024x64 .f32) (main_arg2 : FVec F S16x1024x64 .f32) (main_arg3 : FVec F S16x1024x16 .f32) (main_arg4 : FVec F S2x16x1024x1024 .f32) (main_arg5 : FVec F S146x64 .f32) (main_arg6 : FVec F S64 .f32) (main_arg7 : FVec F S780x192 .f32) (main_arg8 : FVec F S192 .f32) (main_arg9 : FVec F S780x64 .f32) (main_arg10 : FVec F S64 .f32) : IVec S_ 1 :=
  let main_v0 : FVec F S16x1024x2 .f32 := Host.absf main_arg0
  let main_cst : FVec F S_ .f32 := constant S_ .f32 0x7F800000#32
  let main_v1 : FVec F S16x1024x2 .f32 := broadcastInDim S16x1024x2 ![] bcast_S_S16x1024x2 main_cst
  let main_v2 : IVec S16x1024x2 1 := cmpf .olt main_v0 main_v1
  let main_c : IVec S_ 1 := constantI S_ 1 1#1
  let main_v3 : IVec S_ 1 := (fun x v => Host.reduce IntOp.andi x v reducesTo_S16x1024x2_S_d0_1_2 h_S_) main_v2 main_c
  let main_v4 : FVec F S16x1024x64 .f32 := Host.absf main_arg1
  let main_cst_0 : FVec F S_ .f32 := constant S_ .f32 0x7F800000#32
  let main_v5 : FVec F S16x1024x64 .f32 := broadcastInDim S16x1024x64 ![] bcast_S_S16x1024x64 main_cst_0
  let main_v6 : IVec S16x1024x64 1 := cmpf .olt main_v4 main_v5
  let main_c_1 : IVec S_ 1 := constantI S_ 1 1#1
  let main_v7 : IVec S_ 1 := (fun x v => Host.reduce IntOp.andi x v reducesTo_S16x1024x64_S_d0_1_2 h_S_) main_v6 main_c_1
  let main_v8 : IVec S_ 1 := andi main_v3 main_v7
  let main_v9 : FVec F S16x1024x64 .f32 := Host.absf main_arg2
  let main_cst_2 : FVec F S_ .f32 := constant S_ .f32 0x7F800000#32
  let main_v10 : FVec F S16x1024x64 .f32 := broadcastInDim S16x1024x64 ![] bcast_S_S16x1024x64 main_cst_2
  let main_v11 : IVec S16x1024x64 1 := cmpf .olt main_v9 main_v10
  let main_c_3 : IVec S_ 1 := constantI S_ 1 1#1
  let main_v12 : IVec S_ 1 := (fun x v => Host.reduce IntOp.andi x v reducesTo_S16x1024x64_S_d0_1_2 h_S_) main_v11 main_c_3
  let main_v13 : IVec S_ 1 := andi main_v8 main_v12
  let main_v14 : FVec F S16x1024x16 .f32 := Host.absf main_arg3
  let main_cst_4 : FVec F S_ .f32 := constant S_ .f32 0x7F800000#32
  let main_v15 : FVec F S16x1024x16 .f32 := broadcastInDim S16x1024x16 ![] bcast_S_S16x1024x16 main_cst_4
  let main_v16 : IVec S16x1024x16 1 := cmpf .olt main_v14 main_v15
  fn_part1 (F := F) main_arg4 main_arg5 main_arg6 main_arg7 main_arg8 main_arg9 main_arg10 main_v13 main_v16
-- ==== Kernel.lean ====
abbrev S16x1024x2 : Shape := ⟨3, ![16, 1024, 2]⟩
abbrev S16x1024x64 : Shape := ⟨3, ![16, 1024, 64]⟩
abbrev S16x1024x16 : Shape := ⟨3, ![16, 1024, 16]⟩
abbrev S2x16x1024x1024 : Shape := ⟨4, ![2, 16, 1024, 1024]⟩
abbrev S146x64 : Shape := ⟨2, ![146, 64]⟩
abbrev S64 : Shape := ⟨1, ![64]⟩
abbrev S780x192 : Shape := ⟨2, ![780, 192]⟩
abbrev S192 : Shape := ⟨1, ![192]⟩
abbrev S780x64 : Shape := ⟨2, ![780, 64]⟩
abbrev S16x1024x146 : Shape := ⟨3, ![16, 1024, 146]⟩
abbrev S130x192 : Shape := ⟨2, ![130, 192]⟩
abbrev S650x192 : Shape := ⟨2, ![650, 192]⟩
abbrev S130x64 : Shape := ⟨2, ![130, 64]⟩
abbrev S650x64 : Shape := ⟨2, ![650, 64]⟩
abbrev S1x64 : Shape := ⟨2, ![1, 64]⟩
abbrev S1x192 : Shape := ⟨2, ![1, 192]⟩
abbrev S1x1024x146 : Shape := ⟨3, ![1, 1024, 146]⟩
abbrev S2x1x1024x1024 : Shape := ⟨4, ![2, 1, 1024, 1024]⟩
abbrev S1x1024x64 : Shape := ⟨3, ![1, 1024, 64]⟩
abbrev S1024x146 : Shape := ⟨2, ![1024, 146]⟩
abbrev S1024x2 : Shape := ⟨2, ![1024, 2]⟩
abbrev S1024x64 : Shape := ⟨2, ![1024, 64]⟩
abbrev S1024x130 : Shape := ⟨2, ![1024, 130]⟩
abbrev S1x1x1024x1024 : Shape := ⟨4, ![1, 1, 1024, 1024]⟩
abbrev S1024x1024 : Shape := ⟨2, ![1024, 1024]⟩
abbrev S1024x650 : Shape := ⟨2, ![1024, 650]⟩
abbrev S1024x192 : Shape := ⟨2, ![1024, 192]⟩

abbrev nBuf : Space → Nat
  | .hbm => 32
  | .vmem => 12
  | .smem => 0
  | _ => 0

abbrev bufTy : (tb : Table) → Fin (tcTables nBuf tb) → BufTy
  | .hbm, ⟨0, _⟩ => ⟨S16x1024x2, .f32⟩
  | .hbm, ⟨1, _⟩ => ⟨S16x1024x64, .f32⟩
  | .hbm, ⟨2, _⟩ => ⟨S16x1024x64, .f32⟩
  | .hbm, ⟨3, _⟩ => ⟨S16x1024x16, .f32⟩
  | .hbm, ⟨4, _⟩ => ⟨S2x16x1024x1024, .f32⟩
  | .hbm, ⟨5, _⟩ => ⟨S146x64, .f32⟩
  | .hbm, ⟨6, _⟩ => ⟨S64, .f32⟩
  | .hbm, ⟨7, _⟩ => ⟨S780x192, .f32⟩
  | .hbm, ⟨8, _⟩ => ⟨S192, .f32⟩
  | .hbm, ⟨9, _⟩ => ⟨S780x64, .f32⟩
  | .hbm, ⟨10, _⟩ => ⟨S64, .f32⟩
  | .hbm, ⟨11, _⟩ => ⟨S16x1024x146, .f32⟩
  | .hbm, ⟨12, _⟩ => ⟨S130x192, .f32⟩
  | .hbm, ⟨13, _⟩ => ⟨S130x192, .f32⟩
  | .hbm, ⟨14, _⟩ => ⟨S130x192, .f32⟩
  | .hbm, ⟨15, _⟩ => ⟨S130x192, .f32⟩
  | .hbm, ⟨16, _⟩ => ⟨S130x192, .f32⟩
  | .hbm, ⟨17, _⟩ => ⟨S130x192, .f32⟩
  | .hbm, ⟨18, _⟩ => ⟨S130x192, .f32⟩
  | .hbm, ⟨19, _⟩ => ⟨S650x192, .f32⟩
  | .hbm, ⟨20, _⟩ => ⟨S130x64, .f32⟩
  | .hbm, ⟨21, _⟩ => ⟨S130x64, .f32⟩
  | .hbm, ⟨22, _⟩ => ⟨S130x64, .f32⟩
  | .hbm, ⟨23, _⟩ => ⟨S130x64, .f32⟩
  | .hbm, ⟨24, _⟩ => ⟨S130x64, .f32⟩
  | .hbm, ⟨25, _⟩ => ⟨S130x64, .f32⟩
  | .hbm, ⟨26, _⟩ => ⟨S130x64, .f32⟩
  | .hbm, ⟨27, _⟩ => ⟨S650x64, .f32⟩
  | .hbm, ⟨28, _⟩ => ⟨S1x64, .f32⟩
  | .hbm, ⟨29, _⟩ => ⟨S1x192, .f32⟩
  | .hbm, ⟨30, _⟩ => ⟨S1x64, .f32⟩
  | .hbm, ⟨31, _⟩ => ⟨S16x1024x64, .f32⟩
  | .local _ .vmem, ⟨0, _⟩ => ⟨S1x1024x146, .f32⟩
  | .local _ .vmem, ⟨1, _⟩ => ⟨S1x1024x146, .f32⟩
  | .local _ .vmem, ⟨2, _⟩ => ⟨S2x1x1024x1024, .f32⟩
  | .local _ .vmem, ⟨3, _⟩ => ⟨S2x1x1024x1024, .f32⟩
  | .local _ .vmem, ⟨4, _⟩ => ⟨S146x64, .f32⟩
  | .local _ .vmem, ⟨5, _⟩ => ⟨S1x64, .f32⟩
  | .local _ .vmem, ⟨6, _⟩ => ⟨S650x192, .f32⟩
  | .local _ .vmem, ⟨7, _⟩ => ⟨S1x192, .f32⟩
  | .local _ .vmem, ⟨8, _⟩ => ⟨S650x64, .f32⟩
  | .local _ .vmem, ⟨9, _⟩ => ⟨S1x64, .f32⟩
  | .local _ .vmem, ⟨10, _⟩ => ⟨S1x1024x64, .f32⟩
  | .local _ .vmem, ⟨11, _⟩ => ⟨S1x1024x64, .f32⟩
  | _, _ => ⟨S16x1024x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x146 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S146x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S650x192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S650x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x1024x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  concatenates_S16x1024x2_S16x1024x64_S16x1024x64_S16x1024x16_S16x1024x146_d2 : Shape.Concatenates [S16x1024x2, S16x1024x64, S16x1024x64, S16x1024x16] S16x1024x146 2
  slices_S780x192_S130x192_0_0 : S780x192.Slices ![0, 0] S130x192
  slices_S780x192_S130x192_130_0 : S780x192.Slices ![130, 0] S130x192
  slices_S780x192_S130x192_260_0 : S780x192.Slices ![260, 0] S130x192
  slices_S780x192_S130x192_390_0 : S780x192.Slices ![390, 0] S130x192
  slices_S780x192_S130x192_520_0 : S780x192.Slices ![520, 0] S130x192
  slices_S780x192_S130x192_650_0 : S780x192.Slices ![650, 0] S130x192
  concatenates_S130x192_S130x192_S130x192_S130x192_S130x192_S650x192_d0 : Shape.Concatenates [S130x192, S130x192, S130x192, S130x192, S130x192] S650x192 0
  slices_S780x64_S130x64_0_0 : S780x64.Slices ![0, 0] S130x64
  slices_S780x64_S130x64_130_0 : S780x64.Slices ![130, 0] S130x64
  slices_S780x64_S130x64_260_0 : S780x64.Slices ![260, 0] S130x64
  slices_S780x64_S130x64_390_0 : S780x64.Slices ![390, 0] S130x64
  slices_S780x64_S130x64_520_0 : S780x64.Slices ![520, 0] S130x64
  slices_S780x64_S130x64_650_0 : S780x64.Slices ![650, 0] S130x64
  concatenates_S130x64_S130x64_S130x64_S130x64_S130x64_S650x64_d0 : Shape.Concatenates [S130x64, S130x64, S130x64, S130x64, S130x64] S650x64 0
  shapeCasts_S64_S1x64 : S64.ShapeCasts S1x64
  shapeCasts_S192_S1x192 : S192.ShapeCasts S1x192
  inb_S1x1024x146_S1x1024x146_0_0_0 : ∀ a, (![0, 0, 0] : Fin 3 → Nat) a + S1x1024x146.size a ≤ S1x1024x146.size a
  h_S1x1024x146 : 0 < S1x1024x146.numel
  shapeCasts_S1x1024x146_S1024x146 : S1x1024x146.ShapeCasts S1024x146
  slices_S1024x146_o0_0_S1024x2 : S1024x146.Slices ![0, 0] S1024x2
  slices_S1024x146_o0_2_S1024x64 : S1024x146.Slices ![0, 2] S1024x64
  slices_S1024x146_o0_66_S1024x64 : S1024x146.Slices ![0, 66] S1024x64
  slices_S1024x146_o0_0_S1024x130 : S1024x146.Slices ![0, 0] S1024x130
  bitsLt_bf16_f32 : FTy.bits .bf16 < FTy.bits .f32
  inb_S146x64_S146x64_0_0 : ∀ a, (![0, 0] : Fin 2 → Nat) a + S146x64.size a ≤ S146x64.size a
  h_S146x64 : 0 < S146x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1024x64 : S1x64.Broadcasts S1024x64
  inb_S2x1x1024x1024_S1x1x1024x1024_0_0_0_0 : ∀ a, (![0, 0, 0, 0] : Fin 4 → Nat) a + S1x1x1024x1024.size a ≤ S2x1x1024x1024.size a
  h_S1x1x1024x1024 : 0 < S1x1x1024x1024.numel
  shapeCasts_S1x1x1024x1024_S1024x1024 : S1x1x1024x1024.ShapeCasts S1024x1024
  inb_S2x1x1024x1024_S1x1x1024x1024_1_0_0_0 : ∀ a, (![1, 0, 0, 0] : Fin 4 → Nat) a + S1x1x1024x1024.size a ≤ S2x1x1024x1024.size a
  concatenates_S1024x130_S1024x130_S1024x130_S1024x130_S1024x130_S1024x650_d1 : Shape.Concatenates [S1024x130, S1024x130, S1024x130, S1024x130, S1024x130] S1024x650 1
  inb_S650x192_S650x192_0_0 : ∀ a, (![0, 0] : Fin 2 → Nat) a + S650x192.size a ≤ S650x192.size a
  h_S650x192 : 0 < S650x192.numel
  shapeCasts_S650x192_S650x192 : S650x192.ShapeCasts S650x192
  inb_S1x192_S1x192_0_0 : ∀ a, (![0, 0] : Fin 2 → Nat) a + S1x192.size a ≤ S1x192.size a
  h_S1x192 : 0 < S1x192.numel
  shapeCasts_S1x192_S1x192 : S1x192.ShapeCasts S1x192
  broadcasts_S1x192_S1024x192 : S1x192.Broadcasts S1024x192
  slices_S1024x192_o0_0_S1024x64 : S1024x192.Slices ![0, 0] S1024x64
  slices_S1024x192_o0_64_S1024x64 : S1024x192.Slices ![0, 64] S1024x64
  slices_S1024x192_o0_128_S1024x64 : S1024x192.Slices ![0, 128] S1024x64
  concatenates_S1024x2_S1024x64_S1024x64_S1024x130_d1 : Shape.Concatenates [S1024x2, S1024x64, S1024x64] S1024x130 1
  inb_S650x64_S650x64_0_0 : ∀ a, (![0, 0] : Fin 2 → Nat) a + S650x64.size a ≤ S650x64.size a
  h_S650x64 : 0 < S650x64.numel
  shapeCasts_S650x64_S650x64 : S650x64.ShapeCasts S650x64
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  shapeCasts_S1024x64_S1x1024x64 : S1024x64.ShapeCasts S1x1024x64
  dot_S1024x146_S146x64_S1024x64_1_0_0_1_n_n_wf : DotDims.WF S1024x146 S146x64 S1024x64 [1] [0] [0] [1] [] []
  dot_S1024x1024_S1024x130_S1024x130_1_0_0_1_n_n_wf : DotDims.WF S1024x1024 S1024x130 S1024x130 [1] [0] [0] [1] [] []
  dot_S1024x650_S650x192_S1024x192_1_0_0_1_n_n_wf : DotDims.WF S1024x650 S650x192 S1024x192 [1] [0] [0] [1] [] []
  dot_S1024x650_S650x64_S1024x64_1_0_0_1_n_n_wf : DotDims.WF S1024x650 S650x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x146.size a ≤ S16x1024x146.size a
  hwx0_0 : ∀ i : grid0.Coords, EltTy.bits .f32 = 32 ∨ (Rect.block (s := S16x1024x146) S1x1024x146.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x1x1024x1024.size a ≤ S2x16x1024x1024.size a
  hwx0_1 : ∀ i : grid0.Coords, EltTy.bits .f32 = 32 ∨ (Rect.block (s := S2x16x1024x1024) S2x1x1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S146x64.size a ≤ S146x64.size a
  hwx0_2 : ∀ i : grid0.Coords, EltTy.bits .f32 = 32 ∨ (Rect.block (s := S146x64) S146x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S650x192.size a ≤ S650x192.size a
  hwx0_4 : ∀ i : grid0.Coords, EltTy.bits .f32 = 32 ∨ (Rect.block (s := S650x192) S650x192.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x192.size a ≤ S1x192.size a
  hwx0_5 : ∀ i : grid0.Coords, EltTy.bits .f32 = 32 ∨ (Rect.block (s := S1x192) S1x192.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S650x64.size a ≤ S650x64.size a
  hwx0_6 : ∀ i : grid0.Coords, EltTy.bits .f32 = 32 ∨ (Rect.block (s := S650x64) S650x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x64.size a ≤ S1x64.size a
  hwx0_7 : ∀ i : grid0.Coords, EltTy.bits .f32 = 32 ∨ (Rect.block (s := S1x64) S1x64.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x1024x64.size a ≤ S16x1024x64.size a
  hwx0_8 : ∀ i : grid0.Coords, EltTy.bits .f32 = 32 ∨ (Rect.block (s := S16x1024x64) S1x1024x64.size (cc0_transform_8 i) (hinb0_8 i)).WholeWords (EltTy.packing .f32)

variable [Facts₀]

def dot_S1024x146_S146x64_S1024x64_1_0_0_1_n_n : DotDims S1024x146 S146x64 S1024x64 where
  lhsContracting := [1]
  rhsContracting := [0]
  lhsNonContracting := [0]
  rhsNonContracting := [1]
  lhsBatch := []
  rhsBatch := []
  wf := dot_S1024x146_S146x64_S1024x64_1_0_0_1_n_n_wf
def dot_S1024x1024_S1024x130_S1024x130_1_0_0_1_n_n : DotDims S1024x1024 S1024x130 S1024x130 where
  lhsContracting := [1]
  rhsContracting := [0]
  lhsNonContracting := [0]
  rhsNonContracting := [1]
  lhsBatch := []
  rhsBatch := []
  wf := dot_S1024x1024_S1024x130_S1024x130_1_0_0_1_n_n_wf
def dot_S1024x650_S650x192_S1024x192_1_0_0_1_n_n : DotDims S1024x650 S650x192 S1024x192 where
  lhsContracting := [1]
  rhsContracting := [0]
  lhsNonContracting := [0]
  rhsNonContracting := [1]
  lhsBatch := []
  rhsBatch := []
  wf := dot_S1024x650_S650x192_S1024x192_1_0_0_1_n_n_wf
def dot_S1024x650_S650x64_S1024x64_1_0_0_1_n_n : DotDims S1024x650 S650x64 S1024x64 where
  lhsContracting := [1]
  rhsContracting := [0]
  lhsNonContracting := [0]
  rhsNonContracting := [1]
  lhsBatch := []
  rhsBatch := []
  wf := dot_S1024x650_S650x64_S1024x64_1_0_0_1_n_n_wf

abbrev win0_0 : Pipeline.Window sig grid0 :=
  Pipeline.Window.ofSpec (Memref.whole main_v0) S1x1024x146.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S2x1x1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S146x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v17) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S650x192.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v18) S1x192.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16) S650x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v19) S1x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v20) S1x1024x64.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S16x1024x2 : Shape := ⟨3, ![16, 1024, 2]⟩
abbrev S16x1024x64 : Shape := ⟨3, ![16, 1024, 64]⟩
abbrev S16x1024x16 : Shape := ⟨3, ![16, 1024, 16]⟩
abbrev S2x16x1024x1024 : Shape := ⟨4, ![2, 16, 1024, 1024]⟩
abbrev S146x64 : Shape := ⟨2, ![146, 64]⟩
abbrev S64 : Shape := ⟨1, ![64]⟩
abbrev S780x192 : Shape := ⟨2, ![780, 192]⟩
abbrev S192 : Shape := ⟨1, ![192]⟩
abbrev S780x64 : Shape := ⟨2, ![780, 64]⟩
abbrev S16x1024x146 : Shape := ⟨3, ![16, 1024, 146]⟩
abbrev S1x1x64 : Shape := ⟨3, ![1, 1, 64]⟩
abbrev S_ : Shape := ⟨0, ![]⟩
abbrev S16x1024x130 : Shape := ⟨3, ![16, 1024, 130]⟩
abbrev S1024x1024 : Shape := ⟨2, ![1024, 1024]⟩
abbrev S1x1024x1024 : Shape := ⟨3, ![1, 1024, 1024]⟩
abbrev S16x1024x1024 : Shape := ⟨3, ![16, 1024, 1024]⟩
abbrev S1x16x1024x1024 : Shape := ⟨4, ![1, 16, 1024, 1024]⟩
abbrev S16x1024x780 : Shape := ⟨3, ![16, 1024, 780]⟩
abbrev S16x1024x192 : Shape := ⟨3, ![16, 1024, 192]⟩
abbrev S1x1x192 : Shape := ⟨3, ![1, 1, 192]⟩

abbrev nBuf : Space → Nat
  | .hbm => 120
  | .vmem => 0
  | .smem => 0
  | _ => 0

abbrev bufTy : (tb : Table) → Fin (tcTables nBuf tb) → BufTy
  | .hbm, ⟨0, _⟩ => ⟨S16x1024x2, .f32⟩
  | .hbm, ⟨1, _⟩ => ⟨S16x1024x64, .f32⟩
  | .hbm, ⟨2, _⟩ => ⟨S16x1024x64, .f32⟩
  | .hbm, ⟨3, _⟩ => ⟨S16x1024x16, .f32⟩
  | .hbm, ⟨4, _⟩ => ⟨S2x16x1024x1024, .f32⟩
  | .hbm, ⟨5, _⟩ => ⟨S146x64, .f32⟩
  | .hbm, ⟨6, _⟩ => ⟨S64, .f32⟩
  | .hbm, ⟨7, _⟩ => ⟨S780x192, .f32⟩
  | .hbm, ⟨8, _⟩ => ⟨S192, .f32⟩
  | .hbm, ⟨9, _⟩ => ⟨S780x64, .f32⟩
  | .hbm, ⟨10, _⟩ => ⟨S64, .f32⟩
  | .hbm, ⟨11, _⟩ => ⟨S16x1024x146, .f32⟩
  | .hbm, ⟨12, _⟩ => ⟨S16x1024x64, .f32⟩
  | .hbm, ⟨13, _⟩ => ⟨S1x1x64, .f32⟩
  | .hbm, ⟨14, _⟩ => ⟨S16x1024x64, .f32⟩
  | .hbm, ⟨15, _⟩ => ⟨S16x1024x64, .f32⟩
  | .hbm, ⟨16, _⟩ => ⟨S16x1024x64, .f32⟩
  | .hbm, ⟨17, _⟩ => ⟨S16x1024x64, .f32⟩
  | .hbm, ⟨18, _⟩ => ⟨S_, .f32⟩
  | .hbm, ⟨19, _⟩ => ⟨S16x1024x64, .f32⟩
  | .hbm, ⟨20, _⟩ => ⟨S16x1024x64, .f32⟩
  | .hbm, ⟨21, _⟩ => ⟨S_, .f32⟩
  | .hbm, ⟨22, _⟩ => ⟨S16x1024x64, .f32⟩
  | .hbm, ⟨23, _⟩ => ⟨S16x1024x64, .f32⟩
  | .hbm, ⟨24, _⟩ => ⟨S16x1024x64, .f32⟩
  | .hbm, ⟨25, _⟩ => ⟨S_, .f32⟩
  | .hbm, ⟨26, _⟩ => ⟨S16x1024x64, .f32⟩
  | .hbm, ⟨27, _⟩ => ⟨S16x1024x64, .f32⟩
  | .hbm, ⟨28, _⟩ => ⟨S16x1024x64, .f32⟩
  | .hbm, ⟨29, _⟩ => ⟨S16x1024x64, .f32⟩
  | .hbm, ⟨30, _⟩ => ⟨S16x1024x130, .f32⟩
  | .hbm, ⟨31, _⟩ => ⟨S1024x1024, .i32⟩
  | .hbm, ⟨32, _⟩ => ⟨S1024x1024, .i32⟩
  | .hbm, ⟨33, _⟩ => ⟨S_, .i32⟩
  | .hbm, ⟨34, _⟩ => ⟨S1024x1024, .i32⟩
  | .hbm, ⟨35, _⟩ => ⟨S1024x1024, .i32⟩
  | .hbm, ⟨36, _⟩ => ⟨S1024x1024, .i1⟩
  | .hbm, ⟨37, _⟩ => ⟨S1024x1024, .f32⟩
  | .hbm, ⟨38, _⟩ => ⟨S1x1024x1024, .f32⟩
  | .hbm, ⟨39, _⟩ => ⟨S16x1024x1024, .f32⟩
  | .hbm, ⟨40, _⟩ => ⟨S1x16x1024x1024, .f32⟩
  | .hbm, ⟨41, _⟩ => ⟨S16x1024x1024, .f32⟩
  | .hbm, ⟨42, _⟩ => ⟨S_, .f32⟩
  | .hbm, ⟨43, _⟩ => ⟨S16x1024x1024, .f32⟩
  | .hbm, ⟨44, _⟩ => ⟨S16x1024x1024, .f32⟩
  | .hbm, ⟨45, _⟩ => ⟨S16x1024x1024, .f32⟩
  | .hbm, ⟨46, _⟩ => ⟨S16x1024x1024, .f32⟩
  | .hbm, ⟨47, _⟩ => ⟨S16x1024x130, .f32⟩
  | .hbm, ⟨48, _⟩ => ⟨S16x1024x130, .f32⟩
  | .hbm, ⟨49, _⟩ => ⟨S16x1024x130, .f32⟩
  | .hbm, ⟨50, _⟩ => ⟨S1x16x1024x1024, .f32⟩
  | .hbm, ⟨51, _⟩ => ⟨S16x1024x1024, .f32⟩
  | .hbm, ⟨52, _⟩ => ⟨S_, .f32⟩
  | .hbm, ⟨53, _⟩ => ⟨S16x1024x1024, .f32⟩
  | .hbm, ⟨54, _⟩ => ⟨S16x1024x1024, .f32⟩
  | .hbm, ⟨55, _⟩ => ⟨S16x1024x1024, .f32⟩
  | .hbm, ⟨56, _⟩ => ⟨S16x1024x1024, .f32⟩
  | .hbm, ⟨57, _⟩ => ⟨S16x1024x130, .f32⟩
  | .hbm, ⟨58, _⟩ => ⟨S16x1024x130, .f32⟩
  | .hbm, ⟨59, _⟩ => ⟨S16x1024x130, .f32⟩
  | .hbm, ⟨60, _⟩ => ⟨S16x1024x780, .f32⟩
  | .hbm, ⟨61, _⟩ => ⟨S16x1024x192, .f32⟩
  | .hbm, ⟨62, _⟩ => ⟨S1x1x192, .f32⟩
  | .hbm, ⟨63, _⟩ => ⟨S16x1024x192, .f32⟩
  | .hbm, ⟨64, _⟩ => ⟨S16x1024x192, .f32⟩
  | .hbm, ⟨65, _⟩ => ⟨S16x1024x192, .f32⟩
  | .hbm, ⟨66, _⟩ => ⟨S16x1024x192, .f32⟩
  | .hbm, ⟨67, _⟩ => ⟨S_, .f32⟩
  | .hbm, ⟨68, _⟩ => ⟨S16x1024x192, .f32⟩
  | .hbm, ⟨69, _⟩ => ⟨S16x1024x192, .f32⟩
  | .hbm, ⟨70, _⟩ => ⟨S_, .f32⟩
  | .hbm, ⟨71, _⟩ => ⟨S16x1024x192, .f32⟩
  | .hbm, ⟨72, _⟩ => ⟨S16x1024x192, .f32⟩
  | .hbm, ⟨73, _⟩ => ⟨S16x1024x64, .f32⟩
  | .hbm, ⟨74, _⟩ => ⟨S16x1024x64, .f32⟩
  | .hbm, ⟨75, _⟩ => ⟨S16x1024x64, .f32⟩
  | .hbm, ⟨76, _⟩ => ⟨S16x1024x64, .f32⟩
  | .hbm, ⟨77, _⟩ => ⟨S16x1024x64, .f32⟩
  | .hbm, ⟨78, _⟩ => ⟨S16x1024x130, .f32⟩
  | .hbm, ⟨79, _⟩ => ⟨S1024x1024, .i32⟩
  | .hbm, ⟨80, _⟩ => ⟨S1024x1024, .i32⟩
  | .hbm, ⟨81, _⟩ => ⟨S_, .i32⟩
  | .hbm, ⟨82, _⟩ => ⟨S1024x1024, .i32⟩
  | .hbm, ⟨83, _⟩ => ⟨S1024x1024, .i32⟩
  | .hbm, ⟨84, _⟩ => ⟨S1024x1024, .i1⟩
  | .hbm, ⟨85, _⟩ => ⟨S1024x1024, .f32⟩
  | .hbm, ⟨86, _⟩ => ⟨S1x1024x1024, .f32⟩
  | .hbm, ⟨87, _⟩ => ⟨S16x1024x1024, .f32⟩
  | .hbm, ⟨88, _⟩ => ⟨S1x16x1024x1024, .f32⟩
  | .hbm, ⟨89, _⟩ => ⟨S16x1024x1024, .f32⟩
  | .hbm, ⟨90, _⟩ => ⟨S_, .f32⟩
  | .hbm, ⟨91, _⟩ => ⟨S16x1024x1024, .f32⟩
  | .hbm, ⟨92, _⟩ => ⟨S16x1024x1024, .f32⟩
  | .hbm, ⟨93, _⟩ => ⟨S16x1024x1024, .f32⟩
  | .hbm, ⟨94, _⟩ => ⟨S16x1024x1024, .f32⟩
  | .hbm, ⟨95, _⟩ => ⟨S16x1024x130, .f32⟩
  | .hbm, ⟨96, _⟩ => ⟨S16x1024x130, .f32⟩
  | .hbm, ⟨97, _⟩ => ⟨S16x1024x130, .f32⟩
  | .hbm, ⟨98, _⟩ => ⟨S1x16x1024x1024, .f32⟩
  | .hbm, ⟨99, _⟩ => ⟨S16x1024x1024, .f32⟩
  | .hbm, ⟨100, _⟩ => ⟨S_, .f32⟩
  | .hbm, ⟨101, _⟩ => ⟨S16x1024x1024, .f32⟩
  | .hbm, ⟨102, _⟩ => ⟨S16x1024x1024, .f32⟩
  | .hbm, ⟨103, _⟩ => ⟨S16x1024x1024, .f32⟩
  | .hbm, ⟨104, _⟩ => ⟨S16x1024x1024, .f32⟩
  | .hbm, ⟨105, _⟩ => ⟨S16x1024x130, .f32⟩
  | .hbm, ⟨106, _⟩ => ⟨S16x1024x130, .f32⟩
  | .hbm, ⟨107, _⟩ => ⟨S16x1024x130, .f32⟩
  | .hbm, ⟨108, _⟩ => ⟨S16x1024x780, .f32⟩
  | .hbm, ⟨109, _⟩ => ⟨S16x1024x64, .f32⟩
  | .hbm, ⟨110, _⟩ => ⟨S1x1x64, .f32⟩
  | .hbm, ⟨111, _⟩ => ⟨S16x1024x64, .f32⟩
  | .hbm, ⟨112, _⟩ => ⟨S16x1024x64, .f32⟩
  | .hbm, ⟨113, _⟩ => ⟨S16x1024x64, .f32⟩
  | .hbm, ⟨114, _⟩ => ⟨S16x1024x64, .f32⟩
  | .hbm, ⟨115, _⟩ => ⟨S_, .f32⟩
  | .hbm, ⟨116, _⟩ => ⟨S16x1024x64, .f32⟩
  | .hbm, ⟨117, _⟩ => ⟨S16x1024x64, .f32⟩
  | .hbm, ⟨118, _⟩ => ⟨S16x1024x64, .f32⟩
  | .hbm, ⟨119, _⟩ => ⟨S16x1024x64, .f32⟩
  | _, _ => ⟨S16x1024x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_2 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_3 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_4 : Ref sig .tc := ⟨.hbm, 67, rfl⟩
abbrev main_v50 : Ref sig .tc := ⟨.hbm, 68, rfl⟩
abbrev main_v51 : Ref sig .tc := ⟨.hbm, 69, rfl⟩
abbrev main_cst_5 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_c_6 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_cst_7 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_cst_8 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_cst_9 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩

abbrev nD : Nat := 1
abbrev τ : Topo := Topo.v7x

variable {F : FTy → Type} [FloatOps F]

class Facts₀ : Prop where
  concatenates_S16x1024x2_S16x1024x64_S16x1024x64_S16x1024x16_S16x1024x146_d2 : Shape.Concatenates [S16x1024x2, S16x1024x64, S16x1024x64, S16x1024x16] S16x1024x146 2
  bcast_S64_S1x1x64_2 : S64.BroadcastsInDim S1x1x64 (![2] : Fin 1 → Fin S1x1x64.rank)
  bcast_S1x1x64_S16x1024x64_0_1_2 : S1x1x64.BroadcastsInDim S16x1024x64 (![0, 1, 2] : Fin 3 → Fin S16x1024x64.rank)
  bcast_S_S16x1024x64 : S_.BroadcastsInDim S16x1024x64 (![] : Fin 0 → Fin S16x1024x64.rank)
  concatenates_S16x1024x2_S16x1024x64_S16x1024x64_S16x1024x130_d2 : Shape.Concatenates [S16x1024x2, S16x1024x64, S16x1024x64] S16x1024x130 2
  bcast_S_S1024x1024 : S_.BroadcastsInDim S1024x1024 (![] : Fin 0 → Fin S1024x1024.rank)
  bcast_S1024x1024_S1x1024x1024_1_2 : S1024x1024.BroadcastsInDim S1x1024x1024 (![1, 2] : Fin 2 → Fin S1x1024x1024.rank)
  bcast_S1x1024x1024_S16x1024x1024_0_1_2 : S1x1024x1024.BroadcastsInDim S16x1024x1024 (![0, 1, 2] : Fin 3 → Fin S16x1024x1024.rank)
  slices_S2x16x1024x1024_S1x16x1024x1024_0_0_0_0 : S2x16x1024x1024.Slices ![0, 0, 0, 0] S1x16x1024x1024
  shapeCasts_S1x16x1024x1024_S16x1024x1024 : S1x16x1024x1024.ShapeCasts S16x1024x1024
  bcast_S_S16x1024x1024 : S_.BroadcastsInDim S16x1024x1024 (![] : Fin 0 → Fin S16x1024x1024.rank)
  slices_S2x16x1024x1024_S1x16x1024x1024_1_0_0_0 : S2x16x1024x1024.Slices ![1, 0, 0, 0] S1x16x1024x1024
  concatenates_S16x1024x130_S16x1024x130_S16x1024x130_S16x1024x130_S16x1024x130_S16x1024x130_S16x1024x780_d2 : Shape.Concatenates [S16x1024x130, S16x1024x130, S16x1024x130, S16x1024x130, S16x1024x130, S16x1024x130] S16x1024x780 2
  bcast_S192_S1x1x192_2 : S192.BroadcastsInDim S1x1x192 (![2] : Fin 1 → Fin S1x1x192.rank)
  bcast_S1x1x192_S16x1024x192_0_1_2 : S1x1x192.BroadcastsInDim S16x1024x192 (![0, 1, 2] : Fin 3 → Fin S16x1024x192.rank)
  bcast_S_S16x1024x192 : S_.BroadcastsInDim S16x1024x192 (![] : Fin 0 → Fin S16x1024x192.rank)
  slices_S16x1024x192_S16x1024x64_0_0_0 : S16x1024x192.Slices ![0, 0, 0] S16x1024x64
  slices_S16x1024x192_S16x1024x64_0_0_64 : S16x1024x192.Slices ![0, 0, 64] S16x1024x64
  slices_S16x1024x192_S16x1024x64_0_0_128 : S16x1024x192.Slices ![0, 0, 128] S16x1024x64
  dot_S16x1024x146_S146x64_S16x1024x64_2_0_01_1_n_n_wf : DotDims.WF S16x1024x146 S146x64 S16x1024x64 [2] [0] [0, 1] [1] [] []
  dot_S16x1024x1024_S16x1024x1024_S16x1024x1024_2_1_1_2_0_0_wf : DotDims.WF S16x1024x1024 S16x1024x1024 S16x1024x1024 [2] [1] [1] [2] [0] [0]
  dot_S16x1024x1024_S16x1024x130_S16x1024x130_2_1_1_2_0_0_wf : DotDims.WF S16x1024x1024 S16x1024x130 S16x1024x130 [2] [1] [1] [2] [0] [0]
  dot_S16x1024x780_S780x192_S16x1024x192_2_0_01_1_n_n_wf : DotDims.WF S16x1024x780 S780x192 S16x1024x192 [2] [0] [0, 1] [1] [] []
  dot_S16x1024x780_S780x64_S16x1024x64_2_0_01_1_n_n_wf : DotDims.WF S16x1024x780 S780x64 S16x1024x64 [2] [0] [0, 1] [1] [] []

variable [Facts₀]

def dot_S16x1024x146_S146x64_S16x1024x64_2_0_01_1_n_n : DotDims S16x1024x146 S146x64 S16x1024x64 where
  lhsContracting := [2]
  rhsContracting := [0]
  lhsNonContracting := [0, 1]
  rhsNonContracting := [1]
  lhsBatch := []
  rhsBatch := []
  wf := dot_S16x1024x146_S146x64_S16x1024x64_2_0_01_1_n_n_wf
def dot_S16x1024x1024_S16x1024x1024_S16x1024x1024_2_1_1_2_0_0 : DotDims S16x1024x1024 S16x1024x1024 S16x1024x1024 where
  lhsContracting := [2]
  rhsContracting := [1]
  lhsNonContracting := [1]
  rhsNonContracting := [2]
  lhsBatch := [0]
  rhsBatch := [0]
  wf := dot_S16x1024x1024_S16x1024x1024_S16x1024x1024_2_1_1_2_0_0_wf
def dot_S16x1024x1024_S16x1024x130_S16x1024x130_2_1_1_2_0_0 : DotDims S16x1024x1024 S16x1024x130 S16x1024x130 where
  lhsContracting := [2]
  rhsContracting := [1]
  lhsNonContracting := [1]
  rhsNonContracting := [2]
  lhsBatch := [0]
  rhsBatch := [0]
  wf := dot_S16x1024x1024_S16x1024x130_S16x1024x130_2_1_1_2_0_0_wf
def dot_S16x1024x780_S780x192_S16x1024x192_2_0_01_1_n_n : DotDims S16x1024x780 S780x192 S16x1024x192 where
  lhsContracting := [2]
  rhsContracting := [0]
  lhsNonContracting := [0, 1]
  rhsNonContracting := [1]
  lhsBatch := []
  rhsBatch := []
  wf := dot_S16x1024x780_S780x192_S16x1024x192_2_0_01_1_n_n_wf
def dot_S16x1024x780_S780x64_S16x1024x64_2_0_01_1_n_n : DotDims S16x1024x780 S780x64 S16x1024x64 where
  lhsContracting := [2]
  rhsContracting := [0]
  lhsNonContracting := [0, 1]
  rhsNonContracting := [1]
  lhsBatch := []
  rhsBatch := []
  wf := dot_S16x1024x780_S780x64_S16x1024x64_2_0_01_1_n_n_wf

class Facts : Prop extends Facts₀ where

variable [Facts]
-- ==== Proof.FrameK.lean ====
/- The frame of `Cert.Kernel`'s program, first half: what the one region finds in the TensorCore's arrays after the
   host operations that precede it, each window's block at a grid point, what the kernel body leaves in the output
   window's staging buffer as a function of the input blocks, and the proof data of the pipeline built from these. -/
import proofs.«150459_j80977313399318_2_alg».proof.Proof.Gen.Kernel.Launch
import proofs.«150459_j80977313399318_2_alg».proof.Proof.Gen.Kernel.Skeleton
import proofs.«150459_j80977313399318_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to its region -/

/-- Core `c`'s TensorCore buffers when the region is entered: the launch contents `m` rewritten, in order, by the
    twenty host operations that precede the region (each overwrites its result buffer and nothing else). -/
abbrev V (c : Dev nD) (b : Ref sig .tc) : Buf (Elt F) ((c : Thread nD τ).loc b) := StableHlo.after hostOps0 (fun b => m (c, b)) b

/-- No host operation allocates: each writes a buffer the program already has. -/
theorem hostOps0_fresh : (hostOps0 : List (HloOp τ sig (Elt F))).Forall fun op => op.fresh = ∅ := by
  simp only [List.Forall]; repeat' constructor

/-- The program up to the region: holding the unscoped buffers at the launch contents, it reduces to the region
    entered with them at `V` — the host operations run one after the other, each a step over the buffers it names. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg10`: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-! ## The windows' blocks -/

/-- Window `w`'s block at grid point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The rectangles the body reads and writes -/

/-- Window 0's staging buffer, whole. -/
abbrev r0_0 : Rect S1x1024x146 := Rect.unit (s := S1x1024x146) ![0, 0, 0] S1x1024x146.size inb_S1x1024x146_S1x1024x146_0_0_0
/-- Window 1's staging buffer: its first half along the leading axis, -/
abbrev r0_1a : Rect S2x1x1024x1024 := Rect.unit (s := S2x1x1024x1024) ![0, 0, 0, 0] S1x1x1024x1024.size inb_S2x1x1024x1024_S1x1x1024x1024_0_0_0_0
/-- and its second half. -/
abbrev r0_1b : Rect S2x1x1024x1024 := Rect.unit (s := S2x1x1024x1024) ![1, 0, 0, 0] S1x1x1024x1024.size inb_S2x1x1024x1024_S1x1x1024x1024_1_0_0_0
/-- Windows 2 to 8's staging buffers, each whole. -/
abbrev r0_2 : Rect S146x64 := Rect.unit (s := S146x64) ![0, 0] S146x64.size inb_S146x64_S146x64_0_0
abbrev r0_3 : Rect S1x64 := Rect.unit (s := S1x64) ![0, 0] S1x64.size inb_S1x64_S1x64_0_0
abbrev r0_4 : Rect S650x192 := Rect.unit (s := S650x192) ![0, 0] S650x192.size inb_S650x192_S650x192_0_0
abbrev r0_5 : Rect S1x192 := Rect.unit (s := S1x192) ![0, 0] S1x192.size inb_S1x192_S1x192_0_0
abbrev r0_6 : Rect S650x64 := Rect.unit (s := S650x64) ![0, 0] S650x64.size inb_S650x64_S650x64_0_0
abbrev r0_7 : Rect S1x64 := Rect.unit (s := S1x64) ![0, 0] S1x64.size inb_S1x64_S1x64_0_0
abbrev r0_8 : Rect S1x1024x64 := Rect.unit (s := S1x1024x64) ![0, 0, 0] S1x1024x64.size inb_S1x1024x64_S1x1024x64_0_0_0

/-! ## What the body leaves in the output window's buffer -/

/-- Window 8's staging buffer after the body, from the eight input windows' blocks `x0 … x7`: the body's one store,
    of the whole buffer, whose payload is the gated update `z * h + (1 - z) * tanh(…)` composed of the payloads of
    the body's two parts over what its nine loads read. -/
def out0_8 (x0 : Vec F S1x1024x146 .f32) (x1 : Vec F S2x1x1024x1024 .f32) (x2 : Vec F S146x64 .f32) (x3 : Vec F S1x64 .f32)
    (x4 : Vec F S650x192 .f32) (x5 : Vec F S1x192 .f32) (x6 : Vec F S650x64 .f32) (x7 : Vec F S1x64 .f32) : Vec F S1x1024x64 .f32 :=
  View.canon [⟨r0_8, k0_pay1 (k0_pay7 (View.ld x0 r0_0) (View.ld x2 r0_2) (View.ld x3 r0_3)) (k0_pay16 (k0_pay6 (View.ld x0 r0_0)) (k0_pay11 (View.ld x0 r0_0) (View.ld x1 r0_1a)) (k0_pay12 (View.ld x0 r0_0) (View.ld x1 r0_1a)) (k0_pay13 (View.ld x0 r0_0) (View.ld x1 r0_1b)) (k0_pay14 (View.ld x0 r0_0) (View.ld x1 r0_1b)) (Scalar.ofBits .f32 0x40000000#32) (View.ld x4 r0_4) (View.ld x5 r0_5)) (k0_pay17 (k0_pay3 (View.ld x0 r0_0)) (k0_pay4 (View.ld x0 r0_0)) (k0_pay5 (View.ld x0 r0_0)) (k0_pay6 (View.ld x0 r0_0)) (k0_pay8 (View.ld x1 r0_1a)) (k0_pay9 (View.ld x1 r0_1b)) (k0_pay11 (View.ld x0 r0_0) (View.ld x1 r0_1a)) (k0_pay12 (View.ld x0 r0_0) (View.ld x1 r0_1a)) (k0_pay13 (View.ld x0 r0_0) (View.ld x1 r0_1b)) (k0_pay14 (View.ld x0 r0_0) (View.ld x1 r0_1b)) (Scalar.ofBits .f32 0x40000000#32) (View.ld x4 r0_4) (View.ld x5 r0_5) (View.ld x6 r0_6) (View.ld x7 r0_7))⟩]

/-! ## The pipeline's proof data -/

/-- The proof data of the one pipeline on core `c`: the arrays as the region finds them (`V`); after the body at
    point `t` each input window's buffer still at its block and the output window's at `out0_8` of the input blocks;
    as invariant the buffers and the generator register the body never touches; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => out0_8 (iblk m c 0 t) (iblk m c 1 t) (iblk m c 2 t) (iblk m c 3 t) (iblk m c 4 t) (iblk m c 5 t) (iblk m c 6 t) (iblk m c 7 t)
  Φ _ := Pipeline.ΦA spec0 c
  q _ := fullShare
  owed _ := 0

/-- The proof data's arrays are the region-entry contents (the definition projected; `V`, a fold over the host
    operations, is never unfolded to see it). -/
theorem A_eq (c : Dev nD) (w : Fin cfg0.W) : (dats m 0 c).A w = V m c (Pipeline.arrRef spec0 w) := by
  dsimp only [dats]

/-- What the body leaves, window by window (the definition's case split reduced). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = out0_8 (iblk m c 0 t) (iblk m c 1 t) (iblk m c 2 t) (iblk m c 3 t) (iblk m c 4 t) (iblk m c 5 t) (iblk m c 6 t) (iblk m c 7 t) := by dsimp only [dats]

end Cert.Kernel.Hand

end
-- ==== Proof.FrameKRun.lean ====
/- The frame of `Cert.Kernel`'s program, second half: each input window's staging buffer holds its block whenever
   the body is called, the kernel body's triple, the body obligation at every grid point, the run of the whole program,
   and the frame claim read off the run's final memory. -/
import proofs.«150459_j80977313399318_2_alg».proof.Proof.FrameK

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## An input window's buffer when the body is called

An input window's current staging buffer holds its block at every point, fetched there or not, for any proof data
whose array is `V`'s (`hA`) and whose body leaves the block in place (`hafter`): at a point that does not fetch
the window (every point but the first, for the six windows whose block never moves) the block index has not moved
since the point before, and the body left the buffer as it found it. No window is cut or idle. -/

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- For any proof data whose arrays are the region-entry contents (`hA`), a final state with every array of the
    pipeline at what the proof data compute and every other unscoped buffer as the region found it has, on each core,
    the eleven argument arrays as launched: arguments 4 and 5 are the arrays of input windows 1 and 2, which the pipeline
    only reads; the other nine are staged by no window; and no host operation writes any of the eleven (`V_main_argK`). -/
theorem kept_args_of (dats : (p : Fin 1) → (c : Dev nD) → Dat τ (Elt F) Unit ℕ (UR sig nD τ) ℕ (cfgs p) c)
    (hA : ∀ c w, (dats 0 c).A w = V m c (Pipeline.arrRef spec0 w))
    (r : PUnit × MemSt nD τ sig (Elt F)) (h : Pipeline.FramePost cfgs dats 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).1 1).trans (((dats 0 c).arrAt_in 1 rfl _).trans ((hA c 1).trans (V_main_arg4 m c))),
      ((h c).1 2).trans (((dats 0 c).arrAt_in 2 rfl _).trans ((hA c 2).trans (V_main_arg5 m c))),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c)⟩

/-- A run to such final states is a run to final states with the argument arrays as launched: the frame claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => kept_args_of m dats hA r h c) h

/-- The same of this module's proof data: the argument arrays at the end of the frame run, core by core. -/
theorem kept_args (r : PUnit × MemSt nD τ sig (Elt F)) (h : Pipeline.FramePost cfgs (dats m) 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  kept_args_of m (dats m) (A_eq m) r h c

/-- The result array at the end of the frame run: what the library computes from the proof data after the last
    write-back of the output window. -/
theorem post8 (r : PUnit × MemSt nD τ sig (Elt F)) (h : Pipeline.FramePost cfgs (dats m) 0 (V m) r) (c : Dev nD) :
    r.2.mem ((c.tc : Thread nD τ).loc main_v20) = (dats m 0 c).arrAt 8 cfg0.N := (h c).1 8

/-! ## The body's one store covers the output buffer -/

/-- The store's rectangle is the whole buffer (checked by evaluation), so every index lies under it. -/
theorem cover0_8 (p0 : Vec F S1x1024x64 .f32) (y : S1x1024x64.Idx) :
    ∃ pc ∈ ([⟨r0_8, p0⟩] : List (View.Piece (Elt F) S1x1024x64 .f32)), y ∈ pc.1.set :=
  View.cover_of_tiled [⟨r0_8, p0⟩] S1x1024x64.size (by rfl) y

/-! ## The body's triple -/

set_option maxHeartbeats 1000000 in
/-- The kernel body on whole staging memrefs, the eight inputs' at read contents `x0 … x7` and the output's at
    anything, runs — at any grid coordinate, which it never reads — to the continuation holding the inputs' as they
    were and the output's at `out0_8` of the inputs': its two parts load the inputs (window 1 through its two halves)
    and return pure values; the body then loads the output buffer (a value it does not use) and stores the whole of it. -/
theorem sound_kernel (c : Dev nD) (E : Set ℕ) (i : grid0.Coords) (arg0 : Memref sig .tc .vmem S1x1024x146 .f32) (harg0 : arg0.IsWhole) (arg1 : Memref sig .tc .vmem S2x1x1024x1024 .f32) (harg1 : arg1.IsWhole) (arg2 : Memref sig .tc .vmem S146x64 .f32) (harg2 : arg2.IsWhole) (arg3 : Memref sig .tc .vmem S1x64 .f32) (harg3 : arg3.IsWhole) (arg4 : Memref sig .tc .vmem S650x192 .f32) (harg4 : arg4.IsWhole) (arg5 : Memref sig .tc .vmem S1x192 .f32) (harg5 : arg5.IsWhole) (arg6 : Memref sig .tc .vmem S650x64 .f32) (harg6 : arg6.IsWhole) (arg7 : Memref sig .tc .vmem S1x64 .f32) (harg7 : arg7.IsWhole) (arg8 : Memref sig .tc .vmem S1x1024x64 .f32) (harg8 : arg8.IsWhole)
    (x0 : Vec F S1x1024x146 .f32) (x1 : Vec F S2x1x1024x1024 .f32) (x2 : Vec F S146x64 .f32) (x3 : Vec F S1x64 .f32) (x4 : Vec F S650x192 .f32) (x5 : Vec F S1x192 .f32) (x6 : Vec F S650x64 .f32) (x7 : Vec F S1x64 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare (out0_8 x0 x1 x2 x3 x4 x5 x6 x7)) -∗ K ⟨⟩))
      ⊢ wp frame (wpE (defs₀ (F := F)) Variants.none c none) E (cc0__agcrn_kernel i arg0 harg0 arg1 harg1 arg2 harg2 arg3 harg3 arg4 harg4 arg5 harg5 arg6 harg6 arg7 harg7 arg8 harg8) K := by
  simp only [cc0__agcrn_kernel_eq_skeleton]; unfold cc0__agcrn_kernel_skel
  simp only [k0_part1_eq_skeleton]; unfold k0_part1_skel
  simp only [k0_part2_eq_skeleton]; unfold k0_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  try dsimp only
  exact View.read_writes_eq_canon _ _ _ (cover0_8 _)

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body obligation, at a generic point -/

/-- What the body is called with at point `t`: the invariant, the core's debts, and each window's current staging
    buffer at what the pipeline left in it, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- and what it returns: the same, each buffer at what the proof data say the body leaves. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

/-- The body at any point: the inputs' memrefs hold their blocks, so the body's triple applies; the invariant and the
    core's debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel c Set.univ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The pipeline library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- At the compiled mesh, for any values, from any memory with zero counters: every weakly fair execution of the
    program on the TensorCores terminates, faulting nowhere, and every final state has every array of the pipeline
    at what the library computes from the proof data and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- info: 'Cert.Kernel.Hand.run_main' depends on axioms: [propext, Classical.choice, Quot.sound] -/
#guard_msgs in #print axioms run_main

/-- The frame claim at any float instance: the program runs to the end, faults nowhere, and leaves its eleven
    argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

end Cert.Kernel.Hand

end
-- ==== Proof.FrameKI.lean ====
/- The frame of `Cert.KernelIdeal`'s program, first half: what the one region finds in the TensorCore's arrays after the
   host operations that precede it, each window's block at a grid point, what the kernel body leaves in the output
   window's staging buffer as a function of the input blocks, and the proof data of the pipeline built from these. -/
import proofs.«150459_j80977313399318_2_alg».proof.Proof.Gen.KernelIdeal.Launch
import proofs.«150459_j80977313399318_2_alg».proof.Proof.Gen.KernelIdeal.Skeleton
import proofs.«150459_j80977313399318_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to its region -/

/-- Core `c`'s TensorCore buffers when the region is entered: the launch contents `m` rewritten, in order, by the
    twenty host operations that precede the region (each overwrites its result buffer and nothing else). -/
abbrev V (c : Dev nD) (b : Ref sig .tc) : Buf (Elt F) ((c : Thread nD τ).loc b) := StableHlo.after hostOps0 (fun b => m (c, b)) b

/-- No host operation allocates: each writes a buffer the program already has. -/
theorem hostOps0_fresh : (hostOps0 : List (HloOp τ sig (Elt F))).Forall fun op => op.fresh = ∅ := by
  simp only [List.Forall]; repeat' constructor

/-- The program up to the region: holding the unscoped buffers at the launch contents, it reduces to the region
    entered with them at `V` — the host operations run one after the other, each a step over the buffers it names. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg10`: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-! ## The windows' blocks -/

/-- Window `w`'s block at grid point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The rectangles the body reads and writes -/

/-- Window 0's staging buffer, whole. -/
abbrev r0_0 : Rect S1x1024x146 := Rect.unit (s := S1x1024x146) ![0, 0, 0] S1x1024x146.size inb_S1x1024x146_S1x1024x146_0_0_0
/-- Window 1's staging buffer: its first half along the leading axis, -/
abbrev r0_1a : Rect S2x1x1024x1024 := Rect.unit (s := S2x1x1024x1024) ![0, 0, 0, 0] S1x1x1024x1024.size inb_S2x1x1024x1024_S1x1x1024x1024_0_0_0_0
/-- and its second half. -/
abbrev r0_1b : Rect S2x1x1024x1024 := Rect.unit (s := S2x1x1024x1024) ![1, 0, 0, 0] S1x1x1024x1024.size inb_S2x1x1024x1024_S1x1x1024x1024_1_0_0_0
/-- Windows 2 to 8's staging buffers, each whole. -/
abbrev r0_2 : Rect S146x64 := Rect.unit (s := S146x64) ![0, 0] S146x64.size inb_S146x64_S146x64_0_0
abbrev r0_3 : Rect S1x64 := Rect.unit (s := S1x64) ![0, 0] S1x64.size inb_S1x64_S1x64_0_0
abbrev r0_4 : Rect S650x192 := Rect.unit (s := S650x192) ![0, 0] S650x192.size inb_S650x192_S650x192_0_0
abbrev r0_5 : Rect S1x192 := Rect.unit (s := S1x192) ![0, 0] S1x192.size inb_S1x192_S1x192_0_0
abbrev r0_6 : Rect S650x64 := Rect.unit (s := S650x64) ![0, 0] S650x64.size inb_S650x64_S650x64_0_0
abbrev r0_7 : Rect S1x64 := Rect.unit (s := S1x64) ![0, 0] S1x64.size inb_S1x64_S1x64_0_0
abbrev r0_8 : Rect S1x1024x64 := Rect.unit (s := S1x1024x64) ![0, 0, 0] S1x1024x64.size inb_S1x1024x64_S1x1024x64_0_0_0

/-! ## What the body leaves in the output window's buffer -/

/-- Window 8's staging buffer after the body, from the eight input windows' blocks `x0 … x7`: the body's one store,
    of the whole buffer, whose payload is the gated update `z * h + (1 - z) * tanh(…)` composed of the payloads of
    the body's two parts over what its nine loads read. -/
def out0_8 (x0 : Vec F S1x1024x146 .f32) (x1 : Vec F S2x1x1024x1024 .f32) (x2 : Vec F S146x64 .f32) (x3 : Vec F S1x64 .f32)
    (x4 : Vec F S650x192 .f32) (x5 : Vec F S1x192 .f32) (x6 : Vec F S650x64 .f32) (x7 : Vec F S1x64 .f32) : Vec F S1x1024x64 .f32 :=
  View.canon [⟨r0_8, k0_pay1 (k0_pay7 (View.ld x0 r0_0) (View.ld x2 r0_2) (View.ld x3 r0_3)) (k0_pay16 (k0_pay6 (View.ld x0 r0_0)) (k0_pay11 (View.ld x0 r0_0) (View.ld x1 r0_1a)) (k0_pay12 (View.ld x0 r0_0) (View.ld x1 r0_1a)) (k0_pay13 (View.ld x0 r0_0) (View.ld x1 r0_1b)) (k0_pay14 (View.ld x0 r0_0) (View.ld x1 r0_1b)) (Scalar.ofBits .f32 0x40000000#32) (View.ld x4 r0_4) (View.ld x5 r0_5)) (k0_pay17 (k0_pay3 (View.ld x0 r0_0)) (k0_pay4 (View.ld x0 r0_0)) (k0_pay5 (View.ld x0 r0_0)) (k0_pay6 (View.ld x0 r0_0)) (k0_pay8 (View.ld x1 r0_1a)) (k0_pay9 (View.ld x1 r0_1b)) (k0_pay11 (View.ld x0 r0_0) (View.ld x1 r0_1a)) (k0_pay12 (View.ld x0 r0_0) (View.ld x1 r0_1a)) (k0_pay13 (View.ld x0 r0_0) (View.ld x1 r0_1b)) (k0_pay14 (View.ld x0 r0_0) (View.ld x1 r0_1b)) (Scalar.ofBits .f32 0x40000000#32) (View.ld x4 r0_4) (View.ld x5 r0_5) (View.ld x6 r0_6) (View.ld x7 r0_7))⟩]

/-! ## The pipeline's proof data -/

/-- The proof data of the one pipeline on core `c`: the arrays as the region finds them (`V`); after the body at
    point `t` each input window's buffer still at its block and the output window's at `out0_8` of the input blocks;
    as invariant the buffers and the generator register the body never touches; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => out0_8 (iblk m c 0 t) (iblk m c 1 t) (iblk m c 2 t) (iblk m c 3 t) (iblk m c 4 t) (iblk m c 5 t) (iblk m c 6 t) (iblk m c 7 t)
  Φ _ := Pipeline.ΦA spec0 c
  q _ := fullShare
  owed _ := 0

/-- The proof data's arrays are the region-entry contents (the definition projected; `V`, a fold over the host
    operations, is never unfolded to see it). -/
theorem A_eq (c : Dev nD) (w : Fin cfg0.W) : (dats m 0 c).A w = V m c (Pipeline.arrRef spec0 w) := by
  dsimp only [dats]

/-- What the body leaves, window by window (the definition's case split reduced). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = out0_8 (iblk m c 0 t) (iblk m c 1 t) (iblk m c 2 t) (iblk m c 3 t) (iblk m c 4 t) (iblk m c 5 t) (iblk m c 6 t) (iblk m c 7 t) := by dsimp only [dats]

end Cert.KernelIdeal.Hand

end
-- ==== Proof.FrameKIRun.lean ====
/- The frame of `Cert.KernelIdeal`'s program, second half: each input window's staging buffer holds its block whenever
   the body is called, the kernel body's triple, the body obligation at every grid point, the run of the whole program,
   and the frame claim read off the run's final memory. -/
import proofs.«150459_j80977313399318_2_alg».proof.Proof.FrameKI

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## An input window's buffer when the body is called

An input window's current staging buffer holds its block at every point, fetched there or not, for any proof data
whose array is `V`'s (`hA`) and whose body leaves the block in place (`hafter`): at a point that does not fetch
the window (every point but the first, for the six windows whose block never moves) the block index has not moved
since the point before, and the body left the buffer as it found it. No window is cut or idle. -/

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- For any proof data whose arrays are the region-entry contents (`hA`), a final state with every array of the
    pipeline at what the proof data compute and every other unscoped buffer as the region found it has, on each core,
    the eleven argument arrays as launched: arguments 4 and 5 are the arrays of input windows 1 and 2, which the pipeline
    only reads; the other nine are staged by no window; and no host operation writes any of the eleven (`V_main_argK`). -/
theorem kept_args_of (dats : (p : Fin 1) → (c : Dev nD) → Dat τ (Elt F) Unit ℕ (UR sig nD τ) ℕ (cfgs p) c)
    (hA : ∀ c w, (dats 0 c).A w = V m c (Pipeline.arrRef spec0 w))
    (r : PUnit × MemSt nD τ sig (Elt F)) (h : Pipeline.FramePost cfgs dats 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).1 1).trans (((dats 0 c).arrAt_in 1 rfl _).trans ((hA c 1).trans (V_main_arg4 m c))),
      ((h c).1 2).trans (((dats 0 c).arrAt_in 2 rfl _).trans ((hA c 2).trans (V_main_arg5 m c))),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c)⟩

/-- A run to such final states is a run to final states with the argument arrays as launched: the frame claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => kept_args_of m dats hA r h c) h

/-- The same of this module's proof data: the argument arrays at the end of the frame run, core by core. -/
theorem kept_args (r : PUnit × MemSt nD τ sig (Elt F)) (h : Pipeline.FramePost cfgs (dats m) 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  kept_args_of m (dats m) (A_eq m) r h c

/-- The result array at the end of the frame run: what the library computes from the proof data after the last
    write-back of the output window. -/
theorem post8 (r : PUnit × MemSt nD τ sig (Elt F)) (h : Pipeline.FramePost cfgs (dats m) 0 (V m) r) (c : Dev nD) :
    r.2.mem ((c.tc : Thread nD τ).loc main_v20) = (dats m 0 c).arrAt 8 cfg0.N := (h c).1 8

/-! ## The body's one store covers the output buffer -/

/-- The store's rectangle is the whole buffer (checked by evaluation), so every index lies under it. -/
theorem cover0_8 (p0 : Vec F S1x1024x64 .f32) (y : S1x1024x64.Idx) :
    ∃ pc ∈ ([⟨r0_8, p0⟩] : List (View.Piece (Elt F) S1x1024x64 .f32)), y ∈ pc.1.set :=
  View.cover_of_tiled [⟨r0_8, p0⟩] S1x1024x64.size (by rfl) y

/-! ## The body's triple -/

set_option maxHeartbeats 1000000 in
/-- The kernel body on whole staging memrefs, the eight inputs' at read contents `x0 … x7` and the output's at
    anything, runs — at any grid coordinate, which it never reads — to the continuation holding the inputs' as they
    were and the output's at `out0_8` of the inputs': its two parts load the inputs (window 1 through its two halves)
    and return pure values; the body then loads the output buffer (a value it does not use) and stores the whole of it. -/
theorem sound_kernel (c : Dev nD) (E : Set ℕ) (i : grid0.Coords) (arg0 : Memref sig .tc .vmem S1x1024x146 .f32) (harg0 : arg0.IsWhole) (arg1 : Memref sig .tc .vmem S2x1x1024x1024 .f32) (harg1 : arg1.IsWhole) (arg2 : Memref sig .tc .vmem S146x64 .f32) (harg2 : arg2.IsWhole) (arg3 : Memref sig .tc .vmem S1x64 .f32) (harg3 : arg3.IsWhole) (arg4 : Memref sig .tc .vmem S650x192 .f32) (harg4 : arg4.IsWhole) (arg5 : Memref sig .tc .vmem S1x192 .f32) (harg5 : arg5.IsWhole) (arg6 : Memref sig .tc .vmem S650x64 .f32) (harg6 : arg6.IsWhole) (arg7 : Memref sig .tc .vmem S1x64 .f32) (harg7 : arg7.IsWhole) (arg8 : Memref sig .tc .vmem S1x1024x64 .f32) (harg8 : arg8.IsWhole)
    (x0 : Vec F S1x1024x146 .f32) (x1 : Vec F S2x1x1024x1024 .f32) (x2 : Vec F S146x64 .f32) (x3 : Vec F S1x64 .f32) (x4 : Vec F S650x192 .f32) (x5 : Vec F S1x192 .f32) (x6 : Vec F S650x64 .f32) (x7 : Vec F S1x64 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare (out0_8 x0 x1 x2 x3 x4 x5 x6 x7)) -∗ K ⟨⟩))
      ⊢ wp frame (wpE (defs₀ (F := F)) Variants.none c none) E (cc0__agcrn_kernel i arg0 harg0 arg1 harg1 arg2 harg2 arg3 harg3 arg4 harg4 arg5 harg5 arg6 harg6 arg7 harg7 arg8 harg8) K := by
  simp only [cc0__agcrn_kernel_eq_skeleton]; unfold cc0__agcrn_kernel_skel
  simp only [k0_part1_eq_skeleton]; unfold k0_part1_skel
  simp only [k0_part2_eq_skeleton]; unfold k0_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  try dsimp only
  exact View.read_writes_eq_canon _ _ _ (cover0_8 _)

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body obligation, at a generic point -/

/-- What the body is called with at point `t`: the invariant, the core's debts, and each window's current staging
    buffer at what the pipeline left in it, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- and what it returns: the same, each buffer at what the proof data say the body leaves. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

/-- The body at any point: the inputs' memrefs hold their blocks, so the body's triple applies; the invariant and the
    core's debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel c Set.univ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The pipeline library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- At the compiled mesh, for any values, from any memory with zero counters: every weakly fair execution of the
    program on the TensorCores terminates, faulting nowhere, and every final state has every array of the pipeline
    at what the library computes from the proof data and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- info: 'Cert.KernelIdeal.Hand.run_main' depends on axioms: [propext, Classical.choice, Quot.sound] -/
#guard_msgs in #print axioms run_main

/-- The frame claim at any float instance: the program runs to the end, faults nowhere, and leaves its eleven
    argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

end Cert.KernelIdeal.Hand

end
-- ==== Proof.KernelBlkReads.lean ====
/- The eight input windows' blocks, and the output window's blocks, as index arithmetic on the arrays the region
   finds: at grid point `t` the batched windows read (or write) batch `t` of their arrays and the six weight
   windows read their arrays whole; every index of the result array lies in the block of the point named by its
   leading coordinate. -/
import proofs.«150459_j80977313399318_2_alg».proof.Proof.FrameKI
import Idealize.ShloMosaic.Lib.ValueIdx
import Idealize.ShloMosaic.Lib.Pipeline.Value

set_option maxRecDepth 16384

noncomputable section

namespace Cert.KernelIdeal.KValue

open Cert.KernelIdeal Cert.KernelIdeal.Gen Cert.KernelIdeal.Hand Idealize.ShloMosaic Idealize.ShloMosaic.TcCoe Idealize.ShloMosaic.ValueIdx Idealize.SL.Sem

variable (m : (ℓ : Loc nD τ sig) → Buf (Elt Ideal) ℓ)

/-- The batch a grid point works on: the point's own number (the grid is the sixteen batches in order). -/
def batchOf (t : Fin cfg0.N) : Fin 16 := ⟨t.val, by have h := t.isLt; have hN : cfg0.N = 16 := N_0; omega⟩

/-- The windows' block indices at every grid point, decided over the sixteen points: windows 0 and 8 step along
    their leading axis with the point, window 1 along its second axis, and windows 2 to 7 never move. -/
theorem idx_facts : ∀ t : Fin cfg0.N,
    (win0_0.index t (0 : Fin 3) = t.val ∧ win0_0.index t (1 : Fin 3) = 0 ∧ win0_0.index t (2 : Fin 3) = 0)
    ∧ (win0_1.index t (0 : Fin 4) = 0 ∧ win0_1.index t (1 : Fin 4) = t.val ∧ win0_1.index t (2 : Fin 4) = 0 ∧ win0_1.index t (3 : Fin 4) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 3) = t.val ∧ win0_8.index t (1 : Fin 3) = 0 ∧ win0_8.index t (2 : Fin 3) = 0) :=
  (by decide +kernel : ∀ t : Fin grid0.N, _)

/-! ## The input windows' blocks, element by element

An element of a window's block sits in the window's array at block index × block extent + its coordinate inside the
block, axis by axis; with the block indices above that is batch `t` for the batched windows and the array's own
index for the others. -/

/-- Window 0's block at point `t` is batch `t` of its array. -/
theorem blk0_read (c : Dev nD) (t : Fin cfg0.N) (n : Fin 1024) (k : Fin 146) :
    iblk m c 0 t (ix3 (0 : Fin 1) n k) = (V m c main_v0 : S16x1024x146.Idx → EReal) (ix3 (batchOf t) n k) := by
  obtain ⟨e0, e1, e2⟩ := (idx_facts t).1
  show (V m c main_v0 : S16x1024x146.Idx → EReal) (((cfg0.win 0).blk t).view.emb (ix3 (0 : Fin 1) n k)) = _
  refine congrArg _ ?_
  funext a; apply Fin.ext
  match a with
  | ⟨0, _⟩ => show win0_0.index t (0 : Fin 3) * 1 + 1 * 0 = t.val; omega
  | ⟨1, _⟩ => show win0_0.index t (1 : Fin 3) * 1024 + 1 * n.val = n.val; omega
  | ⟨2, _⟩ => show win0_0.index t (2 : Fin 3) * 146 + 1 * k.val = k.val; omega

/-- Window 1's block at point `t` is batch `t` of both leading slices of its array: its first half is the batch
    of the first slice, -/
theorem blk1a_read (c : Dev nD) (t : Fin cfg0.N) (n p : Fin 1024) :
    View.ld (iblk m c 1 t) r0_1a (ix4 (0 : Fin 1) (0 : Fin 1) n p) = (V m c main_arg4 : S2x16x1024x1024.Idx → EReal) (ix4 (0 : Fin 2) (batchOf t) n p) := by
  obtain ⟨e0, e1, e2, e3⟩ := (idx_facts t).2.1
  show (V m c main_arg4 : S2x16x1024x1024.Idx → EReal) (((cfg0.win 1).blk t).view.emb (r0_1a.idx (ix4 (0 : Fin 1) (0 : Fin 1) n p))) = _
  refine congrArg _ ?_
  funext a; apply Fin.ext
  match a with
  | ⟨0, _⟩ => show win0_1.index t (0 : Fin 4) * 2 + 1 * (0 + 1 * 0) = 0; omega
  | ⟨1, _⟩ => show win0_1.index t (1 : Fin 4) * 1 + 1 * (0 + 1 * 0) = t.val; omega
  | ⟨2, _⟩ => show win0_1.index t (2 : Fin 4) * 1024 + 1 * (0 + 1 * n.val) = n.val; omega
  | ⟨3, _⟩ => show win0_1.index t (3 : Fin 4) * 1024 + 1 * (0 + 1 * p.val) = p.val; omega

/-- and its second half the batch of the second slice. -/
theorem blk1b_read (c : Dev nD) (t : Fin cfg0.N) (n p : Fin 1024) :
    View.ld (iblk m c 1 t) r0_1b (ix4 (0 : Fin 1) (0 : Fin 1) n p) = (V m c main_arg4 : S2x16x1024x1024.Idx → EReal) (ix4 (1 : Fin 2) (batchOf t) n p) := by
  obtain ⟨e0, e1, e2, e3⟩ := (idx_facts t).2.1
  show (V m c main_arg4 : S2x16x1024x1024.Idx → EReal) (((cfg0.win 1).blk t).view.emb (r0_1b.idx (ix4 (0 : Fin 1) (0 : Fin 1) n p))) = _
  refine congrArg _ ?_
  funext a; apply Fin.ext
  match a with
  | ⟨0, _⟩ => show win0_1.index t (0 : Fin 4) * 2 + 1 * (1 + 1 * 0) = 1; omega
  | ⟨1, _⟩ => show win0_1.index t (1 : Fin 4) * 1 + 1 * (0 + 1 * 0) = t.val; omega
  | ⟨2, _⟩ => show win0_1.index t (2 : Fin 4) * 1024 + 1 * (0 + 1 * n.val) = n.val; omega
  | ⟨3, _⟩ => show win0_1.index t (3 : Fin 4) * 1024 + 1 * (0 + 1 * p.val) = p.val; omega

/-- Window 2's block is its array, whole. -/
theorem blk2_read (c : Dev nD) (t : Fin cfg0.N) (k : Fin 146) (o : Fin 64) :
    iblk m c 2 t (ix2 k o) = (V m c main_arg5 : S146x64.Idx → EReal) (ix2 k o) := by
  obtain ⟨e0, e1⟩ := (idx_facts t).2.2.1
  show (V m c main_arg5 : S146x64.Idx → EReal) (((cfg0.win 2).blk t).view.emb (ix2 k o)) = _
  refine congrArg _ ?_
  funext a; apply Fin.ext
  match a with
  | ⟨0, _⟩ => show win0_2.index t (0 : Fin 2) * 146 + 1 * k.val = k.val; omega
  | ⟨1, _⟩ => show win0_2.index t (1 : Fin 2) * 64 + 1 * o.val = o.val; omega

/-- Window 3's block is its array, whole. -/
theorem blk3_read (c : Dev nD) (t : Fin cfg0.N) (o : Fin 64) :
    iblk m c 3 t (ix2 (0 : Fin 1) o) = (V m c main_v17 : S1x64.Idx → EReal) (ix2 (0 : Fin 1) o) := by
  obtain ⟨e0, e1⟩ := (idx_facts t).2.2.2.1
  show (V m c main_v17 : S1x64.Idx → EReal) (((cfg0.win 3).blk t).view.emb (ix2 (0 : Fin 1) o)) = _
  refine congrArg _ ?_
  funext a; apply Fin.ext
  match a with
  | ⟨0, _⟩ => show win0_3.index t (0 : Fin 2) * 1 + 1 * 0 = 0; omega
  | ⟨1, _⟩ => show win0_3.index t (1 : Fin 2) * 64 + 1 * o.val = o.val; omega

/-- Window 4's block is its array, whole. -/
theorem blk4_read (c : Dev nD) (t : Fin cfg0.N) (j : Fin 650) (o : Fin 192) :
    iblk m c 4 t (ix2 j o) = (V m c main_v8 : S650x192.Idx → EReal) (ix2 j o) := by
  obtain ⟨e0, e1⟩ := (idx_facts t).2.2.2.2.1
  show (V m c main_v8 : S650x192.Idx → EReal) (((cfg0.win 4).blk t).view.emb (ix2 j o)) = _
  refine congrArg _ ?_
  funext a; apply Fin.ext
  match a with
  | ⟨0, _⟩ => show win0_4.index t (0 : Fin 2) * 650 + 1 * j.val = j.val; omega
  | ⟨1, _⟩ => show win0_4.index t (1 : Fin 2) * 192 + 1 * o.val = o.val; omega

/-- Window 5's block is its array, whole. -/
theorem blk5_read (c : Dev nD) (t : Fin cfg0.N) (o : Fin 192) :
    iblk m c 5 t (ix2 (0 : Fin 1) o) = (V m c main_v18 : S1x192.Idx → EReal) (ix2 (0 : Fin 1) o) := by
  obtain ⟨e0, e1⟩ := (idx_facts t).2.2.2.2.2.1
  show (V m c main_v18 : S1x192.Idx → EReal) (((cfg0.win 5).blk t).view.emb (ix2 (0 : Fin 1) o)) = _
  refine congrArg _ ?_
  funext a; apply Fin.ext
  match a with
  | ⟨0, _⟩ => show win0_5.index t (0 : Fin 2) * 1 + 1 * 0 = 0; omega
  | ⟨1, _⟩ => show win0_5.index t (1 : Fin 2) * 192 + 1 * o.val = o.val; omega

/-- Window 6's block is its array, whole. -/
theorem blk6_read (c : Dev nD) (t : Fin cfg0.N) (j : Fin 650) (o : Fin 64) :
    iblk m c 6 t (ix2 j o) = (V m c main_v16 : S650x64.Idx → EReal) (ix2 j o) := by
  obtain ⟨e0, e1⟩ := (idx_facts t).2.2.2.2.2.2.1
  show (V m c main_v16 : S650x64.Idx → EReal) (((cfg0.win 6).blk t).view.emb (ix2 j o)) = _
  refine congrArg _ ?_
  funext a; apply Fin.ext
  match a with
  | ⟨0, _⟩ => show win0_6.index t (0 : Fin 2) * 650 + 1 * j.val = j.val; omega
  | ⟨1, _⟩ => show win0_6.index t (1 : Fin 2) * 64 + 1 * o.val = o.val; omega

/-- Window 7's block is its array, whole. -/
theorem blk7_read (c : Dev nD) (t : Fin cfg0.N) (o : Fin 64) :
    iblk m c 7 t (ix2 (0 : Fin 1) o) = (V m c main_v19 : S1x64.Idx → EReal) (ix2 (0 : Fin 1) o) := by
  obtain ⟨e0, e1⟩ := (idx_facts t).2.2.2.2.2.2.2.1
  show (V m c main_v19 : S1x64.Idx → EReal) (((cfg0.win 7).blk t).view.emb (ix2 (0 : Fin 1) o)) = _
  refine congrArg _ ?_
  funext a; apply Fin.ext
  match a with
  | ⟨0, _⟩ => show win0_7.index t (0 : Fin 2) * 1 + 1 * 0 = 0; omega
  | ⟨1, _⟩ => show win0_7.index t (1 : Fin 2) * 64 + 1 * o.val = o.val; omega

/-! ## The output window's blocks -/

/-- An element of the output window's block at point `t` sits in batch `t` of the result array. -/
theorem emb8 (t : Fin cfg0.N) (n : Fin 1024) (o : Fin 64) :
    (((cfg0.win 8).blk t).view.emb (ix3 (0 : Fin 1) n o) : S16x1024x64.Idx) = ix3 (batchOf t) n o := by
  obtain ⟨e0, e1, e2⟩ := (idx_facts t).2.2.2.2.2.2.2.2
  funext a; apply Fin.ext
  match a with
  | ⟨0, _⟩ => show win0_8.index t (0 : Fin 3) * 1 + 1 * 0 = t.val; omega
  | ⟨1, _⟩ => show win0_8.index t (1 : Fin 3) * 1024 + 1 * n.val = n.val; omega
  | ⟨2, _⟩ => show win0_8.index t (2 : Fin 3) * 64 + 1 * o.val = o.val; omega

/-- An index of the result array is in point `t`'s block iff each coordinate is in the block's range on its axis. -/
theorem mem_blk8 (t : Fin cfg0.N) (i : S16x1024x64.Idx) :
    i ∈ ((cfg0.win 8).blk t).view.set ↔ ∀ a : Fin 3, win0_8.index t a * S1x1024x64.size a ≤ (i a).val ∧ (i a).val < win0_8.index t a * S1x1024x64.size a + S1x1024x64.size a := by
  show i ∈ ((View.whole main_v20).slice (win0_8.rect t)).set ↔ _
  rw [View.set_slice_whole, Rect.mem_set_unit]
  exact Iff.rfl

/-- The output window's blocks cover the result array: an index lies in the block of the point numbered by its
    leading coordinate, and the window is written back at every point. -/
theorem cover8 : ∀ i : S16x1024x64.Idx, ∃ t : Fin cfg0.N, (cfg0.win 8).flush t = true ∧ i ∈ ((cfg0.win 8).blk t).view.set := by
  intro i
  have hN : cfg0.N = 16 := N_0
  have hi0 : (i 0).val < 16 := (i 0).isLt
  have hi1 : (i 1).val < 1024 := (i 1).isLt
  have hi2 : (i 2).val < 64 := (i 2).isLt
  let t : Fin cfg0.N := ⟨(i 0).val, by omega⟩
  have ht : t.val = (i 0).val := rfl
  obtain ⟨e0, e1, e2⟩ := (idx_facts t).2.2.2.2.2.2.2.2
  refine ⟨t, flush0_8 t, ?_⟩
  rw [mem_blk8]
  intro a
  match a with
  | ⟨0, _⟩ => show win0_8.index t (0 : Fin 3) * 1 ≤ (i 0).val ∧ (i 0).val < win0_8.index t (0 : Fin 3) * 1 + 1; omega
  | ⟨1, _⟩ => show win0_8.index t (1 : Fin 3) * 1024 ≤ (i 1).val ∧ (i 1).val < win0_8.index t (1 : Fin 3) * 1024 + 1024; omega
  | ⟨2, _⟩ => show win0_8.index t (2 : Fin 3) * 64 ≤ (i 2).val ∧ (i 2).val < win0_8.index t (2 : Fin 3) * 64 + 64; omega

end Cert.KernelIdeal.KValue

end
-- ==== Proof.Spec.lean ====
/-
  The mathematics of the certificate, with no program in it.

  One step of a graph-convolutional gated recurrent cell on a batch element with 1024 nodes. Every node `n` carries an
  input row `x n` (2 numbers), two state rows `s1 n`, `s2 n` (64 each) and an embedding row `g n` (16). With
  `σ` the logistic function:

    mr      = σ([x | s1 | s2 | g] · Wm + bm)                      -- 64 columns
    state   = mr · s1 + (1 − mr) · s2
    z       = σ(conv [x | s1 | s2] Wg bg)                         -- 192 columns: z₁ | z₂ | r
    cand    = [x | z₁ · s1 | z₂ · s2]
    hc      = tanh(conv cand Wu bu)
    h       = r · state + (1 − r) · hc

  `conv Y W b` is a Chebyshev graph convolution of order 3 over two adjacency matrices `A₀`, `A₁`: the six feature
  blocks `T₀(A_s) Y, T₁(A_s) Y, T₂(A_s) Y` (`s = 0, 1`; `T₀ = I`, `T₁ = A`, `T₂ = 2 A² − I`), each 130 wide,
  laid side by side and multiplied by the 780 rows of `W`. It is written here in two ARRANGEMENTS:

    * `convR` builds the matrices `T_k(A_s)` first (the identity as a 0/1 matrix, `T₂` as the matrix `(2A)·A − I`)
      and multiplies each into `Y`; all six blocks meet all 780 rows of `W`.
    * `convK` runs the vector recurrence `y₀ = Y, y₁ = A y₀, y₂ = 2 A y₁ − y₀`, keeps `y₀` once, and meets 650
      weight rows; the rows it is to be given are `foldedW W`: `W` with its two `y₀` row blocks (rows 0–129 and
      390–519) added and the duplicate dropped.

  On real data the two are equal: associativity `(A·A)·Y = A·(A·Y)`, the identity matrix, and distributivity
  `y₀·(W₀ + W₃) = y₀·W₀ + y₀·W₃`. On the extended reals these laws fail at infinities, so the equality is stated
  for real entries (the module that proves it says which).
-/
import Idealize.ShloMosaic.PureOps.Ideal

noncomputable section

open scoped BigOperators

namespace Cert.GraphCell

open Idealize.ShloMosaic

/-- An extended real that is a real number. -/
def IsReal (x : EReal) : Prop := ∃ r : ℝ, x = (r : EReal)

/-- Three rows of widths 2, 64, 64 laid side by side, read at a column. -/
def cat3 (a : Fin 2 → EReal) (b c : Fin 64 → EReal) (j : Fin 130) : EReal :=
  if h : j.val < 2 then a ⟨j.val, h⟩
  else if h' : j.val < 66 then b ⟨j.val - 2, by omega⟩
  else c ⟨j.val - 66, by have := j.isLt; omega⟩

/-- Four rows of widths 2, 64, 64, 16 laid side by side, read at a column. -/
def cat4 (a : Fin 2 → EReal) (b c : Fin 64 → EReal) (d : Fin 16 → EReal) (j : Fin 146) : EReal :=
  if h : j.val < 2 then a ⟨j.val, h⟩
  else if h' : j.val < 66 then b ⟨j.val - 2, by omega⟩
  else if h'' : j.val < 130 then c ⟨j.val - 66, by omega⟩
  else d ⟨j.val - 130, by have := j.isLt; omega⟩

/-- Five rows of width 130 laid side by side: column `j` is row `j / 130` at `j % 130`. -/
def blocks5 (f : Fin 5 → Fin 130 → EReal) (j : Fin 650) : EReal :=
  f ⟨j.val / 130, by have := j.isLt; omega⟩ ⟨j.val % 130, Nat.mod_lt _ (by decide)⟩

/-- Six rows of width 130 laid side by side. -/
def blocks6 (f : Fin 6 → Fin 130 → EReal) (j : Fin 780) : EReal :=
  f ⟨j.val / 130, by have := j.isLt; omega⟩ ⟨j.val % 130, Nat.mod_lt _ (by decide)⟩

/-- A dense layer at one output column: `x · w[:, o] + b o`. -/
def dense {K : Nat} {O : Type} (x : Fin K → EReal) (w : Fin K → O → EReal) (b : O → EReal) (o : O) : EReal :=
  (∑ k : Fin K, x k * w k o) + b o

/-- One hop: row `n` of the matrix product `A · Y`. -/
def hop (A : Fin 1024 → Fin 1024 → EReal) (Y : Fin 1024 → Fin 130 → EReal) (n : Fin 1024) (c : Fin 130) : EReal :=
  ∑ m : Fin 1024, A n m * Y m c

/-- The second Chebyshev vector by the recurrence: `two · A (A Y) − Y`. -/
def hop2 (two : EReal) (A : Fin 1024 → Fin 1024 → EReal) (Y : Fin 1024 → Fin 130 → EReal) (n : Fin 1024)
    (c : Fin 130) : EReal :=
  two * hop A (hop A Y) n c - Y n c

/-- The recurrence's five feature rows of node `n`: `Y, A₀Y, 2A₀(A₀Y) − Y, A₁Y, 2A₁(A₁Y) − Y`. -/
def featsK (two : EReal) (A0 A1 : Fin 1024 → Fin 1024 → EReal) (Y : Fin 1024 → Fin 130 → EReal) (n : Fin 1024)
    (p : Fin 5) : Fin 130 → EReal :=
  match p with
  | ⟨0, _⟩ => Y n
  | ⟨1, _⟩ => hop A0 Y n
  | ⟨2, _⟩ => hop2 two A0 Y n
  | ⟨3, _⟩ => hop A1 Y n
  | ⟨4, _⟩ => hop2 two A1 Y n
  | ⟨_ + 5, h⟩ => absurd h (Nat.not_lt.2 (Nat.le_add_left _ _))

/-- The identity matrix as a 0/1 matrix. -/
def eye (n m : Fin 1024) : EReal := if n = m then 1 else 0

/-- The second Chebyshev MATRIX: `(two · A) · A − I`. -/
def cheb2 (two : EReal) (A : Fin 1024 → Fin 1024 → EReal) (n m : Fin 1024) : EReal :=
  (∑ k : Fin 1024, (two * A n k) * A k m) - eye n m

/-- The six feature rows of node `n` through the Chebyshev matrices: `I Y, A₀ Y, T₂(A₀) Y, I Y, A₁ Y, T₂(A₁) Y`. -/
def featsR (two : EReal) (A0 A1 : Fin 1024 → Fin 1024 → EReal) (Y : Fin 1024 → Fin 130 → EReal) (n : Fin 1024)
    (p : Fin 6) : Fin 130 → EReal :=
  match p with
  | ⟨0, _⟩ => hop eye Y n
  | ⟨1, _⟩ => hop A0 Y n
  | ⟨2, _⟩ => hop (cheb2 two A0) Y n
  | ⟨3, _⟩ => hop eye Y n
  | ⟨4, _⟩ => hop A1 Y n
  | ⟨5, _⟩ => hop (cheb2 two A1) Y n
  | ⟨_ + 6, h⟩ => absurd h (Nat.not_lt.2 (Nat.le_add_left _ _))

/-- The 780 weight rows folded to 650, as five blocks of 130: block 0 is rows 0–129 PLUS rows 390–519 (the two
    blocks that meet `y₀`); then rows 130–259, 260–389, 520–649, 650–779. -/
def foldRows {O : Type} (W : Fin 780 → O → EReal) (p : Fin 5) (q : Fin 130) (o : O) : EReal :=
  match p with
  | ⟨0, _⟩ => W ⟨q.val, by have := q.isLt; omega⟩ o + W ⟨390 + q.val, by have := q.isLt; omega⟩ o
  | ⟨1, _⟩ => W ⟨130 + q.val, by have := q.isLt; omega⟩ o
  | ⟨2, _⟩ => W ⟨260 + q.val, by have := q.isLt; omega⟩ o
  | ⟨3, _⟩ => W ⟨520 + q.val, by have := q.isLt; omega⟩ o
  | ⟨4, _⟩ => W ⟨650 + q.val, by have := q.isLt; omega⟩ o
  | ⟨_ + 5, h⟩ => absurd h (Nat.not_lt.2 (Nat.le_add_left _ _))

/-- The folded weight matrix, 650 rows. -/
def foldedW {O : Type} (W : Fin 780 → O → EReal) (j : Fin 650) (o : O) : EReal :=
  blocks5 (fun p q => foldRows W p q o) j

/-- The graph convolution by the vector recurrence against 650 (folded) weight rows. -/
def convK (two : EReal) (A0 A1 : Fin 1024 → Fin 1024 → EReal) {O : Nat} (Y : Fin 1024 → Fin 130 → EReal)
    (W : Fin 650 → Fin O → EReal) (b : Fin O → EReal) (n : Fin 1024) (o : Fin O) : EReal :=
  dense (blocks5 (featsK two A0 A1 Y n)) W b o

/-- The graph convolution through the Chebyshev matrices against all 780 weight rows. -/
def convR (two : EReal) (A0 A1 : Fin 1024 → Fin 1024 → EReal) {O : Nat} (Y : Fin 1024 → Fin 130 → EReal)
    (W : Fin 780 → Fin O → EReal) (b : Fin O → EReal) (n : Fin 1024) (o : Fin O) : EReal :=
  dense (blocks6 (featsR two A0 A1 Y n)) W b o

/-- A gate's blend `r · a + (one − r) · b`. -/
def blend (one r a b : EReal) : EReal := r * a + (one - r) * b

/-- The type of a graph convolution meeting `R` weight rows: features, weights, bias ↦ one output entry. -/
abbrev Conv (R : Nat) : Type :=
  {O : Nat} → (Fin 1024 → Fin 130 → EReal) → (Fin R → Fin O → EReal) → (Fin O → EReal) → Fin 1024 → Fin O → EReal

section Cell

variable (one : EReal) {R : Nat} (conv : Conv R)
  (x : Fin 1024 → Fin 2 → EReal) (s1 s2 : Fin 1024 → Fin 64 → EReal) (g : Fin 1024 → Fin 16 → EReal)
  (Wm : Fin 146 → Fin 64 → EReal) (bm : Fin 64 → EReal)
  (Wg : Fin R → Fin 192 → EReal) (bg : Fin 192 → EReal)
  (Wu : Fin R → Fin 64 → EReal) (bu : Fin 64 → EReal)

/-- The mixing gate `mr = σ([x | s1 | s2 | g] · Wm + bm)`. -/
def mixGate (n : Fin 1024) (o : Fin 64) : EReal :=
  Ideal.logistic (dense (cat4 (x n) (s1 n) (s2 n) (g n)) Wm bm o)

/-- The blended state `mr · s1 + (one − mr) · s2`. -/
def mixState (n : Fin 1024) (o : Fin 64) : EReal :=
  blend one (mixGate x s1 s2 g Wm bm n o) (s1 n o) (s2 n o)

/-- The node features `[x | s1 | s2]`. -/
def feat (n : Fin 1024) : Fin 130 → EReal := cat3 (x n) (s1 n) (s2 n)

/-- The three gates `z₁ | z₂ | r = σ(conv [x | s1 | s2] Wg bg)`. -/
def gates (n : Fin 1024) (o : Fin 192) : EReal :=
  Ideal.logistic (conv (feat x s1 s2) Wg bg n o)

/-- The candidate's features `[x | z₁ · s1 | z₂ · s2]`. -/
def cand (n : Fin 1024) : Fin 130 → EReal :=
  cat3 (x n)
    (fun o => gates conv x s1 s2 Wg bg n ⟨o.val, by have := o.isLt; omega⟩ * s1 n o)
    (fun o => gates conv x s1 s2 Wg bg n ⟨64 + o.val, by have := o.isLt; omega⟩ * s2 n o)

/-- The candidate state `tanh(conv cand Wu bu)`. -/
def candState (n : Fin 1024) (o : Fin 64) : EReal :=
  Ideal.tanh (conv (cand conv x s1 s2 Wg bg) Wu bu n o)

/-- The cell's output `r · state + (one − r) · hc`. -/
def cell (n : Fin 1024) (o : Fin 64) : EReal :=
  blend one (gates conv x s1 s2 Wg bg n ⟨128 + o.val, by have := o.isLt; omega⟩)
    (mixState one x s1 s2 g Wm bm n o) (candState conv x s1 s2 Wg bg Wu bu n o)

end Cell

end Cert.GraphCell

end
-- ==== Proof.SpecArr.lean ====
/-
  The cell of `Spec` read off ARRAYS: which entries of the eleven argument arrays
  (x [16,1024,2], s1, s2 [16,1024,64], g [16,1024,16], A [2,16,1024,1024], Wm [146,64], bm [64], Wg [780,192],
  bg [192], Wu [780,64], bu [64]) the output entry `(b, n, o)` depends on, in the two arrangements; and the same
  for ONE batch element given as the blocks a tile of the computation holds (the feature rows `[x|s1|s2|g]` already
  side by side in one [1,1024,146] block, the two adjacency matrices as [1,1,1024,1024] blocks, the biases as one-row
  matrices, the gate and update weights already folded to 650 rows).
-/
import proofs.«150459_j80977313399318_2_alg».proof.Proof.Spec
import Idealize.ShloMosaic.Lib.ValueIdx

noncomputable section

namespace Cert.GraphCell

open Idealize.ShloMosaic Idealize.ShloMosaic.ValueIdx

/-- The binary32 word of 1.0 at the ideal values. -/
abbrev ONE : EReal := Ideal.ofBits .f32 0x3F800000#32
/-- The binary32 word of 2.0 at the ideal values. -/
abbrev TWO : EReal := Ideal.ofBits .f32 0x40000000#32

section Arrays

variable (a0 : (⟨3, ![16, 1024, 2]⟩ : Shape).Idx → EReal) (a1 a2 : (⟨3, ![16, 1024, 64]⟩ : Shape).Idx → EReal)
  (a3 : (⟨3, ![16, 1024, 16]⟩ : Shape).Idx → EReal) (a4 : (⟨4, ![2, 16, 1024, 1024]⟩ : Shape).Idx → EReal)
  (a5 : (⟨2, ![146, 64]⟩ : Shape).Idx → EReal) (a6 : (⟨1, ![64]⟩ : Shape).Idx → EReal)
  (a7 : (⟨2, ![780, 192]⟩ : Shape).Idx → EReal) (a8 : (⟨1, ![192]⟩ : Shape).Idx → EReal)
  (a9 : (⟨2, ![780, 64]⟩ : Shape).Idx → EReal) (a10 : (⟨1, ![64]⟩ : Shape).Idx → EReal)

/-- Output entry `(b, n, o)` through the Chebyshev matrices and all 780 weight rows. -/
def outR (b : Fin 16) (n : Fin 1024) (o : Fin 64) : EReal :=
  cell ONE (convR TWO (fun n m => a4 (ix4 (0 : Fin 2) b n m)) (fun n m => a4 (ix4 (1 : Fin 2) b n m)))
    (fun n k => a0 (ix3 b n k)) (fun n k => a1 (ix3 b n k)) (fun n k => a2 (ix3 b n k)) (fun n k => a3 (ix3 b n k))
    (fun k o => a5 (ix2 k o)) (fun o => a6 (ix1 o))
    (fun j o => a7 (ix2 j o)) (fun o => a8 (ix1 o)) (fun j o => a9 (ix2 j o)) (fun o => a10 (ix1 o)) n o

/-- Output entry `(b, n, o)` by the vector recurrence and the folded weight rows. -/
def outK (b : Fin 16) (n : Fin 1024) (o : Fin 64) : EReal :=
  cell ONE (convK TWO (fun n m => a4 (ix4 (0 : Fin 2) b n m)) (fun n m => a4 (ix4 (1 : Fin 2) b n m)))
    (fun n k => a0 (ix3 b n k)) (fun n k => a1 (ix3 b n k)) (fun n k => a2 (ix3 b n k)) (fun n k => a3 (ix3 b n k))
    (fun k o => a5 (ix2 k o)) (fun o => a6 (ix1 o))
    (foldedW (fun j o => a7 (ix2 j o))) (fun o => a8 (ix1 o)) (foldedW (fun j o => a9 (ix2 j o))) (fun o => a10 (ix1 o)) n o

/-- The whole output array, by the vector recurrence. -/
def outArrK : (⟨3, ![16, 1024, 64]⟩ : Shape).Idx → EReal :=
  fun i => outK a0 a1 a2 a3 a4 a5 a6 a7 a8 a9 a10 (i 0) (i 1) (i 2)

/-- The whole output array, through the Chebyshev matrices. -/
def outArrR : (⟨3, ![16, 1024, 64]⟩ : Shape).Idx → EReal :=
  fun i => outR a0 a1 a2 a3 a4 a5 a6 a7 a8 a9 a10 (i 0) (i 1) (i 2)

end Arrays

section Blocks

variable (v0 : (⟨3, ![1, 1024, 146]⟩ : Shape).Idx → EReal) (v7 : (⟨2, ![146, 64]⟩ : Shape).Idx → EReal)
  (v10 : (⟨2, ![1, 64]⟩ : Shape).Idx → EReal) (v20 v23 : (⟨4, ![1, 1, 1024, 1024]⟩ : Shape).Idx → EReal)
  (v41 : (⟨2, ![650, 192]⟩ : Shape).Idx → EReal) (v45 : (⟨2, ![1, 192]⟩ : Shape).Idx → EReal)
  (v71 : (⟨2, ![650, 64]⟩ : Shape).Idx → EReal) (v75 : (⟨2, ![1, 64]⟩ : Shape).Idx → EReal)

/-- One batch element from its blocks: the feature rows `[x|s1|s2|g]` are the columns 0–1, 2–65, 66–129, 130–145 of
    `v0`; the adjacency matrices are `v20`, `v23`; `v7`, `v10` the mixing weights and bias; `v41`, `v45`
    the gates' 650 folded weight rows and bias; `v71`, `v75` the update's. Output entry `(n, o)`. -/
def blockCell (n : Fin 1024) (o : Fin 64) : EReal :=
  cell ONE (convK TWO (fun n m => v20 (ix4 (0 : Fin 1) (0 : Fin 1) n m)) (fun n m => v23 (ix4 (0 : Fin 1) (0 : Fin 1) n m)))
    (fun n k => v0 (ix3 (0 : Fin 1) n (⟨k.val, by have := k.isLt; omega⟩ : Fin 146)))
    (fun n k => v0 (ix3 (0 : Fin 1) n (⟨2 + k.val, by have := k.isLt; omega⟩ : Fin 146)))
    (fun n k => v0 (ix3 (0 : Fin 1) n (⟨66 + k.val, by have := k.isLt; omega⟩ : Fin 146)))
    (fun n k => v0 (ix3 (0 : Fin 1) n (⟨130 + k.val, by have := k.isLt; omega⟩ : Fin 146)))
    (fun k o => v7 (ix2 k o)) (fun o => v10 (ix2 (0 : Fin 1) o))
    (fun j o => v41 (ix2 j o)) (fun o => v45 (ix2 (0 : Fin 1) o))
    (fun j o => v71 (ix2 j o)) (fun o => v75 (ix2 (0 : Fin 1) o)) n o

end Blocks

end Cert.GraphCell

end
-- ==== Proof.RefCat.lean ====
import proofs.«150459_j80977313399318_2_alg».proof.Proof.SpecArr
import Idealize.ShloMosaic.Lib.ValueIdx
import Idealize.ShloMosaic.Lib.Pipeline.Value
import Idealize.ShloMosaic.PureOps.Ideal.Laws

/-! Rows laid side by side, read at a column: the four- and three-piece joins along the last axis. -/

noncomputable section

namespace Cert.ReferenceIdeal.RefValue

open Cert.GraphCell Idealize.ShloMosaic Idealize.ShloMosaic.ValueIdx

/-- Four arrays of widths 2, 64, 64, 16 joined along the last axis, read at `(b, n, j)`: the row `cat4` at column `j`. -/
theorem cat4_read (x0 : (⟨3, ![16, 1024, 2]⟩ : Shape).Idx → EReal) (x1 x2 : (⟨3, ![16, 1024, 64]⟩ : Shape).Idx → EReal)
    (x3 : (⟨3, ![16, 1024, 16]⟩ : Shape).Idx → EReal)
    (h : Shape.Concatenates [(⟨3, ![16, 1024, 2]⟩ : Shape), (⟨3, ![16, 1024, 64]⟩ : Shape), (⟨3, ![16, 1024, 64]⟩ : Shape), (⟨3, ![16, 1024, 16]⟩ : Shape)] (⟨3, ![16, 1024, 146]⟩ : Shape) 2)
    (b : Fin 16) (n : Fin 1024) (j : Fin 146) :
    concatenate (⟨3, ![16, 1024, 146]⟩ : Shape) 2 [⟨(⟨3, ![16, 1024, 2]⟩ : Shape), x0⟩, ⟨(⟨3, ![16, 1024, 64]⟩ : Shape), x1⟩, ⟨(⟨3, ![16, 1024, 64]⟩ : Shape), x2⟩, ⟨(⟨3, ![16, 1024, 16]⟩ : Shape), x3⟩] h (ix3 b n j)
      = cat4 (fun k => x0 (ix3 b n k)) (fun k => x1 (ix3 b n k)) (fun k => x2 (ix3 b n k)) (fun k => x3 (ix3 b n k)) j := by
  unfold cat4
  by_cases h0 : j.val < 2
  · rw [dif_pos h0]
    refine concatenate_apply_piece (t := (⟨3, ![16, 1024, 146]⟩ : Shape)) 2 [⟨(⟨3, ![16, 1024, 2]⟩ : Shape), x0⟩, ⟨(⟨3, ![16, 1024, 64]⟩ : Shape), x1⟩, ⟨(⟨3, ![16, 1024, 64]⟩ : Shape), x2⟩, ⟨(⟨3, ![16, 1024, 16]⟩ : Shape), x3⟩] h (ix3 b n j) 0 (by show 0 < 4; omega) _ x0 rfl rfl 0 rfl
      (ix3 b n ⟨j.val, h0⟩) ?_ ?_
    · intro c hc
      match c with
      | ⟨0, _⟩ => rfl
      | ⟨1, _⟩ => rfl
      | ⟨2, _⟩ => exact absurd rfl hc
    · show 0 + j.val = j.val
      omega
  · rw [dif_neg h0]
    by_cases h1 : j.val < 66
    · rw [dif_pos h1]
      refine concatenate_apply_piece (t := (⟨3, ![16, 1024, 146]⟩ : Shape)) 2 [⟨(⟨3, ![16, 1024, 2]⟩ : Shape), x0⟩, ⟨(⟨3, ![16, 1024, 64]⟩ : Shape), x1⟩, ⟨(⟨3, ![16, 1024, 64]⟩ : Shape), x2⟩, ⟨(⟨3, ![16, 1024, 16]⟩ : Shape), x3⟩] h (ix3 b n j) 1 (by show 1 < 4; omega) _ x1 rfl rfl 2 rfl
        (ix3 b n ⟨j.val - 2, by omega⟩) ?_ ?_
      · intro c hc
        match c with
        | ⟨0, _⟩ => rfl
        | ⟨1, _⟩ => rfl
        | ⟨2, _⟩ => exact absurd rfl hc
      · show 2 + (j.val - 2) = j.val
        omega
    · rw [dif_neg h1]
      by_cases h2 : j.val < 130
      · rw [dif_pos h2]
        refine concatenate_apply_piece (t := (⟨3, ![16, 1024, 146]⟩ : Shape)) 2 [⟨(⟨3, ![16, 1024, 2]⟩ : Shape), x0⟩, ⟨(⟨3, ![16, 1024, 64]⟩ : Shape), x1⟩, ⟨(⟨3, ![16, 1024, 64]⟩ : Shape), x2⟩, ⟨(⟨3, ![16, 1024, 16]⟩ : Shape), x3⟩] h (ix3 b n j) 2 (by show 2 < 4; omega) _ x2 rfl rfl 66 rfl
          (ix3 b n ⟨j.val - 66, by omega⟩) ?_ ?_
        · intro c hc
          match c with
          | ⟨0, _⟩ => rfl
          | ⟨1, _⟩ => rfl
          | ⟨2, _⟩ => exact absurd rfl hc
        · show 66 + (j.val - 66) = j.val
          omega
      · rw [dif_neg h2]
        refine concatenate_apply_piece (t := (⟨3, ![16, 1024, 146]⟩ : Shape)) 2 [⟨(⟨3, ![16, 1024, 2]⟩ : Shape), x0⟩, ⟨(⟨3, ![16, 1024, 64]⟩ : Shape), x1⟩, ⟨(⟨3, ![16, 1024, 64]⟩ : Shape), x2⟩, ⟨(⟨3, ![16, 1024, 16]⟩ : Shape), x3⟩] h (ix3 b n j) 3 (by show 3 < 4; omega) _ x3 rfl rfl 130 rfl
          (ix3 b n ⟨j.val - 130, by have := j.isLt; omega⟩) ?_ ?_
        · intro c hc
          match c with
          | ⟨0, _⟩ => rfl
          | ⟨1, _⟩ => rfl
          | ⟨2, _⟩ => exact absurd rfl hc
        · show 130 + (j.val - 130) = j.val
          omega

/-- Three arrays of widths 2, 64, 64 joined along the last axis, read at `(b, n, j)`: the row `cat3` at column `j`. -/
theorem cat3_read (x0 : (⟨3, ![16, 1024, 2]⟩ : Shape).Idx → EReal) (x1 x2 : (⟨3, ![16, 1024, 64]⟩ : Shape).Idx → EReal)
    (h : Shape.Concatenates [(⟨3, ![16, 1024, 2]⟩ : Shape), (⟨3, ![16, 1024, 64]⟩ : Shape), (⟨3, ![16, 1024, 64]⟩ : Shape)] (⟨3, ![16, 1024, 130]⟩ : Shape) 2)
    (b : Fin 16) (n : Fin 1024) (j : Fin 130) :
    concatenate (⟨3, ![16, 1024, 130]⟩ : Shape) 2 [⟨(⟨3, ![16, 1024, 2]⟩ : Shape), x0⟩, ⟨(⟨3, ![16, 1024, 64]⟩ : Shape), x1⟩, ⟨(⟨3, ![16, 1024, 64]⟩ : Shape), x2⟩] h (ix3 b n j)
      = cat3 (fun k => x0 (ix3 b n k)) (fun k => x1 (ix3 b n k)) (fun k => x2 (ix3 b n k)) j := by
  unfold cat3
  by_cases h0 : j.val < 2
  · rw [dif_pos h0]
    refine concatenate_apply_piece (t := (⟨3, ![16, 1024, 130]⟩ : Shape)) 2 [⟨(⟨3, ![16, 1024, 2]⟩ : Shape), x0⟩, ⟨(⟨3, ![16, 1024, 64]⟩ : Shape), x1⟩, ⟨(⟨3, ![16, 1024, 64]⟩ : Shape), x2⟩] h (ix3 b n j) 0 (by show 0 < 3; omega) _ x0 rfl rfl 0 rfl
      (ix3 b n ⟨j.val, h0⟩) ?_ ?_
    · intro c hc
      match c with
      | ⟨0, _⟩ => rfl
      | ⟨1, _⟩ => rfl
      | ⟨2, _⟩ => exact absurd rfl hc
    · show 0 + j.val = j.val
      omega
  · rw [dif_neg h0]
    by_cases h1 : j.val < 66
    · rw [dif_pos h1]
      refine concatenate_apply_piece (t := (⟨3, ![16, 1024, 130]⟩ : Shape)) 2 [⟨(⟨3, ![16, 1024, 2]⟩ : Shape), x0⟩, ⟨(⟨3, ![16, 1024, 64]⟩ : Shape), x1⟩, ⟨(⟨3, ![16, 1024, 64]⟩ : Shape), x2⟩] h (ix3 b n j) 1 (by show 1 < 3; omega) _ x1 rfl rfl 2 rfl
        (ix3 b n ⟨j.val - 2, by omega⟩) ?_ ?_
      · intro c hc
        match c with
        | ⟨0, _⟩ => rfl
        | ⟨1, _⟩ => rfl
        | ⟨2, _⟩ => exact absurd rfl hc
      · show 2 + (j.val - 2) = j.val
        omega
    · rw [dif_neg h1]
      refine concatenate_apply_piece (t := (⟨3, ![16, 1024, 130]⟩ : Shape)) 2 [⟨(⟨3, ![16, 1024, 2]⟩ : Shape), x0⟩, ⟨(⟨3, ![16, 1024, 64]⟩ : Shape), x1⟩, ⟨(⟨3, ![16, 1024, 64]⟩ : Shape), x2⟩] h (ix3 b n j) 2 (by show 2 < 3; omega) _ x2 rfl rfl 66 rfl
        (ix3 b n ⟨j.val - 66, by have := j.isLt; omega⟩) ?_ ?_
      · intro c hc
        match c with
        | ⟨0, _⟩ => rfl
        | ⟨1, _⟩ => rfl
        | ⟨2, _⟩ => exact absurd rfl hc
      · show 66 + (j.val - 66) = j.val
        omega

/-- Six arrays of width 130 joined along the last axis, read at `(b, n, j)`: block `j / 130` at column `j % 130`. The
    blocks' rows at `(b, n)` are given as one family `F`. -/
theorem blocks6_read (y0 y1 y2 y3 y4 y5 : (⟨3, ![16, 1024, 130]⟩ : Shape).Idx → EReal)
    (h : Shape.Concatenates [(⟨3, ![16, 1024, 130]⟩ : Shape), (⟨3, ![16, 1024, 130]⟩ : Shape), (⟨3, ![16, 1024, 130]⟩ : Shape), (⟨3, ![16, 1024, 130]⟩ : Shape), (⟨3, ![16, 1024, 130]⟩ : Shape), (⟨3, ![16, 1024, 130]⟩ : Shape)] (⟨3, ![16, 1024, 780]⟩ : Shape) 2)
    (b : Fin 16) (n : Fin 1024) (F : Fin 6 → Fin 130 → EReal)
    (h0 : ∀ c : Fin 130, y0 (ix3 b n c) = F ⟨0, by omega⟩ c)
    (h1 : ∀ c : Fin 130, y1 (ix3 b n c) = F ⟨1, by omega⟩ c)
    (h2 : ∀ c : Fin 130, y2 (ix3 b n c) = F ⟨2, by omega⟩ c)
    (h3 : ∀ c : Fin 130, y3 (ix3 b n c) = F ⟨3, by omega⟩ c)
    (h4 : ∀ c : Fin 130, y4 (ix3 b n c) = F ⟨4, by omega⟩ c)
    (h5 : ∀ c : Fin 130, y5 (ix3 b n c) = F ⟨5, by omega⟩ c)
    (j : Fin 780) :
    concatenate (⟨3, ![16, 1024, 780]⟩ : Shape) 2 [⟨(⟨3, ![16, 1024, 130]⟩ : Shape), y0⟩, ⟨(⟨3, ![16, 1024, 130]⟩ : Shape), y1⟩, ⟨(⟨3, ![16, 1024, 130]⟩ : Shape), y2⟩, ⟨(⟨3, ![16, 1024, 130]⟩ : Shape), y3⟩, ⟨(⟨3, ![16, 1024, 130]⟩ : Shape), y4⟩, ⟨(⟨3, ![16, 1024, 130]⟩ : Shape), y5⟩] h (ix3 b n j) = blocks6 F j := by
  have hj := j.isLt
  rcases (by omega : j.val < 130 ∨ (130 ≤ j.val ∧ j.val < 260) ∨ (260 ≤ j.val ∧ j.val < 390) ∨ (390 ≤ j.val ∧ j.val < 520)
      ∨ (520 ≤ j.val ∧ j.val < 650) ∨ 650 ≤ j.val) with hc | hc | hc | hc | hc | hc
  · -- columns 0 … 129: block 0
    have hlt : j.val - 0 < 130 := by omega
    refine (concatenate_apply_piece (t := (⟨3, ![16, 1024, 780]⟩ : Shape)) 2 [⟨(⟨3, ![16, 1024, 130]⟩ : Shape), y0⟩, ⟨(⟨3, ![16, 1024, 130]⟩ : Shape), y1⟩, ⟨(⟨3, ![16, 1024, 130]⟩ : Shape), y2⟩, ⟨(⟨3, ![16, 1024, 130]⟩ : Shape), y3⟩, ⟨(⟨3, ![16, 1024, 130]⟩ : Shape), y4⟩, ⟨(⟨3, ![16, 1024, 130]⟩ : Shape), y5⟩] h (ix3 b n j) 0 (by show 0 < 6; omega) _ y0 rfl rfl 0 rfl
      (ix3 b n ⟨j.val - 0, hlt⟩) ?_ ?_).trans ?_
    · intro c hc
      match c with
      | ⟨0, _⟩ => rfl
      | ⟨1, _⟩ => rfl
      | ⟨2, _⟩ => exact absurd rfl hc
    · show 0 + (j.val - 0) = j.val
      omega
    · rw [h0]
      unfold blocks6
      exact congrArg₂ F (Fin.ext (by show 0 = j.val / 130; omega)) (Fin.ext (by show j.val - 0 = j.val % 130; omega))
  · -- columns 130 … 259: block 1
    have hlt : j.val - 130 < 130 := by omega
    refine (concatenate_apply_piece (t := (⟨3, ![16, 1024, 780]⟩ : Shape)) 2 [⟨(⟨3, ![16, 1024, 130]⟩ : Shape), y0⟩, ⟨(⟨3, ![16, 1024, 130]⟩ : Shape), y1⟩, ⟨(⟨3, ![16, 1024, 130]⟩ : Shape), y2⟩, ⟨(⟨3, ![16, 1024, 130]⟩ : Shape), y3⟩, ⟨(⟨3, ![16, 1024, 130]⟩ : Shape), y4⟩, ⟨(⟨3, ![16, 1024, 130]⟩ : Shape), y5⟩] h (ix3 b n j) 1 (by show 1 < 6; omega) _ y1 rfl rfl 130 rfl
      (ix3 b n ⟨j.val - 130, hlt⟩) ?_ ?_).trans ?_
    · intro c hc
      match c with
      | ⟨0, _⟩ => rfl
      | ⟨1, _⟩ => rfl
      | ⟨2, _⟩ => exact absurd rfl hc
    · show 130 + (j.val - 130) = j.val
      omega
    · rw [h1]
      unfold blocks6
      exact congrArg₂ F (Fin.ext (by show 1 = j.val / 130; omega)) (Fin.ext (by show j.val - 130 = j.val % 130; omega))
  · -- columns 260 … 389: block 2
    have hlt : j.val - 260 < 130 := by omega
    refine (concatenate_apply_piece (t := (⟨3, ![16, 1024, 780]⟩ : Shape)) 2 [⟨(⟨3, ![16, 1024, 130]⟩ : Shape), y0⟩, ⟨(⟨3, ![16, 1024, 130]⟩ : Shape), y1⟩, ⟨(⟨3, ![16, 1024, 130]⟩ : Shape), y2⟩, ⟨(⟨3, ![16, 1024, 130]⟩ : Shape), y3⟩, ⟨(⟨3, ![16, 1024, 130]⟩ : Shape), y4⟩, ⟨(⟨3, ![16, 1024, 130]⟩ : Shape), y5⟩] h (ix3 b n j) 2 (by show 2 < 6; omega) _ y2 rfl rfl 260 rfl
      (ix3 b n ⟨j.val - 260, hlt⟩) ?_ ?_).trans ?_
    · intro c hc
      match c with
      | ⟨0, _⟩ => rfl
      | ⟨1, _⟩ => rfl
      | ⟨2, _⟩ => exact absurd rfl hc
    · show 260 + (j.val - 260) = j.val
      omega
    · rw [h2]
      unfold blocks6
      exact congrArg₂ F (Fin.ext (by show 2 = j.val / 130; omega)) (Fin.ext (by show j.val - 260 = j.val % 130; omega))
  · -- columns 390 … 519: block 3
    have hlt : j.val - 390 < 130 := by omega
    refine (concatenate_apply_piece (t := (⟨3, ![16, 1024, 780]⟩ : Shape)) 2 [⟨(⟨3, ![16, 1024, 130]⟩ : Shape), y0⟩, ⟨(⟨3, ![16, 1024, 130]⟩ : Shape), y1⟩, ⟨(⟨3, ![16, 1024, 130]⟩ : Shape), y2⟩, ⟨(⟨3, ![16, 1024, 130]⟩ : Shape), y3⟩, ⟨(⟨3, ![16, 1024, 130]⟩ : Shape), y4⟩, ⟨(⟨3, ![16, 1024, 130]⟩ : Shape), y5⟩] h (ix3 b n j) 3 (by show 3 < 6; omega) _ y3 rfl rfl 390 rfl
      (ix3 b n ⟨j.val - 390, hlt⟩) ?_ ?_).trans ?_
    · intro c hc
      match c with
      | ⟨0, _⟩ => rfl
      | ⟨1, _⟩ => rfl
      | ⟨2, _⟩ => exact absurd rfl hc
    · show 390 + (j.val - 390) = j.val
      omega
    · rw [h3]
      unfold blocks6
      exact congrArg₂ F (Fin.ext (by show 3 = j.val / 130; omega)) (Fin.ext (by show j.val - 390 = j.val % 130; omega))
  · -- columns 520 … 649: block 4
    have hlt : j.val - 520 < 130 := by omega
    refine (concatenate_apply_piece (t := (⟨3, ![16, 1024, 780]⟩ : Shape)) 2 [⟨(⟨3, ![16, 1024, 130]⟩ : Shape), y0⟩, ⟨(⟨3, ![16, 1024, 130]⟩ : Shape), y1⟩, ⟨(⟨3, ![16, 1024, 130]⟩ : Shape), y2⟩, ⟨(⟨3, ![16, 1024, 130]⟩ : Shape), y3⟩, ⟨(⟨3, ![16, 1024, 130]⟩ : Shape), y4⟩, ⟨(⟨3, ![16, 1024, 130]⟩ : Shape), y5⟩] h (ix3 b n j) 4 (by show 4 < 6; omega) _ y4 rfl rfl 520 rfl
      (ix3 b n ⟨j.val - 520, hlt⟩) ?_ ?_).trans ?_
    · intro c hc
      match c with
      | ⟨0, _⟩ => rfl
      | ⟨1, _⟩ => rfl
      | ⟨2, _⟩ => exact absurd rfl hc
    · show 520 + (j.val - 520) = j.val
      omega
    · rw [h4]
      unfold blocks6
      exact congrArg₂ F (Fin.ext (by show 4 = j.val / 130; omega)) (Fin.ext (by show j.val - 520 = j.val % 130; omega))
  · -- columns 650 … 779: block 5
    have hlt : j.val - 650 < 130 := by have := j.isLt; omega
    refine (concatenate_apply_piece (t := (⟨3, ![16, 1024, 780]⟩ : Shape)) 2 [⟨(⟨3, ![16, 1024, 130]⟩ : Shape), y0⟩, ⟨(⟨3, ![16, 1024, 130]⟩ : Shape), y1⟩, ⟨(⟨3, ![16, 1024, 130]⟩ : Shape), y2⟩, ⟨(⟨3, ![16, 1024, 130]⟩ : Shape), y3⟩, ⟨(⟨3, ![16, 1024, 130]⟩ : Shape), y4⟩, ⟨(⟨3, ![16, 1024, 130]⟩ : Shape), y5⟩] h (ix3 b n j) 5 (by show 5 < 6; omega) _ y5 rfl rfl 650 rfl
      (ix3 b n ⟨j.val - 650, hlt⟩) ?_ ?_).trans ?_
    · intro c hc
      match c with
      | ⟨0, _⟩ => rfl
      | ⟨1, _⟩ => rfl
      | ⟨2, _⟩ => exact absurd rfl hc
    · show 650 + (j.val - 650) = j.val
      omega
    · rw [h5]
      unfold blocks6
      exact congrArg₂ F (Fin.ext (by show 5 = j.val / 130; omega)) (Fin.ext (by show j.val - 650 = j.val % 130; omega))

end Cert.ReferenceIdeal.RefValue

end
-- ==== Proof.HostFold.lean ====
/-
  The folding of a 780-row weight matrix to 650 rows, read at an entry: six row slices of 130, the sum of slices 0
  and 3, and the five pieces (0 + 3), 1, 2, 4, 5 joined along the rows, are the folded weight rows of `Spec`.
-/
import proofs.«150459_j80977313399318_2_alg».proof.Proof.SpecArr
import Idealize.ShloMosaic.Lib.ValueIdx
import Idealize.ShloMosaic.Lib.Pipeline.Value
import Idealize.ShloMosaic.PureOps.Ideal.Laws

noncomputable section

namespace Cert.GraphCell

open Idealize.ShloMosaic Idealize.ShloMosaic.ValueIdx

/-- The folded weight row `130 p + q` is row `q` of folded block `p`. -/
theorem foldedW_at {O : Type} (W : Fin 780 → O → EReal) (j : Fin 650) (o : O) (p : Fin 5) (q : Fin 130)
    (h : j.val = 130 * p.val + q.val) : foldedW W j o = foldRows W p q o := by
  have h1 : j.val / 130 = p.val := by have := q.isLt; omega
  have h2 : j.val % 130 = q.val := by have := q.isLt; omega
  unfold foldedW blocks5
  exact congrArg₂ (fun p q => foldRows W p q o) (Fin.ext h1) (Fin.ext h2)

/-- A slice of 130 rows starting at row `off`, read at `(q, o)`: the matrix at row `off + q`. -/
theorem slice_read {O : Nat} (a : (⟨2, ![780, O]⟩ : Shape).Idx → EReal) (off : Nat)
    (h : (⟨2, ![780, O]⟩ : Shape).Slices ![off, 0] ⟨2, ![130, O]⟩) (q : Fin 130) (o : Fin O) (k : Fin 780)
    (hk : k.val = off + q.val) :
    extractStridedSlice ⟨2, ![130, O]⟩ ![off, 0] a h (ix2 q o) = a (ix2 k o) := by
  refine extractStridedSlice_apply _ a h (ix2 q o) (ix2 k o) ?_
  intro c
  match c with
  | ⟨0, _⟩ => exact hk
  | ⟨1, _⟩ =>
    show o.val = 0 + o.val
    omega

theorem fold_read {O : Nat} (a : (⟨2, ![780, O]⟩ : Shape).Idx → EReal)
    (h0 : (⟨2, ![780, O]⟩ : Shape).Slices ![0, 0] ⟨2, ![130, O]⟩) (h1 : (⟨2, ![780, O]⟩ : Shape).Slices ![130, 0] ⟨2, ![130, O]⟩)
    (h2 : (⟨2, ![780, O]⟩ : Shape).Slices ![260, 0] ⟨2, ![130, O]⟩) (h3 : (⟨2, ![780, O]⟩ : Shape).Slices ![390, 0] ⟨2, ![130, O]⟩)
    (h4 : (⟨2, ![780, O]⟩ : Shape).Slices ![520, 0] ⟨2, ![130, O]⟩) (h5 : (⟨2, ![780, O]⟩ : Shape).Slices ![650, 0] ⟨2, ![130, O]⟩)
    (h : Shape.Concatenates [(⟨2, ![130, O]⟩ : Shape), ⟨2, ![130, O]⟩, ⟨2, ![130, O]⟩, ⟨2, ![130, O]⟩, ⟨2, ![130, O]⟩] (⟨2, ![650, O]⟩ : Shape) 0)
    (j : Fin 650) (o : Fin O) :
    concatenate (⟨2, ![650, O]⟩ : Shape) 0
      [⟨(⟨2, ![130, O]⟩ : Shape), addf (F := Ideal) (φ := .f32) (extractStridedSlice ⟨2, ![130, O]⟩ ![0, 0] a h0) (extractStridedSlice ⟨2, ![130, O]⟩ ![390, 0] a h3)⟩,
       ⟨(⟨2, ![130, O]⟩ : Shape), extractStridedSlice ⟨2, ![130, O]⟩ ![130, 0] a h1⟩,
       ⟨(⟨2, ![130, O]⟩ : Shape), extractStridedSlice ⟨2, ![130, O]⟩ ![260, 0] a h2⟩,
       ⟨(⟨2, ![130, O]⟩ : Shape), extractStridedSlice ⟨2, ![130, O]⟩ ![520, 0] a h4⟩,
       ⟨(⟨2, ![130, O]⟩ : Shape), extractStridedSlice ⟨2, ![130, O]⟩ ![650, 0] a h5⟩] h (ix2 j o)
      = foldedW (fun j o => a (ix2 j o)) j o := by
  have hj := j.isLt
  rcases (by omega : j.val < 130 ∨ (130 ≤ j.val ∧ j.val < 260) ∨ (260 ≤ j.val ∧ j.val < 390)
      ∨ (390 ≤ j.val ∧ j.val < 520) ∨ 520 ≤ j.val) with hc | hc | hc | hc | hc
  · -- rows 0 … 129: piece 0
    have hlt : j.val - 0 < 130 := by omega
    refine (concatenate_apply_piece (t := (⟨2, ![650, O]⟩ : Shape)) 0
      [⟨(⟨2, ![130, O]⟩ : Shape), addf (F := Ideal) (φ := .f32) (extractStridedSlice ⟨2, ![130, O]⟩ ![0, 0] a h0) (extractStridedSlice ⟨2, ![130, O]⟩ ![390, 0] a h3)⟩,
       ⟨(⟨2, ![130, O]⟩ : Shape), extractStridedSlice ⟨2, ![130, O]⟩ ![130, 0] a h1⟩,
       ⟨(⟨2, ![130, O]⟩ : Shape), extractStridedSlice ⟨2, ![130, O]⟩ ![260, 0] a h2⟩,
       ⟨(⟨2, ![130, O]⟩ : Shape), extractStridedSlice ⟨2, ![130, O]⟩ ![520, 0] a h4⟩,
       ⟨(⟨2, ![130, O]⟩ : Shape), extractStridedSlice ⟨2, ![130, O]⟩ ![650, 0] a h5⟩]
      h (ix2 j o) 0 (by show 0 < 5; omega) _ _ rfl rfl 0 rfl (ix2 ⟨j.val - 0, hlt⟩ o) ?_ ?_).trans ?_
    · intro c hc'
      match c with
      | ⟨0, _⟩ => exact absurd rfl hc'
      | ⟨1, _⟩ => rfl
    · show 0 + (j.val - 0) = j.val
      omega
    · rw [foldedW_at _ j o ⟨0, by omega⟩ ⟨j.val - 0, hlt⟩ (by show j.val = 130 * 0 + (j.val - 0); omega)]
      refine (addf_apply _ _ _).trans (congrArg₂ (· + ·) ?_ ?_)
      · exact slice_read a 0 h0 _ o _ (by show j.val - 0 = 0 + (j.val - 0); omega)
      · exact slice_read a 390 h3 _ o _ rfl
  · -- rows 130 … 259: piece 1
    have hlt : j.val - 130 < 130 := by omega
    refine (concatenate_apply_piece (t := (⟨2, ![650, O]⟩ : Shape)) 0
      [⟨(⟨2, ![130, O]⟩ : Shape), addf (F := Ideal) (φ := .f32) (extractStridedSlice ⟨2, ![130, O]⟩ ![0, 0] a h0) (extractStridedSlice ⟨2, ![130, O]⟩ ![390, 0] a h3)⟩,
       ⟨(⟨2, ![130, O]⟩ : Shape), extractStridedSlice ⟨2, ![130, O]⟩ ![130, 0] a h1⟩,
       ⟨(⟨2, ![130, O]⟩ : Shape), extractStridedSlice ⟨2, ![130, O]⟩ ![260, 0] a h2⟩,
       ⟨(⟨2, ![130, O]⟩ : Shape), extractStridedSlice ⟨2, ![130, O]⟩ ![520, 0] a h4⟩,
       ⟨(⟨2, ![130, O]⟩ : Shape), extractStridedSlice ⟨2, ![130, O]⟩ ![650, 0] a h5⟩]
      h (ix2 j o) 1 (by show 1 < 5; omega) _ _ rfl rfl 130 rfl (ix2 ⟨j.val - 130, hlt⟩ o) ?_ ?_).trans ?_
    · intro c hc'
      match c with
      | ⟨0, _⟩ => exact absurd rfl hc'
      | ⟨1, _⟩ => rfl
    · show 130 + (j.val - 130) = j.val
      omega
    · rw [foldedW_at _ j o ⟨1, by omega⟩ ⟨j.val - 130, hlt⟩ (by show j.val = 130 * 1 + (j.val - 130); omega)]
      exact slice_read a 130 h1 _ o _ rfl
  · -- rows 260 … 389: piece 2
    have hlt : j.val - 260 < 130 := by omega
    refine (concatenate_apply_piece (t := (⟨2, ![650, O]⟩ : Shape)) 0
      [⟨(⟨2, ![130, O]⟩ : Shape), addf (F := Ideal) (φ := .f32) (extractStridedSlice ⟨2, ![130, O]⟩ ![0, 0] a h0) (extractStridedSlice ⟨2, ![130, O]⟩ ![390, 0] a h3)⟩,
       ⟨(⟨2, ![130, O]⟩ : Shape), extractStridedSlice ⟨2, ![130, O]⟩ ![130, 0] a h1⟩,
       ⟨(⟨2, ![130, O]⟩ : Shape), extractStridedSlice ⟨2, ![130, O]⟩ ![260, 0] a h2⟩,
       ⟨(⟨2, ![130, O]⟩ : Shape), extractStridedSlice ⟨2, ![130, O]⟩ ![520, 0] a h4⟩,
       ⟨(⟨2, ![130, O]⟩ : Shape), extractStridedSlice ⟨2, ![130, O]⟩ ![650, 0] a h5⟩]
      h (ix2 j o) 2 (by show 2 < 5; omega) _ _ rfl rfl 260 rfl (ix2 ⟨j.val - 260, hlt⟩ o) ?_ ?_).trans ?_
    · intro c hc'
      match c with
      | ⟨0, _⟩ => exact absurd rfl hc'
      | ⟨1, _⟩ => rfl
    · show 260 + (j.val - 260) = j.val
      omega
    · rw [foldedW_at _ j o ⟨2, by omega⟩ ⟨j.val - 260, hlt⟩ (by show j.val = 130 * 2 + (j.val - 260); omega)]
      exact slice_read a 260 h2 _ o _ rfl
  · -- rows 390 … 519: piece 3
    have hlt : j.val - 390 < 130 := by omega
    refine (concatenate_apply_piece (t := (⟨2, ![650, O]⟩ : Shape)) 0
      [⟨(⟨2, ![130, O]⟩ : Shape), addf (F := Ideal) (φ := .f32) (extractStridedSlice ⟨2, ![130, O]⟩ ![0, 0] a h0) (extractStridedSlice ⟨2, ![130, O]⟩ ![390, 0] a h3)⟩,
       ⟨(⟨2, ![130, O]⟩ : Shape), extractStridedSlice ⟨2, ![130, O]⟩ ![130, 0] a h1⟩,
       ⟨(⟨2, ![130, O]⟩ : Shape), extractStridedSlice ⟨2, ![130, O]⟩ ![260, 0] a h2⟩,
       ⟨(⟨2, ![130, O]⟩ : Shape), extractStridedSlice ⟨2, ![130, O]⟩ ![520, 0] a h4⟩,
       ⟨(⟨2, ![130, O]⟩ : Shape), extractStridedSlice ⟨2, ![130, O]⟩ ![650, 0] a h5⟩]
      h (ix2 j o) 3 (by show 3 < 5; omega) _ _ rfl rfl 390 rfl (ix2 ⟨j.val - 390, hlt⟩ o) ?_ ?_).trans ?_
    · intro c hc'
      match c with
      | ⟨0, _⟩ => exact absurd rfl hc'
      | ⟨1, _⟩ => rfl
    · show 390 + (j.val - 390) = j.val
      omega
    · rw [foldedW_at _ j o ⟨3, by omega⟩ ⟨j.val - 390, hlt⟩ (by show j.val = 130 * 3 + (j.val - 390); omega)]
      exact slice_read a 520 h4 _ o _ rfl
  · -- rows 520 … 649: piece 4
    have hlt : j.val - 520 < 130 := by omega
    refine (concatenate_apply_piece (t := (⟨2, ![650, O]⟩ : Shape)) 0
      [⟨(⟨2, ![130, O]⟩ : Shape), addf (F := Ideal) (φ := .f32) (extractStridedSlice ⟨2, ![130, O]⟩ ![0, 0] a h0) (extractStridedSlice ⟨2, ![130, O]⟩ ![390, 0] a h3)⟩,
       ⟨(⟨2, ![130, O]⟩ : Shape), extractStridedSlice ⟨2, ![130, O]⟩ ![130, 0] a h1⟩,
       ⟨(⟨2, ![130, O]⟩ : Shape), extractStridedSlice ⟨2, ![130, O]⟩ ![260, 0] a h2⟩,
       ⟨(⟨2, ![130, O]⟩ : Shape), extractStridedSlice ⟨2, ![130, O]⟩ ![520, 0] a h4⟩,
       ⟨(⟨2, ![130, O]⟩ : Shape), extractStridedSlice ⟨2, ![130, O]⟩ ![650, 0] a h5⟩]
      h (ix2 j o) 4 (by show 4 < 5; omega) _ _ rfl rfl 520 rfl (ix2 ⟨j.val - 520, hlt⟩ o) ?_ ?_).trans ?_
    · intro c hc'
      match c with
      | ⟨0, _⟩ => exact absurd rfl hc'
      | ⟨1, _⟩ => rfl
    · show 520 + (j.val - 520) = j.val
      omega
    · rw [foldedW_at _ j o ⟨4, by omega⟩ ⟨j.val - 520, hlt⟩ (by show j.val = 130 * 4 + (j.val - 520); omega)]
      exact slice_read a 650 h5 _ o _ rfl

end Cert.GraphCell

end
-- ==== Proof.LibHostNary.lean ====
/-
  Host operations of several operands, and reading a buffer after a line of host operations.

  A program's host part is a line of operations, each writing ONE result buffer from its operands' buffers. What a
  buffer holds after the line is found operation by operation, outermost first: the operation that writes the buffer
  gives its function of its operands' contents; every other operation leaves the buffer alone. For an operation of
  many operands given as a LITERAL family `![x, a, b, d, e]` (a five-piece concatenation), the operands' contents
  come back as `fun k => F (![x, a, b, d, e] k)`, under a binder, where no further operation's result can be read
  off; `nary5_result` names each operand at its own reference instead (as the library does for four operands), so
  that the reading goes on through the operands. `host_results` is the whole reading as one tactic.

  No program in it; generic in the topology, the reference signature and the value family.
-/
import Idealize.ShloMosaic.Lib.StableHlo.Run

noncomputable section

namespace Cert.HostNary

open Idealize.ShloMosaic Idealize.ShloMosaic.StableHlo

variable {τ : Topo} {sig : RefSig} {Val : EltTy → Type}

/-- An operation of FIVE operands leaves, in its result buffer, its function of the operands' contents each AT ITS
    OWN reference. -/
theorem nary5_result {x a b d e y : Ref sig .tc}
    (f : ((k : Fin 5) → ((![x, a, b, d, e] : Fin 5 → Ref sig .tc) k).ty.Contents Val) → y.ty.Contents Val)
    (hxs hy) (F : Valuation τ sig Val) :
    (nary (τ := τ) ![x, a, b, d, e] y f hxs hy).result F (Proc.devRef .tc y)
      = f (Fin.cons (F (Proc.devRef .tc x)) (Fin.cons (F (Proc.devRef .tc a)) (Fin.cons (F (Proc.devRef .tc b))
          (Fin.cons (F (Proc.devRef .tc d)) (Fin.cons (F (Proc.devRef .tc e)) (fun i => i.elim0)))))) := by
  rw [nary_result]; congr 1; funext k; fin_cases k <;> rfl

/-- An operation of SIX operands, likewise. -/
theorem nary6_result {x a b d e g y : Ref sig .tc}
    (f : ((k : Fin 6) → ((![x, a, b, d, e, g] : Fin 6 → Ref sig .tc) k).ty.Contents Val) → y.ty.Contents Val)
    (hxs hy) (F : Valuation τ sig Val) :
    (nary (τ := τ) ![x, a, b, d, e, g] y f hxs hy).result F (Proc.devRef .tc y)
      = f (Fin.cons (F (Proc.devRef .tc x)) (Fin.cons (F (Proc.devRef .tc a)) (Fin.cons (F (Proc.devRef .tc b))
          (Fin.cons (F (Proc.devRef .tc d)) (Fin.cons (F (Proc.devRef .tc e)) (Fin.cons (F (Proc.devRef .tc g))
            (fun i => i.elim0))))))) := by
  rw [nary_result]; congr 1; funext k; fin_cases k <;> rfl

/-- Read what a buffer holds after a line of host operations: each operation's result from its operands' contents,
    outermost first, the operations of four, five and six literal operands included; what is left is a term over the
    contents the line started from. -/
macro "host_results" : tactic =>
  `(tactic| (simp only [after_cons, after_nil]
             repeat (first
               | rw [nullary_result] | rw [unary_result] | rw [binary_result] | rw [ternary_result] | rw [quaternary_result]
               | rw [reshape_result] | rw [nary4_result] | rw [nary5_result] | rw [nary6_result] | rw [nary_result]
               | (rw [nullary_result_ne]; rotate_left; decide)
               | (rw [unary_result_ne]; rotate_left; decide)
               | (rw [binary_result_ne]; rotate_left; decide)
               | (rw [ternary_result_ne]; rotate_left; decide)
               | (rw [quaternary_result_ne]; rotate_left; decide)
               | (rw [reshape_result_ne]; rotate_left; decide)
               | (rw [nary_result_ne]; rotate_left; decide))))

end Cert.HostNary

end
-- ==== Proof.KernelArrays.lean ====
/-
  What the region finds in its arrays, read at an index as functions of the program's arguments.

  Before the region the host lays the feature rows side by side (`[x | s1 | s2 | g]`, 146 columns), folds each of the
  two 780-row weight matrices to 650 rows (six row slices of 130; slices 0 and 3 added; the five results stacked), and
  views the three bias vectors as one-row matrices. The adjacency array and the mixing weights are staged as they are.
-/
import proofs.«150459_j80977313399318_2_alg».proof.Proof.FrameKI
import proofs.«150459_j80977313399318_2_alg».proof.Proof.SpecArr
import proofs.«150459_j80977313399318_2_alg».proof.Proof.RefCat
import proofs.«150459_j80977313399318_2_alg».proof.Proof.HostFold
import proofs.«150459_j80977313399318_2_alg».proof.Proof.LibHostNary
import Idealize.ShloMosaic.Lib.ValueIdx
import Idealize.ShloMosaic.Lib.Pipeline.Value
import Idealize.ShloMosaic.Lib.ValueLayout
import Idealize.ShloMosaic.Lib.StableHlo.Run

noncomputable section

namespace Cert.KernelIdeal.KValue

open Cert.KernelIdeal Cert.KernelIdeal.Gen Cert.KernelIdeal.Hand Cert.GraphCell
open Idealize.ShloMosaic Idealize.ShloMosaic.TcCoe Idealize.ShloMosaic.ValueIdx Idealize.SL.Sem Idealize.ShloMosaic.StableHlo
open Cert.HostNary

variable (m : (ℓ : Loc nD τ sig) → Buf (Elt Ideal) ℓ)

/-- The feature array the region finds: the four argument arrays' rows side by side. -/
theorem V_v0_read (c : Dev nD) (b : Fin 16) (n : Fin 1024) (k : Fin 146) :
    (V m c main_v0 : S16x1024x146.Idx → EReal) (ix3 b n k)
      = cat4 (fun k => (m ((c : Thread nD τ).loc main_arg0) : S16x1024x2.Idx → EReal) (ix3 b n k))
          (fun k => (m ((c : Thread nD τ).loc main_arg1) : S16x1024x64.Idx → EReal) (ix3 b n k))
          (fun k => (m ((c : Thread nD τ).loc main_arg2) : S16x1024x64.Idx → EReal) (ix3 b n k))
          (fun k => (m ((c : Thread nD τ).loc main_arg3) : S16x1024x16.Idx → EReal) (ix3 b n k)) k := by
  dsimp only [V, hostOps0]
  host_results
  exact Cert.ReferenceIdeal.RefValue.cat4_read _ _ _ _ _ b n k

set_option maxHeartbeats 4000000 in
/-- The gates' weight rows the region finds: the 780 argument rows folded to 650. -/
theorem V_v8_read (c : Dev nD) (j : Fin 650) (o : Fin 192) :
    (V m c main_v8 : S650x192.Idx → EReal) (ix2 j o)
      = foldedW (fun j o => (m ((c : Thread nD τ).loc main_arg7) : S780x192.Idx → EReal) (ix2 j o)) j o := by
  dsimp only [V, hostOps0]
  host_results
  exact fold_read (m ((c : Thread nD τ).loc main_arg7) : S780x192.Idx → EReal) slices_S780x192_S130x192_0_0
    slices_S780x192_S130x192_130_0 slices_S780x192_S130x192_260_0 slices_S780x192_S130x192_390_0
    slices_S780x192_S130x192_520_0 slices_S780x192_S130x192_650_0
    concatenates_S130x192_S130x192_S130x192_S130x192_S130x192_S650x192_d0 j o

set_option maxHeartbeats 8000000 in
/-- The update's weight rows the region finds: the 780 argument rows folded to 650. -/
theorem V_v16_read (c : Dev nD) (j : Fin 650) (o : Fin 64) :
    (V m c main_v16 : S650x64.Idx → EReal) (ix2 j o)
      = foldedW (fun j o => (m ((c : Thread nD τ).loc main_arg9) : S780x64.Idx → EReal) (ix2 j o)) j o := by
  dsimp only [V, hostOps0]
  host_results
  exact fold_read (m ((c : Thread nD τ).loc main_arg9) : S780x64.Idx → EReal) slices_S780x64_S130x64_0_0
    slices_S780x64_S130x64_130_0 slices_S780x64_S130x64_260_0 slices_S780x64_S130x64_390_0
    slices_S780x64_S130x64_520_0 slices_S780x64_S130x64_650_0
    concatenates_S130x64_S130x64_S130x64_S130x64_S130x64_S650x64_d0 j o

/-- The mixing bias as a one-row matrix. -/
theorem V_v17_read (c : Dev nD) (o : Fin 64) :
    (V m c main_v17 : S1x64.Idx → EReal) (ix2 (0 : Fin 1) o)
      = (m ((c : Thread nD τ).loc main_arg6) : S64.Idx → EReal) (ix1 o) := by
  dsimp only [V, hostOps0]
  host_results
  exact shapeCast_a_1a_apply _ _ (0 : Fin 1) o

/-- The gates' bias as a one-row matrix. -/
theorem V_v18_read (c : Dev nD) (o : Fin 192) :
    (V m c main_v18 : S1x192.Idx → EReal) (ix2 (0 : Fin 1) o)
      = (m ((c : Thread nD τ).loc main_arg8) : S192.Idx → EReal) (ix1 o) := by
  dsimp only [V, hostOps0]
  host_results
  exact shapeCast_a_1a_apply _ _ (0 : Fin 1) o

/-- The update's bias as a one-row matrix. -/
theorem V_v19_read (c : Dev nD) (o : Fin 64) :
    (V m c main_v19 : S1x64.Idx → EReal) (ix2 (0 : Fin 1) o)
      = (m ((c : Thread nD τ).loc main_arg10) : S64.Idx → EReal) (ix1 o) := by
  dsimp only [V, hostOps0]
  host_results
  exact shapeCast_a_1a_apply _ _ (0 : Fin 1) o

end Cert.KernelIdeal.KValue

end
-- ==== Proof.BlockCell.lean ====
/-
  From a tile's blocks to the arrays: if the blocks a tile holds are, entry by entry, the rows of batch element `b` of
  the argument arrays (the feature block the four feature arrays' rows side by side; the weight blocks the folded
  weight rows; the bias blocks the bias vectors as rows), then the cell computed from the blocks is output entry
  `(b, n, o)` of the cell computed from the arrays by the vector recurrence.
-/
import proofs.«150459_j80977313399318_2_alg».proof.Proof.SpecArr

noncomputable section

namespace Cert.GraphCell

open Idealize.ShloMosaic Idealize.ShloMosaic.ValueIdx

theorem cat4_lo (a : Fin 2 → EReal) (b c : Fin 64 → EReal) (d : Fin 16 → EReal) (k : Fin 2) :
    cat4 a b c d ⟨k.val, by have := k.isLt; omega⟩ = a k := by
  unfold cat4; rw [dif_pos k.isLt]

theorem cat4_s1 (a : Fin 2 → EReal) (b c : Fin 64 → EReal) (d : Fin 16 → EReal) (k : Fin 64) :
    cat4 a b c d ⟨2 + k.val, by have := k.isLt; omega⟩ = b k := by
  have hk := k.isLt
  unfold cat4
  rw [dif_neg (by show ¬ 2 + k.val < 2; omega), dif_pos (by show 2 + k.val < 66; omega)]
  exact congrArg b (Fin.ext (by show 2 + k.val - 2 = k.val; omega))

theorem cat4_s2 (a : Fin 2 → EReal) (b c : Fin 64 → EReal) (d : Fin 16 → EReal) (k : Fin 64) :
    cat4 a b c d ⟨66 + k.val, by have := k.isLt; omega⟩ = c k := by
  have hk := k.isLt
  unfold cat4
  rw [dif_neg (by show ¬ 66 + k.val < 2; omega), dif_neg (by show ¬ 66 + k.val < 66; omega),
    dif_pos (by show 66 + k.val < 130; omega)]
  exact congrArg c (Fin.ext (by show 66 + k.val - 66 = k.val; omega))

theorem cat4_g (a : Fin 2 → EReal) (b c : Fin 64 → EReal) (d : Fin 16 → EReal) (k : Fin 16) :
    cat4 a b c d ⟨130 + k.val, by have := k.isLt; omega⟩ = d k := by
  have hk := k.isLt
  unfold cat4
  rw [dif_neg (by show ¬ 130 + k.val < 2; omega), dif_neg (by show ¬ 130 + k.val < 66; omega),
    dif_neg (by show ¬ 130 + k.val < 130; omega)]
  exact congrArg d (Fin.ext (by show 130 + k.val - 130 = k.val; omega))

section

variable (a0 : (⟨3, ![16, 1024, 2]⟩ : Shape).Idx → EReal) (a1 a2 : (⟨3, ![16, 1024, 64]⟩ : Shape).Idx → EReal)
  (a3 : (⟨3, ![16, 1024, 16]⟩ : Shape).Idx → EReal) (a4 : (⟨4, ![2, 16, 1024, 1024]⟩ : Shape).Idx → EReal)
  (a5 : (⟨2, ![146, 64]⟩ : Shape).Idx → EReal) (a6 : (⟨1, ![64]⟩ : Shape).Idx → EReal)
  (a7 : (⟨2, ![780, 192]⟩ : Shape).Idx → EReal) (a8 : (⟨1, ![192]⟩ : Shape).Idx → EReal)
  (a9 : (⟨2, ![780, 64]⟩ : Shape).Idx → EReal) (a10 : (⟨1, ![64]⟩ : Shape).Idx → EReal)
  (v0 : (⟨3, ![1, 1024, 146]⟩ : Shape).Idx → EReal) (v7 : (⟨2, ![146, 64]⟩ : Shape).Idx → EReal)
  (v10 : (⟨2, ![1, 64]⟩ : Shape).Idx → EReal) (v20 v23 : (⟨4, ![1, 1, 1024, 1024]⟩ : Shape).Idx → EReal)
  (v41 : (⟨2, ![650, 192]⟩ : Shape).Idx → EReal) (v45 : (⟨2, ![1, 192]⟩ : Shape).Idx → EReal)
  (v71 : (⟨2, ![650, 64]⟩ : Shape).Idx → EReal) (v75 : (⟨2, ![1, 64]⟩ : Shape).Idx → EReal)

/-- The cell of a tile whose blocks are batch element `b`'s rows of the arrays is the arrays' cell at `(b, n, o)`. -/
theorem blockCell_eq_outK (b : Fin 16)
    (h0 : ∀ (n : Fin 1024) (k : Fin 146), v0 (ix3 (0 : Fin 1) n k)
      = cat4 (fun k => a0 (ix3 b n k)) (fun k => a1 (ix3 b n k)) (fun k => a2 (ix3 b n k)) (fun k => a3 (ix3 b n k)) k)
    (h20 : ∀ n m : Fin 1024, v20 (ix4 (0 : Fin 1) (0 : Fin 1) n m) = a4 (ix4 (0 : Fin 2) b n m))
    (h23 : ∀ n m : Fin 1024, v23 (ix4 (0 : Fin 1) (0 : Fin 1) n m) = a4 (ix4 (1 : Fin 2) b n m))
    (h7 : ∀ (k : Fin 146) (o : Fin 64), v7 (ix2 k o) = a5 (ix2 k o))
    (h10 : ∀ o : Fin 64, v10 (ix2 (0 : Fin 1) o) = a6 (ix1 o))
    (h41 : ∀ (j : Fin 650) (o : Fin 192), v41 (ix2 j o) = foldedW (fun j o => a7 (ix2 j o)) j o)
    (h45 : ∀ o : Fin 192, v45 (ix2 (0 : Fin 1) o) = a8 (ix1 o))
    (h71 : ∀ (j : Fin 650) (o : Fin 64), v71 (ix2 j o) = foldedW (fun j o => a9 (ix2 j o)) j o)
    (h75 : ∀ o : Fin 64, v75 (ix2 (0 : Fin 1) o) = a10 (ix1 o))
    (n : Fin 1024) (o : Fin 64) :
    blockCell v0 v7 v10 v20 v23 v41 v45 v71 v75 n o = outK a0 a1 a2 a3 a4 a5 a6 a7 a8 a9 a10 b n o := by
  have eA0 : (fun n m : Fin 1024 => v20 (ix4 (0 : Fin 1) (0 : Fin 1) n m)) = fun n m => a4 (ix4 (0 : Fin 2) b n m) :=
    funext fun n => funext fun m => h20 n m
  have eA1 : (fun n m : Fin 1024 => v23 (ix4 (0 : Fin 1) (0 : Fin 1) n m)) = fun n m => a4 (ix4 (1 : Fin 2) b n m) :=
    funext fun n => funext fun m => h23 n m
  have ex : (fun (n : Fin 1024) (k : Fin 2) => v0 (ix3 (0 : Fin 1) n (⟨k.val, by have := k.isLt; omega⟩ : Fin 146)))
      = fun n k => a0 (ix3 b n k) := funext fun n => funext fun k => (h0 n _).trans (cat4_lo _ _ _ _ k)
  have es1 : (fun (n : Fin 1024) (k : Fin 64) => v0 (ix3 (0 : Fin 1) n (⟨2 + k.val, by have := k.isLt; omega⟩ : Fin 146)))
      = fun n k => a1 (ix3 b n k) := funext fun n => funext fun k => (h0 n _).trans (cat4_s1 _ _ _ _ k)
  have es2 : (fun (n : Fin 1024) (k : Fin 64) => v0 (ix3 (0 : Fin 1) n (⟨66 + k.val, by have := k.isLt; omega⟩ : Fin 146)))
      = fun n k => a2 (ix3 b n k) := funext fun n => funext fun k => (h0 n _).trans (cat4_s2 _ _ _ _ k)
  have eg : (fun (n : Fin 1024) (k : Fin 16) => v0 (ix3 (0 : Fin 1) n (⟨130 + k.val, by have := k.isLt; omega⟩ : Fin 146)))
      = fun n k => a3 (ix3 b n k) := funext fun n => funext fun k => (h0 n _).trans (cat4_g _ _ _ _ k)
  have eWm : (fun (k : Fin 146) (o : Fin 64) => v7 (ix2 k o)) = fun k o => a5 (ix2 k o) :=
    funext fun k => funext fun o => h7 k o
  have ebm : (fun o : Fin 64 => v10 (ix2 (0 : Fin 1) o)) = fun o => a6 (ix1 o) := funext h10
  have eWg : (fun (j : Fin 650) (o : Fin 192) => v41 (ix2 j o)) = foldedW (fun j o => a7 (ix2 j o)) :=
    funext fun j => funext fun o => h41 j o
  have ebg : (fun o : Fin 192 => v45 (ix2 (0 : Fin 1) o)) = fun o => a8 (ix1 o) := funext h45
  have eWu : (fun (j : Fin 650) (o : Fin 64) => v71 (ix2 j o)) = foldedW (fun j o => a9 (ix2 j o)) :=
    funext fun j => funext fun o => h71 j o
  have ebu : (fun o : Fin 64 => v75 (ix2 (0 : Fin 1) o)) = fun o => a10 (ix1 o) := funext h75
  unfold blockCell outK
  rw [eA0, eA1, ex, es1, es2, eg, eWm, ebm, eWg, ebg, eWu, ebu]

end

end Cert.GraphCell

end
-- ==== Proof.KernelPayDot.lean ====
/-
  The four matrix products of the cell, each read at one output entry: into a zero accumulator a product is the
  plain sum over the contraction coordinate of the operands' entries, `∑ k, l (p, k) * r (k, q)`.
-/
import proofs.«150459_j80977313399318_2_alg».proof.Proof.Gen.KernelIdeal
import Idealize.ShloMosaic.Lib.ValueIdx
import Idealize.ShloMosaic.PureOps.Ideal.Laws

noncomputable section

open scoped BigOperators

namespace Cert.KernelIdeal.PayValue

open Cert.KernelIdeal Cert.KernelIdeal.Gen Idealize.ShloMosaic Idealize.ShloMosaic.ValueIdx

/-- A matrix as a function of its two coordinates. -/
def rowsOf {a b : Nat} (v : (⟨2, ![a, b]⟩ : Shape).Idx → EReal) (p : Fin a) (q : Fin b) : EReal := v (ix2 p q)

theorem rowsOf_apply {a b : Nat} (v : (⟨2, ![a, b]⟩ : Shape).Idx → EReal) (p : Fin a) (q : Fin b) :
    rowsOf v p q = v (ix2 p q) := rfl

/-- A one-row matrix as a function of its column. -/
def rowOf {b : Nat} (v : (⟨2, ![1, b]⟩ : Shape).Idx → EReal) (q : Fin b) : EReal := v (ix2 (0 : Fin 1) q)

/-! ### `1024x146 · 146x64` -/

theorem dotMix_lhs0 (i : S1024x64.Idx) (c : dot_S1024x146_S146x64_S1024x64_1_0_0_1_n_n.contr.Idx) : (dot_S1024x146_S146x64_S1024x64_1_0_0_1_n_n.lhsIdx i c 0).val = (i 0).val := by
  unfold DotDims.lhsIdx
  rw [dif_neg (show ¬(0 : Fin S1024x146.rank) ∈ dot_S1024x146_S146x64_S1024x64_1_0_0_1_n_n.lhsBatch by decide),
    dif_pos (show (0 : Fin S1024x146.rank) ∈ dot_S1024x146_S146x64_S1024x64_1_0_0_1_n_n.lhsNonContracting by decide)]
  rfl
theorem dotMix_lhs1 (i : S1024x64.Idx) (c : dot_S1024x146_S146x64_S1024x64_1_0_0_1_n_n.contr.Idx) : (dot_S1024x146_S146x64_S1024x64_1_0_0_1_n_n.lhsIdx i c 1).val = (c ⟨0, by decide⟩).val :=
  dot_S1024x146_S146x64_S1024x64_1_0_0_1_n_n.lhsIdx_val_of_single rfl i c
theorem dotMix_rhs0 (i : S1024x64.Idx) (c : dot_S1024x146_S146x64_S1024x64_1_0_0_1_n_n.contr.Idx) : (dot_S1024x146_S146x64_S1024x64_1_0_0_1_n_n.rhsIdx i c 0).val = (c ⟨0, by decide⟩).val :=
  dot_S1024x146_S146x64_S1024x64_1_0_0_1_n_n.rhsIdx_val_of_single rfl i c
theorem dotMix_rhs1 (i : S1024x64.Idx) (c : dot_S1024x146_S146x64_S1024x64_1_0_0_1_n_n.contr.Idx) : (dot_S1024x146_S146x64_S1024x64_1_0_0_1_n_n.rhsIdx i c 1).val = (i 1).val := by
  unfold DotDims.rhsIdx
  rw [dif_neg (show ¬(1 : Fin S146x64.rank) ∈ dot_S1024x146_S146x64_S1024x64_1_0_0_1_n_n.rhsBatch by decide),
    dif_pos (show (1 : Fin S146x64.rank) ∈ dot_S1024x146_S146x64_S1024x64_1_0_0_1_n_n.rhsNonContracting by decide)]
  rfl

/-- The product into a zero accumulator, read at `(p, q)`: the sum over the 146 contraction coordinates of
    `l (p, k) * r (k, q)`. -/
theorem dotMix_apply {φ₁ φ₂ : FTy} (l : FVec Ideal S1024x146 φ₁) (r : FVec Ideal S146x64 φ₂) (p : Fin 1024) (q : Fin 64) :
    matmul dot_S1024x146_S146x64_S1024x64_1_0_0_1_n_n none l r (constant (F := Ideal) S1024x64 .f32 0x00000000#32) (ix2 p q)
      = ∑ k : Fin 146, l (ix2 p k) * r (ix2 k q) := by
  refine (Ideal.matmul_constant_zero_apply dot_S1024x146_S146x64_S1024x64_1_0_0_1_n_n none l r (ix2 p q)).trans ?_
  rw [← Equiv.sum_comp (contrEquiv1 dot_S1024x146_S146x64_S1024x64_1_0_0_1_n_n 146 rfl rfl).symm]
  refine Finset.sum_congr rfl fun k _ => ?_
  have hk := contrEquiv1_symm_val dot_S1024x146_S146x64_S1024x64_1_0_0_1_n_n 146 rfl rfl k
  have el : dot_S1024x146_S146x64_S1024x64_1_0_0_1_n_n.lhsIdx (ix2 p q) ((contrEquiv1 dot_S1024x146_S146x64_S1024x64_1_0_0_1_n_n 146 rfl rfl).symm k) = ix2 p k :=
    funext fun a => Fin.ext (by
      match a with
      | ⟨0, _⟩ => exact dotMix_lhs0 _ _
      | ⟨1, _⟩ => exact (dotMix_lhs1 _ _).trans hk)
  have er : dot_S1024x146_S146x64_S1024x64_1_0_0_1_n_n.rhsIdx (ix2 p q) ((contrEquiv1 dot_S1024x146_S146x64_S1024x64_1_0_0_1_n_n 146 rfl rfl).symm k) = ix2 k q :=
    funext fun a => Fin.ext (by
      match a with
      | ⟨0, _⟩ => exact (dotMix_rhs0 _ _).trans hk
      | ⟨1, _⟩ => exact dotMix_rhs1 _ _)
  rw [el, er]

/-! ### `1024x1024 · 1024x130` -/

theorem dotHop_lhs0 (i : S1024x130.Idx) (c : dot_S1024x1024_S1024x130_S1024x130_1_0_0_1_n_n.contr.Idx) : (dot_S1024x1024_S1024x130_S1024x130_1_0_0_1_n_n.lhsIdx i c 0).val = (i 0).val := by
  unfold DotDims.lhsIdx
  rw [dif_neg (show ¬(0 : Fin S1024x1024.rank) ∈ dot_S1024x1024_S1024x130_S1024x130_1_0_0_1_n_n.lhsBatch by decide),
    dif_pos (show (0 : Fin S1024x1024.rank) ∈ dot_S1024x1024_S1024x130_S1024x130_1_0_0_1_n_n.lhsNonContracting by decide)]
  rfl
theorem dotHop_lhs1 (i : S1024x130.Idx) (c : dot_S1024x1024_S1024x130_S1024x130_1_0_0_1_n_n.contr.Idx) : (dot_S1024x1024_S1024x130_S1024x130_1_0_0_1_n_n.lhsIdx i c 1).val = (c ⟨0, by decide⟩).val :=
  dot_S1024x1024_S1024x130_S1024x130_1_0_0_1_n_n.lhsIdx_val_of_single rfl i c
theorem dotHop_rhs0 (i : S1024x130.Idx) (c : dot_S1024x1024_S1024x130_S1024x130_1_0_0_1_n_n.contr.Idx) : (dot_S1024x1024_S1024x130_S1024x130_1_0_0_1_n_n.rhsIdx i c 0).val = (c ⟨0, by decide⟩).val :=
  dot_S1024x1024_S1024x130_S1024x130_1_0_0_1_n_n.rhsIdx_val_of_single rfl i c
theorem dotHop_rhs1 (i : S1024x130.Idx) (c : dot_S1024x1024_S1024x130_S1024x130_1_0_0_1_n_n.contr.Idx) : (dot_S1024x1024_S1024x130_S1024x130_1_0_0_1_n_n.rhsIdx i c 1).val = (i 1).val := by
  unfold DotDims.rhsIdx
  rw [dif_neg (show ¬(1 : Fin S1024x130.rank) ∈ dot_S1024x1024_S1024x130_S1024x130_1_0_0_1_n_n.rhsBatch by decide),
    dif_pos (show (1 : Fin S1024x130.rank) ∈ dot_S1024x1024_S1024x130_S1024x130_1_0_0_1_n_n.rhsNonContracting by decide)]
  rfl

/-- The product into a zero accumulator, read at `(p, q)`: the sum over the 1024 contraction coordinates of
    `l (p, k) * r (k, q)`. -/
theorem dotHop_apply {φ₁ φ₂ : FTy} (l : FVec Ideal S1024x1024 φ₁) (r : FVec Ideal S1024x130 φ₂) (p : Fin 1024) (q : Fin 130) :
    matmul dot_S1024x1024_S1024x130_S1024x130_1_0_0_1_n_n none l r (constant (F := Ideal) S1024x130 .f32 0x00000000#32) (ix2 p q)
      = ∑ k : Fin 1024, l (ix2 p k) * r (ix2 k q) := by
  refine (Ideal.matmul_constant_zero_apply dot_S1024x1024_S1024x130_S1024x130_1_0_0_1_n_n none l r (ix2 p q)).trans ?_
  rw [← Equiv.sum_comp (contrEquiv1 dot_S1024x1024_S1024x130_S1024x130_1_0_0_1_n_n 1024 rfl rfl).symm]
  refine Finset.sum_congr rfl fun k _ => ?_
  have hk := contrEquiv1_symm_val dot_S1024x1024_S1024x130_S1024x130_1_0_0_1_n_n 1024 rfl rfl k
  have el : dot_S1024x1024_S1024x130_S1024x130_1_0_0_1_n_n.lhsIdx (ix2 p q) ((contrEquiv1 dot_S1024x1024_S1024x130_S1024x130_1_0_0_1_n_n 1024 rfl rfl).symm k) = ix2 p k :=
    funext fun a => Fin.ext (by
      match a with
      | ⟨0, _⟩ => exact dotHop_lhs0 _ _
      | ⟨1, _⟩ => exact (dotHop_lhs1 _ _).trans hk)
  have er : dot_S1024x1024_S1024x130_S1024x130_1_0_0_1_n_n.rhsIdx (ix2 p q) ((contrEquiv1 dot_S1024x1024_S1024x130_S1024x130_1_0_0_1_n_n 1024 rfl rfl).symm k) = ix2 k q :=
    funext fun a => Fin.ext (by
      match a with
      | ⟨0, _⟩ => exact (dotHop_rhs0 _ _).trans hk
      | ⟨1, _⟩ => exact dotHop_rhs1 _ _)
  rw [el, er]

/-! ### `1024x650 · 650x192` -/

theorem dotGate_lhs0 (i : S1024x192.Idx) (c : dot_S1024x650_S650x192_S1024x192_1_0_0_1_n_n.contr.Idx) : (dot_S1024x650_S650x192_S1024x192_1_0_0_1_n_n.lhsIdx i c 0).val = (i 0).val := by
  unfold DotDims.lhsIdx
  rw [dif_neg (show ¬(0 : Fin S1024x650.rank) ∈ dot_S1024x650_S650x192_S1024x192_1_0_0_1_n_n.lhsBatch by decide),
    dif_pos (show (0 : Fin S1024x650.rank) ∈ dot_S1024x650_S650x192_S1024x192_1_0_0_1_n_n.lhsNonContracting by decide)]
  rfl
theorem dotGate_lhs1 (i : S1024x192.Idx) (c : dot_S1024x650_S650x192_S1024x192_1_0_0_1_n_n.contr.Idx) : (dot_S1024x650_S650x192_S1024x192_1_0_0_1_n_n.lhsIdx i c 1).val = (c ⟨0, by decide⟩).val :=
  dot_S1024x650_S650x192_S1024x192_1_0_0_1_n_n.lhsIdx_val_of_single rfl i c
theorem dotGate_rhs0 (i : S1024x192.Idx) (c : dot_S1024x650_S650x192_S1024x192_1_0_0_1_n_n.contr.Idx) : (dot_S1024x650_S650x192_S1024x192_1_0_0_1_n_n.rhsIdx i c 0).val = (c ⟨0, by decide⟩).val :=
  dot_S1024x650_S650x192_S1024x192_1_0_0_1_n_n.rhsIdx_val_of_single rfl i c
theorem dotGate_rhs1 (i : S1024x192.Idx) (c : dot_S1024x650_S650x192_S1024x192_1_0_0_1_n_n.contr.Idx) : (dot_S1024x650_S650x192_S1024x192_1_0_0_1_n_n.rhsIdx i c 1).val = (i 1).val := by
  unfold DotDims.rhsIdx
  rw [dif_neg (show ¬(1 : Fin S650x192.rank) ∈ dot_S1024x650_S650x192_S1024x192_1_0_0_1_n_n.rhsBatch by decide),
    dif_pos (show (1 : Fin S650x192.rank) ∈ dot_S1024x650_S650x192_S1024x192_1_0_0_1_n_n.rhsNonContracting by decide)]
  rfl

/-- The product into a zero accumulator, read at `(p, q)`: the sum over the 650 contraction coordinates of
    `l (p, k) * r (k, q)`. -/
theorem dotGate_apply {φ₁ φ₂ : FTy} (l : FVec Ideal S1024x650 φ₁) (r : FVec Ideal S650x192 φ₂) (p : Fin 1024) (q : Fin 192) :
    matmul dot_S1024x650_S650x192_S1024x192_1_0_0_1_n_n none l r (constant (F := Ideal) S1024x192 .f32 0x00000000#32) (ix2 p q)
      = ∑ k : Fin 650, l (ix2 p k) * r (ix2 k q) := by
  refine (Ideal.matmul_constant_zero_apply dot_S1024x650_S650x192_S1024x192_1_0_0_1_n_n none l r (ix2 p q)).trans ?_
  rw [← Equiv.sum_comp (contrEquiv1 dot_S1024x650_S650x192_S1024x192_1_0_0_1_n_n 650 rfl rfl).symm]
  refine Finset.sum_congr rfl fun k _ => ?_
  have hk := contrEquiv1_symm_val dot_S1024x650_S650x192_S1024x192_1_0_0_1_n_n 650 rfl rfl k
  have el : dot_S1024x650_S650x192_S1024x192_1_0_0_1_n_n.lhsIdx (ix2 p q) ((contrEquiv1 dot_S1024x650_S650x192_S1024x192_1_0_0_1_n_n 650 rfl rfl).symm k) = ix2 p k :=
    funext fun a => Fin.ext (by
      match a with
      | ⟨0, _⟩ => exact dotGate_lhs0 _ _
      | ⟨1, _⟩ => exact (dotGate_lhs1 _ _).trans hk)
  have er : dot_S1024x650_S650x192_S1024x192_1_0_0_1_n_n.rhsIdx (ix2 p q) ((contrEquiv1 dot_S1024x650_S650x192_S1024x192_1_0_0_1_n_n 650 rfl rfl).symm k) = ix2 k q :=
    funext fun a => Fin.ext (by
      match a with
      | ⟨0, _⟩ => exact (dotGate_rhs0 _ _).trans hk
      | ⟨1, _⟩ => exact dotGate_rhs1 _ _)
  rw [el, er]

/-! ### `1024x650 · 650x64` -/

theorem dotUpd_lhs0 (i : S1024x64.Idx) (c : dot_S1024x650_S650x64_S1024x64_1_0_0_1_n_n.contr.Idx) : (dot_S1024x650_S650x64_S1024x64_1_0_0_1_n_n.lhsIdx i c 0).val = (i 0).val := by
  unfold DotDims.lhsIdx
  rw [dif_neg (show ¬(0 : Fin S1024x650.rank) ∈ dot_S1024x650_S650x64_S1024x64_1_0_0_1_n_n.lhsBatch by decide),
    dif_pos (show (0 : Fin S1024x650.rank) ∈ dot_S1024x650_S650x64_S1024x64_1_0_0_1_n_n.lhsNonContracting by decide)]
  rfl
theorem dotUpd_lhs1 (i : S1024x64.Idx) (c : dot_S1024x650_S650x64_S1024x64_1_0_0_1_n_n.contr.Idx) : (dot_S1024x650_S650x64_S1024x64_1_0_0_1_n_n.lhsIdx i c 1).val = (c ⟨0, by decide⟩).val :=
  dot_S1024x650_S650x64_S1024x64_1_0_0_1_n_n.lhsIdx_val_of_single rfl i c
theorem dotUpd_rhs0 (i : S1024x64.Idx) (c : dot_S1024x650_S650x64_S1024x64_1_0_0_1_n_n.contr.Idx) : (dot_S1024x650_S650x64_S1024x64_1_0_0_1_n_n.rhsIdx i c 0).val = (c ⟨0, by decide⟩).val :=
  dot_S1024x650_S650x64_S1024x64_1_0_0_1_n_n.rhsIdx_val_of_single rfl i c
theorem dotUpd_rhs1 (i : S1024x64.Idx) (c : dot_S1024x650_S650x64_S1024x64_1_0_0_1_n_n.contr.Idx) : (dot_S1024x650_S650x64_S1024x64_1_0_0_1_n_n.rhsIdx i c 1).val = (i 1).val := by
  unfold DotDims.rhsIdx
  rw [dif_neg (show ¬(1 : Fin S650x64.rank) ∈ dot_S1024x650_S650x64_S1024x64_1_0_0_1_n_n.rhsBatch by decide),
    dif_pos (show (1 : Fin S650x64.rank) ∈ dot_S1024x650_S650x64_S1024x64_1_0_0_1_n_n.rhsNonContracting by decide)]
  rfl

/-- The product into a zero accumulator, read at `(p, q)`: the sum over the 650 contraction coordinates of
    `l (p, k) * r (k, q)`. -/
theorem dotUpd_apply {φ₁ φ₂ : FTy} (l : FVec Ideal S1024x650 φ₁) (r : FVec Ideal S650x64 φ₂) (p : Fin 1024) (q : Fin 64) :
    matmul dot_S1024x650_S650x64_S1024x64_1_0_0_1_n_n none l r (constant (F := Ideal) S1024x64 .f32 0x00000000#32) (ix2 p q)
      = ∑ k : Fin 650, l (ix2 p k) * r (ix2 k q) := by
  refine (Ideal.matmul_constant_zero_apply dot_S1024x650_S650x64_S1024x64_1_0_0_1_n_n none l r (ix2 p q)).trans ?_
  rw [← Equiv.sum_comp (contrEquiv1 dot_S1024x650_S650x64_S1024x64_1_0_0_1_n_n 650 rfl rfl).symm]
  refine Finset.sum_congr rfl fun k _ => ?_
  have hk := contrEquiv1_symm_val dot_S1024x650_S650x64_S1024x64_1_0_0_1_n_n 650 rfl rfl k
  have el : dot_S1024x650_S650x64_S1024x64_1_0_0_1_n_n.lhsIdx (ix2 p q) ((contrEquiv1 dot_S1024x650_S650x64_S1024x64_1_0_0_1_n_n 650 rfl rfl).symm k) = ix2 p k :=
    funext fun a => Fin.ext (by
      match a with
      | ⟨0, _⟩ => exact dotUpd_lhs0 _ _
      | ⟨1, _⟩ => exact (dotUpd_lhs1 _ _).trans hk)
  have er : dot_S1024x650_S650x64_S1024x64_1_0_0_1_n_n.rhsIdx (ix2 p q) ((contrEquiv1 dot_S1024x650_S650x64_S1024x64_1_0_0_1_n_n 650 rfl rfl).symm k) = ix2 k q :=
    funext fun a => Fin.ext (by
      match a with
      | ⟨0, _⟩ => exact (dotUpd_rhs0 _ _).trans hk
      | ⟨1, _⟩ => exact dotUpd_rhs1 _ _)
  rw [el, er]

end Cert.KernelIdeal.PayValue

end
-- ==== Proof.KernelPaySlices.lean ====
/-
  The layout steps of the cell read at an index. The feature block `v0` is [1, 1024, 146]: its row `n` holds
  the input `x n` (columns 0-1), the two states `s1 n`, `s2 n` (columns 2-65 and 66-129) and the embedding `g n`
  (columns 130-145). Dropping the unit axis and cutting column ranges reads `v0` at `(0, n, offset + k)`; laying
  the four ranges side by side again gives the row back, and the first three give its first 130 columns.
-/
import proofs.«150459_j80977313399318_2_alg».proof.Proof.Gen.KernelIdeal.Skeleton
import proofs.«150459_j80977313399318_2_alg».proof.Proof.SpecArr
import proofs.«150459_j80977313399318_2_alg».proof.Proof.KernelPayDot
import Idealize.ShloMosaic.Lib.ValueIdx
import Idealize.ShloMosaic.Lib.Pipeline.Value
import Idealize.ShloMosaic.Lib.ValueLayout

noncomputable section

open scoped BigOperators

namespace Cert.KernelIdeal.PayValue

open Cert.KernelIdeal Cert.KernelIdeal.Gen Cert.GraphCell Idealize.ShloMosaic Idealize.ShloMosaic.ValueIdx

/-- The input columns of the feature block. -/
def xOf (v0 : Vec Ideal S1x1024x146 .f32) (n : Fin 1024) (k : Fin 2) : EReal :=
  v0 (ix3 (0 : Fin 1) n (⟨k.val, by have := k.isLt; omega⟩ : Fin 146))
/-- The first state's columns. -/
def s1Of (v0 : Vec Ideal S1x1024x146 .f32) (n : Fin 1024) (k : Fin 64) : EReal :=
  v0 (ix3 (0 : Fin 1) n (⟨2 + k.val, by have := k.isLt; omega⟩ : Fin 146))
/-- The second state's columns. -/
def s2Of (v0 : Vec Ideal S1x1024x146 .f32) (n : Fin 1024) (k : Fin 64) : EReal :=
  v0 (ix3 (0 : Fin 1) n (⟨66 + k.val, by have := k.isLt; omega⟩ : Fin 146))
/-- The embedding's columns. -/
def gOf (v0 : Vec Ideal S1x1024x146 .f32) (n : Fin 1024) (k : Fin 16) : EReal :=
  v0 (ix3 (0 : Fin 1) n (⟨130 + k.val, by have := k.isLt; omega⟩ : Fin 146))
/-- An adjacency block [1, 1, 1024, 1024] as a matrix. -/
def adjOf (v : Vec Ideal S1x1x1024x1024 .f32) (n m : Fin 1024) : EReal := v (ix4 (0 : Fin 1) (0 : Fin 1) n m)

/-! ## The feature block without its unit axis, and its column ranges -/

theorem pay2_apply (v0 : Vec Ideal S1x1024x146 .f32) (n : Fin 1024) (k : Fin 146) :
    k0_pay2 v0 (ix2 n k) = v0 (ix3 (0 : Fin 1) n k) := by
  unfold k0_pay2
  exact shapeCast_1ab_ab_apply v0 shapeCasts_S1x1024x146_S1024x146 n k

theorem pay3_apply (v0 : Vec Ideal S1x1024x146 .f32) (n : Fin 1024) (k : Fin 2) :
    k0_pay3 v0 (ix2 n k) = xOf v0 n k := by
  unfold k0_pay3
  refine (slice2_axis1_apply 0 (k0_pay2 v0) slices_S1024x146_o0_0_S1024x2 n k
    (⟨k.val, by have := k.isLt; omega⟩ : Fin 146) (Nat.zero_add _).symm).trans ?_
  exact pay2_apply v0 n _

theorem pay4_apply (v0 : Vec Ideal S1x1024x146 .f32) (n : Fin 1024) (k : Fin 64) :
    k0_pay4 v0 (ix2 n k) = s1Of v0 n k := by
  unfold k0_pay4
  refine (slice2_axis1_apply 2 (k0_pay2 v0) slices_S1024x146_o0_2_S1024x64 n k
    (⟨2 + k.val, by have := k.isLt; omega⟩ : Fin 146) rfl).trans ?_
  exact pay2_apply v0 n _

theorem pay5_apply (v0 : Vec Ideal S1x1024x146 .f32) (n : Fin 1024) (k : Fin 64) :
    k0_pay5 v0 (ix2 n k) = s2Of v0 n k := by
  unfold k0_pay5
  refine (slice2_axis1_apply 66 (k0_pay2 v0) slices_S1024x146_o0_66_S1024x64 n k
    (⟨66 + k.val, by have := k.isLt; omega⟩ : Fin 146) rfl).trans ?_
  exact pay2_apply v0 n _

theorem pay6_apply (v0 : Vec Ideal S1x1024x146 .f32) (n : Fin 1024) (c : Fin 130) :
    k0_pay6 v0 (ix2 n c) = v0 (ix3 (0 : Fin 1) n (⟨c.val, by have := c.isLt; omega⟩ : Fin 146)) := by
  unfold k0_pay6
  refine (slice2_axis1_apply 0 (k0_pay2 v0) slices_S1024x146_o0_0_S1024x130 n c
    (⟨c.val, by have := c.isLt; omega⟩ : Fin 146) (Nat.zero_add _).symm).trans ?_
  exact pay2_apply v0 n _

/-! ## The column ranges side by side -/

/-- The four ranges of row `n` laid side by side are the row. -/
theorem cat4_row (v0 : Vec Ideal S1x1024x146 .f32) (n : Fin 1024) (k : Fin 146) :
    cat4 (xOf v0 n) (s1Of v0 n) (s2Of v0 n) (gOf v0 n) k = v0 (ix3 (0 : Fin 1) n k) := by
  have hk := k.isLt
  unfold cat4
  split_ifs with h1 h2 h3
  · rfl
  · exact congrArg (fun c : Fin 146 => v0 (ix3 (0 : Fin 1) n c)) (Fin.ext (by show 2 + (k.val - 2) = k.val; omega))
  · exact congrArg (fun c : Fin 146 => v0 (ix3 (0 : Fin 1) n c)) (Fin.ext (by show 66 + (k.val - 66) = k.val; omega))
  · exact congrArg (fun c : Fin 146 => v0 (ix3 (0 : Fin 1) n c)) (Fin.ext (by show 130 + (k.val - 130) = k.val; omega))

/-- The first three ranges of row `n` side by side are the row's first 130 columns. -/
theorem cat3_row (v0 : Vec Ideal S1x1024x146 .f32) (n : Fin 1024) (c : Fin 130) :
    cat3 (xOf v0 n) (s1Of v0 n) (s2Of v0 n) c
      = v0 (ix3 (0 : Fin 1) n (⟨c.val, by have := c.isLt; omega⟩ : Fin 146)) := by
  have hc := c.isLt
  unfold cat3
  split_ifs with h1 h2
  · rfl
  · exact congrArg (fun c : Fin 146 => v0 (ix3 (0 : Fin 1) n c)) (Fin.ext (by show 2 + (c.val - 2) = c.val; omega))
  · exact congrArg (fun c : Fin 146 => v0 (ix3 (0 : Fin 1) n c)) (Fin.ext (by show 66 + (c.val - 66) = c.val; omega))

/-- The 130-column cut of the feature block is the node features `[x | s1 | s2]`. -/
theorem pay6_rows (v0 : Vec Ideal S1x1024x146 .f32) :
    rowsOf (k0_pay6 v0) = feat (xOf v0) (s1Of v0) (s2Of v0) := by
  funext n c
  exact (pay6_apply v0 n c).trans (cat3_row v0 n c).symm

/-! ## The adjacency blocks as matrices -/

theorem pay8_apply (v20 : Vec Ideal S1x1x1024x1024 .f32) (n m : Fin 1024) :
    k0_pay8 v20 (ix2 n m) = adjOf v20 n m := by
  unfold k0_pay8
  exact shapeCast_apply v20 shapeCasts_S1x1x1024x1024_S1024x1024 (ix2 n m) (ix4 (0 : Fin 1) (0 : Fin 1) n m) (by
    rw [Shape.rowMajor_val_four, Shape.rowMajor_val_two]
    show ((0 * 1 + 0) * 1024 + n.val) * 1024 + m.val = n.val * 1024 + m.val
    omega)

theorem pay9_apply (v23 : Vec Ideal S1x1x1024x1024 .f32) (n m : Fin 1024) :
    k0_pay9 v23 (ix2 n m) = adjOf v23 n m := by
  unfold k0_pay9
  exact shapeCast_apply v23 shapeCasts_S1x1x1024x1024_S1024x1024 (ix2 n m) (ix4 (0 : Fin 1) (0 : Fin 1) n m) (by
    rw [Shape.rowMajor_val_four, Shape.rowMajor_val_two]
    show ((0 * 1 + 0) * 1024 + n.val) * 1024 + m.val = n.val * 1024 + m.val
    omega)

theorem pay8_rows (v20 : Vec Ideal S1x1x1024x1024 .f32) : rowsOf (k0_pay8 v20) = adjOf v20 := by
  funext n m; exact pay8_apply v20 n m

theorem pay9_rows (v23 : Vec Ideal S1x1x1024x1024 .f32) : rowsOf (k0_pay9 v23) = adjOf v23 := by
  funext n m; exact pay9_apply v23 n m

/-- The change of format before a product is the identity on the ideal values. -/
theorem pay10_apply (v0 : Vec Ideal S1x1024x146 .f32) (n : Fin 1024) (c : Fin 130) :
    k0_pay10 v0 (ix2 n c) = k0_pay6 v0 (ix2 n c) := rfl

end Cert.KernelIdeal.PayValue

end
-- ==== Proof.KernelPayMix.lean ====
/-
  The mixing stage of the cell read at an entry: the blended state `mr · s1 + (1 − mr) · s2` with the mixing gate
  `mr = σ([x | s1 | s2 | g] · Wm + bm)`, and the final blend `r · state + (1 − r) · hc`.
-/
import proofs.«150459_j80977313399318_2_alg».proof.Proof.Gen.KernelIdeal.Skeleton
import proofs.«150459_j80977313399318_2_alg».proof.Proof.SpecArr
import proofs.«150459_j80977313399318_2_alg».proof.Proof.KernelPayDot
import proofs.«150459_j80977313399318_2_alg».proof.Proof.KernelPaySlices
import Idealize.ShloMosaic.Lib.ValueIdx
import Idealize.ShloMosaic.Lib.Pipeline.Value
import Idealize.ShloMosaic.Lib.ValueLayout

noncomputable section

open scoped BigOperators

namespace Cert.KernelIdeal.PayValue

open Cert.KernelIdeal Cert.KernelIdeal.Gen Cert.GraphCell Idealize.ShloMosaic Idealize.ShloMosaic.ValueIdx

/-- The blended state at an index, over the product and the bias row still as arrays: every step after them is
    entrywise. -/
theorem pay7_shape (v0 : Vec Ideal S1x1024x146 .f32) (v7 : Vec Ideal S146x64 .f32) (v10 : Vec Ideal S1x64 .f32)
    (i : S1024x64.Idx) :
    k0_pay7 v0 v7 v10 i
      = blend ONE
          (Ideal.logistic
            (matmul dot_S1024x146_S146x64_S1024x64_1_0_0_1_n_n none (truncf .bf16 (k0_pay2 v0) bitsLt_bf16_f32)
                (truncf .bf16 v7 bitsLt_bf16_f32) (constant (F := Ideal) S1024x64 .f32 0x00000000#32) i
              + broadcastTo S1024x64 (shapeCast S1x64 v10 shapeCasts_S1x64_S1x64) broadcasts_S1x64_S1024x64 i))
          (k0_pay4 v0 i) (k0_pay5 v0 i) := rfl

/-- The product of the feature row with the mixing weights, read at `(n, o)`. -/
theorem pay7_dot (v0 : Vec Ideal S1x1024x146 .f32) (v7 : Vec Ideal S146x64 .f32) (n : Fin 1024) (o : Fin 64) :
    matmul dot_S1024x146_S146x64_S1024x64_1_0_0_1_n_n none (truncf .bf16 (k0_pay2 v0) bitsLt_bf16_f32)
        (truncf .bf16 v7 bitsLt_bf16_f32) (constant (F := Ideal) S1024x64 .f32 0x00000000#32) (ix2 n o)
      = ∑ k : Fin 146, cat4 (xOf v0 n) (s1Of v0 n) (s2Of v0 n) (gOf v0 n) k * v7 (ix2 k o) := by
  refine (dotMix_apply _ _ n o).trans (Finset.sum_congr rfl fun k _ => ?_)
  show k0_pay2 v0 (ix2 n k) * v7 (ix2 k o) = _
  rw [pay2_apply, cat4_row]

/-- The bias row broadcast over the nodes, read at `(n, o)`. -/
theorem pay7_bias (v10 : Vec Ideal S1x64 .f32) (n : Fin 1024) (o : Fin 64) :
    broadcastTo S1024x64 (shapeCast S1x64 v10 shapeCasts_S1x64_S1x64) broadcasts_S1x64_S1024x64 (ix2 n o)
      = v10 (ix2 (0 : Fin 1) o) := by
  refine (broadcastTo_1b_ab_apply _ broadcasts_S1x64_S1024x64 n o).trans ?_
  rw [shapeCast_self]

theorem pay7_eq (v0 : Vec Ideal S1x1024x146 .f32) (v7 : Vec Ideal S146x64 .f32) (v10 : Vec Ideal S1x64 .f32)
    (n : Fin 1024) (o : Fin 64) :
    k0_pay7 v0 v7 v10 (ix2 n o)
      = Cert.GraphCell.mixState Cert.GraphCell.ONE (xOf v0) (s1Of v0) (s2Of v0) (gOf v0)
          (fun k o => v7 (ix2 k o)) (fun o => v10 (ix2 (0 : Fin 1) o)) n o := by
  rw [pay7_shape, pay7_dot, pay7_bias, pay4_apply, pay5_apply]
  rfl

theorem pay1_apply (v19 v52 v79 : FVec Ideal S1024x64 .f32) (n : Fin 1024) (o : Fin 64) :
    k0_pay1 v19 v52 v79 (ix3 (0 : Fin 1) n o)
      = Cert.GraphCell.blend Cert.GraphCell.ONE (v52 (ix2 n o)) (v19 (ix2 n o)) (v79 (ix2 n o)) := by
  unfold k0_pay1
  refine (shapeCast_ab_1ab_apply _ shapeCasts_S1024x64_S1x1024x64 (0 : Fin 1) n o).trans ?_
  rfl

end Cert.KernelIdeal.PayValue

end
-- ==== Proof.KernelPayConv.lean ====
/-
  The graph convolution's pieces at the level of whole matrices, over arbitrary operands: one hop `A · Y` and the
  second Chebyshev vector `two · A (A Y) − Y` as the products compute them (a change of format is the identity on the
  ideal values); five 130-column matrices laid side by side read `blocks5` of their rows, three of widths 2, 64, 64
  read `cat3`; and the 650 laid-out features against the weights plus the bias row is the dense layer.
-/
import proofs.«150459_j80977313399318_2_alg».proof.Proof.KernelPayDot
import proofs.«150459_j80977313399318_2_alg».proof.Proof.Spec
import Idealize.ShloMosaic.Lib.ValueIdx
import Idealize.ShloMosaic.Lib.Pipeline.Value
import Idealize.ShloMosaic.Lib.ValueLayout

noncomputable section

open scoped BigOperators

namespace Cert.KernelIdeal.PayValue

open Cert.KernelIdeal Cert.KernelIdeal.Gen Cert.GraphCell Idealize.ShloMosaic Idealize.ShloMosaic.ValueIdx

/-! ## Hops -/

/-- One hop: the product of an adjacency matrix with a feature matrix is `hop`. -/
theorem hopV_apply (A : FVec Ideal S1024x1024 .bf16) (Y : FVec Ideal S1024x130 .f32) (h : FTy.bits .bf16 < FTy.bits .f32)
    (n : Fin 1024) (c : Fin 130) :
    (matmul dot_S1024x1024_S1024x130_S1024x130_1_0_0_1_n_n none A (truncf .bf16 Y h) (constant (F := Ideal) S1024x130 .f32 0x00000000#32)) (ix2 n c) = hop (rowsOf A) (rowsOf Y) n c :=
  dotHop_apply A (truncf .bf16 Y h) n c

theorem hopV_rows (A : FVec Ideal S1024x1024 .bf16) (Y : FVec Ideal S1024x130 .f32) (h : FTy.bits .bf16 < FTy.bits .f32) :
    rowsOf (matmul dot_S1024x1024_S1024x130_S1024x130_1_0_0_1_n_n none A (truncf .bf16 Y h) (constant (F := Ideal) S1024x130 .f32 0x00000000#32)) = hop (rowsOf A) (rowsOf Y) := by
  funext n c; exact hopV_apply A Y h n c

/-- Two hops. -/
theorem hopHopV_apply (A : FVec Ideal S1024x1024 .bf16) (Y : FVec Ideal S1024x130 .f32) (h h' : FTy.bits .bf16 < FTy.bits .f32)
    (n : Fin 1024) (c : Fin 130) :
    (matmul dot_S1024x1024_S1024x130_S1024x130_1_0_0_1_n_n none A (truncf .bf16 (matmul dot_S1024x1024_S1024x130_S1024x130_1_0_0_1_n_n none A (truncf .bf16 Y h) (constant (F := Ideal) S1024x130 .f32 0x00000000#32)) h') (constant (F := Ideal) S1024x130 .f32 0x00000000#32)) (ix2 n c) = hop (rowsOf A) (hop (rowsOf A) (rowsOf Y)) n c := by
  refine (hopV_apply A _ h' n c).trans ?_
  rw [hopV_rows]

/-- The second Chebyshev vector by the recurrence. -/
theorem hop2V_apply (two : Ideal .f32) (A : FVec Ideal S1024x1024 .bf16) (Y : FVec Ideal S1024x130 .f32)
    (h h' : FTy.bits .bf16 < FTy.bits .f32) (n : Fin 1024) (c : Fin 130) :
    subf (mulf (broadcast S1024x130 two) (matmul dot_S1024x1024_S1024x130_S1024x130_1_0_0_1_n_n none A (truncf .bf16 (matmul dot_S1024x1024_S1024x130_S1024x130_1_0_0_1_n_n none A (truncf .bf16 Y h) (constant (F := Ideal) S1024x130 .f32 0x00000000#32)) h') (constant (F := Ideal) S1024x130 .f32 0x00000000#32))) Y (ix2 n c)
      = hop2 two (rowsOf A) (rowsOf Y) n c :=
  congrArg (fun t => two * t - Y (ix2 n c)) (hopHopV_apply A Y h h' n c)

/-- The same from a matrix already known to be two hops. -/
theorem hop2_of_hopHop (two : Ideal .f32) (A : Fin 1024 → Fin 1024 → EReal) (Yf : Fin 1024 → Fin 130 → EReal)
    (HH Y : FVec Ideal S1024x130 .f32) (hHH : rowsOf HH = hop A (hop A Yf)) (hY : rowsOf Y = Yf) (n : Fin 1024) (c : Fin 130) :
    subf (mulf (broadcast S1024x130 two) HH) Y (ix2 n c) = hop2 two A Yf n c := by
  show two * rowsOf HH n c - rowsOf Y n c = two * hop A (hop A Yf) n c - Yf n c
  rw [hHH, hY]

/-! ## Matrices side by side -/

/-- Five rows by their number. -/
def rows5 (f0 f1 f2 f3 f4 : Fin 130 → EReal) (p : Fin 5) : Fin 130 → EReal :=
  match p with
  | ⟨0, _⟩ => f0
  | ⟨1, _⟩ => f1
  | ⟨2, _⟩ => f2
  | ⟨3, _⟩ => f3
  | ⟨4, _⟩ => f4
  | ⟨_ + 5, h⟩ => absurd h (Nat.not_lt.2 (Nat.le_add_left _ _))

/-- The recurrence's five feature rows are `rows5` of the feature row, its hops and second Chebyshev vectors. -/
theorem featsK_eq_rows5 (two : EReal) (A0 A1 : Fin 1024 → Fin 1024 → EReal) (Y : Fin 1024 → Fin 130 → EReal) (n : Fin 1024) :
    featsK two A0 A1 Y n = rows5 (Y n) (hop A0 Y n) (hop2 two A0 Y n) (hop A1 Y n) (hop2 two A1 Y n) := by
  funext p
  match p with
  | ⟨0, _⟩ => rfl
  | ⟨1, _⟩ => rfl
  | ⟨2, _⟩ => rfl
  | ⟨3, _⟩ => rfl
  | ⟨4, _⟩ => rfl
  | ⟨_ + 5, h⟩ => exact absurd h (Nat.not_lt.2 (Nat.le_add_left _ _))

/-- Column `130 p + q` of five blocks side by side is block `p` at `q`. -/
theorem blocks5_of (f : Fin 5 → Fin 130 → EReal) (j : Fin 650) (p : Fin 5) (q : Fin 130) (h : j.val = 130 * p.val + q.val) :
    blocks5 f j = f p q := by
  have hq := q.isLt
  have hp := p.isLt
  exact congrArg₂ f (Fin.ext (by show j.val / 130 = p.val; omega)) (Fin.ext (by show j.val % 130 = q.val; omega))

/-- Five 130-column matrices side by side, read at `(n, j)`. -/
theorem concat5_apply (y0 y1 y2 y3 y4 : FVec Ideal S1024x130 .f32)
    (hc : Shape.Concatenates [S1024x130, S1024x130, S1024x130, S1024x130, S1024x130] S1024x650 1) (n : Fin 1024) (j : Fin 650) :
    concatenate S1024x650 1 [⟨S1024x130, y0⟩, ⟨S1024x130, y1⟩, ⟨S1024x130, y2⟩, ⟨S1024x130, y3⟩, ⟨S1024x130, y4⟩] hc (ix2 n j)
      = blocks5 (rows5 (rowsOf y0 n) (rowsOf y1 n) (rowsOf y2 n) (rowsOf y3 n) (rowsOf y4 n)) j := by
  have hj := j.isLt
  by_cases h0 : j.val < 130
  · exact (concatenate_apply_piece (1 : Fin S1024x650.rank) [⟨S1024x130, y0⟩, ⟨S1024x130, y1⟩, ⟨S1024x130, y2⟩, ⟨S1024x130, y3⟩, ⟨S1024x130, y4⟩] hc (ix2 n j) 0 (by show 0 < 5; omega) S1024x130 y0 rfl rfl 0 rfl
      (ix2 n ⟨j.val - 0, by omega⟩) (fun b hb => by
      match b with
      | ⟨0, _⟩ => rfl
      | ⟨1, _⟩ => exact absurd rfl hb)
      (by show 0 + (j.val - 0) = j.val; omega)).trans
      (blocks5_of (rows5 (rowsOf y0 n) (rowsOf y1 n) (rowsOf y2 n) (rowsOf y3 n) (rowsOf y4 n)) j ⟨0, by decide⟩ ⟨j.val - 0, by omega⟩ (by show j.val = 130 * 0 + (j.val - 0); omega)).symm
  by_cases h1 : j.val < 260
  · exact (concatenate_apply_piece (1 : Fin S1024x650.rank) [⟨S1024x130, y0⟩, ⟨S1024x130, y1⟩, ⟨S1024x130, y2⟩, ⟨S1024x130, y3⟩, ⟨S1024x130, y4⟩] hc (ix2 n j) 1 (by show 1 < 5; omega) S1024x130 y1 rfl rfl 130 rfl
      (ix2 n ⟨j.val - 130, by omega⟩) (fun b hb => by
      match b with
      | ⟨0, _⟩ => rfl
      | ⟨1, _⟩ => exact absurd rfl hb)
      (by show 130 + (j.val - 130) = j.val; omega)).trans
      (blocks5_of (rows5 (rowsOf y0 n) (rowsOf y1 n) (rowsOf y2 n) (rowsOf y3 n) (rowsOf y4 n)) j ⟨1, by decide⟩ ⟨j.val - 130, by omega⟩ (by show j.val = 130 * 1 + (j.val - 130); omega)).symm
  by_cases h2 : j.val < 390
  · exact (concatenate_apply_piece (1 : Fin S1024x650.rank) [⟨S1024x130, y0⟩, ⟨S1024x130, y1⟩, ⟨S1024x130, y2⟩, ⟨S1024x130, y3⟩, ⟨S1024x130, y4⟩] hc (ix2 n j) 2 (by show 2 < 5; omega) S1024x130 y2 rfl rfl 260 rfl
      (ix2 n ⟨j.val - 260, by omega⟩) (fun b hb => by
      match b with
      | ⟨0, _⟩ => rfl
      | ⟨1, _⟩ => exact absurd rfl hb)
      (by show 260 + (j.val - 260) = j.val; omega)).trans
      (blocks5_of (rows5 (rowsOf y0 n) (rowsOf y1 n) (rowsOf y2 n) (rowsOf y3 n) (rowsOf y4 n)) j ⟨2, by decide⟩ ⟨j.val - 260, by omega⟩ (by show j.val = 130 * 2 + (j.val - 260); omega)).symm
  by_cases h3 : j.val < 520
  · exact (concatenate_apply_piece (1 : Fin S1024x650.rank) [⟨S1024x130, y0⟩, ⟨S1024x130, y1⟩, ⟨S1024x130, y2⟩, ⟨S1024x130, y3⟩, ⟨S1024x130, y4⟩] hc (ix2 n j) 3 (by show 3 < 5; omega) S1024x130 y3 rfl rfl 390 rfl
      (ix2 n ⟨j.val - 390, by omega⟩) (fun b hb => by
      match b with
      | ⟨0, _⟩ => rfl
      | ⟨1, _⟩ => exact absurd rfl hb)
      (by show 390 + (j.val - 390) = j.val; omega)).trans
      (blocks5_of (rows5 (rowsOf y0 n) (rowsOf y1 n) (rowsOf y2 n) (rowsOf y3 n) (rowsOf y4 n)) j ⟨3, by decide⟩ ⟨j.val - 390, by omega⟩ (by show j.val = 130 * 3 + (j.val - 390); omega)).symm
  · exact (concatenate_apply_piece (1 : Fin S1024x650.rank) [⟨S1024x130, y0⟩, ⟨S1024x130, y1⟩, ⟨S1024x130, y2⟩, ⟨S1024x130, y3⟩, ⟨S1024x130, y4⟩] hc (ix2 n j) 4 (by show 4 < 5; omega) S1024x130 y4 rfl rfl 520 rfl
      (ix2 n ⟨j.val - 520, by omega⟩) (fun b hb => by
      match b with
      | ⟨0, _⟩ => rfl
      | ⟨1, _⟩ => exact absurd rfl hb)
      (by show 520 + (j.val - 520) = j.val; omega)).trans
      (blocks5_of (rows5 (rowsOf y0 n) (rowsOf y1 n) (rowsOf y2 n) (rowsOf y3 n) (rowsOf y4 n)) j ⟨4, by decide⟩ ⟨j.val - 520, by omega⟩ (by show j.val = 130 * 4 + (j.val - 520); omega)).symm

/-- Three matrices of widths 2, 64, 64 side by side, read at `(n, j)`. -/
theorem concat3_apply (a : FVec Ideal S1024x2 .f32) (b c : FVec Ideal S1024x64 .f32)
    (hc : Shape.Concatenates [S1024x2, S1024x64, S1024x64] S1024x130 1) (n : Fin 1024) (j : Fin 130) :
    concatenate S1024x130 1 [⟨S1024x2, a⟩, ⟨S1024x64, b⟩, ⟨S1024x64, c⟩] hc (ix2 n j)
      = cat3 (rowsOf a n) (rowsOf b n) (rowsOf c n) j := by
  have hj := j.isLt
  unfold cat3
  split_ifs with h1 h2
  · exact concatenate_apply_piece (1 : Fin S1024x130.rank) [⟨S1024x2, a⟩, ⟨S1024x64, b⟩, ⟨S1024x64, c⟩] hc (ix2 n j) 0 (by show 0 < 3; omega) S1024x2 a rfl rfl 0 rfl
      (ix2 n ⟨j.val, h1⟩) (fun b hb => by
      match b with
      | ⟨0, _⟩ => rfl
      | ⟨1, _⟩ => exact absurd rfl hb)
      (by show 0 + j.val = j.val; omega)
  · exact concatenate_apply_piece (1 : Fin S1024x130.rank) [⟨S1024x2, a⟩, ⟨S1024x64, b⟩, ⟨S1024x64, c⟩] hc (ix2 n j) 1 (by show 1 < 3; omega) S1024x64 b rfl rfl 2 rfl
      (ix2 n ⟨j.val - 2, by omega⟩) (fun b hb => by
      match b with
      | ⟨0, _⟩ => rfl
      | ⟨1, _⟩ => exact absurd rfl hb)
      (by show 2 + (j.val - 2) = j.val; omega)
  · exact concatenate_apply_piece (1 : Fin S1024x130.rank) [⟨S1024x2, a⟩, ⟨S1024x64, b⟩, ⟨S1024x64, c⟩] hc (ix2 n j) 2 (by show 2 < 3; omega) S1024x64 c rfl rfl 66 rfl
      (ix2 n ⟨j.val - 66, by omega⟩) (fun b hb => by
      match b with
      | ⟨0, _⟩ => rfl
      | ⟨1, _⟩ => exact absurd rfl hb)
      (by show 66 + (j.val - 66) = j.val; omega)

/-! ## The dense layers -/

/-- The weights' product and the bias row: a dense layer of the 650 laid-out features, at output `(n, o)`. -/
theorem gateDense_apply (Yc : FVec Ideal S1024x650 .f32) (W : Vec Ideal S650x192 .f32) (b : Vec Ideal S1x192 .f32)
    (h1 h2 : FTy.bits .bf16 < FTy.bits .f32) (hW : S650x192.ShapeCasts S650x192) (hb : S1x192.ShapeCasts S1x192)
    (hbr : S1x192.Broadcasts S1024x192) (n : Fin 1024) (o : Fin 192) :
    addf (matmul dot_S1024x650_S650x192_S1024x192_1_0_0_1_n_n none (truncf .bf16 Yc h1) (truncf .bf16 (shapeCast S650x192 W hW) h2)
          (constant (F := Ideal) S1024x192 .f32 0x00000000#32))
        (broadcastTo S1024x192 (shapeCast S1x192 b hb) hbr) (ix2 n o)
      = dense (fun j => Yc (ix2 n j)) (rowsOf W) (rowOf b) o := by
  rw [shapeCast_self, shapeCast_self]
  exact congrArg₂ (· + ·) (dotGate_apply (truncf .bf16 Yc h1) (truncf .bf16 W h2) n o) (broadcastTo_1b_ab_apply b hbr n o)

/-- The weights' product and the bias row: a dense layer of the 650 laid-out features, at output `(n, o)`. -/
theorem updDense_apply (Yc : FVec Ideal S1024x650 .f32) (W : Vec Ideal S650x64 .f32) (b : Vec Ideal S1x64 .f32)
    (h1 h2 : FTy.bits .bf16 < FTy.bits .f32) (hW : S650x64.ShapeCasts S650x64) (hb : S1x64.ShapeCasts S1x64)
    (hbr : S1x64.Broadcasts S1024x64) (n : Fin 1024) (o : Fin 64) :
    addf (matmul dot_S1024x650_S650x64_S1024x64_1_0_0_1_n_n none (truncf .bf16 Yc h1) (truncf .bf16 (shapeCast S650x64 W hW) h2)
          (constant (F := Ideal) S1024x64 .f32 0x00000000#32))
        (broadcastTo S1024x64 (shapeCast S1x64 b hb) hbr) (ix2 n o)
      = dense (fun j => Yc (ix2 n j)) (rowsOf W) (rowOf b) o := by
  rw [shapeCast_self, shapeCast_self]
  exact congrArg₂ (· + ·) (dotUpd_apply (truncf .bf16 Yc h1) (truncf .bf16 W h2) n o) (broadcastTo_1b_ab_apply b hbr n o)

/-- The mixing gate's dense layer over the 146 feature columns. -/
theorem mixDense_apply (X : FVec Ideal S1024x146 .f32) (W : Vec Ideal S146x64 .f32) (b : Vec Ideal S1x64 .f32)
    (h1 h2 : FTy.bits .bf16 < FTy.bits .f32) (hb : S1x64.ShapeCasts S1x64) (hbr : S1x64.Broadcasts S1024x64)
    (n : Fin 1024) (o : Fin 64) :
    addf (matmul dot_S1024x146_S146x64_S1024x64_1_0_0_1_n_n none (truncf .bf16 X h1) (truncf .bf16 W h2)
          (constant (F := Ideal) S1024x64 .f32 0x00000000#32))
        (broadcastTo S1024x64 (shapeCast S1x64 b hb) hbr) (ix2 n o)
      = dense (fun k => X (ix2 n k)) (rowsOf W) (rowOf b) o := by
  rw [shapeCast_self]
  exact congrArg₂ (· + ·) (dotMix_apply (truncf .bf16 X h1) (truncf .bf16 W h2) n o) (broadcastTo_1b_ab_apply b hbr n o)

end Cert.KernelIdeal.PayValue

end
-- ==== Proof.KernelPayUpd.lean ====
/-
  The update's graph convolution over an arbitrary feature matrix, as the products compute it: the matrix, its hops
  and second Chebyshev vectors over the two adjacency matrices laid side by side, against the 650 weight rows, plus
  the bias row, through tanh — the recurrence arrangement `convK` of the specification. And the candidate's feature
  matrix `[x | z₁ · s1 | z₂ · s2]` from the gates' matrix.
-/
import proofs.«150459_j80977313399318_2_alg».proof.Proof.KernelPayConv

noncomputable section

open scoped BigOperators

namespace Cert.KernelIdeal.PayValue

open Cert.KernelIdeal Cert.KernelIdeal.Gen Cert.GraphCell Idealize.ShloMosaic Idealize.ShloMosaic.ValueIdx

/-- The logistic function of a matrix reads elementwise. -/
theorem logistic_apply {s : Shape} {φ : FTy} (a : FVec Ideal s φ) (i : s.Idx) : logistic a i = Ideal.logistic (a i) := rfl
/-- So does tanh. -/
theorem tanh_apply {s : Shape} {φ : FTy} (a : FVec Ideal s φ) (i : s.Idx) : tanh a i = Ideal.tanh (a i) := rfl

/-- The five feature rows of node `n`, as the products compute them, are the recurrence's. -/
theorem rows5_hops (two : Ideal .f32) (A0 A1 : FVec Ideal S1024x1024 .bf16) (Y : FVec Ideal S1024x130 .f32)
    (h : FTy.bits .bf16 < FTy.bits .f32) (n : Fin 1024) :
    rows5 (rowsOf Y n) (rowsOf (matmul dot_S1024x1024_S1024x130_S1024x130_1_0_0_1_n_n none A0 (truncf .bf16 Y h) (constant (F := Ideal) S1024x130 .f32 0x00000000#32)) n) (rowsOf (subf (mulf (broadcast S1024x130 two) (matmul dot_S1024x1024_S1024x130_S1024x130_1_0_0_1_n_n none A0 (truncf .bf16 (matmul dot_S1024x1024_S1024x130_S1024x130_1_0_0_1_n_n none A0 (truncf .bf16 Y h) (constant (F := Ideal) S1024x130 .f32 0x00000000#32)) h) (constant (F := Ideal) S1024x130 .f32 0x00000000#32))) Y) n)
        (rowsOf (matmul dot_S1024x1024_S1024x130_S1024x130_1_0_0_1_n_n none A1 (truncf .bf16 Y h) (constant (F := Ideal) S1024x130 .f32 0x00000000#32)) n) (rowsOf (subf (mulf (broadcast S1024x130 two) (matmul dot_S1024x1024_S1024x130_S1024x130_1_0_0_1_n_n none A1 (truncf .bf16 (matmul dot_S1024x1024_S1024x130_S1024x130_1_0_0_1_n_n none A1 (truncf .bf16 Y h) (constant (F := Ideal) S1024x130 .f32 0x00000000#32)) h) (constant (F := Ideal) S1024x130 .f32 0x00000000#32))) Y) n)
      = featsK two (rowsOf A0) (rowsOf A1) (rowsOf Y) n := by
  rw [featsK_eq_rows5]
  have e1 : rowsOf (matmul dot_S1024x1024_S1024x130_S1024x130_1_0_0_1_n_n none A0 (truncf .bf16 Y h) (constant (F := Ideal) S1024x130 .f32 0x00000000#32)) n = hop (rowsOf A0) (rowsOf Y) n := funext fun c => hopV_apply A0 Y h n c
  have e2 : rowsOf (subf (mulf (broadcast S1024x130 two) (matmul dot_S1024x1024_S1024x130_S1024x130_1_0_0_1_n_n none A0 (truncf .bf16 (matmul dot_S1024x1024_S1024x130_S1024x130_1_0_0_1_n_n none A0 (truncf .bf16 Y h) (constant (F := Ideal) S1024x130 .f32 0x00000000#32)) h) (constant (F := Ideal) S1024x130 .f32 0x00000000#32))) Y) n = hop2 two (rowsOf A0) (rowsOf Y) n :=
    funext fun c => hop2V_apply two A0 Y h h n c
  have e3 : rowsOf (matmul dot_S1024x1024_S1024x130_S1024x130_1_0_0_1_n_n none A1 (truncf .bf16 Y h) (constant (F := Ideal) S1024x130 .f32 0x00000000#32)) n = hop (rowsOf A1) (rowsOf Y) n := funext fun c => hopV_apply A1 Y h n c
  have e4 : rowsOf (subf (mulf (broadcast S1024x130 two) (matmul dot_S1024x1024_S1024x130_S1024x130_1_0_0_1_n_n none A1 (truncf .bf16 (matmul dot_S1024x1024_S1024x130_S1024x130_1_0_0_1_n_n none A1 (truncf .bf16 Y h) (constant (F := Ideal) S1024x130 .f32 0x00000000#32)) h) (constant (F := Ideal) S1024x130 .f32 0x00000000#32))) Y) n = hop2 two (rowsOf A1) (rowsOf Y) n :=
    funext fun c => hop2V_apply two A1 Y h h n c
  rw [e1, e2, e3, e4]

/-- The update's convolution of a feature matrix `Y`, through tanh, at `(n, o)`. -/
theorem updConv_apply (two : Ideal .f32) (A0 A1 : FVec Ideal S1024x1024 .bf16) (Y : FVec Ideal S1024x130 .f32)
    (W : Vec Ideal S650x64 .f32) (b : Vec Ideal S1x64 .f32) (h : FTy.bits .bf16 < FTy.bits .f32)
    (hc : Shape.Concatenates [S1024x130, S1024x130, S1024x130, S1024x130, S1024x130] S1024x650 1)
    (hW : S650x64.ShapeCasts S650x64) (hb : S1x64.ShapeCasts S1x64) (hbr : S1x64.Broadcasts S1024x64)
    (n : Fin 1024) (o : Fin 64) :
    tanh (addf (matmul dot_S1024x650_S650x64_S1024x64_1_0_0_1_n_n none
          (truncf .bf16 (concatenate S1024x650 1 [⟨S1024x130, Y⟩, ⟨S1024x130, (matmul dot_S1024x1024_S1024x130_S1024x130_1_0_0_1_n_n none A0 (truncf .bf16 Y h) (constant (F := Ideal) S1024x130 .f32 0x00000000#32))⟩,
            ⟨S1024x130, (subf (mulf (broadcast S1024x130 two) (matmul dot_S1024x1024_S1024x130_S1024x130_1_0_0_1_n_n none A0 (truncf .bf16 (matmul dot_S1024x1024_S1024x130_S1024x130_1_0_0_1_n_n none A0 (truncf .bf16 Y h) (constant (F := Ideal) S1024x130 .f32 0x00000000#32)) h) (constant (F := Ideal) S1024x130 .f32 0x00000000#32))) Y)⟩, ⟨S1024x130, (matmul dot_S1024x1024_S1024x130_S1024x130_1_0_0_1_n_n none A1 (truncf .bf16 Y h) (constant (F := Ideal) S1024x130 .f32 0x00000000#32))⟩,
            ⟨S1024x130, (subf (mulf (broadcast S1024x130 two) (matmul dot_S1024x1024_S1024x130_S1024x130_1_0_0_1_n_n none A1 (truncf .bf16 (matmul dot_S1024x1024_S1024x130_S1024x130_1_0_0_1_n_n none A1 (truncf .bf16 Y h) (constant (F := Ideal) S1024x130 .f32 0x00000000#32)) h) (constant (F := Ideal) S1024x130 .f32 0x00000000#32))) Y)⟩] hc) h)
          (truncf .bf16 (shapeCast S650x64 W hW) h) (constant (F := Ideal) S1024x64 .f32 0x00000000#32))
        (broadcastTo S1024x64 (shapeCast S1x64 b hb) hbr)) (ix2 n o)
      = Ideal.tanh (convK two (rowsOf A0) (rowsOf A1) (rowsOf Y) (rowsOf W) (rowOf b) n o) := by
  refine (tanh_apply _ _).trans (congrArg Ideal.tanh ?_)
  refine (updDense_apply _ W b h h hW hb hbr n o).trans ?_
  refine congrArg (fun x => dense x (rowsOf W) (rowOf b) o) ?_
  funext j
  refine (concat5_apply _ _ _ _ _ hc n j).trans ?_
  rw [rows5_hops]

/-- The candidate's features of node `n` from the gates' matrix `Z`: `[x | Z[:, 0:64] · s1 | Z[:, 64:128] · s2]`. -/
def candV (x : FVec Ideal S1024x2 .f32) (s1 s2 : FVec Ideal S1024x64 .f32) (Z : FVec Ideal S1024x192 .f32) (n : Fin 1024) :
    Fin 130 → EReal :=
  cat3 (rowsOf x n) (fun o => Z (ix2 n (⟨o.val, by have := o.isLt; omega⟩ : Fin 192)) * s1 (ix2 n o))
    (fun o => Z (ix2 n (⟨64 + o.val, by have := o.isLt; omega⟩ : Fin 192)) * s2 (ix2 n o))

theorem candV_rows (x : FVec Ideal S1024x2 .f32) (s1 s2 : FVec Ideal S1024x64 .f32) (Z : FVec Ideal S1024x192 .f32)
    (h0 : S1024x192.Slices ![0, 0] S1024x64) (h64 : S1024x192.Slices ![0, 64] S1024x64)
    (hc : Shape.Concatenates [S1024x2, S1024x64, S1024x64] S1024x130 1) :
    rowsOf (concatenate S1024x130 1 [⟨S1024x2, x⟩, ⟨S1024x64, mulf (extractStridedSlice S1024x64 ![0, 0] Z h0) s1⟩,
        ⟨S1024x64, mulf (extractStridedSlice S1024x64 ![0, 64] Z h64) s2⟩] hc)
      = candV x s1 s2 Z := by
  funext n c
  refine (concat3_apply x _ _ hc n c).trans ?_
  exact congrArg₂ (fun f g => cat3 (rowsOf x n) f g c)
    (funext fun o => congrArg (· * s1 (ix2 n o))
      (slice2_axis1_apply 0 Z h0 n o (⟨o.val, by have := o.isLt; omega⟩ : Fin 192) (Nat.zero_add _).symm))
    (funext fun o => congrArg (· * s2 (ix2 n o))
      (slice2_axis1_apply 64 Z h64 n o (⟨64 + o.val, by have := o.isLt; omega⟩ : Fin 192) rfl))

end Cert.KernelIdeal.PayValue

end
-- ==== Proof.KernelPayGates.lean ====
/-
  The gates. The node features `[x | s1 | s2]` are the first 130 columns of the feature block; their hops and second
  Chebyshev vectors over the two adjacency blocks are what the products compute; laid side by side against the gates'
  650 weight rows, plus the bias row, through the logistic function, they are the specification's `gates` in the
  recurrence arrangement.
-/
import proofs.«150459_j80977313399318_2_alg».proof.Proof.KernelPaySlices
import proofs.«150459_j80977313399318_2_alg».proof.Proof.KernelPayUpd

noncomputable section

open scoped BigOperators

namespace Cert.KernelIdeal.PayValue

open Cert.KernelIdeal Cert.KernelIdeal.Gen Cert.GraphCell Idealize.ShloMosaic Idealize.ShloMosaic.ValueIdx

/-- The word of 2.0 read at the ideal values. -/
theorem two_eq : (Scalar.ofBits (F := Ideal) .f32 0x40000000#32) = TWO := rfl

/-! ## The hops of the node features -/

theorem pay11_rows (v0 : Vec Ideal S1x1024x146 .f32) (v20 : Vec Ideal S1x1x1024x1024 .f32) :
    rowsOf (k0_pay11 v0 v20) = hop (adjOf v20) (feat (xOf v0) (s1Of v0) (s2Of v0)) := by
  refine (hopV_rows (k0_pay8 v20) (k0_pay6 v0) bitsLt_bf16_f32).trans ?_
  rw [pay8_rows, pay6_rows]

theorem pay13_rows (v0 : Vec Ideal S1x1024x146 .f32) (v23 : Vec Ideal S1x1x1024x1024 .f32) :
    rowsOf (k0_pay13 v0 v23) = hop (adjOf v23) (feat (xOf v0) (s1Of v0) (s2Of v0)) := by
  refine (hopV_rows (k0_pay9 v23) (k0_pay6 v0) bitsLt_bf16_f32).trans ?_
  rw [pay9_rows, pay6_rows]

theorem pay12_rows (v0 : Vec Ideal S1x1024x146 .f32) (v20 : Vec Ideal S1x1x1024x1024 .f32) :
    rowsOf (k0_pay12 v0 v20) = hop2 TWO (adjOf v20) (feat (xOf v0) (s1Of v0) (s2Of v0)) := by
  funext n c
  refine (hop2V_apply (Scalar.ofBits (F := Ideal) .f32 0x40000000#32) (k0_pay8 v20) (k0_pay6 v0) bitsLt_bf16_f32 bitsLt_bf16_f32 n c).trans ?_
  rw [pay8_rows, pay6_rows, two_eq]

/-- The second adjacency block's two hops, doubled, less the features. -/
theorem pay14_hop2_rows (v0 : Vec Ideal S1x1024x146 .f32) (v23 : Vec Ideal S1x1x1024x1024 .f32) :
    rowsOf (subf (mulf (broadcast S1024x130 (Scalar.ofBits (F := Ideal) .f32 0x40000000#32)) (k0_pay14 v0 v23)) (k0_pay6 v0))
      = hop2 TWO (adjOf v23) (feat (xOf v0) (s1Of v0) (s2Of v0)) := by
  funext n c
  refine (hop2V_apply (Scalar.ofBits (F := Ideal) .f32 0x40000000#32) (k0_pay9 v23) (k0_pay6 v0) bitsLt_bf16_f32 bitsLt_bf16_f32 n c).trans ?_
  rw [pay9_rows, pay6_rows, two_eq]

/-! ## The gates' matrix -/

/-- The gates' matrix at `(n, o)` over arbitrary feature matrices: the logistic function of the dense layer of the five
    matrices' rows side by side. -/
theorem pay15_apply (v5 v27 v32 v33 v35 : FVec Ideal S1024x130 .f32) (two : Ideal .f32) (v41 : Vec Ideal S650x192 .f32)
    (v45 : Vec Ideal S1x192 .f32) (n : Fin 1024) (o : Fin 192) :
    k0_pay15 v5 v27 v32 v33 v35 two v41 v45 (ix2 n o)
      = Ideal.logistic (dense (blocks5 (rows5 (rowsOf v5 n) (rowsOf v27 n) (rowsOf v32 n) (rowsOf v33 n)
          (rowsOf (subf (mulf (broadcast S1024x130 two) v35) v5) n))) (rowsOf v41) (rowOf v45) o) := by
  unfold k0_pay15
  refine (logistic_apply _ _).trans (congrArg Ideal.logistic ?_)
  refine (gateDense_apply _ v41 v45 bitsLt_bf16_f32 bitsLt_bf16_f32 shapeCasts_S650x192_S650x192 shapeCasts_S1x192_S1x192
    broadcasts_S1x192_S1024x192 n o).trans ?_
  exact congrArg (fun x => dense x (rowsOf v41) (rowOf v45) o) (funext fun j =>
    concat5_apply v5 v27 v32 v33 _ concatenates_S1024x130_S1024x130_S1024x130_S1024x130_S1024x130_S1024x650_d1 n j)

/-- The third gate is the last 64 columns of the gates' matrix. -/
theorem pay16_apply (v5 v27 v32 v33 v35 : FVec Ideal S1024x130 .f32) (two : Ideal .f32) (v41 : Vec Ideal S650x192 .f32)
    (v45 : Vec Ideal S1x192 .f32) (n : Fin 1024) (o : Fin 64) :
    k0_pay16 v5 v27 v32 v33 v35 two v41 v45 (ix2 n o)
      = k0_pay15 v5 v27 v32 v33 v35 two v41 v45 (ix2 n (⟨128 + o.val, by have := o.isLt; omega⟩ : Fin 192)) := by
  unfold k0_pay16
  exact slice2_axis1_apply 128 _ slices_S1024x192_o0_128_S1024x64 n o _ rfl

/-- The gates' matrix of the cell is the specification's `gates`. -/
theorem gates_eq (v0 : Vec Ideal S1x1024x146 .f32) (v20 v23 : Vec Ideal S1x1x1024x1024 .f32) (v41 : Vec Ideal S650x192 .f32)
    (v45 : Vec Ideal S1x192 .f32) (n : Fin 1024) (o : Fin 192) :
    k0_pay15 (k0_pay6 v0) (k0_pay11 v0 v20) (k0_pay12 v0 v20) (k0_pay13 v0 v23) (k0_pay14 v0 v23) (Scalar.ofBits (F := Ideal) .f32 0x40000000#32) v41 v45 (ix2 n o)
      = gates (convK TWO (adjOf v20) (adjOf v23)) (xOf v0) (s1Of v0) (s2Of v0) (rowsOf v41) (rowOf v45) n o := by
  refine (pay15_apply _ _ _ _ _ _ v41 v45 n o).trans ?_
  show _ = Ideal.logistic (dense (blocks5 (featsK TWO (adjOf v20) (adjOf v23) (feat (xOf v0) (s1Of v0) (s2Of v0)) n)) (rowsOf v41) (rowOf v45) o)
  rw [featsK_eq_rows5, pay6_rows, pay11_rows, pay12_rows, pay13_rows, pay14_hop2_rows]

end Cert.KernelIdeal.PayValue

end
-- ==== Proof.KernelPayCand.lean ====
/-
  The candidate state. The candidate's features `[x | z₁ · s1 | z₂ · s2]` are the input columns beside the first two
  gates times the two states; their convolution by the recurrence against the update's 650 weight rows, plus the bias
  row, through tanh, is the specification's `candState`.
-/
import proofs.«150459_j80977313399318_2_alg».proof.Proof.KernelPayGates

noncomputable section

open scoped BigOperators

namespace Cert.KernelIdeal.PayValue

open Cert.KernelIdeal Cert.KernelIdeal.Gen Cert.GraphCell Idealize.ShloMosaic Idealize.ShloMosaic.ValueIdx

/-- The candidate state at `(n, o)` over arbitrary operands (the recurrence's factor is the word of 2.0). -/
theorem pay17_apply (v2 : FVec Ideal S1024x2 .f32) (v3 v4 : FVec Ideal S1024x64 .f32) (v5 : FVec Ideal S1024x130 .f32)
    (v22 v25 : FVec Ideal S1024x1024 .bf16) (v27 v32 v33 v35 : FVec Ideal S1024x130 .f32) (two : Ideal .f32)
    (v41 : Vec Ideal S650x192 .f32) (v45 : Vec Ideal S1x192 .f32) (v71 : Vec Ideal S650x64 .f32) (v75 : Vec Ideal S1x64 .f32)
    (n : Fin 1024) (o : Fin 64) :
    k0_pay17 v2 v3 v4 v5 v22 v25 v27 v32 v33 v35 two v41 v45 v71 v75 (ix2 n o)
      = Ideal.tanh (convK (Scalar.ofBits (F := Ideal) .f32 0x40000000#32) (rowsOf v22) (rowsOf v25)
          (candV v2 v3 v4 (k0_pay15 v5 v27 v32 v33 v35 two v41 v45)) (rowsOf v71) (rowOf v75) n o) := by
  unfold k0_pay17
  refine (updConv_apply (Scalar.ofBits (F := Ideal) .f32 0x40000000#32) v22 v25 _ v71 v75 bitsLt_bf16_f32
    concatenates_S1024x130_S1024x130_S1024x130_S1024x130_S1024x130_S1024x650_d1 shapeCasts_S650x64_S650x64
    shapeCasts_S1x64_S1x64 broadcasts_S1x64_S1024x64 n o).trans ?_
  exact congrArg (fun Y => Ideal.tanh (convK (Scalar.ofBits (F := Ideal) .f32 0x40000000#32) (rowsOf v22) (rowsOf v25) Y (rowsOf v71) (rowOf v75) n o))
    (candV_rows v2 v3 v4 (k0_pay15 v5 v27 v32 v33 v35 two v41 v45) slices_S1024x192_o0_0_S1024x64
      slices_S1024x192_o0_64_S1024x64 concatenates_S1024x2_S1024x64_S1024x64_S1024x130_d1)

/-- The candidate's features of the cell are the specification's `cand`. -/
theorem cand_rows (v0 : Vec Ideal S1x1024x146 .f32) (v20 v23 : Vec Ideal S1x1x1024x1024 .f32) (v41 : Vec Ideal S650x192 .f32)
    (v45 : Vec Ideal S1x192 .f32) :
    candV (k0_pay3 v0) (k0_pay4 v0) (k0_pay5 v0) (k0_pay15 (k0_pay6 v0) (k0_pay11 v0 v20) (k0_pay12 v0 v20) (k0_pay13 v0 v23) (k0_pay14 v0 v23) (Scalar.ofBits (F := Ideal) .f32 0x40000000#32) v41 v45)
      = cand (convK TWO (adjOf v20) (adjOf v23)) (xOf v0) (s1Of v0) (s2Of v0) (rowsOf v41) (rowOf v45) := by
  funext n
  unfold candV cand
  have ex : rowsOf (k0_pay3 v0) n = xOf v0 n := funext fun k => pay3_apply v0 n k
  rw [ex]
  refine congrArg₂ (cat3 (xOf v0 n)) (funext fun o => ?_) (funext fun o => ?_)
  · rw [gates_eq, pay4_apply]
  · rw [gates_eq, pay5_apply]

/-- The candidate state of the cell is the specification's `candState`. -/
theorem pay17_eq (v0 : Vec Ideal S1x1024x146 .f32) (v20 v23 : Vec Ideal S1x1x1024x1024 .f32) (v41 : Vec Ideal S650x192 .f32)
    (v45 : Vec Ideal S1x192 .f32) (v71 : Vec Ideal S650x64 .f32) (v75 : Vec Ideal S1x64 .f32) (n : Fin 1024) (o : Fin 64) :
    k0_pay17 (k0_pay3 v0) (k0_pay4 v0) (k0_pay5 v0) (k0_pay6 v0) (k0_pay8 v20) (k0_pay9 v23) (k0_pay11 v0 v20)
        (k0_pay12 v0 v20) (k0_pay13 v0 v23) (k0_pay14 v0 v23) (Scalar.ofBits (F := Ideal) .f32 0x40000000#32) v41 v45 v71 v75 (ix2 n o)
      = candState (convK TWO (adjOf v20) (adjOf v23)) (xOf v0) (s1Of v0) (s2Of v0) (rowsOf v41) (rowOf v45) (rowsOf v71) (rowOf v75) n o := by
  refine (pay17_apply _ _ _ _ _ _ _ _ _ _ _ v41 v45 v71 v75 n o).trans ?_
  rw [cand_rows, pay8_rows, pay9_rows, two_eq]
  rfl

end Cert.KernelIdeal.PayValue

end
-- ==== Proof.KernelPay.lean ====
/-
  The body's arithmetic read at one entry is the specification's cell: the stored value at `(0, n, o)` is the blend,
  by the third gate, of the mixed state and the candidate state, each of which is the specification's function of the
  blocks the body loads.
-/
import proofs.«150459_j80977313399318_2_alg».proof.Proof.Gen.KernelIdeal.Skeleton
import proofs.«150459_j80977313399318_2_alg».proof.Proof.SpecArr
import proofs.«150459_j80977313399318_2_alg».proof.Proof.KernelPayMix
import proofs.«150459_j80977313399318_2_alg».proof.Proof.KernelPayCand
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.PayValue

open Cert.KernelIdeal Cert.KernelIdeal.Gen Cert.GraphCell Idealize.ShloMosaic Idealize.ShloMosaic.ValueIdx

/-- The value the body stores, at `(0, n, o)`, is the cell's output entry `(n, o)` computed from the loaded blocks. -/
theorem payload_eq (v0 : Vec Ideal S1x1024x146 .f32) (v7 : Vec Ideal S146x64 .f32) (v10 : Vec Ideal S1x64 .f32)
    (v20 v23 : Vec Ideal S1x1x1024x1024 .f32) (v41 : Vec Ideal S650x192 .f32) (v45 : Vec Ideal S1x192 .f32)
    (v71 : Vec Ideal S650x64 .f32) (v75 : Vec Ideal S1x64 .f32) (n : Fin 1024) (o : Fin 64) :
    k0_pay1 (k0_pay7 v0 v7 v10)
        (k0_pay16 (k0_pay6 v0) (k0_pay11 v0 v20) (k0_pay12 v0 v20) (k0_pay13 v0 v23) (k0_pay14 v0 v23) (Scalar.ofBits .f32 0x40000000#32) v41 v45)
        (k0_pay17 (k0_pay3 v0) (k0_pay4 v0) (k0_pay5 v0) (k0_pay6 v0) (k0_pay8 v20) (k0_pay9 v23) (k0_pay11 v0 v20) (k0_pay12 v0 v20) (k0_pay13 v0 v23) (k0_pay14 v0 v23) (Scalar.ofBits .f32 0x40000000#32) v41 v45 v71 v75)
        (ix3 (0 : Fin 1) n o)
      = Cert.GraphCell.blockCell v0 v7 v10 v20 v23 v41 v45 v71 v75 n o := by
  refine (pay1_apply _ _ _ n o).trans ?_
  rw [pay16_apply, gates_eq, pay7_eq, pay17_eq]
  rfl

end Cert.KernelIdeal.PayValue

end
-- ==== Proof.KernelBlocks.lean ====
/-
  From one grid point's payload to the whole result array and the run. At grid point `t` the body's input blocks are
  batch `t`'s rows of the arrays the region finds; the value it stores is the cell of those blocks; so what the point
  writes back is block `t` of the cell computed from the argument arrays by the vector recurrence. The output
  window's blocks cover the result array, so after the run the array is that cell, entry by entry.
-/
import proofs.«150459_j80977313399318_2_alg».proof.Proof.FrameKIRun
import proofs.«150459_j80977313399318_2_alg».proof.Proof.KernelBlkReads
import proofs.«150459_j80977313399318_2_alg».proof.Proof.KernelArrays
import proofs.«150459_j80977313399318_2_alg».proof.Proof.BlockCell
import proofs.«150459_j80977313399318_2_alg».proof.Proof.KernelPay
import Idealize.ShloMosaic.Lib.ValueIdx
import Idealize.ShloMosaic.Lib.Pipeline.Value

set_option maxRecDepth 16384

noncomputable section

namespace Cert.KernelIdeal.KValue

open Cert.KernelIdeal Cert.KernelIdeal.Gen Cert.KernelIdeal.Hand Cert.GraphCell
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The zero offsets of a rank-3 and of a rank-2 whole-buffer rectangle. -/
theorem hz3 : (![0, 0, 0] : Fin 3 → Nat) = fun _ => 0 := funext fun a => by fin_cases a <;> rfl
theorem hz2 : (![0, 0] : Fin 2 → Nat) = fun _ => 0 := funext fun a => by fin_cases a <;> rfl

/-- What the body leaves in the output buffer, at `(0, n, o)`, over arbitrary input blocks: the cell of the blocks
    (the adjacency block's two halves as its two matrices). -/
theorem out0_8_apply (x0 : Vec Ideal S1x1024x146 .f32) (x1 : Vec Ideal S2x1x1024x1024 .f32) (x2 : Vec Ideal S146x64 .f32)
    (x3 : Vec Ideal S1x64 .f32) (x4 : Vec Ideal S650x192 .f32) (x5 : Vec Ideal S1x192 .f32) (x6 : Vec Ideal S650x64 .f32)
    (x7 : Vec Ideal S1x64 .f32) (n : Fin 1024) (o : Fin 64) :
    out0_8 x0 x1 x2 x3 x4 x5 x6 x7 (ix3 (0 : Fin 1) n o)
      = blockCell x0 x2 x3 (View.ld x1 r0_1a) (View.ld x1 r0_1b) x4 x5 x6 x7 n o := by
  unfold out0_8
  rw [View.canon_unit_zero hz3]
  simp only [View.ld_unit_zero (S := S1x1024x146) hz3, View.ld_unit_zero (S := S146x64) hz2,
    View.ld_unit_zero (S := S1x64) hz2, View.ld_unit_zero (S := S650x192) hz2, View.ld_unit_zero (S := S1x192) hz2,
    View.ld_unit_zero (S := S650x64) hz2]
  exact Cert.KernelIdeal.PayValue.payload_eq x0 x2 x3 (View.ld x1 r0_1a) (View.ld x1 r0_1b) x4 x5 x6 x7 n o

/-- What grid point `t` writes back is block `t` of the cell computed from the argument arrays by the vector
    recurrence: its input blocks are batch `t`'s rows of the arrays the region finds, and those are the argument
    arrays' rows side by side, their folded weight rows, and their biases as rows. -/
theorem flushed_eq (c : Dev nD) (t : Fin cfg0.N) :
    (dats m 0 c).flushed 8 t = ((cfg0.win 8).blk t).view.read (Elt Ideal)
      (outArrK (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) (m ((c : Thread nD τ).loc main_arg10))) := by
  show (cfg0.win 8).cut (grid0.coords t) ((dats m 0 c).after 8 t) = _
  rw [after0_8]
  funext y
  obtain ⟨u, n, o, rfl⟩ : ∃ (u : Fin 1) (n : Fin 1024) (o : Fin 64), y = ix3 u n o := ⟨y 0, y 1, y 2, eq_ix3 y⟩
  obtain rfl : u = 0 := Fin.ext (by omega)
  refine Eq.trans (out0_8_apply (iblk m c 0 t) (iblk m c 1 t) (iblk m c 2 t) (iblk m c 3 t) (iblk m c 4 t) (iblk m c 5 t)
    (iblk m c 6 t) (iblk m c 7 t) n o) ?_
  refine (blockCell_eq_outK (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) (m ((c : Thread nD τ).loc main_arg10))
    (iblk m c 0 t) (iblk m c 2 t) (iblk m c 3 t) (View.ld (iblk m c 1 t) r0_1a) (View.ld (iblk m c 1 t) r0_1b)
    (iblk m c 4 t) (iblk m c 5 t) (iblk m c 6 t) (iblk m c 7 t) (batchOf t)
    (fun n k => (blk0_read m c t n k).trans (V_v0_read m c (batchOf t) n k))
    (fun n p => (blk1a_read m c t n p).trans (congrFun (V_main_arg4 m c) _))
    (fun n p => (blk1b_read m c t n p).trans (congrFun (V_main_arg4 m c) _))
    (fun k o => (blk2_read m c t k o).trans (congrFun (V_main_arg5 m c) _))
    (fun o => (blk3_read m c t o).trans (V_v17_read m c o))
    (fun j o => (blk4_read m c t j o).trans (V_v8_read m c j o))
    (fun o => (blk5_read m c t o).trans (V_v18_read m c o))
    (fun j o => (blk6_read m c t j o).trans (V_v16_read m c j o))
    (fun o => (blk7_read m c t o).trans (V_v19_read m c o)) n o).trans ?_
  exact (congrArg (outArrK (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) (m ((c : Thread nD τ).loc main_arg10))) (emb8 t n o)).symm

/-- The result array after the run: the cell of the argument arrays, entry by entry. -/
theorem final (c : Dev nD) : (dats m 0 c).arrAt 8 cfg0.N = outArrK (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) (m ((c : Thread nD τ).loc main_arg10)) :=
  (dats m 0 c).arrAt_eq_of_cover 8 _ (fun t _ => flushed_eq m c t) cover8

/-- The run: the program terminates, faults nowhere, and leaves the result array at the cell of its arguments, the
    eleven argument arrays as launched. -/
theorem run : θ_run (defs (F := Ideal)) (onTc (τ := τ) (main (F := Ideal))) ⟨m, fun _ => 0, ρ⟩ fun r => ∀ c : Dev nD,
      r.2.mem ((c.tc : Thread nD τ).loc main_v20) = outArrK (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) (m ((c : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun r h c => ⟨(post8 m r h c).trans (final m c), kept_args m r h c⟩) (run_main m ρ)

end Cert.KernelIdeal.KValue

end
-- ==== Proof.RefRunHOps.lean ====
import proofs.«150459_j80977313399318_2_alg».proof.Proof.Gen.ReferenceIdeal
import Idealize.ShloMosaic.Lib.StableHlo.Run
import proofs.«150459_j80977313399318_2_alg».proof.Proof.RefReadQ

/-! The reference program's 109 host operations as one list and as eight stretches end to end, each stretch starting at a
    concatenation; and what the buffers hold after each stretch: the arguments unchanged, every live buffer at its stage
    of the arguments. -/

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

/-- The fold of a literal stretch of operations read at a literal buffer, in one pass; an operand family given as a literal
    vector is read at its literal positions. -/
macro "stage_results" : tactic =>
  `(tactic| (simp (disch := decide) only [after_cons, after_nil,
      nullary_result', unary_result', binary_result', reshape_result', nary4_result', nary_result',
      nullary_result_ne', unary_result_ne', binary_result_ne', reshape_result_ne', nary_result_ne', Matrix.cons_val]))

/-- @main's 109 operations, in order. -/
abbrev ops : List (HloOp τ sig (Elt F)) :=
  [ nary ![main_arg0, main_arg1, main_arg2, main_arg3] main_v0 (fun u => concatenate S16x1024x146 2 [⟨S16x1024x2, u 0⟩, ⟨S16x1024x64, u 1⟩, ⟨S16x1024x64, u 2⟩, ⟨S16x1024x16, u 3⟩] concatenates_S16x1024x2_S16x1024x64_S16x1024x64_S16x1024x16_S16x1024x146_d2),
    binary main_v0 main_arg5 main_v1 ((fun l r => Host.dotGeneral dot_S16x1024x146_S146x64_S16x1024x64_2_0_01_1_n_n none l r) : (⟨S16x1024x146, .f32⟩ : BufTy).Contents (Elt F) → (⟨S146x64, .f32⟩ : BufTy).Contents (Elt F) → (⟨S16x1024x64, .f32⟩ : BufTy).Contents (Elt F)),
    unary main_arg6 main_v2 (broadcastInDim S1x1x64 ![2] bcast_S64_S1x1x64_2 : (⟨S64, .f32⟩ : BufTy).Contents (Elt F) → (⟨S1x1x64, .f32⟩ : BufTy).Contents (Elt F)),
    unary main_v2 main_v3 (broadcastInDim S16x1024x64 ![0, 1, 2] bcast_S1x1x64_S16x1024x64_0_1_2 : (⟨S1x1x64, .f32⟩ : BufTy).Contents (Elt F) → (⟨S16x1024x64, .f32⟩ : BufTy).Contents (Elt F)),
    binary main_v1 main_v3 main_v4 (addf : (⟨S16x1024x64, .f32⟩ : BufTy).Contents (Elt F) → (⟨S16x1024x64, .f32⟩ : BufTy).Contents (Elt F) → (⟨S16x1024x64, .f32⟩ : BufTy).Contents (Elt F)),
    unary main_v4 main_v5 (Host.negf : (⟨S16x1024x64, .f32⟩ : BufTy).Contents (Elt F) → (⟨S16x1024x64, .f32⟩ : BufTy).Contents (Elt F)),
    unary main_v5 main_v6 (Host.exp : (⟨S16x1024x64, .f32⟩ : BufTy).Contents (Elt F) → (⟨S16x1024x64, .f32⟩ : BufTy).Contents (Elt F)),
    nullary main_cst (constant S_ .f32 0x3F800000#32),
    unary main_cst main_v7 (broadcastInDim S16x1024x64 ![] bcast_S_S16x1024x64 : (⟨S_, .f32⟩ : BufTy).Contents (Elt F) → (⟨S16x1024x64, .f32⟩ : BufTy).Contents (Elt F)),
    binary main_v7 main_v6 main_v8 (addf : (⟨S16x1024x64, .f32⟩ : BufTy).Contents (Elt F) → (⟨S16x1024x64, .f32⟩ : BufTy).Contents (Elt F) → (⟨S16x1024x64, .f32⟩ : BufTy).Contents (Elt F)),
    nullary main_cst_0 (constant S_ .f32 0x3F800000#32),
    unary main_cst_0 main_v9 (broadcastInDim S16x1024x64 ![] bcast_S_S16x1024x64 : (⟨S_, .f32⟩ : BufTy).Contents (Elt F) → (⟨S16x1024x64, .f32⟩ : BufTy).Contents (Elt F)),
    binary main_v9 main_v8 main_v10 (Host.divf : (⟨S16x1024x64, .f32⟩ : BufTy).Contents (Elt F) → (⟨S16x1024x64, .f32⟩ : BufTy).Contents (Elt F) → (⟨S16x1024x64, .f32⟩ : BufTy).Contents (Elt F)),
    binary main_v10 main_arg1 main_v11 (mulf : (⟨S16x1024x64, .f32⟩ : BufTy).Contents (Elt F) → (⟨S16x1024x64, .f32⟩ : BufTy).Contents (Elt F) → (⟨S16x1024x64, .f32⟩ : BufTy).Contents (Elt F)),
    nullary main_cst_1 (constant S_ .f32 0x3F800000#32),
    unary main_cst_1 main_v12 (broadcastInDim S16x1024x64 ![] bcast_S_S16x1024x64 : (⟨S_, .f32⟩ : BufTy).Contents (Elt F) → (⟨S16x1024x64, .f32⟩ : BufTy).Contents (Elt F)),
    binary main_v12 main_v10 main_v13 (subf : (⟨S16x1024x64, .f32⟩ : BufTy).Contents (Elt F) → (⟨S16x1024x64, .f32⟩ : BufTy).Contents (Elt F) → (⟨S16x1024x64, .f32⟩ : BufTy).Contents (Elt F)),
    binary main_v13 main_arg2 main_v14 (mulf : (⟨S16x1024x64, .f32⟩ : BufTy).Contents (Elt F) → (⟨S16x1024x64, .f32⟩ : BufTy).Contents (Elt F) → (⟨S16x1024x64, .f32⟩ : BufTy).Contents (Elt F)),
    binary main_v11 main_v14 main_v15 (addf : (⟨S16x1024x64, .f32⟩ : BufTy).Contents (Elt F) → (⟨S16x1024x64, .f32⟩ : BufTy).Contents (Elt F) → (⟨S16x1024x64, .f32⟩ : BufTy).Contents (Elt F)),
    nary ![main_arg0, main_arg1, main_arg2] main_v16 (fun u => concatenate S16x1024x130 2 [⟨S16x1024x2, u 0⟩, ⟨S16x1024x64, u 1⟩, ⟨S16x1024x64, u 2⟩] concatenates_S16x1024x2_S16x1024x64_S16x1024x64_S16x1024x130_d2),
    nullary main_v17 (iotaInDim S1024x1024 32 0),
    nullary main_v18 (iotaInDim S1024x1024 32 1),
    nullary main_c (constantI S_ 32 0#32),
    unary main_c main_v19 (broadcastInDim S1024x1024 ![] bcast_S_S1024x1024 : (⟨S_, .i32⟩ : BufTy).Contents (Elt F) → (⟨S1024x1024, .i32⟩ : BufTy).Contents (Elt F)),
    binary main_v17 main_v19 main_v20 (addi : (⟨S1024x1024, .i32⟩ : BufTy).Contents (Elt F) → (⟨S1024x1024, .i32⟩ : BufTy).Contents (Elt F) → (⟨S1024x1024, .i32⟩ : BufTy).Contents (Elt F)),
    binary main_v20 main_v18 main_v21 (cmpi .eq : (⟨S1024x1024, .i32⟩ : BufTy).Contents (Elt F) → (⟨S1024x1024, .i32⟩ : BufTy).Contents (Elt F) → (⟨S1024x1024, .i1⟩ : BufTy).Contents (Elt F)),
    unary main_v21 main_v22 (uitofp .f32 : (⟨S1024x1024, .i1⟩ : BufTy).Contents (Elt F) → (⟨S1024x1024, .f32⟩ : BufTy).Contents (Elt F)),
    unary main_v22 main_v23 (broadcastInDim S1x1024x1024 ![1, 2] bcast_S1024x1024_S1x1024x1024_1_2 : (⟨S1024x1024, .f32⟩ : BufTy).Contents (Elt F) → (⟨S1x1024x1024, .f32⟩ : BufTy).Contents (Elt F)),
    unary main_v23 main_v24 (broadcastInDim S16x1024x1024 ![0, 1, 2] bcast_S1x1024x1024_S16x1024x1024_0_1_2 : (⟨S1x1024x1024, .f32⟩ : BufTy).Contents (Elt F) → (⟨S16x1024x1024, .f32⟩ : BufTy).Contents (Elt F)),
    unary main_arg4 main_v25 ((extractStridedSlice S1x16x1024x1024 ![0, 0, 0, 0] · slices_S2x16x1024x1024_S1x16x1024x1024_0_0_0_0) : (⟨S2x16x1024x1024, .f32⟩ : BufTy).Contents (Elt F) → (⟨S1x16x1024x1024, .f32⟩ : BufTy).Contents (Elt F)),
    reshape main_v25 main_v26 rfl shapeCasts_S1x16x1024x1024_S16x1024x1024,
    nullary main_cst_2 (constant S_ .f32 0x40000000#32),
    unary main_cst_2 main_v27 (broadcastInDim S16x1024x1024 ![] bcast_S_S16x1024x1024 : (⟨S_, .f32⟩ : BufTy).Contents (Elt F) → (⟨S16x1024x1024, .f32⟩ : BufTy).Contents (Elt F)),
    binary main_v27 main_v26 main_v28 (mulf : (⟨S16x1024x1024, .f32⟩ : BufTy).Contents (Elt F) → (⟨S16x1024x1024, .f32⟩ : BufTy).Contents (Elt F) → (⟨S16x1024x1024, .f32⟩ : BufTy).Contents (Elt F)),
    binary main_v28 main_v26 main_v29 ((fun l r => Host.dotGeneral dot_S16x1024x1024_S16x1024x1024_S16x1024x1024_2_1_1_2_0_0 none l r) : (⟨S16x1024x1024, .f32⟩ : BufTy).Contents (Elt F) → (⟨S16x1024x1024, .f32⟩ : BufTy).Contents (Elt F) → (⟨S16x1024x1024, .f32⟩ : BufTy).Contents (Elt F)),
    binary main_v29 main_v24 main_v30 (subf : (⟨S16x1024x1024, .f32⟩ : BufTy).Contents (Elt F) → (⟨S16x1024x1024, .f32⟩ : BufTy).Contents (Elt F) → (⟨S16x1024x1024, .f32⟩ : BufTy).Contents (Elt F)),
    binary main_v24 main_v16 main_v31 ((fun l r => Host.dotGeneral dot_S16x1024x1024_S16x1024x130_S16x1024x130_2_1_1_2_0_0 none l r) : (⟨S16x1024x1024, .f32⟩ : BufTy).Contents (Elt F) → (⟨S16x1024x130, .f32⟩ : BufTy).Contents (Elt F) → (⟨S16x1024x130, .f32⟩ : BufTy).Contents (Elt F)),
    binary main_v26 main_v16 main_v32 ((fun l r => Host.dotGeneral dot_S16x1024x1024_S16x1024x130_S16x1024x130_2_1_1_2_0_0 none l r) : (⟨S16x1024x1024, .f32⟩ : BufTy).Contents (Elt F) → (⟨S16x1024x130, .f32⟩ : BufTy).Contents (Elt F) → (⟨S16x1024x130, .f32⟩ : BufTy).Contents (Elt F)),
    binary main_v30 main_v16 main_v33 ((fun l r => Host.dotGeneral dot_S16x1024x1024_S16x1024x130_S16x1024x130_2_1_1_2_0_0 none l r) : (⟨S16x1024x1024, .f32⟩ : BufTy).Contents (Elt F) → (⟨S16x1024x130, .f32⟩ : BufTy).Contents (Elt F) → (⟨S16x1024x130, .f32⟩ : BufTy).Contents (Elt F)),
    unary main_arg4 main_v34 ((extractStridedSlice S1x16x1024x1024 ![1, 0, 0, 0] · slices_S2x16x1024x1024_S1x16x1024x1024_1_0_0_0) : (⟨S2x16x1024x1024, .f32⟩ : BufTy).Contents (Elt F) → (⟨S1x16x1024x1024, .f32⟩ : BufTy).Contents (Elt F)),
    reshape main_v34 main_v35 rfl shapeCasts_S1x16x1024x1024_S16x1024x1024,
    nullary main_cst_3 (constant S_ .f32 0x40000000#32),
    unary main_cst_3 main_v36 (broadcastInDim S16x1024x1024 ![] bcast_S_S16x1024x1024 : (⟨S_, .f32⟩ : BufTy).Contents (Elt F) → (⟨S16x1024x1024, .f32⟩ : BufTy).Contents (Elt F)),
    binary main_v36 main_v35 main_v37 (mulf : (⟨S16x1024x1024, .f32⟩ : BufTy).Contents (Elt F) → (⟨S16x1024x1024, .f32⟩ : BufTy).Contents (Elt F) → (⟨S16x1024x1024, .f32⟩ : BufTy).Contents (Elt F)),
    binary main_v37 main_v35 main_v38 ((fun l r => Host.dotGeneral dot_S16x1024x1024_S16x1024x1024_S16x1024x1024_2_1_1_2_0_0 none l r) : (⟨S16x1024x1024, .f32⟩ : BufTy).Contents (Elt F) → (⟨S16x1024x1024, .f32⟩ : BufTy).Contents (Elt F) → (⟨S16x1024x1024, .f32⟩ : BufTy).Contents (Elt F)),
    binary main_v38 main_v24 main_v39 (subf : (⟨S16x1024x1024, .f32⟩ : BufTy).Contents (Elt F) → (⟨S16x1024x1024, .f32⟩ : BufTy).Contents (Elt F) → (⟨S16x1024x1024, .f32⟩ : BufTy).Contents (Elt F)),
    binary main_v24 main_v16 main_v40 ((fun l r => Host.dotGeneral dot_S16x1024x1024_S16x1024x130_S16x1024x130_2_1_1_2_0_0 none l r) : (⟨S16x1024x1024, .f32⟩ : BufTy).Contents (Elt F) → (⟨S16x1024x130, .f32⟩ : BufTy).Contents (Elt F) → (⟨S16x1024x130, .f32⟩ : BufTy).Contents (Elt F)),
    binary main_v35 main_v16 main_v41 ((fun l r => Host.dotGeneral dot_S16x1024x1024_S16x1024x130_S16x1024x130_2_1_1_2_0_0 none l r) : (⟨S16x1024x1024, .f32⟩ : BufTy).Contents (Elt F) → (⟨S16x1024x130, .f32⟩ : BufTy).Contents (Elt F) → (⟨S16x1024x130, .f32⟩ : BufTy).Contents (Elt F)),
    binary main_v39 main_v16 main_v42 ((fun l r => Host.dotGeneral dot_S16x1024x1024_S16x1024x130_S16x1024x130_2_1_1_2_0_0 none l r) : (⟨S16x1024x1024, .f32⟩ : BufTy).Contents (Elt F) → (⟨S16x1024x130, .f32⟩ : BufTy).Contents (Elt F) → (⟨S16x1024x130, .f32⟩ : BufTy).Contents (Elt F)),
    nary ![main_v31, main_v32, main_v33, main_v40, main_v41, main_v42] main_v43 (fun u => concatenate S16x1024x780 2 [⟨S16x1024x130, u 0⟩, ⟨S16x1024x130, u 1⟩, ⟨S16x1024x130, u 2⟩, ⟨S16x1024x130, u 3⟩, ⟨S16x1024x130, u 4⟩, ⟨S16x1024x130, u 5⟩] concatenates_S16x1024x130_S16x1024x130_S16x1024x130_S16x1024x130_S16x1024x130_S16x1024x130_S16x1024x780_d2),
    binary main_v43 main_arg7 main_v44 ((fun l r => Host.dotGeneral dot_S16x1024x780_S780x192_S16x1024x192_2_0_01_1_n_n none l r) : (⟨S16x1024x780, .f32⟩ : BufTy).Contents (Elt F) → (⟨S780x192, .f32⟩ : BufTy).Contents (Elt F) → (⟨S16x1024x192, .f32⟩ : BufTy).Contents (Elt F)),
    unary main_arg8 main_v45 (broadcastInDim S1x1x192 ![2] bcast_S192_S1x1x192_2 : (⟨S192, .f32⟩ : BufTy).Contents (Elt F) → (⟨S1x1x192, .f32⟩ : BufTy).Contents (Elt F)),
    unary main_v45 main_v46 (broadcastInDim S16x1024x192 ![0, 1, 2] bcast_S1x1x192_S16x1024x192_0_1_2 : (⟨S1x1x192, .f32⟩ : BufTy).Contents (Elt F) → (⟨S16x1024x192, .f32⟩ : BufTy).Contents (Elt F)),
    binary main_v44 main_v46 main_v47 (addf : (⟨S16x1024x192, .f32⟩ : BufTy).Contents (Elt F) → (⟨S16x1024x192, .f32⟩ : BufTy).Contents (Elt F) → (⟨S16x1024x192, .f32⟩ : BufTy).Contents (Elt F)),
    unary main_v47 main_v48 (Host.negf : (⟨S16x1024x192, .f32⟩ : BufTy).Contents (Elt F) → (⟨S16x1024x192, .f32⟩ : BufTy).Contents (Elt F)),
    unary main_v48 main_v49 (Host.exp : (⟨S16x1024x192, .f32⟩ : BufTy).Contents (Elt F) → (⟨S16x1024x192, .f32⟩ : BufTy).Contents (Elt F)),
    nullary main_cst_4 (constant S_ .f32 0x3F800000#32),
    unary main_cst_4 main_v50 (broadcastInDim S16x1024x192 ![] bcast_S_S16x1024x192 : (⟨S_, .f32⟩ : BufTy).Contents (Elt F) → (⟨S16x1024x192, .f32⟩ : BufTy).Contents (Elt F)),
    binary main_v50 main_v49 main_v51 (addf : (⟨S16x1024x192, .f32⟩ : BufTy).Contents (Elt F) → (⟨S16x1024x192, .f32⟩ : BufTy).Contents (Elt F) → (⟨S16x1024x192, .f32⟩ : BufTy).Contents (Elt F)),
    nullary main_cst_5 (constant S_ .f32 0x3F800000#32),
    unary main_cst_5 main_v52 (broadcastInDim S16x1024x192 ![] bcast_S_S16x1024x192 : (⟨S_, .f32⟩ : BufTy).Contents (Elt F) → (⟨S16x1024x192, .f32⟩ : BufTy).Contents (Elt F)),
    binary main_v52 main_v51 main_v53 (Host.divf : (⟨S16x1024x192, .f32⟩ : BufTy).Contents (Elt F) → (⟨S16x1024x192, .f32⟩ : BufTy).Contents (Elt F) → (⟨S16x1024x192, .f32⟩ : BufTy).Contents (Elt F)),
    unary main_v53 main_v54 ((extractStridedSlice S16x1024x64 ![0, 0, 0] · slices_S16x1024x192_S16x1024x64_0_0_0) : (⟨S16x1024x192, .f32⟩ : BufTy).Contents (Elt F) → (⟨S16x1024x64, .f32⟩ : BufTy).Contents (Elt F)),
    unary main_v53 main_v55 ((extractStridedSlice S16x1024x64 ![0, 0, 64] · slices_S16x1024x192_S16x1024x64_0_0_64) : (⟨S16x1024x192, .f32⟩ : BufTy).Contents (Elt F) → (⟨S16x1024x64, .f32⟩ : BufTy).Contents (Elt F)),
    unary main_v53 main_v56 ((extractStridedSlice S16x1024x64 ![0, 0, 128] · slices_S16x1024x192_S16x1024x64_0_0_128) : (⟨S16x1024x192, .f32⟩ : BufTy).Contents (Elt F) → (⟨S16x1024x64, .f32⟩ : BufTy).Contents (Elt F)),
    binary main_v54 main_arg1 main_v57 (mulf : (⟨S16x1024x64, .f32⟩ : BufTy).Contents (Elt F) → (⟨S16x1024x64, .f32⟩ : BufTy).Contents (Elt F) → (⟨S16x1024x64, .f32⟩ : BufTy).Contents (Elt F)),
    binary main_v55 main_arg2 main_v58 (mulf : (⟨S16x1024x64, .f32⟩ : BufTy).Contents (Elt F) → (⟨S16x1024x64, .f32⟩ : BufTy).Contents (Elt F) → (⟨S16x1024x64, .f32⟩ : BufTy).Contents (Elt F)),
    nary ![main_arg0, main_v57, main_v58] main_v59 (fun u => concatenate S16x1024x130 2 [⟨S16x1024x2, u 0⟩, ⟨S16x1024x64, u 1⟩, ⟨S16x1024x64, u 2⟩] concatenates_S16x1024x2_S16x1024x64_S16x1024x64_S16x1024x130_d2),
    nullary main_v60 (iotaInDim S1024x1024 32 0),
    nullary main_v61 (iotaInDim S1024x1024 32 1),
    nullary main_c_6 (constantI S_ 32 0#32),
    unary main_c_6 main_v62 (broadcastInDim S1024x1024 ![] bcast_S_S1024x1024 : (⟨S_, .i32⟩ : BufTy).Contents (Elt F) → (⟨S1024x1024, .i32⟩ : BufTy).Contents (Elt F)),
    binary main_v60 main_v62 main_v63 (addi : (⟨S1024x1024, .i32⟩ : BufTy).Contents (Elt F) → (⟨S1024x1024, .i32⟩ : BufTy).Contents (Elt F) → (⟨S1024x1024, .i32⟩ : BufTy).Contents (Elt F)),
    binary main_v63 main_v61 main_v64 (cmpi .eq : (⟨S1024x1024, .i32⟩ : BufTy).Contents (Elt F) → (⟨S1024x1024, .i32⟩ : BufTy).Contents (Elt F) → (⟨S1024x1024, .i1⟩ : BufTy).Contents (Elt F)),
    unary main_v64 main_v65 (uitofp .f32 : (⟨S1024x1024, .i1⟩ : BufTy).Contents (Elt F) → (⟨S1024x1024, .f32⟩ : BufTy).Contents (Elt F)),
    unary main_v65 main_v66 (broadcastInDim S1x1024x1024 ![1, 2] bcast_S1024x1024_S1x1024x1024_1_2 : (⟨S1024x1024, .f32⟩ : BufTy).Contents (Elt F) → (⟨S1x1024x1024, .f32⟩ : BufTy).Contents (Elt F)),
    unary main_v66 main_v67 (broadcastInDim S16x1024x1024 ![0, 1, 2] bcast_S1x1024x1024_S16x1024x1024_0_1_2 : (⟨S1x1024x1024, .f32⟩ : BufTy).Contents (Elt F) → (⟨S16x1024x1024, .f32⟩ : BufTy).Contents (Elt F)),
    unary main_arg4 main_v68 ((extractStridedSlice S1x16x1024x1024 ![0, 0, 0, 0] · slices_S2x16x1024x1024_S1x16x1024x1024_0_0_0_0) : (⟨S2x16x1024x1024, .f32⟩ : BufTy).Contents (Elt F) → (⟨S1x16x1024x1024, .f32⟩ : BufTy).Contents (Elt F)),
    reshape main_v68 main_v69 rfl shapeCasts_S1x16x1024x1024_S16x1024x1024,
    nullary main_cst_7 (constant S_ .f32 0x40000000#32),
    unary main_cst_7 main_v70 (broadcastInDim S16x1024x1024 ![] bcast_S_S16x1024x1024 : (⟨S_, .f32⟩ : BufTy).Contents (Elt F) → (⟨S16x1024x1024, .f32⟩ : BufTy).Contents (Elt F)),
    binary main_v70 main_v69 main_v71 (mulf : (⟨S16x1024x1024, .f32⟩ : BufTy).Contents (Elt F) → (⟨S16x1024x1024, .f32⟩ : BufTy).Contents (Elt F) → (⟨S16x1024x1024, .f32⟩ : BufTy).Contents (Elt F)),
    binary main_v71 main_v69 main_v72 ((fun l r => Host.dotGeneral dot_S16x1024x1024_S16x1024x1024_S16x1024x1024_2_1_1_2_0_0 none l r) : (⟨S16x1024x1024, .f32⟩ : BufTy).Contents (Elt F) → (⟨S16x1024x1024, .f32⟩ : BufTy).Contents (Elt F) → (⟨S16x1024x1024, .f32⟩ : BufTy).Contents (Elt F)),
    binary main_v72 main_v67 main_v73 (subf : (⟨S16x1024x1024, .f32⟩ : BufTy).Contents (Elt F) → (⟨S16x1024x1024, .f32⟩ : BufTy).Contents (Elt F) → (⟨S16x1024x1024, .f32⟩ : BufTy).Contents (Elt F)),
    binary main_v67 main_v59 main_v74 ((fun l r => Host.dotGeneral dot_S16x1024x1024_S16x1024x130_S16x1024x130_2_1_1_2_0_0 none l r) : (⟨S16x1024x1024, .f32⟩ : BufTy).Contents (Elt F) → (⟨S16x1024x130, .f32⟩ : BufTy).Contents (Elt F) → (⟨S16x1024x130, .f32⟩ : BufTy).Contents (Elt F)),
    binary main_v69 main_v59 main_v75 ((fun l r => Host.dotGeneral dot_S16x1024x1024_S16x1024x130_S16x1024x130_2_1_1_2_0_0 none l r) : (⟨S16x1024x1024, .f32⟩ : BufTy).Contents (Elt F) → (⟨S16x1024x130, .f32⟩ : BufTy).Contents (Elt F) → (⟨S16x1024x130, .f32⟩ : BufTy).Contents (Elt F)),
    binary main_v73 main_v59 main_v76 ((fun l r => Host.dotGeneral dot_S16x1024x1024_S16x1024x130_S16x1024x130_2_1_1_2_0_0 none l r) : (⟨S16x1024x1024, .f32⟩ : BufTy).Contents (Elt F) → (⟨S16x1024x130, .f32⟩ : BufTy).Contents (Elt F) → (⟨S16x1024x130, .f32⟩ : BufTy).Contents (Elt F)),
    unary main_arg4 main_v77 ((extractStridedSlice S1x16x1024x1024 ![1, 0, 0, 0] · slices_S2x16x1024x1024_S1x16x1024x1024_1_0_0_0) : (⟨S2x16x1024x1024, .f32⟩ : BufTy).Contents (Elt F) → (⟨S1x16x1024x1024, .f32⟩ : BufTy).Contents (Elt F)),
    reshape main_v77 main_v78 rfl shapeCasts_S1x16x1024x1024_S16x1024x1024,
    nullary main_cst_8 (constant S_ .f32 0x40000000#32),
    unary main_cst_8 main_v79 (broadcastInDim S16x1024x1024 ![] bcast_S_S16x1024x1024 : (⟨S_, .f32⟩ : BufTy).Contents (Elt F) → (⟨S16x1024x1024, .f32⟩ : BufTy).Contents (Elt F)),
    binary main_v79 main_v78 main_v80 (mulf : (⟨S16x1024x1024, .f32⟩ : BufTy).Contents (Elt F) → (⟨S16x1024x1024, .f32⟩ : BufTy).Contents (Elt F) → (⟨S16x1024x1024, .f32⟩ : BufTy).Contents (Elt F)),
    binary main_v80 main_v78 main_v81 ((fun l r => Host.dotGeneral dot_S16x1024x1024_S16x1024x1024_S16x1024x1024_2_1_1_2_0_0 none l r) : (⟨S16x1024x1024, .f32⟩ : BufTy).Contents (Elt F) → (⟨S16x1024x1024, .f32⟩ : BufTy).Contents (Elt F) → (⟨S16x1024x1024, .f32⟩ : BufTy).Contents (Elt F)),
    binary main_v81 main_v67 main_v82 (subf : (⟨S16x1024x1024, .f32⟩ : BufTy).Contents (Elt F) → (⟨S16x1024x1024, .f32⟩ : BufTy).Contents (Elt F) → (⟨S16x1024x1024, .f32⟩ : BufTy).Contents (Elt F)),
    binary main_v67 main_v59 main_v83 ((fun l r => Host.dotGeneral dot_S16x1024x1024_S16x1024x130_S16x1024x130_2_1_1_2_0_0 none l r) : (⟨S16x1024x1024, .f32⟩ : BufTy).Contents (Elt F) → (⟨S16x1024x130, .f32⟩ : BufTy).Contents (Elt F) → (⟨S16x1024x130, .f32⟩ : BufTy).Contents (Elt F)),
    binary main_v78 main_v59 main_v84 ((fun l r => Host.dotGeneral dot_S16x1024x1024_S16x1024x130_S16x1024x130_2_1_1_2_0_0 none l r) : (⟨S16x1024x1024, .f32⟩ : BufTy).Contents (Elt F) → (⟨S16x1024x130, .f32⟩ : BufTy).Contents (Elt F) → (⟨S16x1024x130, .f32⟩ : BufTy).Contents (Elt F)),
    binary main_v82 main_v59 main_v85 ((fun l r => Host.dotGeneral dot_S16x1024x1024_S16x1024x130_S16x1024x130_2_1_1_2_0_0 none l r) : (⟨S16x1024x1024, .f32⟩ : BufTy).Contents (Elt F) → (⟨S16x1024x130, .f32⟩ : BufTy).Contents (Elt F) → (⟨S16x1024x130, .f32⟩ : BufTy).Contents (Elt F)),
    nary ![main_v74, main_v75, main_v76, main_v83, main_v84, main_v85] main_v86 (fun u => concatenate S16x1024x780 2 [⟨S16x1024x130, u 0⟩, ⟨S16x1024x130, u 1⟩, ⟨S16x1024x130, u 2⟩, ⟨S16x1024x130, u 3⟩, ⟨S16x1024x130, u 4⟩, ⟨S16x1024x130, u 5⟩] concatenates_S16x1024x130_S16x1024x130_S16x1024x130_S16x1024x130_S16x1024x130_S16x1024x130_S16x1024x780_d2),
    binary main_v86 main_arg9 main_v87 ((fun l r => Host.dotGeneral dot_S16x1024x780_S780x64_S16x1024x64_2_0_01_1_n_n none l r) : (⟨S16x1024x780, .f32⟩ : BufTy).Contents (Elt F) → (⟨S780x64, .f32⟩ : BufTy).Contents (Elt F) → (⟨S16x1024x64, .f32⟩ : BufTy).Contents (Elt F)),
    unary main_arg10 main_v88 (broadcastInDim S1x1x64 ![2] bcast_S64_S1x1x64_2 : (⟨S64, .f32⟩ : BufTy).Contents (Elt F) → (⟨S1x1x64, .f32⟩ : BufTy).Contents (Elt F)),
    unary main_v88 main_v89 (broadcastInDim S16x1024x64 ![0, 1, 2] bcast_S1x1x64_S16x1024x64_0_1_2 : (⟨S1x1x64, .f32⟩ : BufTy).Contents (Elt F) → (⟨S16x1024x64, .f32⟩ : BufTy).Contents (Elt F)),
    binary main_v87 main_v89 main_v90 (addf : (⟨S16x1024x64, .f32⟩ : BufTy).Contents (Elt F) → (⟨S16x1024x64, .f32⟩ : BufTy).Contents (Elt F) → (⟨S16x1024x64, .f32⟩ : BufTy).Contents (Elt F)),
    unary main_v90 main_v91 (Host.tanh : (⟨S16x1024x64, .f32⟩ : BufTy).Contents (Elt F) → (⟨S16x1024x64, .f32⟩ : BufTy).Contents (Elt F)),
    binary main_v56 main_v15 main_v92 (mulf : (⟨S16x1024x64, .f32⟩ : BufTy).Contents (Elt F) → (⟨S16x1024x64, .f32⟩ : BufTy).Contents (Elt F) → (⟨S16x1024x64, .f32⟩ : BufTy).Contents (Elt F)),
    nullary main_cst_9 (constant S_ .f32 0x3F800000#32),
    unary main_cst_9 main_v93 (broadcastInDim S16x1024x64 ![] bcast_S_S16x1024x64 : (⟨S_, .f32⟩ : BufTy).Contents (Elt F) → (⟨S16x1024x64, .f32⟩ : BufTy).Contents (Elt F)),
    binary main_v93 main_v56 main_v94 (subf : (⟨S16x1024x64, .f32⟩ : BufTy).Contents (Elt F) → (⟨S16x1024x64, .f32⟩ : BufTy).Contents (Elt F) → (⟨S16x1024x64, .f32⟩ : BufTy).Contents (Elt F)),
    binary main_v94 main_v91 main_v95 (mulf : (⟨S16x1024x64, .f32⟩ : BufTy).Contents (Elt F) → (⟨S16x1024x64, .f32⟩ : BufTy).Contents (Elt F) → (⟨S16x1024x64, .f32⟩ : BufTy).Contents (Elt F)),
    binary main_v92 main_v95 main_v96 (addf : (⟨S16x1024x64, .f32⟩ : BufTy).Contents (Elt F) → (⟨S16x1024x64, .f32⟩ : BufTy).Contents (Elt F) → (⟨S16x1024x64, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., binary_bufs_sub .., nary_bufs_sub .., nullary_bufs_sub .., nullary_bufs_sub .., nullary_bufs_sub .., unary_bufs_sub .., binary_bufs_sub .., binary_bufs_sub .., unary_bufs_sub .., unary_bufs_sub .., unary_bufs_sub .., unary_bufs_sub .., reshape_bufs_sub .., nullary_bufs_sub .., unary_bufs_sub .., binary_bufs_sub .., binary_bufs_sub .., binary_bufs_sub .., binary_bufs_sub .., binary_bufs_sub .., binary_bufs_sub .., unary_bufs_sub .., reshape_bufs_sub .., nullary_bufs_sub .., unary_bufs_sub .., binary_bufs_sub .., binary_bufs_sub .., binary_bufs_sub .., binary_bufs_sub .., binary_bufs_sub .., binary_bufs_sub .., nary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., unary_bufs_sub .., unary_bufs_sub .., unary_bufs_sub .., binary_bufs_sub .., binary_bufs_sub .., nary_bufs_sub .., nullary_bufs_sub .., nullary_bufs_sub .., nullary_bufs_sub .., unary_bufs_sub .., binary_bufs_sub .., binary_bufs_sub .., unary_bufs_sub .., unary_bufs_sub .., unary_bufs_sub .., unary_bufs_sub .., reshape_bufs_sub .., nullary_bufs_sub .., unary_bufs_sub .., binary_bufs_sub .., binary_bufs_sub .., binary_bufs_sub .., binary_bufs_sub .., binary_bufs_sub .., binary_bufs_sub .., unary_bufs_sub .., reshape_bufs_sub .., nullary_bufs_sub .., unary_bufs_sub .., binary_bufs_sub .., binary_bufs_sub .., binary_bufs_sub .., binary_bufs_sub .., binary_bufs_sub .., binary_bufs_sub .., nary_bufs_sub .., binary_bufs_sub .., unary_bufs_sub .., unary_bufs_sub .., binary_bufs_sub .., unary_bufs_sub .., binary_bufs_sub .., nullary_bufs_sub .., unary_bufs_sub .., binary_bufs_sub .., binary_bufs_sub .., binary_bufs_sub ..⟩

/-- Operations 0 … 18 of @main. -/
abbrev w1 : List (HloOp τ sig (Elt F)) :=
  [ nary ![main_arg0, main_arg1, main_arg2, main_arg3] main_v0 (fun u => concatenate S16x1024x146 2 [⟨S16x1024x2, u 0⟩, ⟨S16x1024x64, u 1⟩, ⟨S16x1024x64, u 2⟩, ⟨S16x1024x16, u 3⟩] concatenates_S16x1024x2_S16x1024x64_S16x1024x64_S16x1024x16_S16x1024x146_d2),
    binary main_v0 main_arg5 main_v1 ((fun l r => Host.dotGeneral dot_S16x1024x146_S146x64_S16x1024x64_2_0_01_1_n_n none l r) : (⟨S16x1024x146, .f32⟩ : BufTy).Contents (Elt F) → (⟨S146x64, .f32⟩ : BufTy).Contents (Elt F) → (⟨S16x1024x64, .f32⟩ : BufTy).Contents (Elt F)),
    unary main_arg6 main_v2 (broadcastInDim S1x1x64 ![2] bcast_S64_S1x1x64_2 : (⟨S64, .f32⟩ : BufTy).Contents (Elt F) → (⟨S1x1x64, .f32⟩ : BufTy).Contents (Elt F)),
    unary main_v2 main_v3 (broadcastInDim S16x1024x64 ![0, 1, 2] bcast_S1x1x64_S16x1024x64_0_1_2 : (⟨S1x1x64, .f32⟩ : BufTy).Contents (Elt F) → (⟨S16x1024x64, .f32⟩ : BufTy).Contents (Elt F)),
    binary main_v1 main_v3 main_v4 (addf : (⟨S16x1024x64, .f32⟩ : BufTy).Contents (Elt F) → (⟨S16x1024x64, .f32⟩ : BufTy).Contents (Elt F) → (⟨S16x1024x64, .f32⟩ : BufTy).Contents (Elt F)),
    unary main_v4 main_v5 (Host.negf : (⟨S16x1024x64, .f32⟩ : BufTy).Contents (Elt F) → (⟨S16x1024x64, .f32⟩ : BufTy).Contents (Elt F)),
    unary main_v5 main_v6 (Host.exp : (⟨S16x1024x64, .f32⟩ : BufTy).Contents (Elt F) → (⟨S16x1024x64, .f32⟩ : BufTy).Contents (Elt F)),
    nullary main_cst (constant S_ .f32 0x3F800000#32),
    unary main_cst main_v7 (broadcastInDim S16x1024x64 ![] bcast_S_S16x1024x64 : (⟨S_, .f32⟩ : BufTy).Contents (Elt F) → (⟨S16x1024x64, .f32⟩ : BufTy).Contents (Elt F)),
    binary main_v7 main_v6 main_v8 (addf : (⟨S16x1024x64, .f32⟩ : BufTy).Contents (Elt F) → (⟨S16x1024x64, .f32⟩ : BufTy).Contents (Elt F) → (⟨S16x1024x64, .f32⟩ : BufTy).Contents (Elt F)),
    nullary main_cst_0 (constant S_ .f32 0x3F800000#32),
    unary main_cst_0 main_v9 (broadcastInDim S16x1024x64 ![] bcast_S_S16x1024x64 : (⟨S_, .f32⟩ : BufTy).Contents (Elt F) → (⟨S16x1024x64, .f32⟩ : BufTy).Contents (Elt F)),
    binary main_v9 main_v8 main_v10 (Host.divf : (⟨S16x1024x64, .f32⟩ : BufTy).Contents (Elt F) → (⟨S16x1024x64, .f32⟩ : BufTy).Contents (Elt F) → (⟨S16x1024x64, .f32⟩ : BufTy).Contents (Elt F)),
    binary main_v10 main_arg1 main_v11 (mulf : (⟨S16x1024x64, .f32⟩ : BufTy).Contents (Elt F) → (⟨S16x1024x64, .f32⟩ : BufTy).Contents (Elt F) → (⟨S16x1024x64, .f32⟩ : BufTy).Contents (Elt F)),
    nullary main_cst_1 (constant S_ .f32 0x3F800000#32),
    unary main_cst_1 main_v12 (broadcastInDim S16x1024x64 ![] bcast_S_S16x1024x64 : (⟨S_, .f32⟩ : BufTy).Contents (Elt F) → (⟨S16x1024x64, .f32⟩ : BufTy).Contents (Elt F)),
    binary main_v12 main_v10 main_v13 (subf : (⟨S16x1024x64, .f32⟩ : BufTy).Contents (Elt F) → (⟨S16x1024x64, .f32⟩ : BufTy).Contents (Elt F) → (⟨S16x1024x64, .f32⟩ : BufTy).Contents (Elt F)),
    binary main_v13 main_arg2 main_v14 (mulf : (⟨S16x1024x64, .f32⟩ : BufTy).Contents (Elt F) → (⟨S16x1024x64, .f32⟩ : BufTy).Contents (Elt F) → (⟨S16x1024x64, .f32⟩ : BufTy).Contents (Elt F)),
    binary main_v11 main_v14 main_v15 (addf : (⟨S16x1024x64, .f32⟩ : BufTy).Contents (Elt F) → (⟨S16x1024x64, .f32⟩ : BufTy).Contents (Elt F) → (⟨S16x1024x64, .f32⟩ : BufTy).Contents (Elt F)) ]

/-- Operations 19 … 35 of @main. -/
abbrev w2 : List (HloOp τ sig (Elt F)) :=
  [ nary ![main_arg0, main_arg1, main_arg2] main_v16 (fun u => concatenate S16x1024x130 2 [⟨S16x1024x2, u 0⟩, ⟨S16x1024x64, u 1⟩, ⟨S16x1024x64, u 2⟩] concatenates_S16x1024x2_S16x1024x64_S16x1024x64_S16x1024x130_d2),
    nullary main_v17 (iotaInDim S1024x1024 32 0),
    nullary main_v18 (iotaInDim S1024x1024 32 1),
    nullary main_c (constantI S_ 32 0#32),
    unary main_c main_v19 (broadcastInDim S1024x1024 ![] bcast_S_S1024x1024 : (⟨S_, .i32⟩ : BufTy).Contents (Elt F) → (⟨S1024x1024, .i32⟩ : BufTy).Contents (Elt F)),
    binary main_v17 main_v19 main_v20 (addi : (⟨S1024x1024, .i32⟩ : BufTy).Contents (Elt F) → (⟨S1024x1024, .i32⟩ : BufTy).Contents (Elt F) → (⟨S1024x1024, .i32⟩ : BufTy).Contents (Elt F)),
    binary main_v20 main_v18 main_v21 (cmpi .eq : (⟨S1024x1024, .i32⟩ : BufTy).Contents (Elt F) → (⟨S1024x1024, .i32⟩ : BufTy).Contents (Elt F) → (⟨S1024x1024, .i1⟩ : BufTy).Contents (Elt F)),
    unary main_v21 main_v22 (uitofp .f32 : (⟨S1024x1024, .i1⟩ : BufTy).Contents (Elt F) → (⟨S1024x1024, .f32⟩ : BufTy).Contents (Elt F)),
    unary main_v22 main_v23 (broadcastInDim S1x1024x1024 ![1, 2] bcast_S1024x1024_S1x1024x1024_1_2 : (⟨S1024x1024, .f32⟩ : BufTy).Contents (Elt F) → (⟨S1x1024x1024, .f32⟩ : BufTy).Contents (Elt F)),
    unary main_v23 main_v24 (broadcastInDim S16x1024x1024 ![0, 1, 2] bcast_S1x1024x1024_S16x1024x1024_0_1_2 : (⟨S1x1024x1024, .f32⟩ : BufTy).Contents (Elt F) → (⟨S16x1024x1024, .f32⟩ : BufTy).Contents (Elt F)),
    unary main_arg4 main_v25 ((extractStridedSlice S1x16x1024x1024 ![0, 0, 0, 0] · slices_S2x16x1024x1024_S1x16x1024x1024_0_0_0_0) : (⟨S2x16x1024x1024, .f32⟩ : BufTy).Contents (Elt F) → (⟨S1x16x1024x1024, .f32⟩ : BufTy).Contents (Elt F)),
    reshape main_v25 main_v26 rfl shapeCasts_S1x16x1024x1024_S16x1024x1024,
    nullary main_cst_2 (constant S_ .f32 0x40000000#32),
    unary main_cst_2 main_v27 (broadcastInDim S16x1024x1024 ![] bcast_S_S16x1024x1024 : (⟨S_, .f32⟩ : BufTy).Contents (Elt F) → (⟨S16x1024x1024, .f32⟩ : BufTy).Contents (Elt F)),
    binary main_v27 main_v26 main_v28 (mulf : (⟨S16x1024x1024, .f32⟩ : BufTy).Contents (Elt F) → (⟨S16x1024x1024, .f32⟩ : BufTy).Contents (Elt F) → (⟨S16x1024x1024, .f32⟩ : BufTy).Contents (Elt F)),
    binary main_v28 main_v26 main_v29 ((fun l r => Host.dotGeneral dot_S16x1024x1024_S16x1024x1024_S16x1024x1024_2_1_1_2_0_0 none l r) : (⟨S16x1024x1024, .f32⟩ : BufTy).Contents (Elt F) → (⟨S16x1024x1024, .f32⟩ : BufTy).Contents (Elt F) → (⟨S16x1024x1024, .f32⟩ : BufTy).Contents (Elt F)),
    binary main_v29 main_v24 main_v30 (subf : (⟨S16x1024x1024, .f32⟩ : BufTy).Contents (Elt F) → (⟨S16x1024x1024, .f32⟩ : BufTy).Contents (Elt F) → (⟨S16x1024x1024, .f32⟩ : BufTy).Contents (Elt F)) ]

/-- Operations 36 … 48 of @main. -/
abbrev w3 : List (HloOp τ sig (Elt F)) :=
  [ binary main_v24 main_v16 main_v31 ((fun l r => Host.dotGeneral dot_S16x1024x1024_S16x1024x130_S16x1024x130_2_1_1_2_0_0 none l r) : (⟨S16x1024x1024, .f32⟩ : BufTy).Contents (Elt F) → (⟨S16x1024x130, .f32⟩ : BufTy).Contents (Elt F) → (⟨S16x1024x130, .f32⟩ : BufTy).Contents (Elt F)),
    binary main_v26 main_v16 main_v32 ((fun l r => Host.dotGeneral dot_S16x1024x1024_S16x1024x130_S16x1024x130_2_1_1_2_0_0 none l r) : (⟨S16x1024x1024, .f32⟩ : BufTy).Contents (Elt F) → (⟨S16x1024x130, .f32⟩ : BufTy).Contents (Elt F) → (⟨S16x1024x130, .f32⟩ : BufTy).Contents (Elt F)),
    binary main_v30 main_v16 main_v33 ((fun l r => Host.dotGeneral dot_S16x1024x1024_S16x1024x130_S16x1024x130_2_1_1_2_0_0 none l r) : (⟨S16x1024x1024, .f32⟩ : BufTy).Contents (Elt F) → (⟨S16x1024x130, .f32⟩ : BufTy).Contents (Elt F) → (⟨S16x1024x130, .f32⟩ : BufTy).Contents (Elt F)),
    unary main_arg4 main_v34 ((extractStridedSlice S1x16x1024x1024 ![1, 0, 0, 0] · slices_S2x16x1024x1024_S1x16x1024x1024_1_0_0_0) : (⟨S2x16x1024x1024, .f32⟩ : BufTy).Contents (Elt F) → (⟨S1x16x1024x1024, .f32⟩ : BufTy).Contents (Elt F)),
    reshape main_v34 main_v35 rfl shapeCasts_S1x16x1024x1024_S16x1024x1024,
    nullary main_cst_3 (constant S_ .f32 0x40000000#32),
    unary main_cst_3 main_v36 (broadcastInDim S16x1024x1024 ![] bcast_S_S16x1024x1024 : (⟨S_, .f32⟩ : BufTy).Contents (Elt F) → (⟨S16x1024x1024, .f32⟩ : BufTy).Contents (Elt F)),
    binary main_v36 main_v35 main_v37 (mulf : (⟨S16x1024x1024, .f32⟩ : BufTy).Contents (Elt F) → (⟨S16x1024x1024, .f32⟩ : BufTy).Contents (Elt F) → (⟨S16x1024x1024, .f32⟩ : BufTy).Contents (Elt F)),
    binary main_v37 main_v35 main_v38 ((fun l r => Host.dotGeneral dot_S16x1024x1024_S16x1024x1024_S16x1024x1024_2_1_1_2_0_0 none l r) : (⟨S16x1024x1024, .f32⟩ : BufTy).Contents (Elt F) → (⟨S16x1024x1024, .f32⟩ : BufTy).Contents (Elt F) → (⟨S16x1024x1024, .f32⟩ : BufTy).Contents (Elt F)),
    binary main_v38 main_v24 main_v39 (subf : (⟨S16x1024x1024, .f32⟩ : BufTy).Contents (Elt F) → (⟨S16x1024x1024, .f32⟩ : BufTy).Contents (Elt F) → (⟨S16x1024x1024, .f32⟩ : BufTy).Contents (Elt F)),
    binary main_v24 main_v16 main_v40 ((fun l r => Host.dotGeneral dot_S16x1024x1024_S16x1024x130_S16x1024x130_2_1_1_2_0_0 none l r) : (⟨S16x1024x1024, .f32⟩ : BufTy).Contents (Elt F) → (⟨S16x1024x130, .f32⟩ : BufTy).Contents (Elt F) → (⟨S16x1024x130, .f32⟩ : BufTy).Contents (Elt F)),
    binary main_v35 main_v16 main_v41 ((fun l r => Host.dotGeneral dot_S16x1024x1024_S16x1024x130_S16x1024x130_2_1_1_2_0_0 none l r) : (⟨S16x1024x1024, .f32⟩ : BufTy).Contents (Elt F) → (⟨S16x1024x130, .f32⟩ : BufTy).Contents (Elt F) → (⟨S16x1024x130, .f32⟩ : BufTy).Contents (Elt F)),
    binary main_v39 main_v16 main_v42 ((fun l r => Host.dotGeneral dot_S16x1024x1024_S16x1024x130_S16x1024x130_2_1_1_2_0_0 none l r) : (⟨S16x1024x1024, .f32⟩ : BufTy).Contents (Elt F) → (⟨S16x1024x130, .f32⟩ : BufTy).Contents (Elt F) → (⟨S16x1024x130, .f32⟩ : BufTy).Contents (Elt F)) ]

/-- Operations 49 … 61 of @main. -/
abbrev w4 : List (HloOp τ sig (Elt F)) :=
  [ nary ![main_v31, main_v32, main_v33, main_v40, main_v41, main_v42] main_v43 (fun u => concatenate S16x1024x780 2 [⟨S16x1024x130, u 0⟩, ⟨S16x1024x130, u 1⟩, ⟨S16x1024x130, u 2⟩, ⟨S16x1024x130, u 3⟩, ⟨S16x1024x130, u 4⟩, ⟨S16x1024x130, u 5⟩] concatenates_S16x1024x130_S16x1024x130_S16x1024x130_S16x1024x130_S16x1024x130_S16x1024x130_S16x1024x780_d2),
    binary main_v43 main_arg7 main_v44 ((fun l r => Host.dotGeneral dot_S16x1024x780_S780x192_S16x1024x192_2_0_01_1_n_n none l r) : (⟨S16x1024x780, .f32⟩ : BufTy).Contents (Elt F) → (⟨S780x192, .f32⟩ : BufTy).Contents (Elt F) → (⟨S16x1024x192, .f32⟩ : BufTy).Contents (Elt F)),
    unary main_arg8 main_v45 (broadcastInDim S1x1x192 ![2] bcast_S192_S1x1x192_2 : (⟨S192, .f32⟩ : BufTy).Contents (Elt F) → (⟨S1x1x192, .f32⟩ : BufTy).Contents (Elt F)),
    unary main_v45 main_v46 (broadcastInDim S16x1024x192 ![0, 1, 2] bcast_S1x1x192_S16x1024x192_0_1_2 : (⟨S1x1x192, .f32⟩ : BufTy).Contents (Elt F) → (⟨S16x1024x192, .f32⟩ : BufTy).Contents (Elt F)),
    binary main_v44 main_v46 main_v47 (addf : (⟨S16x1024x192, .f32⟩ : BufTy).Contents (Elt F) → (⟨S16x1024x192, .f32⟩ : BufTy).Contents (Elt F) → (⟨S16x1024x192, .f32⟩ : BufTy).Contents (Elt F)),
    unary main_v47 main_v48 (Host.negf : (⟨S16x1024x192, .f32⟩ : BufTy).Contents (Elt F) → (⟨S16x1024x192, .f32⟩ : BufTy).Contents (Elt F)),
    unary main_v48 main_v49 (Host.exp : (⟨S16x1024x192, .f32⟩ : BufTy).Contents (Elt F) → (⟨S16x1024x192, .f32⟩ : BufTy).Contents (Elt F)),
    nullary main_cst_4 (constant S_ .f32 0x3F800000#32),
    unary main_cst_4 main_v50 (broadcastInDim S16x1024x192 ![] bcast_S_S16x1024x192 : (⟨S_, .f32⟩ : BufTy).Contents (Elt F) → (⟨S16x1024x192, .f32⟩ : BufTy).Contents (Elt F)),
    binary main_v50 main_v49 main_v51 (addf : (⟨S16x1024x192, .f32⟩ : BufTy).Contents (Elt F) → (⟨S16x1024x192, .f32⟩ : BufTy).Contents (Elt F) → (⟨S16x1024x192, .f32⟩ : BufTy).Contents (Elt F)),
    nullary main_cst_5 (constant S_ .f32 0x3F800000#32),
    unary main_cst_5 main_v52 (broadcastInDim S16x1024x192 ![] bcast_S_S16x1024x192 : (⟨S_, .f32⟩ : BufTy).Contents (Elt F) → (⟨S16x1024x192, .f32⟩ : BufTy).Contents (Elt F)),
    binary main_v52 main_v51 main_v53 (Host.divf : (⟨S16x1024x192, .f32⟩ : BufTy).Contents (Elt F) → (⟨S16x1024x192, .f32⟩ : BufTy).Contents (Elt F) → (⟨S16x1024x192, .f32⟩ : BufTy).Contents (Elt F)) ]

/-- Operations 62 … 66 of @main. -/
abbrev w5 : List (HloOp τ sig (Elt F)) :=
  [ unary main_v53 main_v54 ((extractStridedSlice S16x1024x64 ![0, 0, 0] · slices_S16x1024x192_S16x1024x64_0_0_0) : (⟨S16x1024x192, .f32⟩ : BufTy).Contents (Elt F) → (⟨S16x1024x64, .f32⟩ : BufTy).Contents (Elt F)),
    unary main_v53 main_v55 ((extractStridedSlice S16x1024x64 ![0, 0, 64] · slices_S16x1024x192_S16x1024x64_0_0_64) : (⟨S16x1024x192, .f32⟩ : BufTy).Contents (Elt F) → (⟨S16x1024x64, .f32⟩ : BufTy).Contents (Elt F)),
    unary main_v53 main_v56 ((extractStridedSlice S16x1024x64 ![0, 0, 128] · slices_S16x1024x192_S16x1024x64_0_0_128) : (⟨S16x1024x192, .f32⟩ : BufTy).Contents (Elt F) → (⟨S16x1024x64, .f32⟩ : BufTy).Contents (Elt F)),
    binary main_v54 main_arg1 main_v57 (mulf : (⟨S16x1024x64, .f32⟩ : BufTy).Contents (Elt F) → (⟨S16x1024x64, .f32⟩ : BufTy).Contents (Elt F) → (⟨S16x1024x64, .f32⟩ : BufTy).Contents (Elt F)),
    binary main_v55 main_arg2 main_v58 (mulf : (⟨S16x1024x64, .f32⟩ : BufTy).Contents (Elt F) → (⟨S16x1024x64, .f32⟩ : BufTy).Contents (Elt F) → (⟨S16x1024x64, .f32⟩ : BufTy).Contents (Elt F)) ]

/-- Operations 67 … 83 of @main. -/
abbrev w6 : List (HloOp τ sig (Elt F)) :=
  [ nary ![main_arg0, main_v57, main_v58] main_v59 (fun u => concatenate S16x1024x130 2 [⟨S16x1024x2, u 0⟩, ⟨S16x1024x64, u 1⟩, ⟨S16x1024x64, u 2⟩] concatenates_S16x1024x2_S16x1024x64_S16x1024x64_S16x1024x130_d2),
    nullary main_v60 (iotaInDim S1024x1024 32 0),
    nullary main_v61 (iotaInDim S1024x1024 32 1),
    nullary main_c_6 (constantI S_ 32 0#32),
    unary main_c_6 main_v62 (broadcastInDim S1024x1024 ![] bcast_S_S1024x1024 : (⟨S_, .i32⟩ : BufTy).Contents (Elt F) → (⟨S1024x1024, .i32⟩ : BufTy).Contents (Elt F)),
    binary main_v60 main_v62 main_v63 (addi : (⟨S1024x1024, .i32⟩ : BufTy).Contents (Elt F) → (⟨S1024x1024, .i32⟩ : BufTy).Contents (Elt F) → (⟨S1024x1024, .i32⟩ : BufTy).Contents (Elt F)),
    binary main_v63 main_v61 main_v64 (cmpi .eq : (⟨S1024x1024, .i32⟩ : BufTy).Contents (Elt F) → (⟨S1024x1024, .i32⟩ : BufTy).Contents (Elt F) → (⟨S1024x1024, .i1⟩ : BufTy).Contents (Elt F)),
    unary main_v64 main_v65 (uitofp .f32 : (⟨S1024x1024, .i1⟩ : BufTy).Contents (Elt F) → (⟨S1024x1024, .f32⟩ : BufTy).Contents (Elt F)),
    unary main_v65 main_v66 (broadcastInDim S1x1024x1024 ![1, 2] bcast_S1024x1024_S1x1024x1024_1_2 : (⟨S1024x1024, .f32⟩ : BufTy).Contents (Elt F) → (⟨S1x1024x1024, .f32⟩ : BufTy).Contents (Elt F)),
    unary main_v66 main_v67 (broadcastInDim S16x1024x1024 ![0, 1, 2] bcast_S1x1024x1024_S16x1024x1024_0_1_2 : (⟨S1x1024x1024, .f32⟩ : BufTy).Contents (Elt F) → (⟨S16x1024x1024, .f32⟩ : BufTy).Contents (Elt F)),
    unary main_arg4 main_v68 ((extractStridedSlice S1x16x1024x1024 ![0, 0, 0, 0] · slices_S2x16x1024x1024_S1x16x1024x1024_0_0_0_0) : (⟨S2x16x1024x1024, .f32⟩ : BufTy).Contents (Elt F) → (⟨S1x16x1024x1024, .f32⟩ : BufTy).Contents (Elt F)),
    reshape main_v68 main_v69 rfl shapeCasts_S1x16x1024x1024_S16x1024x1024,
    nullary main_cst_7 (constant S_ .f32 0x40000000#32),
    unary main_cst_7 main_v70 (broadcastInDim S16x1024x1024 ![] bcast_S_S16x1024x1024 : (⟨S_, .f32⟩ : BufTy).Contents (Elt F) → (⟨S16x1024x1024, .f32⟩ : BufTy).Contents (Elt F)),
    binary main_v70 main_v69 main_v71 (mulf : (⟨S16x1024x1024, .f32⟩ : BufTy).Contents (Elt F) → (⟨S16x1024x1024, .f32⟩ : BufTy).Contents (Elt F) → (⟨S16x1024x1024, .f32⟩ : BufTy).Contents (Elt F)),
    binary main_v71 main_v69 main_v72 ((fun l r => Host.dotGeneral dot_S16x1024x1024_S16x1024x1024_S16x1024x1024_2_1_1_2_0_0 none l r) : (⟨S16x1024x1024, .f32⟩ : BufTy).Contents (Elt F) → (⟨S16x1024x1024, .f32⟩ : BufTy).Contents (Elt F) → (⟨S16x1024x1024, .f32⟩ : BufTy).Contents (Elt F)),
    binary main_v72 main_v67 main_v73 (subf : (⟨S16x1024x1024, .f32⟩ : BufTy).Contents (Elt F) → (⟨S16x1024x1024, .f32⟩ : BufTy).Contents (Elt F) → (⟨S16x1024x1024, .f32⟩ : BufTy).Contents (Elt F)) ]

/-- Operations 84 … 96 of @main. -/
abbrev w7 : List (HloOp τ sig (Elt F)) :=
  [ binary main_v67 main_v59 main_v74 ((fun l r => Host.dotGeneral dot_S16x1024x1024_S16x1024x130_S16x1024x130_2_1_1_2_0_0 none l r) : (⟨S16x1024x1024, .f32⟩ : BufTy).Contents (Elt F) → (⟨S16x1024x130, .f32⟩ : BufTy).Contents (Elt F) → (⟨S16x1024x130, .f32⟩ : BufTy).Contents (Elt F)),
    binary main_v69 main_v59 main_v75 ((fun l r => Host.dotGeneral dot_S16x1024x1024_S16x1024x130_S16x1024x130_2_1_1_2_0_0 none l r) : (⟨S16x1024x1024, .f32⟩ : BufTy).Contents (Elt F) → (⟨S16x1024x130, .f32⟩ : BufTy).Contents (Elt F) → (⟨S16x1024x130, .f32⟩ : BufTy).Contents (Elt F)),
    binary main_v73 main_v59 main_v76 ((fun l r => Host.dotGeneral dot_S16x1024x1024_S16x1024x130_S16x1024x130_2_1_1_2_0_0 none l r) : (⟨S16x1024x1024, .f32⟩ : BufTy).Contents (Elt F) → (⟨S16x1024x130, .f32⟩ : BufTy).Contents (Elt F) → (⟨S16x1024x130, .f32⟩ : BufTy).Contents (Elt F)),
    unary main_arg4 main_v77 ((extractStridedSlice S1x16x1024x1024 ![1, 0, 0, 0] · slices_S2x16x1024x1024_S1x16x1024x1024_1_0_0_0) : (⟨S2x16x1024x1024, .f32⟩ : BufTy).Contents (Elt F) → (⟨S1x16x1024x1024, .f32⟩ : BufTy).Contents (Elt F)),
    reshape main_v77 main_v78 rfl shapeCasts_S1x16x1024x1024_S16x1024x1024,
    nullary main_cst_8 (constant S_ .f32 0x40000000#32),
    unary main_cst_8 main_v79 (broadcastInDim S16x1024x1024 ![] bcast_S_S16x1024x1024 : (⟨S_, .f32⟩ : BufTy).Contents (Elt F) → (⟨S16x1024x1024, .f32⟩ : BufTy).Contents (Elt F)),
    binary main_v79 main_v78 main_v80 (mulf : (⟨S16x1024x1024, .f32⟩ : BufTy).Contents (Elt F) → (⟨S16x1024x1024, .f32⟩ : BufTy).Contents (Elt F) → (⟨S16x1024x1024, .f32⟩ : BufTy).Contents (Elt F)),
    binary main_v80 main_v78 main_v81 ((fun l r => Host.dotGeneral dot_S16x1024x1024_S16x1024x1024_S16x1024x1024_2_1_1_2_0_0 none l r) : (⟨S16x1024x1024, .f32⟩ : BufTy).Contents (Elt F) → (⟨S16x1024x1024, .f32⟩ : BufTy).Contents (Elt F) → (⟨S16x1024x1024, .f32⟩ : BufTy).Contents (Elt F)),
    binary main_v81 main_v67 main_v82 (subf : (⟨S16x1024x1024, .f32⟩ : BufTy).Contents (Elt F) → (⟨S16x1024x1024, .f32⟩ : BufTy).Contents (Elt F) → (⟨S16x1024x1024, .f32⟩ : BufTy).Contents (Elt F)),
    binary main_v67 main_v59 main_v83 ((fun l r => Host.dotGeneral dot_S16x1024x1024_S16x1024x130_S16x1024x130_2_1_1_2_0_0 none l r) : (⟨S16x1024x1024, .f32⟩ : BufTy).Contents (Elt F) → (⟨S16x1024x130, .f32⟩ : BufTy).Contents (Elt F) → (⟨S16x1024x130, .f32⟩ : BufTy).Contents (Elt F)),
    binary main_v78 main_v59 main_v84 ((fun l r => Host.dotGeneral dot_S16x1024x1024_S16x1024x130_S16x1024x130_2_1_1_2_0_0 none l r) : (⟨S16x1024x1024, .f32⟩ : BufTy).Contents (Elt F) → (⟨S16x1024x130, .f32⟩ : BufTy).Contents (Elt F) → (⟨S16x1024x130, .f32⟩ : BufTy).Contents (Elt F)),
    binary main_v82 main_v59 main_v85 ((fun l r => Host.dotGeneral dot_S16x1024x1024_S16x1024x130_S16x1024x130_2_1_1_2_0_0 none l r) : (⟨S16x1024x1024, .f32⟩ : BufTy).Contents (Elt F) → (⟨S16x1024x130, .f32⟩ : BufTy).Contents (Elt F) → (⟨S16x1024x130, .f32⟩ : BufTy).Contents (Elt F)) ]

/-- Operations 97 … 108 of @main. -/
abbrev w8 : List (HloOp τ sig (Elt F)) :=
  [ nary ![main_v74, main_v75, main_v76, main_v83, main_v84, main_v85] main_v86 (fun u => concatenate S16x1024x780 2 [⟨S16x1024x130, u 0⟩, ⟨S16x1024x130, u 1⟩, ⟨S16x1024x130, u 2⟩, ⟨S16x1024x130, u 3⟩, ⟨S16x1024x130, u 4⟩, ⟨S16x1024x130, u 5⟩] concatenates_S16x1024x130_S16x1024x130_S16x1024x130_S16x1024x130_S16x1024x130_S16x1024x130_S16x1024x780_d2),
    binary main_v86 main_arg9 main_v87 ((fun l r => Host.dotGeneral dot_S16x1024x780_S780x64_S16x1024x64_2_0_01_1_n_n none l r) : (⟨S16x1024x780, .f32⟩ : BufTy).Contents (Elt F) → (⟨S780x64, .f32⟩ : BufTy).Contents (Elt F) → (⟨S16x1024x64, .f32⟩ : BufTy).Contents (Elt F)),
    unary main_arg10 main_v88 (broadcastInDim S1x1x64 ![2] bcast_S64_S1x1x64_2 : (⟨S64, .f32⟩ : BufTy).Contents (Elt F) → (⟨S1x1x64, .f32⟩ : BufTy).Contents (Elt F)),
    unary main_v88 main_v89 (broadcastInDim S16x1024x64 ![0, 1, 2] bcast_S1x1x64_S16x1024x64_0_1_2 : (⟨S1x1x64, .f32⟩ : BufTy).Contents (Elt F) → (⟨S16x1024x64, .f32⟩ : BufTy).Contents (Elt F)),
    binary main_v87 main_v89 main_v90 (addf : (⟨S16x1024x64, .f32⟩ : BufTy).Contents (Elt F) → (⟨S16x1024x64, .f32⟩ : BufTy).Contents (Elt F) → (⟨S16x1024x64, .f32⟩ : BufTy).Contents (Elt F)),
    unary main_v90 main_v91 (Host.tanh : (⟨S16x1024x64, .f32⟩ : BufTy).Contents (Elt F) → (⟨S16x1024x64, .f32⟩ : BufTy).Contents (Elt F)),
    binary main_v56 main_v15 main_v92 (mulf : (⟨S16x1024x64, .f32⟩ : BufTy).Contents (Elt F) → (⟨S16x1024x64, .f32⟩ : BufTy).Contents (Elt F) → (⟨S16x1024x64, .f32⟩ : BufTy).Contents (Elt F)),
    nullary main_cst_9 (constant S_ .f32 0x3F800000#32),
    unary main_cst_9 main_v93 (broadcastInDim S16x1024x64 ![] bcast_S_S16x1024x64 : (⟨S_, .f32⟩ : BufTy).Contents (Elt F) → (⟨S16x1024x64, .f32⟩ : BufTy).Contents (Elt F)),
    binary main_v93 main_v56 main_v94 (subf : (⟨S16x1024x64, .f32⟩ : BufTy).Contents (Elt F) → (⟨S16x1024x64, .f32⟩ : BufTy).Contents (Elt F) → (⟨S16x1024x64, .f32⟩ : BufTy).Contents (Elt F)),
    binary main_v94 main_v91 main_v95 (mulf : (⟨S16x1024x64, .f32⟩ : BufTy).Contents (Elt F) → (⟨S16x1024x64, .f32⟩ : BufTy).Contents (Elt F) → (⟨S16x1024x64, .f32⟩ : BufTy).Contents (Elt F)),
    binary main_v92 main_v95 main_v96 (addf : (⟨S16x1024x64, .f32⟩ : BufTy).Contents (Elt F) → (⟨S16x1024x64, .f32⟩ : BufTy).Contents (Elt F) → (⟨S16x1024x64, .f32⟩ : BufTy).Contents (Elt F)) ]

/-- What the buffers hold after the first 0 stretches: the arguments unchanged, each live intermediate at its stage. -/
abbrev Inv0 (G : Valuation τ sig (Elt F)) (x0 : (⟨S16x1024x2, .f32⟩ : BufTy).Contents (Elt F)) (x1 x2 : (⟨S16x1024x64, .f32⟩ : BufTy).Contents (Elt F)) (x3 : (⟨S16x1024x16, .f32⟩ : BufTy).Contents (Elt F)) (x4 : (⟨S2x16x1024x1024, .f32⟩ : BufTy).Contents (Elt F)) (x5 : (⟨S146x64, .f32⟩ : BufTy).Contents (Elt F)) (x6 : (⟨S64, .f32⟩ : BufTy).Contents (Elt F)) (x7 : (⟨S780x192, .f32⟩ : BufTy).Contents (Elt F)) (x8 : (⟨S192, .f32⟩ : BufTy).Contents (Elt F)) (x9 : (⟨S780x64, .f32⟩ : BufTy).Contents (Elt F)) (x10 : (⟨S64, .f32⟩ : BufTy).Contents (Elt F)) : Prop :=
  G (Proc.devRef .tc main_arg0) = x0
  ∧ G (Proc.devRef .tc main_arg1) = x1
  ∧ G (Proc.devRef .tc main_arg2) = x2
  ∧ G (Proc.devRef .tc main_arg3) = x3
  ∧ G (Proc.devRef .tc main_arg4) = x4
  ∧ G (Proc.devRef .tc main_arg5) = x5
  ∧ G (Proc.devRef .tc main_arg6) = x6
  ∧ G (Proc.devRef .tc main_arg7) = x7
  ∧ G (Proc.devRef .tc main_arg8) = x8
  ∧ G (Proc.devRef .tc main_arg9) = x9
  ∧ G (Proc.devRef .tc main_arg10) = x10

/-- What the buffers hold after the first 1 stretches: the arguments unchanged, each live intermediate at its stage. -/
abbrev Inv1 (G : Valuation τ sig (Elt F)) (x0 : (⟨S16x1024x2, .f32⟩ : BufTy).Contents (Elt F)) (x1 x2 : (⟨S16x1024x64, .f32⟩ : BufTy).Contents (Elt F)) (x3 : (⟨S16x1024x16, .f32⟩ : BufTy).Contents (Elt F)) (x4 : (⟨S2x16x1024x1024, .f32⟩ : BufTy).Contents (Elt F)) (x5 : (⟨S146x64, .f32⟩ : BufTy).Contents (Elt F)) (x6 : (⟨S64, .f32⟩ : BufTy).Contents (Elt F)) (x7 : (⟨S780x192, .f32⟩ : BufTy).Contents (Elt F)) (x8 : (⟨S192, .f32⟩ : BufTy).Contents (Elt F)) (x9 : (⟨S780x64, .f32⟩ : BufTy).Contents (Elt F)) (x10 : (⟨S64, .f32⟩ : BufTy).Contents (Elt F)) : Prop :=
  G (Proc.devRef .tc main_arg0) = x0
  ∧ G (Proc.devRef .tc main_arg1) = x1
  ∧ G (Proc.devRef .tc main_arg2) = x2
  ∧ G (Proc.devRef .tc main_arg3) = x3
  ∧ G (Proc.devRef .tc main_arg4) = x4
  ∧ G (Proc.devRef .tc main_arg5) = x5
  ∧ G (Proc.devRef .tc main_arg6) = x6
  ∧ G (Proc.devRef .tc main_arg7) = x7
  ∧ G (Proc.devRef .tc main_arg8) = x8
  ∧ G (Proc.devRef .tc main_arg9) = x9
  ∧ G (Proc.devRef .tc main_arg10) = x10
  ∧ G (Proc.devRef .tc main_v15) = Read.val_main_v15 (F := F) x0 x1 x2 x3 x5 x6

/-- What the buffers hold after the first 2 stretches: the arguments unchanged, each live intermediate at its stage. -/
abbrev Inv2 (G : Valuation τ sig (Elt F)) (x0 : (⟨S16x1024x2, .f32⟩ : BufTy).Contents (Elt F)) (x1 x2 : (⟨S16x1024x64, .f32⟩ : BufTy).Contents (Elt F)) (x3 : (⟨S16x1024x16, .f32⟩ : BufTy).Contents (Elt F)) (x4 : (⟨S2x16x1024x1024, .f32⟩ : BufTy).Contents (Elt F)) (x5 : (⟨S146x64, .f32⟩ : BufTy).Contents (Elt F)) (x6 : (⟨S64, .f32⟩ : BufTy).Contents (Elt F)) (x7 : (⟨S780x192, .f32⟩ : BufTy).Contents (Elt F)) (x8 : (⟨S192, .f32⟩ : BufTy).Contents (Elt F)) (x9 : (⟨S780x64, .f32⟩ : BufTy).Contents (Elt F)) (x10 : (⟨S64, .f32⟩ : BufTy).Contents (Elt F)) : Prop :=
  G (Proc.devRef .tc main_arg0) = x0
  ∧ G (Proc.devRef .tc main_arg1) = x1
  ∧ G (Proc.devRef .tc main_arg2) = x2
  ∧ G (Proc.devRef .tc main_arg3) = x3
  ∧ G (Proc.devRef .tc main_arg4) = x4
  ∧ G (Proc.devRef .tc main_arg5) = x5
  ∧ G (Proc.devRef .tc main_arg6) = x6
  ∧ G (Proc.devRef .tc main_arg7) = x7
  ∧ G (Proc.devRef .tc main_arg8) = x8
  ∧ G (Proc.devRef .tc main_arg9) = x9
  ∧ G (Proc.devRef .tc main_arg10) = x10
  ∧ G (Proc.devRef .tc main_v15) = Read.val_main_v15 (F := F) x0 x1 x2 x3 x5 x6
  ∧ G (Proc.devRef .tc main_v16) = Read.val_main_v16 (F := F) x0 x1 x2
  ∧ G (Proc.devRef .tc main_v24) = Read.val_main_v24 (F := F)
  ∧ G (Proc.devRef .tc main_v26) = Read.val_main_v26 (F := F) x4
  ∧ G (Proc.devRef .tc main_v30) = Read.val_main_v30 (F := F) x4

/-- What the buffers hold after the first 3 stretches: the arguments unchanged, each live intermediate at its stage. -/
abbrev Inv3 (G : Valuation τ sig (Elt F)) (x0 : (⟨S16x1024x2, .f32⟩ : BufTy).Contents (Elt F)) (x1 x2 : (⟨S16x1024x64, .f32⟩ : BufTy).Contents (Elt F)) (x3 : (⟨S16x1024x16, .f32⟩ : BufTy).Contents (Elt F)) (x4 : (⟨S2x16x1024x1024, .f32⟩ : BufTy).Contents (Elt F)) (x5 : (⟨S146x64, .f32⟩ : BufTy).Contents (Elt F)) (x6 : (⟨S64, .f32⟩ : BufTy).Contents (Elt F)) (x7 : (⟨S780x192, .f32⟩ : BufTy).Contents (Elt F)) (x8 : (⟨S192, .f32⟩ : BufTy).Contents (Elt F)) (x9 : (⟨S780x64, .f32⟩ : BufTy).Contents (Elt F)) (x10 : (⟨S64, .f32⟩ : BufTy).Contents (Elt F)) : Prop :=
  G (Proc.devRef .tc main_arg0) = x0
  ∧ G (Proc.devRef .tc main_arg1) = x1
  ∧ G (Proc.devRef .tc main_arg2) = x2
  ∧ G (Proc.devRef .tc main_arg3) = x3
  ∧ G (Proc.devRef .tc main_arg4) = x4
  ∧ G (Proc.devRef .tc main_arg5) = x5
  ∧ G (Proc.devRef .tc main_arg6) = x6
  ∧ G (Proc.devRef .tc main_arg7) = x7
  ∧ G (Proc.devRef .tc main_arg8) = x8
  ∧ G (Proc.devRef .tc main_arg9) = x9
  ∧ G (Proc.devRef .tc main_arg10) = x10
  ∧ G (Proc.devRef .tc main_v15) = Read.val_main_v15 (F := F) x0 x1 x2 x3 x5 x6
  ∧ G (Proc.devRef .tc main_v31) = Read.val_main_v31 (F := F) x0 x1 x2
  ∧ G (Proc.devRef .tc main_v32) = Read.val_main_v32 (F := F) x0 x1 x2 x4
  ∧ G (Proc.devRef .tc main_v33) = Read.val_main_v33 (F := F) x0 x1 x2 x4
  ∧ G (Proc.devRef .tc main_v40) = Read.val_main_v40 (F := F) x0 x1 x2
  ∧ G (Proc.devRef .tc main_v41) = Read.val_main_v41 (F := F) x0 x1 x2 x4
  ∧ G (Proc.devRef .tc main_v42) = Read.val_main_v42 (F := F) x0 x1 x2 x4

/-- What the buffers hold after the first 4 stretches: the arguments unchanged, each live intermediate at its stage. -/
abbrev Inv4 (G : Valuation τ sig (Elt F)) (x0 : (⟨S16x1024x2, .f32⟩ : BufTy).Contents (Elt F)) (x1 x2 : (⟨S16x1024x64, .f32⟩ : BufTy).Contents (Elt F)) (x3 : (⟨S16x1024x16, .f32⟩ : BufTy).Contents (Elt F)) (x4 : (⟨S2x16x1024x1024, .f32⟩ : BufTy).Contents (Elt F)) (x5 : (⟨S146x64, .f32⟩ : BufTy).Contents (Elt F)) (x6 : (⟨S64, .f32⟩ : BufTy).Contents (Elt F)) (x7 : (⟨S780x192, .f32⟩ : BufTy).Contents (Elt F)) (x8 : (⟨S192, .f32⟩ : BufTy).Contents (Elt F)) (x9 : (⟨S780x64, .f32⟩ : BufTy).Contents (Elt F)) (x10 : (⟨S64, .f32⟩ : BufTy).Contents (Elt F)) : Prop :=
  G (Proc.devRef .tc main_arg0) = x0
  ∧ G (Proc.devRef .tc main_arg1) = x1
  ∧ G (Proc.devRef .tc main_arg2) = x2
  ∧ G (Proc.devRef .tc main_arg3) = x3
  ∧ G (Proc.devRef .tc main_arg4) = x4
  ∧ G (Proc.devRef .tc main_arg5) = x5
  ∧ G (Proc.devRef .tc main_arg6) = x6
  ∧ G (Proc.devRef .tc main_arg7) = x7
  ∧ G (Proc.devRef .tc main_arg8) = x8
  ∧ G (Proc.devRef .tc main_arg9) = x9
  ∧ G (Proc.devRef .tc main_arg10) = x10
  ∧ G (Proc.devRef .tc main_v15) = Read.val_main_v15 (F := F) x0 x1 x2 x3 x5 x6
  ∧ G (Proc.devRef .tc main_v53) = Read.val_main_v53 (F := F) x0 x1 x2 x4 x7 x8

/-- What the buffers hold after the first 5 stretches: the arguments unchanged, each live intermediate at its stage. -/
abbrev Inv5 (G : Valuation τ sig (Elt F)) (x0 : (⟨S16x1024x2, .f32⟩ : BufTy).Contents (Elt F)) (x1 x2 : (⟨S16x1024x64, .f32⟩ : BufTy).Contents (Elt F)) (x3 : (⟨S16x1024x16, .f32⟩ : BufTy).Contents (Elt F)) (x4 : (⟨S2x16x1024x1024, .f32⟩ : BufTy).Contents (Elt F)) (x5 : (⟨S146x64, .f32⟩ : BufTy).Contents (Elt F)) (x6 : (⟨S64, .f32⟩ : BufTy).Contents (Elt F)) (x7 : (⟨S780x192, .f32⟩ : BufTy).Contents (Elt F)) (x8 : (⟨S192, .f32⟩ : BufTy).Contents (Elt F)) (x9 : (⟨S780x64, .f32⟩ : BufTy).Contents (Elt F)) (x10 : (⟨S64, .f32⟩ : BufTy).Contents (Elt F)) : Prop :=
  G (Proc.devRef .tc main_arg0) = x0
  ∧ G (Proc.devRef .tc main_arg1) = x1
  ∧ G (Proc.devRef .tc main_arg2) = x2
  ∧ G (Proc.devRef .tc main_arg3) = x3
  ∧ G (Proc.devRef .tc main_arg4) = x4
  ∧ G (Proc.devRef .tc main_arg5) = x5
  ∧ G (Proc.devRef .tc main_arg6) = x6
  ∧ G (Proc.devRef .tc main_arg7) = x7
  ∧ G (Proc.devRef .tc main_arg8) = x8
  ∧ G (Proc.devRef .tc main_arg9) = x9
  ∧ G (Proc.devRef .tc main_arg10) = x10
  ∧ G (Proc.devRef .tc main_v15) = Read.val_main_v15 (F := F) x0 x1 x2 x3 x5 x6
  ∧ G (Proc.devRef .tc main_v56) = Read.val_main_v56 (F := F) x0 x1 x2 x4 x7 x8
  ∧ G (Proc.devRef .tc main_v57) = Read.val_main_v57 (F := F) x0 x1 x2 x4 x7 x8
  ∧ G (Proc.devRef .tc main_v58) = Read.val_main_v58 (F := F) x0 x1 x2 x4 x7 x8

/-- What the buffers hold after the first 6 stretches: the arguments unchanged, each live intermediate at its stage. -/
abbrev Inv6 (G : Valuation τ sig (Elt F)) (x0 : (⟨S16x1024x2, .f32⟩ : BufTy).Contents (Elt F)) (x1 x2 : (⟨S16x1024x64, .f32⟩ : BufTy).Contents (Elt F)) (x3 : (⟨S16x1024x16, .f32⟩ : BufTy).Contents (Elt F)) (x4 : (⟨S2x16x1024x1024, .f32⟩ : BufTy).Contents (Elt F)) (x5 : (⟨S146x64, .f32⟩ : BufTy).Contents (Elt F)) (x6 : (⟨S64, .f32⟩ : BufTy).Contents (Elt F)) (x7 : (⟨S780x192, .f32⟩ : BufTy).Contents (Elt F)) (x8 : (⟨S192, .f32⟩ : BufTy).Contents (Elt F)) (x9 : (⟨S780x64, .f32⟩ : BufTy).Contents (Elt F)) (x10 : (⟨S64, .f32⟩ : BufTy).Contents (Elt F)) : Prop :=
  G (Proc.devRef .tc main_arg0) = x0
  ∧ G (Proc.devRef .tc main_arg1) = x1
  ∧ G (Proc.devRef .tc main_arg2) = x2
  ∧ G (Proc.devRef .tc main_arg3) = x3
  ∧ G (Proc.devRef .tc main_arg4) = x4
  ∧ G (Proc.devRef .tc main_arg5) = x5
  ∧ G (Proc.devRef .tc main_arg6) = x6
  ∧ G (Proc.devRef .tc main_arg7) = x7
  ∧ G (Proc.devRef .tc main_arg8) = x8
  ∧ G (Proc.devRef .tc main_arg9) = x9
  ∧ G (Proc.devRef .tc main_arg10) = x10
  ∧ G (Proc.devRef .tc main_v15) = Read.val_main_v15 (F := F) x0 x1 x2 x3 x5 x6
  ∧ G (Proc.devRef .tc main_v56) = Read.val_main_v56 (F := F) x0 x1 x2 x4 x7 x8
  ∧ G (Proc.devRef .tc main_v59) = Read.val_main_v59 (F := F) x0 x1 x2 x4 x7 x8
  ∧ G (Proc.devRef .tc main_v67) = Read.val_main_v67 (F := F)
  ∧ G (Proc.devRef .tc main_v69) = Read.val_main_v69 (F := F) x4
  ∧ G (Proc.devRef .tc main_v73) = Read.val_main_v73 (F := F) x4

/-- What the buffers hold after the first 7 stretches: the arguments unchanged, each live intermediate at its stage. -/
abbrev Inv7 (G : Valuation τ sig (Elt F)) (x0 : (⟨S16x1024x2, .f32⟩ : BufTy).Contents (Elt F)) (x1 x2 : (⟨S16x1024x64, .f32⟩ : BufTy).Contents (Elt F)) (x3 : (⟨S16x1024x16, .f32⟩ : BufTy).Contents (Elt F)) (x4 : (⟨S2x16x1024x1024, .f32⟩ : BufTy).Contents (Elt F)) (x5 : (⟨S146x64, .f32⟩ : BufTy).Contents (Elt F)) (x6 : (⟨S64, .f32⟩ : BufTy).Contents (Elt F)) (x7 : (⟨S780x192, .f32⟩ : BufTy).Contents (Elt F)) (x8 : (⟨S192, .f32⟩ : BufTy).Contents (Elt F)) (x9 : (⟨S780x64, .f32⟩ : BufTy).Contents (Elt F)) (x10 : (⟨S64, .f32⟩ : BufTy).Contents (Elt F)) : Prop :=
  G (Proc.devRef .tc main_arg0) = x0
  ∧ G (Proc.devRef .tc main_arg1) = x1
  ∧ G (Proc.devRef .tc main_arg2) = x2
  ∧ G (Proc.devRef .tc main_arg3) = x3
  ∧ G (Proc.devRef .tc main_arg4) = x4
  ∧ G (Proc.devRef .tc main_arg5) = x5
  ∧ G (Proc.devRef .tc main_arg6) = x6
  ∧ G (Proc.devRef .tc main_arg7) = x7
  ∧ G (Proc.devRef .tc main_arg8) = x8
  ∧ G (Proc.devRef .tc main_arg9) = x9
  ∧ G (Proc.devRef .tc main_arg10) = x10
  ∧ G (Proc.devRef .tc main_v15) = Read.val_main_v15 (F := F) x0 x1 x2 x3 x5 x6
  ∧ G (Proc.devRef .tc main_v56) = Read.val_main_v56 (F := F) x0 x1 x2 x4 x7 x8
  ∧ G (Proc.devRef .tc main_v74) = Read.val_main_v74 (F := F) x0 x1 x2 x4 x7 x8
  ∧ G (Proc.devRef .tc main_v75) = Read.val_main_v75 (F := F) x0 x1 x2 x4 x7 x8
  ∧ G (Proc.devRef .tc main_v76) = Read.val_main_v76 (F := F) x0 x1 x2 x4 x7 x8
  ∧ G (Proc.devRef .tc main_v83) = Read.val_main_v83 (F := F) x0 x1 x2 x4 x7 x8
  ∧ G (Proc.devRef .tc main_v84) = Read.val_main_v84 (F := F) x0 x1 x2 x4 x7 x8
  ∧ G (Proc.devRef .tc main_v85) = Read.val_main_v85 (F := F) x0 x1 x2 x4 x7 x8

/-- What the buffers hold after the first 8 stretches: the arguments unchanged, each live intermediate at its stage. -/
abbrev Inv8 (G : Valuation τ sig (Elt F)) (x0 : (⟨S16x1024x2, .f32⟩ : BufTy).Contents (Elt F)) (x1 x2 : (⟨S16x1024x64, .f32⟩ : BufTy).Contents (Elt F)) (x3 : (⟨S16x1024x16, .f32⟩ : BufTy).Contents (Elt F)) (x4 : (⟨S2x16x1024x1024, .f32⟩ : BufTy).Contents (Elt F)) (x5 : (⟨S146x64, .f32⟩ : BufTy).Contents (Elt F)) (x6 : (⟨S64, .f32⟩ : BufTy).Contents (Elt F)) (x7 : (⟨S780x192, .f32⟩ : BufTy).Contents (Elt F)) (x8 : (⟨S192, .f32⟩ : BufTy).Contents (Elt F)) (x9 : (⟨S780x64, .f32⟩ : BufTy).Contents (Elt F)) (x10 : (⟨S64, .f32⟩ : BufTy).Contents (Elt F)) : Prop :=
  G (Proc.devRef .tc main_arg0) = x0
  ∧ G (Proc.devRef .tc main_arg1) = x1
  ∧ G (Proc.devRef .tc main_arg2) = x2
  ∧ G (Proc.devRef .tc main_arg3) = x3
  ∧ G (Proc.devRef .tc main_arg4) = x4
  ∧ G (Proc.devRef .tc main_arg5) = x5
  ∧ G (Proc.devRef .tc main_arg6) = x6
  ∧ G (Proc.devRef .tc main_arg7) = x7
  ∧ G (Proc.devRef .tc main_arg8) = x8
  ∧ G (Proc.devRef .tc main_arg9) = x9
  ∧ G (Proc.devRef .tc main_arg10) = x10
  ∧ G (Proc.devRef .tc main_v96) = Read.val_main_v96 (F := F) x0 x1 x2 x3 x4 x5 x6 x7 x8 x9 x10

/-- A line of operations run after another: the fold of the concatenation is the folds one after the other. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

set_option maxRecDepth 8192 in
/-- @main's operations are the eight stretches end to end. -/
theorem ops_split : (ops : List (HloOp τ sig (Elt F))) = w1 ++ (w2 ++ (w3 ++ (w4 ++ (w5 ++ (w6 ++ (w7 ++ w8)))))) := rfl

end Cert.ReferenceIdeal.RunH

end
-- ==== Proof.RefRunH1.lean ====
import proofs.«150459_j80977313399318_2_alg».proof.Proof.RefRunHOps

/-! Stretch 1 of the reference program (operations 0 … 18): from the facts before it to the facts after it. -/

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 1000000 in
/-- Stretch 1 (operations 0 … 18) carries the facts forward. -/
theorem step1 {G : Valuation τ sig (Elt F)} {x0 : (⟨S16x1024x2, .f32⟩ : BufTy).Contents (Elt F)} {x1 x2 : (⟨S16x1024x64, .f32⟩ : BufTy).Contents (Elt F)} {x3 : (⟨S16x1024x16, .f32⟩ : BufTy).Contents (Elt F)} {x4 : (⟨S2x16x1024x1024, .f32⟩ : BufTy).Contents (Elt F)} {x5 : (⟨S146x64, .f32⟩ : BufTy).Contents (Elt F)} {x6 : (⟨S64, .f32⟩ : BufTy).Contents (Elt F)} {x7 : (⟨S780x192, .f32⟩ : BufTy).Contents (Elt F)} {x8 : (⟨S192, .f32⟩ : BufTy).Contents (Elt F)} {x9 : (⟨S780x64, .f32⟩ : BufTy).Contents (Elt F)} {x10 : (⟨S64, .f32⟩ : BufTy).Contents (Elt F)}
    (h : Inv0 G x0 x1 x2 x3 x4 x5 x6 x7 x8 x9 x10) : Inv1 (after w1 G) x0 x1 x2 x3 x4 x5 x6 x7 x8 x9 x10 := by
  obtain ⟨hA0, hA1, hA2, hA3, hA4, hA5, hA6, hA7, hA8, hA9, hA10⟩ := h
  subst hA0 hA1 hA2 hA3 hA4 hA5 hA6 hA7 hA8 hA9 hA10
  refine ⟨?_, ?_, ?_, ?_, ?_, ?_, ?_, ?_, ?_, ?_, ?_, ?_⟩
  · stage_results
  · stage_results
  · stage_results
  · stage_results
  · stage_results
  · stage_results
  · stage_results
  · stage_results
  · stage_results
  · stage_results
  · stage_results
  · stage_results
    rfl

end Cert.ReferenceIdeal.RunH

end
-- ==== Proof.RefRunH2.lean ====
import proofs.«150459_j80977313399318_2_alg».proof.Proof.RefRunHOps

/-! Stretch 2 of the reference program (operations 19 … 35): from the facts before it to the facts after it. -/

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 1000000 in
/-- Stretch 2 (operations 19 … 35) carries the facts forward. -/
theorem step2 {G : Valuation τ sig (Elt F)} {x0 : (⟨S16x1024x2, .f32⟩ : BufTy).Contents (Elt F)} {x1 x2 : (⟨S16x1024x64, .f32⟩ : BufTy).Contents (Elt F)} {x3 : (⟨S16x1024x16, .f32⟩ : BufTy).Contents (Elt F)} {x4 : (⟨S2x16x1024x1024, .f32⟩ : BufTy).Contents (Elt F)} {x5 : (⟨S146x64, .f32⟩ : BufTy).Contents (Elt F)} {x6 : (⟨S64, .f32⟩ : BufTy).Contents (Elt F)} {x7 : (⟨S780x192, .f32⟩ : BufTy).Contents (Elt F)} {x8 : (⟨S192, .f32⟩ : BufTy).Contents (Elt F)} {x9 : (⟨S780x64, .f32⟩ : BufTy).Contents (Elt F)} {x10 : (⟨S64, .f32⟩ : BufTy).Contents (Elt F)}
    (h : Inv1 G x0 x1 x2 x3 x4 x5 x6 x7 x8 x9 x10) : Inv2 (after w2 G) x0 x1 x2 x3 x4 x5 x6 x7 x8 x9 x10 := by
  obtain ⟨hA0, hA1, hA2, hA3, hA4, hA5, hA6, hA7, hA8, hA9, hA10, h_v15⟩ := h
  subst hA0 hA1 hA2 hA3 hA4 hA5 hA6 hA7 hA8 hA9 hA10
  refine ⟨?_, ?_, ?_, ?_, ?_, ?_, ?_, ?_, ?_, ?_, ?_, ?_, ?_, ?_, ?_, ?_⟩
  · stage_results
  · stage_results
  · stage_results
  · stage_results
  · stage_results
  · stage_results
  · stage_results
  · stage_results
  · stage_results
  · stage_results
  · stage_results
  · stage_results; exact h_v15
  · stage_results
    try rw [h_v15]
    rfl
  · stage_results
    try rw [h_v15]
    rfl
  · stage_results
    try rw [h_v15]
    rfl
  · stage_results
    try rw [h_v15]
    rfl

end Cert.ReferenceIdeal.RunH

end
-- ==== Proof.RefRunH3.lean ====
import proofs.«150459_j80977313399318_2_alg».proof.Proof.RefRunHOps

/-! Stretch 3 of the reference program (operations 36 … 48): from the facts before it to the facts after it. -/

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 1000000 in
/-- Stretch 3 (operations 36 … 48) carries the facts forward. -/
theorem step3 {G : Valuation τ sig (Elt F)} {x0 : (⟨S16x1024x2, .f32⟩ : BufTy).Contents (Elt F)} {x1 x2 : (⟨S16x1024x64, .f32⟩ : BufTy).Contents (Elt F)} {x3 : (⟨S16x1024x16, .f32⟩ : BufTy).Contents (Elt F)} {x4 : (⟨S2x16x1024x1024, .f32⟩ : BufTy).Contents (Elt F)} {x5 : (⟨S146x64, .f32⟩ : BufTy).Contents (Elt F)} {x6 : (⟨S64, .f32⟩ : BufTy).Contents (Elt F)} {x7 : (⟨S780x192, .f32⟩ : BufTy).Contents (Elt F)} {x8 : (⟨S192, .f32⟩ : BufTy).Contents (Elt F)} {x9 : (⟨S780x64, .f32⟩ : BufTy).Contents (Elt F)} {x10 : (⟨S64, .f32⟩ : BufTy).Contents (Elt F)}
    (h : Inv2 G x0 x1 x2 x3 x4 x5 x6 x7 x8 x9 x10) : Inv3 (after w3 G) x0 x1 x2 x3 x4 x5 x6 x7 x8 x9 x10 := by
  obtain ⟨hA0, hA1, hA2, hA3, hA4, hA5, hA6, hA7, hA8, hA9, hA10, h_v15, h_v16, h_v24, h_v26, h_v30⟩ := h
  subst hA0 hA1 hA2 hA3 hA4 hA5 hA6 hA7 hA8 hA9 hA10
  refine ⟨?_, ?_, ?_, ?_, ?_, ?_, ?_, ?_, ?_, ?_, ?_, ?_, ?_, ?_, ?_, ?_, ?_, ?_⟩
  · stage_results
  · stage_results
  · stage_results
  · stage_results
  · stage_results
  · stage_results
  · stage_results
  · stage_results
  · stage_results
  · stage_results
  · stage_results
  · stage_results; exact h_v15
  · stage_results
    try rw [h_v15]
    try rw [h_v16]
    try rw [h_v24]
    try rw [h_v26]
    try rw [h_v30]
    rfl
  · stage_results
    try rw [h_v15]
    try rw [h_v16]
    try rw [h_v24]
    try rw [h_v26]
    try rw [h_v30]
    rfl
  · stage_results
    try rw [h_v15]
    try rw [h_v16]
    try rw [h_v24]
    try rw [h_v26]
    try rw [h_v30]
    rfl
  · stage_results
    try rw [h_v15]
    try rw [h_v16]
    try rw [h_v24]
    try rw [h_v26]
    try rw [h_v30]
    rfl
  · stage_results
    try rw [h_v15]
    try rw [h_v16]
    try rw [h_v24]
    try rw [h_v26]
    try rw [h_v30]
    rfl
  · stage_results
    try rw [h_v15]
    try rw [h_v16]
    try rw [h_v24]
    try rw [h_v26]
    try rw [h_v30]
    rfl

end Cert.ReferenceIdeal.RunH

end
-- ==== Proof.RefRunH4.lean ====
import proofs.«150459_j80977313399318_2_alg».proof.Proof.RefRunHOps

/-! Stretch 4 of the reference program (operations 49 … 61): from the facts before it to the facts after it. -/

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 1000000 in
/-- Stretch 4 (operations 49 … 61) carries the facts forward. -/
theorem step4 {G : Valuation τ sig (Elt F)} {x0 : (⟨S16x1024x2, .f32⟩ : BufTy).Contents (Elt F)} {x1 x2 : (⟨S16x1024x64, .f32⟩ : BufTy).Contents (Elt F)} {x3 : (⟨S16x1024x16, .f32⟩ : BufTy).Contents (Elt F)} {x4 : (⟨S2x16x1024x1024, .f32⟩ : BufTy).Contents (Elt F)} {x5 : (⟨S146x64, .f32⟩ : BufTy).Contents (Elt F)} {x6 : (⟨S64, .f32⟩ : BufTy).Contents (Elt F)} {x7 : (⟨S780x192, .f32⟩ : BufTy).Contents (Elt F)} {x8 : (⟨S192, .f32⟩ : BufTy).Contents (Elt F)} {x9 : (⟨S780x64, .f32⟩ : BufTy).Contents (Elt F)} {x10 : (⟨S64, .f32⟩ : BufTy).Contents (Elt F)}
    (h : Inv3 G x0 x1 x2 x3 x4 x5 x6 x7 x8 x9 x10) : Inv4 (after w4 G) x0 x1 x2 x3 x4 x5 x6 x7 x8 x9 x10 := by
  obtain ⟨hA0, hA1, hA2, hA3, hA4, hA5, hA6, hA7, hA8, hA9, hA10, h_v15, h_v31, h_v32, h_v33, h_v40, h_v41, h_v42⟩ := h
  subst hA0 hA1 hA2 hA3 hA4 hA5 hA6 hA7 hA8 hA9 hA10
  refine ⟨?_, ?_, ?_, ?_, ?_, ?_, ?_, ?_, ?_, ?_, ?_, ?_, ?_⟩
  · stage_results
  · stage_results
  · stage_results
  · stage_results
  · stage_results
  · stage_results
  · stage_results
  · stage_results
  · stage_results
  · stage_results
  · stage_results
  · stage_results; exact h_v15
  · stage_results
    try rw [h_v15]
    try rw [h_v31]
    try rw [h_v32]
    try rw [h_v33]
    try rw [h_v40]
    try rw [h_v41]
    try rw [h_v42]
    rfl

end Cert.ReferenceIdeal.RunH

end
-- ==== Proof.RefRunH5.lean ====
import proofs.«150459_j80977313399318_2_alg».proof.Proof.RefRunHOps

/-! Stretch 5 of the reference program (operations 62 … 66): from the facts before it to the facts after it. -/

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 1000000 in
/-- Stretch 5 (operations 62 … 66) carries the facts forward. -/
theorem step5 {G : Valuation τ sig (Elt F)} {x0 : (⟨S16x1024x2, .f32⟩ : BufTy).Contents (Elt F)} {x1 x2 : (⟨S16x1024x64, .f32⟩ : BufTy).Contents (Elt F)} {x3 : (⟨S16x1024x16, .f32⟩ : BufTy).Contents (Elt F)} {x4 : (⟨S2x16x1024x1024, .f32⟩ : BufTy).Contents (Elt F)} {x5 : (⟨S146x64, .f32⟩ : BufTy).Contents (Elt F)} {x6 : (⟨S64, .f32⟩ : BufTy).Contents (Elt F)} {x7 : (⟨S780x192, .f32⟩ : BufTy).Contents (Elt F)} {x8 : (⟨S192, .f32⟩ : BufTy).Contents (Elt F)} {x9 : (⟨S780x64, .f32⟩ : BufTy).Contents (Elt F)} {x10 : (⟨S64, .f32⟩ : BufTy).Contents (Elt F)}
    (h : Inv4 G x0 x1 x2 x3 x4 x5 x6 x7 x8 x9 x10) : Inv5 (after w5 G) x0 x1 x2 x3 x4 x5 x6 x7 x8 x9 x10 := by
  obtain ⟨hA0, hA1, hA2, hA3, hA4, hA5, hA6, hA7, hA8, hA9, hA10, h_v15, h_v53⟩ := h
  subst hA0 hA1 hA2 hA3 hA4 hA5 hA6 hA7 hA8 hA9 hA10
  refine ⟨?_, ?_, ?_, ?_, ?_, ?_, ?_, ?_, ?_, ?_, ?_, ?_, ?_, ?_, ?_⟩
  · stage_results
  · stage_results
  · stage_results
  · stage_results
  · stage_results
  · stage_results
  · stage_results
  · stage_results
  · stage_results
  · stage_results
  · stage_results
  · stage_results; exact h_v15
  · stage_results
    try rw [h_v15]
    try rw [h_v53]
    rfl
  · stage_results
    try rw [h_v15]
    try rw [h_v53]
    rfl
  · stage_results
    try rw [h_v15]
    try rw [h_v53]
    rfl

end Cert.ReferenceIdeal.RunH

end
-- ==== Proof.RefRunH6.lean ====
import proofs.«150459_j80977313399318_2_alg».proof.Proof.RefRunHOps

/-! Stretch 6 of the reference program (operations 67 … 83): from the facts before it to the facts after it. -/

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 1000000 in
/-- Stretch 6 (operations 67 … 83) carries the facts forward. -/
theorem step6 {G : Valuation τ sig (Elt F)} {x0 : (⟨S16x1024x2, .f32⟩ : BufTy).Contents (Elt F)} {x1 x2 : (⟨S16x1024x64, .f32⟩ : BufTy).Contents (Elt F)} {x3 : (⟨S16x1024x16, .f32⟩ : BufTy).Contents (Elt F)} {x4 : (⟨S2x16x1024x1024, .f32⟩ : BufTy).Contents (Elt F)} {x5 : (⟨S146x64, .f32⟩ : BufTy).Contents (Elt F)} {x6 : (⟨S64, .f32⟩ : BufTy).Contents (Elt F)} {x7 : (⟨S780x192, .f32⟩ : BufTy).Contents (Elt F)} {x8 : (⟨S192, .f32⟩ : BufTy).Contents (Elt F)} {x9 : (⟨S780x64, .f32⟩ : BufTy).Contents (Elt F)} {x10 : (⟨S64, .f32⟩ : BufTy).Contents (Elt F)}
    (h : Inv5 G x0 x1 x2 x3 x4 x5 x6 x7 x8 x9 x10) : Inv6 (after w6 G) x0 x1 x2 x3 x4 x5 x6 x7 x8 x9 x10 := by
  obtain ⟨hA0, hA1, hA2, hA3, hA4, hA5, hA6, hA7, hA8, hA9, hA10, h_v15, h_v56, h_v57, h_v58⟩ := h
  subst hA0 hA1 hA2 hA3 hA4 hA5 hA6 hA7 hA8 hA9 hA10
  refine ⟨?_, ?_, ?_, ?_, ?_, ?_, ?_, ?_, ?_, ?_, ?_, ?_, ?_, ?_, ?_, ?_, ?_⟩
  · stage_results
  · stage_results
  · stage_results
  · stage_results
  · stage_results
  · stage_results
  · stage_results
  · stage_results
  · stage_results
  · stage_results
  · stage_results
  · stage_results; exact h_v15
  · stage_results; exact h_v56
  · stage_results
    try rw [h_v15]
    try rw [h_v56]
    try rw [h_v57]
    try rw [h_v58]
    rfl
  · stage_results
    try rw [h_v15]
    try rw [h_v56]
    try rw [h_v57]
    try rw [h_v58]
    rfl
  · stage_results
    try rw [h_v15]
    try rw [h_v56]
    try rw [h_v57]
    try rw [h_v58]
    rfl
  · stage_results
    try rw [h_v15]
    try rw [h_v56]
    try rw [h_v57]
    try rw [h_v58]
    rfl

end Cert.ReferenceIdeal.RunH

end
-- ==== Proof.RefRunH7.lean ====
import proofs.«150459_j80977313399318_2_alg».proof.Proof.RefRunHOps

/-! Stretch 7 of the reference program (operations 84 … 96): from the facts before it to the facts after it. -/

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 1000000 in
/-- Stretch 7 (operations 84 … 96) carries the facts forward. -/
theorem step7 {G : Valuation τ sig (Elt F)} {x0 : (⟨S16x1024x2, .f32⟩ : BufTy).Contents (Elt F)} {x1 x2 : (⟨S16x1024x64, .f32⟩ : BufTy).Contents (Elt F)} {x3 : (⟨S16x1024x16, .f32⟩ : BufTy).Contents (Elt F)} {x4 : (⟨S2x16x1024x1024, .f32⟩ : BufTy).Contents (Elt F)} {x5 : (⟨S146x64, .f32⟩ : BufTy).Contents (Elt F)} {x6 : (⟨S64, .f32⟩ : BufTy).Contents (Elt F)} {x7 : (⟨S780x192, .f32⟩ : BufTy).Contents (Elt F)} {x8 : (⟨S192, .f32⟩ : BufTy).Contents (Elt F)} {x9 : (⟨S780x64, .f32⟩ : BufTy).Contents (Elt F)} {x10 : (⟨S64, .f32⟩ : BufTy).Contents (Elt F)}
    (h : Inv6 G x0 x1 x2 x3 x4 x5 x6 x7 x8 x9 x10) : Inv7 (after w7 G) x0 x1 x2 x3 x4 x5 x6 x7 x8 x9 x10 := by
  obtain ⟨hA0, hA1, hA2, hA3, hA4, hA5, hA6, hA7, hA8, hA9, hA10, h_v15, h_v56, h_v59, h_v67, h_v69, h_v73⟩ := h
  subst hA0 hA1 hA2 hA3 hA4 hA5 hA6 hA7 hA8 hA9 hA10
  refine ⟨?_, ?_, ?_, ?_, ?_, ?_, ?_, ?_, ?_, ?_, ?_, ?_, ?_, ?_, ?_, ?_, ?_, ?_, ?_⟩
  · stage_results
  · stage_results
  · stage_results
  · stage_results
  · stage_results
  · stage_results
  · stage_results
  · stage_results
  · stage_results
  · stage_results
  · stage_results
  · stage_results; exact h_v15
  · stage_results; exact h_v56
  · stage_results
    try rw [h_v15]
    try rw [h_v56]
    try rw [h_v59]
    try rw [h_v67]
    try rw [h_v69]
    try rw [h_v73]
    rfl
  · stage_results
    try rw [h_v15]
    try rw [h_v56]
    try rw [h_v59]
    try rw [h_v67]
    try rw [h_v69]
    try rw [h_v73]
    rfl
  · stage_results
    try rw [h_v15]
    try rw [h_v56]
    try rw [h_v59]
    try rw [h_v67]
    try rw [h_v69]
    try rw [h_v73]
    rfl
  · stage_results
    try rw [h_v15]
    try rw [h_v56]
    try rw [h_v59]
    try rw [h_v67]
    try rw [h_v69]
    try rw [h_v73]
    rfl
  · stage_results
    try rw [h_v15]
    try rw [h_v56]
    try rw [h_v59]
    try rw [h_v67]
    try rw [h_v69]
    try rw [h_v73]
    rfl
  · stage_results
    try rw [h_v15]
    try rw [h_v56]
    try rw [h_v59]
    try rw [h_v67]
    try rw [h_v69]
    try rw [h_v73]
    rfl

end Cert.ReferenceIdeal.RunH

end
-- ==== Proof.RefRunH8.lean ====
import proofs.«150459_j80977313399318_2_alg».proof.Proof.RefRunHOps

/-! Stretch 8 of the reference program (operations 97 … 108): from the facts before it to the facts after it. -/

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 1000000 in
/-- Stretch 8 (operations 97 … 108) carries the facts forward. -/
theorem step8 {G : Valuation τ sig (Elt F)} {x0 : (⟨S16x1024x2, .f32⟩ : BufTy).Contents (Elt F)} {x1 x2 : (⟨S16x1024x64, .f32⟩ : BufTy).Contents (Elt F)} {x3 : (⟨S16x1024x16, .f32⟩ : BufTy).Contents (Elt F)} {x4 : (⟨S2x16x1024x1024, .f32⟩ : BufTy).Contents (Elt F)} {x5 : (⟨S146x64, .f32⟩ : BufTy).Contents (Elt F)} {x6 : (⟨S64, .f32⟩ : BufTy).Contents (Elt F)} {x7 : (⟨S780x192, .f32⟩ : BufTy).Contents (Elt F)} {x8 : (⟨S192, .f32⟩ : BufTy).Contents (Elt F)} {x9 : (⟨S780x64, .f32⟩ : BufTy).Contents (Elt F)} {x10 : (⟨S64, .f32⟩ : BufTy).Contents (Elt F)}
    (h : Inv7 G x0 x1 x2 x3 x4 x5 x6 x7 x8 x9 x10) : Inv8 (after w8 G) x0 x1 x2 x3 x4 x5 x6 x7 x8 x9 x10 := by
  obtain ⟨hA0, hA1, hA2, hA3, hA4, hA5, hA6, hA7, hA8, hA9, hA10, h_v15, h_v56, h_v74, h_v75, h_v76, h_v83, h_v84, h_v85⟩ := h
  subst hA0 hA1 hA2 hA3 hA4 hA5 hA6 hA7 hA8 hA9 hA10
  refine ⟨?_, ?_, ?_, ?_, ?_, ?_, ?_, ?_, ?_, ?_, ?_, ?_⟩
  · stage_results
  · stage_results
  · stage_results
  · stage_results
  · stage_results
  · stage_results
  · stage_results
  · stage_results
  · stage_results
  · stage_results
  · stage_results
  · stage_results
    try rw [h_v15]
    try rw [h_v56]
    try rw [h_v74]
    try rw [h_v75]
    try rw [h_v76]
    try rw [h_v83]
    try rw [h_v84]
    try rw [h_v85]
    rfl

end Cert.ReferenceIdeal.RunH

end
-- ==== Proof.RefRunH.lean ====
import proofs.«150459_j80977313399318_2_alg».proof.Proof.RefRunH1
import proofs.«150459_j80977313399318_2_alg».proof.Proof.RefRunH2
import proofs.«150459_j80977313399318_2_alg».proof.Proof.RefRunH3
import proofs.«150459_j80977313399318_2_alg».proof.Proof.RefRunH4
import proofs.«150459_j80977313399318_2_alg».proof.Proof.RefRunH5
import proofs.«150459_j80977313399318_2_alg».proof.Proof.RefRunH6
import proofs.«150459_j80977313399318_2_alg».proof.Proof.RefRunH7
import proofs.«150459_j80977313399318_2_alg».proof.Proof.RefRunH8

/-! The reference program's run: after all of @main the result buffer holds the last stage of the arguments' launch contents, the
    arguments unchanged. -/

noncomputable section

namespace Cert.ReferenceIdeal.RunH

open Cert.ReferenceIdeal Cert.ReferenceIdeal.Gen Idealize.ShloMosaic Idealize.ShloMosaic.TcCoe Idealize.SL.Sem Idealize.ShloMosaic.StableHlo

variable {F : FTy → Type} [FloatOps F]

/-- After all of @main: the arguments unchanged and the result buffer at the last stage, as functions of the contents
    `V` the operations start from. -/
theorem after_ops (V : Valuation τ sig (Elt F)) :
    Inv8 (after ops V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  rw [ops_split]
  simp only [after_append]
  exact step8 (step7 (step6 (step5 (step4 (step3 (step2 (step1 ⟨rfl, rfl, rfl, rfl, rfl, rfl, rfl, rfl, rfl, rfl, rfl⟩)))))))

/-- On every device, for any float values, from any memory with zero counters: every weakly fair execution of
    @main terminates with the result buffer at the last stage of the arguments' launch contents and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v96) = Read.val_main_v96 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => by
      obtain ⟨a0, a1, a2, a3, a4, a5, a6, a7, a8, a9, a10, hv⟩ := after_ops (F := F) (launchContents m c)
      exact ⟨(h c main_v96).trans hv, (h c main_arg0).trans a0, (h c main_arg1).trans a1, (h c main_arg2).trans a2, (h c main_arg3).trans a3, (h c main_arg4).trans a4, (h c main_arg5).trans a5, (h c main_arg6).trans a6, (h c main_arg7).trans a7, (h c main_arg8).trans a8, (h c main_arg9).trans a9, (h c main_arg10).trans a10⟩)
    (run_seq scopedRefs_eq scopedSems_eq defs main (fun _ => ops) main_eq (fun _ => ops_sub) m ρ)

end Cert.ReferenceIdeal.RunH

end
-- ==== Proof.RefScalar.lean ====
import proofs.«150459_j80977313399318_2_alg».proof.Proof.SpecArr
import Idealize.ShloMosaic.Lib.ValueIdx
import Idealize.ShloMosaic.Lib.Affine
import Idealize.ShloMosaic.PureOps.Ideal.Laws

/-! Scalar facts at the ideal values: the word of 1.0, the logistic spelt as a quotient, and the 0/1 entry of the identity
    matrix from a comparison of two counters. -/

noncomputable section

namespace Cert.ReferenceIdeal.RefValue

open Cert.GraphCell Idealize.ShloMosaic Idealize.ShloMosaic.ValueIdx

/-- The binary32 word `0x3F800000` is the extended real `1`. -/
theorem one_word : Ideal.ofBits .f32 0x3F800000#32 = 1 := by
  simp [Ideal.ofBits, Ideal.ieee]
  rw [← EReal.coe_mul, ← EReal.coe_one, EReal.coe_eq_coe_iff]
  norm_num

/-- `1 / (1 + exp (−x))`, with the ones given by their binary32 word, is the logistic function. -/
theorem logistic_spelt (x : EReal) :
    FloatOps.hostDivf (F := Ideal) (φ := .f32) (Ideal.ofBits .f32 0x3F800000#32)
        (FloatOps.addf (F := Ideal) (φ := .f32) (Ideal.ofBits .f32 0x3F800000#32)
          (FloatOps.hostUnary (F := Ideal) (φ := .f32) .exp (FloatOps.hostNegf (F := Ideal) (φ := .f32) x)))
      = Ideal.logistic x := by
  rw [one_word]
  rfl

/-- Two counters below 1024, as 32-bit words (the first with a zero word added), compare equal exactly when the
    counters are equal; the bit converted to a number is the identity matrix's entry. -/
theorem eye_word (n m : Fin 1024) :
    FloatOps.uitofp (F := Ideal) .f32
        (IntOp.cmpi .eq (IntOp.addi (BitVec.ofNat 32 n.val) 0#32) (BitVec.ofNat 32 m.val))
      = eye n m := by
  unfold eye
  by_cases h : n = m
  · subst h
    rw [if_pos rfl]
    have e : IntOp.cmpi .eq (IntOp.addi (BitVec.ofNat 32 n.val) 0#32) (BitVec.ofNat 32 n.val) = 1#1 := by
      rw [IntOp.cmpi_eq]
      simp [IntOp.addi]
    rw [e]
    show (((1#1 : BitVec 1).toNat : ℝ) : EReal) = 1
    simp
  · rw [if_neg h]
    have e : IntOp.cmpi .eq (IntOp.addi (BitVec.ofNat 32 n.val) 0#32) (BitVec.ofNat 32 m.val) = 0#1 := by
      rcases BitVec.eq_zero_or_eq_one (IntOp.cmpi .eq (IntOp.addi (BitVec.ofNat 32 n.val) 0#32) (BitVec.ofNat 32 m.val)) with h0 | h1
      · exact h0
      · exfalso
        rw [IntOp.cmpi_eq] at h1
        have h2 := congrArg BitVec.toNat h1
        simp only [IntOp.addi, BitVec.add_zero, BitVec.toNat_ofNat] at h2
        have hn := n.isLt
        have hm := m.isLt
        exact h (Fin.ext (by omega))
    rw [e]
    show (((0#1 : BitVec 1).toNat : ℝ) : EReal) = 0
    simp

end Cert.ReferenceIdeal.RefValue

end
-- ==== Proof.RefMix.lean ====
import proofs.«150459_j80977313399318_2_alg».proof.Proof.RefReadQ
import proofs.«150459_j80977313399318_2_alg».proof.Proof.SpecArr
import proofs.«150459_j80977313399318_2_alg».proof.Proof.RefCat
import proofs.«150459_j80977313399318_2_alg».proof.Proof.RefScalar
import Idealize.ShloMosaic.Lib.ValueIdx
import Idealize.ShloMosaic.Lib.Pipeline.Value
import Idealize.ShloMosaic.PureOps.Ideal.Laws

/-! The mixing gate and the blended state (the first sixteen operations) read at an index. -/

noncomputable section

namespace Cert.ReferenceIdeal.RefValue

open Cert.ReferenceIdeal Cert.ReferenceIdeal.Read Cert.GraphCell Idealize.ShloMosaic Idealize.ShloMosaic.ValueIdx

/-- The four-piece join at `(b, n, j)`. -/
theorem v0_read (x0 : (⟨S16x1024x2, .f32⟩ : BufTy).Contents (Elt Ideal)) (x1 x2 : (⟨S16x1024x64, .f32⟩ : BufTy).Contents (Elt Ideal)) (x3 : (⟨S16x1024x16, .f32⟩ : BufTy).Contents (Elt Ideal)) (b : Fin 16) (n : Fin 1024) (j : Fin 146) :
    val_main_v0 (F := Ideal) x0 x1 x2 x3 (ix3 b n j)
      = cat4 (fun k => x0 (ix3 b n k)) (fun k => x1 (ix3 b n k)) (fun k => x2 (ix3 b n k)) (fun k => x3 (ix3 b n k)) j := by
  unfold val_main_v0
  exact cat4_read x0 x1 x2 x3 _ b n j

/-- The dense layer's sum at `(b, n, o)`. -/
theorem v1_read (x0 : (⟨S16x1024x2, .f32⟩ : BufTy).Contents (Elt Ideal)) (x1 x2 : (⟨S16x1024x64, .f32⟩ : BufTy).Contents (Elt Ideal)) (x3 : (⟨S16x1024x16, .f32⟩ : BufTy).Contents (Elt Ideal)) (x5 : (⟨S146x64, .f32⟩ : BufTy).Contents (Elt Ideal)) (b : Fin 16) (n : Fin 1024) (o : Fin 64) :
    val_main_v1 (F := Ideal) x0 x1 x2 x3 x5 (ix3 b n o)
      = ∑ k : Fin 146, cat4 (fun k => x0 (ix3 b n k)) (fun k => x1 (ix3 b n k)) (fun k => x2 (ix3 b n k))
          (fun k => x3 (ix3 b n k)) k * x5 (ix2 k o) := by
  rw [val_main_v1_apply]
  refine Finset.sum_congr rfl fun k _ => ?_
  have el : lidx_main_v1 (ix3 b n o) k = ix3 b n k := funext fun a => Fin.ext (by match a with | ⟨0, _⟩ => rfl | ⟨1, _⟩ => rfl | ⟨2, _⟩ => rfl)
  have er : ridx_main_v1 (ix3 b n o) k = ix2 k o := funext fun a => Fin.ext (by match a with | ⟨0, _⟩ => rfl | ⟨1, _⟩ => rfl)
  rw [el, er, v0_read]

/-- The bias broadcast over batch and node at `(b, n, o)`. -/
theorem v3_read (x6 : (⟨S64, .f32⟩ : BufTy).Contents (Elt Ideal)) (b : Fin 16) (n : Fin 1024) (o : Fin 64) :
    val_main_v3 (F := Ideal) x6 (ix3 b n o) = x6 (ix1 o) := by
  rw [val_main_v3_apply, val_main_v2_apply]
  have e : idx_main_v2 (idx_main_v3 (ix3 b n o)) = ix1 o := funext fun a => Fin.ext (by match a with | ⟨0, _⟩ => rfl)
  rw [e]

/-- The mixing gate at `(b, n, o)`. -/
theorem v10_read (x0 : (⟨S16x1024x2, .f32⟩ : BufTy).Contents (Elt Ideal)) (x1 x2 : (⟨S16x1024x64, .f32⟩ : BufTy).Contents (Elt Ideal)) (x3 : (⟨S16x1024x16, .f32⟩ : BufTy).Contents (Elt Ideal)) (x5 : (⟨S146x64, .f32⟩ : BufTy).Contents (Elt Ideal)) (x6 : (⟨S64, .f32⟩ : BufTy).Contents (Elt Ideal)) (b : Fin 16) (n : Fin 1024) (o : Fin 64) :
    val_main_v10 (F := Ideal) x0 x1 x2 x3 x5 x6 (ix3 b n o)
      = mixGate (fun n k => x0 (ix3 b n k)) (fun n k => x1 (ix3 b n k)) (fun n k => x2 (ix3 b n k)) (fun n k => x3 (ix3 b n k))
          (fun k o => x5 (ix2 k o)) (fun o => x6 (ix1 o)) n o := by
  rw [val_main_v10_apply, val_main_v9_apply, val_main_cst_0_apply, val_main_v8_apply, val_main_v7_apply, val_main_cst_apply,
    val_main_v6_apply, val_main_v5_apply, val_main_v4_apply, v1_read, v3_read]
  exact logistic_spelt _

/-- The blended state at `(b, n, o)`. -/
theorem v15_read (x0 : (⟨S16x1024x2, .f32⟩ : BufTy).Contents (Elt Ideal)) (x1 x2 : (⟨S16x1024x64, .f32⟩ : BufTy).Contents (Elt Ideal)) (x3 : (⟨S16x1024x16, .f32⟩ : BufTy).Contents (Elt Ideal)) (x5 : (⟨S146x64, .f32⟩ : BufTy).Contents (Elt Ideal)) (x6 : (⟨S64, .f32⟩ : BufTy).Contents (Elt Ideal)) (b : Fin 16) (n : Fin 1024) (o : Fin 64) :
    val_main_v15 (F := Ideal) x0 x1 x2 x3 x5 x6 (ix3 b n o)
      = mixState ONE (fun n k => x0 (ix3 b n k)) (fun n k => x1 (ix3 b n k)) (fun n k => x2 (ix3 b n k)) (fun n k => x3 (ix3 b n k))
          (fun k o => x5 (ix2 k o)) (fun o => x6 (ix1 o)) n o := by
  rw [val_main_v15_apply, val_main_v11_apply, val_main_v14_apply, val_main_v13_apply, val_main_v12_apply, val_main_cst_1_apply,
    v10_read]
  rfl

end Cert.ReferenceIdeal.RefValue

end
-- ==== Proof.RefCheb.lean ====
import proofs.«150459_j80977313399318_2_alg».proof.Proof.RefReadQ
import proofs.«150459_j80977313399318_2_alg».proof.Proof.SpecArr
import proofs.«150459_j80977313399318_2_alg».proof.Proof.RefScalar
import Idealize.ShloMosaic.Lib.ValueIdx
import Idealize.ShloMosaic.Lib.Pipeline.Value
import Idealize.ShloMosaic.PureOps.Ideal.Laws

/-! The identity matrix, the two adjacency matrices and their second Chebyshev matrices read at an index (both
    occurrences in the program). -/

noncomputable section

namespace Cert.ReferenceIdeal.RefValue

open Cert.ReferenceIdeal Cert.ReferenceIdeal.Read Cert.GraphCell Idealize.ShloMosaic Idealize.ShloMosaic.ValueIdx

/-- The 0/1 identity matrix (two counters compared, the bit converted, broadcast over the batch) at `(b, n, m)`. -/
theorem v24_read (b : Fin 16) (n m : Fin 1024) : val_main_v24 (F := Ideal) (ix3 b n m) = eye n m := by
  rw [val_main_v24_apply, val_main_v23_apply]
  have e : idx_main_v23 (idx_main_v24 (ix3 b n m)) = ix2 n m := funext fun a => Fin.ext (by match a with | ⟨0, _⟩ => rfl | ⟨1, _⟩ => rfl)
  rw [e, val_main_v22_apply, val_main_v21_apply, val_main_v20_apply, val_main_v17_apply, val_main_v19_apply,
    val_main_c_apply, val_main_v18_apply]
  exact eye_word n m

/-- The 0/1 identity matrix (two counters compared, the bit converted, broadcast over the batch) at `(b, n, m)`. -/
theorem v67_read (b : Fin 16) (n m : Fin 1024) : val_main_v67 (F := Ideal) (ix3 b n m) = eye n m := by
  rw [val_main_v67_apply, val_main_v66_apply]
  have e : idx_main_v66 (idx_main_v67 (ix3 b n m)) = ix2 n m := funext fun a => Fin.ext (by match a with | ⟨0, _⟩ => rfl | ⟨1, _⟩ => rfl)
  rw [e, val_main_v65_apply, val_main_v64_apply, val_main_v63_apply, val_main_v60_apply, val_main_v62_apply,
    val_main_c_6_apply, val_main_v61_apply]
  exact eye_word n m

/-- Adjacency matrix 0 (a slice of the stacked array, its unit axis dropped) at `(b, n, m)`. -/
theorem v26_read (x4 : (⟨S2x16x1024x1024, .f32⟩ : BufTy).Contents (Elt Ideal)) (b : Fin 16) (n m : Fin 1024) :
    val_main_v26 (F := Ideal) x4 (ix3 b n m) = x4 (ix4 (0 : Fin 2) b n m) := by
  rw [val_main_v26_apply, val_main_v25_apply]
  have e : idx_main_v25 (idx_main_v26 (ix3 b n m)) = ix4 (0 : Fin 2) b n m := funext fun a => Fin.ext (by
    have hb := b.isLt
    have hn := n.isLt
    have hm := m.isLt
    match a with
    | ⟨0, _⟩ => rfl
    | ⟨1, _⟩ => show ((b.val * 1024 + n.val) * 1024 + m.val) / 1048576 % 16 = b.val; omega
    | ⟨2, _⟩ => show ((b.val * 1024 + n.val) * 1024 + m.val) / 1024 % 1024 = n.val; omega
    | ⟨3, _⟩ => show ((b.val * 1024 + n.val) * 1024 + m.val) % 1024 = m.val; omega)
  rw [e]

/-- Twice adjacency matrix 0 at `(b, n, m)`. -/
theorem v28_read (x4 : (⟨S2x16x1024x1024, .f32⟩ : BufTy).Contents (Elt Ideal)) (b : Fin 16) (n m : Fin 1024) :
    val_main_v28 (F := Ideal) x4 (ix3 b n m) = TWO * x4 (ix4 (0 : Fin 2) b n m) := by
  rw [val_main_v28_apply, val_main_v27_apply, val_main_cst_2_apply, v26_read]
  rfl

/-- The matrix product `(2 A) · A` of adjacency matrix 0 at `(b, n, m)`. -/
theorem v29_read (x4 : (⟨S2x16x1024x1024, .f32⟩ : BufTy).Contents (Elt Ideal)) (b : Fin 16) (n m : Fin 1024) :
    val_main_v29 (F := Ideal) x4 (ix3 b n m) = ∑ k : Fin 1024, (TWO * x4 (ix4 (0 : Fin 2) b n k)) * x4 (ix4 (0 : Fin 2) b k m) := by
  rw [val_main_v29_apply]
  refine Finset.sum_congr rfl fun k _ => ?_
  have el : lidx_main_v29 (ix3 b n m) k = ix3 b n k := funext fun a => Fin.ext (by match a with | ⟨0, _⟩ => rfl | ⟨1, _⟩ => rfl | ⟨2, _⟩ => rfl)
  have er : ridx_main_v29 (ix3 b n m) k = ix3 b k m := funext fun a => Fin.ext (by match a with | ⟨0, _⟩ => rfl | ⟨1, _⟩ => rfl | ⟨2, _⟩ => rfl)
  rw [el, er, v28_read, v26_read]

/-- The second Chebyshev matrix of adjacency matrix 0 at `(b, n, m)`. -/
theorem v30_read (x4 : (⟨S2x16x1024x1024, .f32⟩ : BufTy).Contents (Elt Ideal)) (b : Fin 16) (n m : Fin 1024) :
    val_main_v30 (F := Ideal) x4 (ix3 b n m) = cheb2 TWO (fun n m => x4 (ix4 (0 : Fin 2) b n m)) n m := by
  rw [val_main_v30_apply, v29_read, v24_read]
  rfl

/-- Adjacency matrix 1 (a slice of the stacked array, its unit axis dropped) at `(b, n, m)`. -/
theorem v35_read (x4 : (⟨S2x16x1024x1024, .f32⟩ : BufTy).Contents (Elt Ideal)) (b : Fin 16) (n m : Fin 1024) :
    val_main_v35 (F := Ideal) x4 (ix3 b n m) = x4 (ix4 (1 : Fin 2) b n m) := by
  rw [val_main_v35_apply, val_main_v34_apply]
  have e : idx_main_v34 (idx_main_v35 (ix3 b n m)) = ix4 (1 : Fin 2) b n m := funext fun a => Fin.ext (by
    have hb := b.isLt
    have hn := n.isLt
    have hm := m.isLt
    match a with
    | ⟨0, _⟩ => rfl
    | ⟨1, _⟩ => show ((b.val * 1024 + n.val) * 1024 + m.val) / 1048576 % 16 = b.val; omega
    | ⟨2, _⟩ => show ((b.val * 1024 + n.val) * 1024 + m.val) / 1024 % 1024 = n.val; omega
    | ⟨3, _⟩ => show ((b.val * 1024 + n.val) * 1024 + m.val) % 1024 = m.val; omega)
  rw [e]

/-- Twice adjacency matrix 1 at `(b, n, m)`. -/
theorem v37_read (x4 : (⟨S2x16x1024x1024, .f32⟩ : BufTy).Contents (Elt Ideal)) (b : Fin 16) (n m : Fin 1024) :
    val_main_v37 (F := Ideal) x4 (ix3 b n m) = TWO * x4 (ix4 (1 : Fin 2) b n m) := by
  rw [val_main_v37_apply, val_main_v36_apply, val_main_cst_3_apply, v35_read]
  rfl

/-- The matrix product `(2 A) · A` of adjacency matrix 1 at `(b, n, m)`. -/
theorem v38_read (x4 : (⟨S2x16x1024x1024, .f32⟩ : BufTy).Contents (Elt Ideal)) (b : Fin 16) (n m : Fin 1024) :
    val_main_v38 (F := Ideal) x4 (ix3 b n m) = ∑ k : Fin 1024, (TWO * x4 (ix4 (1 : Fin 2) b n k)) * x4 (ix4 (1 : Fin 2) b k m) := by
  rw [val_main_v38_apply]
  refine Finset.sum_congr rfl fun k _ => ?_
  have el : lidx_main_v38 (ix3 b n m) k = ix3 b n k := funext fun a => Fin.ext (by match a with | ⟨0, _⟩ => rfl | ⟨1, _⟩ => rfl | ⟨2, _⟩ => rfl)
  have er : ridx_main_v38 (ix3 b n m) k = ix3 b k m := funext fun a => Fin.ext (by match a with | ⟨0, _⟩ => rfl | ⟨1, _⟩ => rfl | ⟨2, _⟩ => rfl)
  rw [el, er, v37_read, v35_read]

/-- The second Chebyshev matrix of adjacency matrix 1 at `(b, n, m)`. -/
theorem v39_read (x4 : (⟨S2x16x1024x1024, .f32⟩ : BufTy).Contents (Elt Ideal)) (b : Fin 16) (n m : Fin 1024) :
    val_main_v39 (F := Ideal) x4 (ix3 b n m) = cheb2 TWO (fun n m => x4 (ix4 (1 : Fin 2) b n m)) n m := by
  rw [val_main_v39_apply, v38_read, v24_read]
  rfl

/-- Adjacency matrix 0 (a slice of the stacked array, its unit axis dropped) at `(b, n, m)`. -/
theorem v69_read (x4 : (⟨S2x16x1024x1024, .f32⟩ : BufTy).Contents (Elt Ideal)) (b : Fin 16) (n m : Fin 1024) :
    val_main_v69 (F := Ideal) x4 (ix3 b n m) = x4 (ix4 (0 : Fin 2) b n m) := by
  rw [val_main_v69_apply, val_main_v68_apply]
  have e : idx_main_v68 (idx_main_v69 (ix3 b n m)) = ix4 (0 : Fin 2) b n m := funext fun a => Fin.ext (by
    have hb := b.isLt
    have hn := n.isLt
    have hm := m.isLt
    match a with
    | ⟨0, _⟩ => rfl
    | ⟨1, _⟩ => show ((b.val * 1024 + n.val) * 1024 + m.val) / 1048576 % 16 = b.val; omega
    | ⟨2, _⟩ => show ((b.val * 1024 + n.val) * 1024 + m.val) / 1024 % 1024 = n.val; omega
    | ⟨3, _⟩ => show ((b.val * 1024 + n.val) * 1024 + m.val) % 1024 = m.val; omega)
  rw [e]

/-- Twice adjacency matrix 0 at `(b, n, m)`. -/
theorem v71_read (x4 : (⟨S2x16x1024x1024, .f32⟩ : BufTy).Contents (Elt Ideal)) (b : Fin 16) (n m : Fin 1024) :
    val_main_v71 (F := Ideal) x4 (ix3 b n m) = TWO * x4 (ix4 (0 : Fin 2) b n m) := by
  rw [val_main_v71_apply, val_main_v70_apply, val_main_cst_7_apply, v69_read]
  rfl

/-- The matrix product `(2 A) · A` of adjacency matrix 0 at `(b, n, m)`. -/
theorem v72_read (x4 : (⟨S2x16x1024x1024, .f32⟩ : BufTy).Contents (Elt Ideal)) (b : Fin 16) (n m : Fin 1024) :
    val_main_v72 (F := Ideal) x4 (ix3 b n m) = ∑ k : Fin 1024, (TWO * x4 (ix4 (0 : Fin 2) b n k)) * x4 (ix4 (0 : Fin 2) b k m) := by
  rw [val_main_v72_apply]
  refine Finset.sum_congr rfl fun k _ => ?_
  have el : lidx_main_v72 (ix3 b n m) k = ix3 b n k := funext fun a => Fin.ext (by match a with | ⟨0, _⟩ => rfl | ⟨1, _⟩ => rfl | ⟨2, _⟩ => rfl)
  have er : ridx_main_v72 (ix3 b n m) k = ix3 b k m := funext fun a => Fin.ext (by match a with | ⟨0, _⟩ => rfl | ⟨1, _⟩ => rfl | ⟨2, _⟩ => rfl)
  rw [el, er, v71_read, v69_read]

/-- The second Chebyshev matrix of adjacency matrix 0 at `(b, n, m)`. -/
theorem v73_read (x4 : (⟨S2x16x1024x1024, .f32⟩ : BufTy).Contents (Elt Ideal)) (b : Fin 16) (n m : Fin 1024) :
    val_main_v73 (F := Ideal) x4 (ix3 b n m) = cheb2 TWO (fun n m => x4 (ix4 (0 : Fin 2) b n m)) n m := by
  rw [val_main_v73_apply, v72_read, v67_read]
  rfl

/-- Adjacency matrix 1 (a slice of the stacked array, its unit axis dropped) at `(b, n, m)`. -/
theorem v78_read (x4 : (⟨S2x16x1024x1024, .f32⟩ : BufTy).Contents (Elt Ideal)) (b : Fin 16) (n m : Fin 1024) :
    val_main_v78 (F := Ideal) x4 (ix3 b n m) = x4 (ix4 (1 : Fin 2) b n m) := by
  rw [val_main_v78_apply, val_main_v77_apply]
  have e : idx_main_v77 (idx_main_v78 (ix3 b n m)) = ix4 (1 : Fin 2) b n m := funext fun a => Fin.ext (by
    have hb := b.isLt
    have hn := n.isLt
    have hm := m.isLt
    match a with
    | ⟨0, _⟩ => rfl
    | ⟨1, _⟩ => show ((b.val * 1024 + n.val) * 1024 + m.val) / 1048576 % 16 = b.val; omega
    | ⟨2, _⟩ => show ((b.val * 1024 + n.val) * 1024 + m.val) / 1024 % 1024 = n.val; omega
    | ⟨3, _⟩ => show ((b.val * 1024 + n.val) * 1024 + m.val) % 1024 = m.val; omega)
  rw [e]

/-- Twice adjacency matrix 1 at `(b, n, m)`. -/
theorem v80_read (x4 : (⟨S2x16x1024x1024, .f32⟩ : BufTy).Contents (Elt Ideal)) (b : Fin 16) (n m : Fin 1024) :
    val_main_v80 (F := Ideal) x4 (ix3 b n m) = TWO * x4 (ix4 (1 : Fin 2) b n m) := by
  rw [val_main_v80_apply, val_main_v79_apply, val_main_cst_8_apply, v78_read]
  rfl

/-- The matrix product `(2 A) · A` of adjacency matrix 1 at `(b, n, m)`. -/
theorem v81_read (x4 : (⟨S2x16x1024x1024, .f32⟩ : BufTy).Contents (Elt Ideal)) (b : Fin 16) (n m : Fin 1024) :
    val_main_v81 (F := Ideal) x4 (ix3 b n m) = ∑ k : Fin 1024, (TWO * x4 (ix4 (1 : Fin 2) b n k)) * x4 (ix4 (1 : Fin 2) b k m) := by
  rw [val_main_v81_apply]
  refine Finset.sum_congr rfl fun k _ => ?_
  have el : lidx_main_v81 (ix3 b n m) k = ix3 b n k := funext fun a => Fin.ext (by match a with | ⟨0, _⟩ => rfl | ⟨1, _⟩ => rfl | ⟨2, _⟩ => rfl)
  have er : ridx_main_v81 (ix3 b n m) k = ix3 b k m := funext fun a => Fin.ext (by match a with | ⟨0, _⟩ => rfl | ⟨1, _⟩ => rfl | ⟨2, _⟩ => rfl)
  rw [el, er, v80_read, v78_read]

/-- The second Chebyshev matrix of adjacency matrix 1 at `(b, n, m)`. -/
theorem v82_read (x4 : (⟨S2x16x1024x1024, .f32⟩ : BufTy).Contents (Elt Ideal)) (b : Fin 16) (n m : Fin 1024) :
    val_main_v82 (F := Ideal) x4 (ix3 b n m) = cheb2 TWO (fun n m => x4 (ix4 (1 : Fin 2) b n m)) n m := by
  rw [val_main_v82_apply, v81_read, v67_read]
  rfl

end Cert.ReferenceIdeal.RefValue

end
-- ==== Proof.RefHop.lean ====
import proofs.«150459_j80977313399318_2_alg».proof.Proof.RefReadQ
import proofs.«150459_j80977313399318_2_alg».proof.Proof.SpecArr
import proofs.«150459_j80977313399318_2_alg».proof.Proof.RefCheb
import Idealize.ShloMosaic.Lib.ValueIdx
import Idealize.ShloMosaic.Lib.Pipeline.Value
import Idealize.ShloMosaic.PureOps.Ideal.Laws

/-! The twelve batched matrix products of the two graph convolutions read at an index, as hops of the feature rows. -/

noncomputable section

namespace Cert.ReferenceIdeal.RefValue

open Cert.ReferenceIdeal Cert.ReferenceIdeal.Read Cert.GraphCell Idealize.ShloMosaic Idealize.ShloMosaic.ValueIdx

/-- One hop through the identity matrix: the batched matrix product at `(b, n, c)`, the features' rows at batch `b` given as `Y`. -/
theorem v31_read (x0 : (⟨S16x1024x2, .f32⟩ : BufTy).Contents (Elt Ideal)) (x1 x2 : (⟨S16x1024x64, .f32⟩ : BufTy).Contents (Elt Ideal)) (b : Fin 16)
    (Y : Fin 1024 → Fin 130 → EReal) (hY : ∀ (m : Fin 1024) (c : Fin 130), val_main_v16 (F := Ideal) x0 x1 x2 (ix3 b m c) = Y m c)
    (n : Fin 1024) (c : Fin 130) :
    val_main_v31 (F := Ideal) x0 x1 x2 (ix3 b n c) = hop eye Y n c := by
  rw [val_main_v31_apply]
  unfold hop
  refine Finset.sum_congr rfl fun k _ => ?_
  have el : lidx_main_v31 (ix3 b n c) k = ix3 b n k := funext fun a => Fin.ext (by match a with | ⟨0, _⟩ => rfl | ⟨1, _⟩ => rfl | ⟨2, _⟩ => rfl)
  have er : ridx_main_v31 (ix3 b n c) k = ix3 b k c := funext fun a => Fin.ext (by match a with | ⟨0, _⟩ => rfl | ⟨1, _⟩ => rfl | ⟨2, _⟩ => rfl)
  rw [el, er, v24_read, hY]

/-- One hop through adjacency matrix 0: the batched matrix product at `(b, n, c)`, the features' rows at batch `b` given as `Y`. -/
theorem v32_read (x0 : (⟨S16x1024x2, .f32⟩ : BufTy).Contents (Elt Ideal)) (x1 x2 : (⟨S16x1024x64, .f32⟩ : BufTy).Contents (Elt Ideal)) (x4 : (⟨S2x16x1024x1024, .f32⟩ : BufTy).Contents (Elt Ideal)) (b : Fin 16)
    (Y : Fin 1024 → Fin 130 → EReal) (hY : ∀ (m : Fin 1024) (c : Fin 130), val_main_v16 (F := Ideal) x0 x1 x2 (ix3 b m c) = Y m c)
    (n : Fin 1024) (c : Fin 130) :
    val_main_v32 (F := Ideal) x0 x1 x2 x4 (ix3 b n c) = hop (fun n m => x4 (ix4 (0 : Fin 2) b n m)) Y n c := by
  rw [val_main_v32_apply]
  unfold hop
  refine Finset.sum_congr rfl fun k _ => ?_
  have el : lidx_main_v32 (ix3 b n c) k = ix3 b n k := funext fun a => Fin.ext (by match a with | ⟨0, _⟩ => rfl | ⟨1, _⟩ => rfl | ⟨2, _⟩ => rfl)
  have er : ridx_main_v32 (ix3 b n c) k = ix3 b k c := funext fun a => Fin.ext (by match a with | ⟨0, _⟩ => rfl | ⟨1, _⟩ => rfl | ⟨2, _⟩ => rfl)
  rw [el, er, v26_read, hY]

/-- One hop through the second Chebyshev matrix of adjacency matrix 0: the batched matrix product at `(b, n, c)`, the features' rows at batch `b` given as `Y`. -/
theorem v33_read (x0 : (⟨S16x1024x2, .f32⟩ : BufTy).Contents (Elt Ideal)) (x1 x2 : (⟨S16x1024x64, .f32⟩ : BufTy).Contents (Elt Ideal)) (x4 : (⟨S2x16x1024x1024, .f32⟩ : BufTy).Contents (Elt Ideal)) (b : Fin 16)
    (Y : Fin 1024 → Fin 130 → EReal) (hY : ∀ (m : Fin 1024) (c : Fin 130), val_main_v16 (F := Ideal) x0 x1 x2 (ix3 b m c) = Y m c)
    (n : Fin 1024) (c : Fin 130) :
    val_main_v33 (F := Ideal) x0 x1 x2 x4 (ix3 b n c) = hop (cheb2 TWO (fun n m => x4 (ix4 (0 : Fin 2) b n m))) Y n c := by
  rw [val_main_v33_apply]
  unfold hop
  refine Finset.sum_congr rfl fun k _ => ?_
  have el : lidx_main_v33 (ix3 b n c) k = ix3 b n k := funext fun a => Fin.ext (by match a with | ⟨0, _⟩ => rfl | ⟨1, _⟩ => rfl | ⟨2, _⟩ => rfl)
  have er : ridx_main_v33 (ix3 b n c) k = ix3 b k c := funext fun a => Fin.ext (by match a with | ⟨0, _⟩ => rfl | ⟨1, _⟩ => rfl | ⟨2, _⟩ => rfl)
  rw [el, er, v30_read, hY]

/-- One hop through the identity matrix: the batched matrix product at `(b, n, c)`, the features' rows at batch `b` given as `Y`. -/
theorem v40_read (x0 : (⟨S16x1024x2, .f32⟩ : BufTy).Contents (Elt Ideal)) (x1 x2 : (⟨S16x1024x64, .f32⟩ : BufTy).Contents (Elt Ideal)) (b : Fin 16)
    (Y : Fin 1024 → Fin 130 → EReal) (hY : ∀ (m : Fin 1024) (c : Fin 130), val_main_v16 (F := Ideal) x0 x1 x2 (ix3 b m c) = Y m c)
    (n : Fin 1024) (c : Fin 130) :
    val_main_v40 (F := Ideal) x0 x1 x2 (ix3 b n c) = hop eye Y n c := by
  rw [val_main_v40_apply]
  unfold hop
  refine Finset.sum_congr rfl fun k _ => ?_
  have el : lidx_main_v40 (ix3 b n c) k = ix3 b n k := funext fun a => Fin.ext (by match a with | ⟨0, _⟩ => rfl | ⟨1, _⟩ => rfl | ⟨2, _⟩ => rfl)
  have er : ridx_main_v40 (ix3 b n c) k = ix3 b k c := funext fun a => Fin.ext (by match a with | ⟨0, _⟩ => rfl | ⟨1, _⟩ => rfl | ⟨2, _⟩ => rfl)
  rw [el, er, v24_read, hY]

/-- One hop through adjacency matrix 1: the batched matrix product at `(b, n, c)`, the features' rows at batch `b` given as `Y`. -/
theorem v41_read (x0 : (⟨S16x1024x2, .f32⟩ : BufTy).Contents (Elt Ideal)) (x1 x2 : (⟨S16x1024x64, .f32⟩ : BufTy).Contents (Elt Ideal)) (x4 : (⟨S2x16x1024x1024, .f32⟩ : BufTy).Contents (Elt Ideal)) (b : Fin 16)
    (Y : Fin 1024 → Fin 130 → EReal) (hY : ∀ (m : Fin 1024) (c : Fin 130), val_main_v16 (F := Ideal) x0 x1 x2 (ix3 b m c) = Y m c)
    (n : Fin 1024) (c : Fin 130) :
    val_main_v41 (F := Ideal) x0 x1 x2 x4 (ix3 b n c) = hop (fun n m => x4 (ix4 (1 : Fin 2) b n m)) Y n c := by
  rw [val_main_v41_apply]
  unfold hop
  refine Finset.sum_congr rfl fun k _ => ?_
  have el : lidx_main_v41 (ix3 b n c) k = ix3 b n k := funext fun a => Fin.ext (by match a with | ⟨0, _⟩ => rfl | ⟨1, _⟩ => rfl | ⟨2, _⟩ => rfl)
  have er : ridx_main_v41 (ix3 b n c) k = ix3 b k c := funext fun a => Fin.ext (by match a with | ⟨0, _⟩ => rfl | ⟨1, _⟩ => rfl | ⟨2, _⟩ => rfl)
  rw [el, er, v35_read, hY]

/-- One hop through the second Chebyshev matrix of adjacency matrix 1: the batched matrix product at `(b, n, c)`, the features' rows at batch `b` given as `Y`. -/
theorem v42_read (x0 : (⟨S16x1024x2, .f32⟩ : BufTy).Contents (Elt Ideal)) (x1 x2 : (⟨S16x1024x64, .f32⟩ : BufTy).Contents (Elt Ideal)) (x4 : (⟨S2x16x1024x1024, .f32⟩ : BufTy).Contents (Elt Ideal)) (b : Fin 16)
    (Y : Fin 1024 → Fin 130 → EReal) (hY : ∀ (m : Fin 1024) (c : Fin 130), val_main_v16 (F := Ideal) x0 x1 x2 (ix3 b m c) = Y m c)
    (n : Fin 1024) (c : Fin 130) :
    val_main_v42 (F := Ideal) x0 x1 x2 x4 (ix3 b n c) = hop (cheb2 TWO (fun n m => x4 (ix4 (1 : Fin 2) b n m))) Y n c := by
  rw [val_main_v42_apply]
  unfold hop
  refine Finset.sum_congr rfl fun k _ => ?_
  have el : lidx_main_v42 (ix3 b n c) k = ix3 b n k := funext fun a => Fin.ext (by match a with | ⟨0, _⟩ => rfl | ⟨1, _⟩ => rfl | ⟨2, _⟩ => rfl)
  have er : ridx_main_v42 (ix3 b n c) k = ix3 b k c := funext fun a => Fin.ext (by match a with | ⟨0, _⟩ => rfl | ⟨1, _⟩ => rfl | ⟨2, _⟩ => rfl)
  rw [el, er, v39_read, hY]

/-- One hop through the identity matrix: the batched matrix product at `(b, n, c)`, the features' rows at batch `b` given as `Y`. -/
theorem v74_read (x0 : (⟨S16x1024x2, .f32⟩ : BufTy).Contents (Elt Ideal)) (x1 x2 : (⟨S16x1024x64, .f32⟩ : BufTy).Contents (Elt Ideal)) (x4 : (⟨S2x16x1024x1024, .f32⟩ : BufTy).Contents (Elt Ideal)) (x7 : (⟨S780x192, .f32⟩ : BufTy).Contents (Elt Ideal)) (x8 : (⟨S192, .f32⟩ : BufTy).Contents (Elt Ideal)) (b : Fin 16)
    (Y : Fin 1024 → Fin 130 → EReal) (hY : ∀ (m : Fin 1024) (c : Fin 130), val_main_v59 (F := Ideal) x0 x1 x2 x4 x7 x8 (ix3 b m c) = Y m c)
    (n : Fin 1024) (c : Fin 130) :
    val_main_v74 (F := Ideal) x0 x1 x2 x4 x7 x8 (ix3 b n c) = hop eye Y n c := by
  rw [val_main_v74_apply]
  unfold hop
  refine Finset.sum_congr rfl fun k _ => ?_
  have el : lidx_main_v74 (ix3 b n c) k = ix3 b n k := funext fun a => Fin.ext (by match a with | ⟨0, _⟩ => rfl | ⟨1, _⟩ => rfl | ⟨2, _⟩ => rfl)
  have er : ridx_main_v74 (ix3 b n c) k = ix3 b k c := funext fun a => Fin.ext (by match a with | ⟨0, _⟩ => rfl | ⟨1, _⟩ => rfl | ⟨2, _⟩ => rfl)
  rw [el, er, v67_read, hY]

/-- One hop through adjacency matrix 0: the batched matrix product at `(b, n, c)`, the features' rows at batch `b` given as `Y`. -/
theorem v75_read (x0 : (⟨S16x1024x2, .f32⟩ : BufTy).Contents (Elt Ideal)) (x1 x2 : (⟨S16x1024x64, .f32⟩ : BufTy).Contents (Elt Ideal)) (x4 : (⟨S2x16x1024x1024, .f32⟩ : BufTy).Contents (Elt Ideal)) (x7 : (⟨S780x192, .f32⟩ : BufTy).Contents (Elt Ideal)) (x8 : (⟨S192, .f32⟩ : BufTy).Contents (Elt Ideal)) (b : Fin 16)
    (Y : Fin 1024 → Fin 130 → EReal) (hY : ∀ (m : Fin 1024) (c : Fin 130), val_main_v59 (F := Ideal) x0 x1 x2 x4 x7 x8 (ix3 b m c) = Y m c)
    (n : Fin 1024) (c : Fin 130) :
    val_main_v75 (F := Ideal) x0 x1 x2 x4 x7 x8 (ix3 b n c) = hop (fun n m => x4 (ix4 (0 : Fin 2) b n m)) Y n c := by
  rw [val_main_v75_apply]
  unfold hop
  refine Finset.sum_congr rfl fun k _ => ?_
  have el : lidx_main_v75 (ix3 b n c) k = ix3 b n k := funext fun a => Fin.ext (by match a with | ⟨0, _⟩ => rfl | ⟨1, _⟩ => rfl | ⟨2, _⟩ => rfl)
  have er : ridx_main_v75 (ix3 b n c) k = ix3 b k c := funext fun a => Fin.ext (by match a with | ⟨0, _⟩ => rfl | ⟨1, _⟩ => rfl | ⟨2, _⟩ => rfl)
  rw [el, er, v69_read, hY]

/-- One hop through the second Chebyshev matrix of adjacency matrix 0: the batched matrix product at `(b, n, c)`, the features' rows at batch `b` given as `Y`. -/
theorem v76_read (x0 : (⟨S16x1024x2, .f32⟩ : BufTy).Contents (Elt Ideal)) (x1 x2 : (⟨S16x1024x64, .f32⟩ : BufTy).Contents (Elt Ideal)) (x4 : (⟨S2x16x1024x1024, .f32⟩ : BufTy).Contents (Elt Ideal)) (x7 : (⟨S780x192, .f32⟩ : BufTy).Contents (Elt Ideal)) (x8 : (⟨S192, .f32⟩ : BufTy).Contents (Elt Ideal)) (b : Fin 16)
    (Y : Fin 1024 → Fin 130 → EReal) (hY : ∀ (m : Fin 1024) (c : Fin 130), val_main_v59 (F := Ideal) x0 x1 x2 x4 x7 x8 (ix3 b m c) = Y m c)
    (n : Fin 1024) (c : Fin 130) :
    val_main_v76 (F := Ideal) x0 x1 x2 x4 x7 x8 (ix3 b n c) = hop (cheb2 TWO (fun n m => x4 (ix4 (0 : Fin 2) b n m))) Y n c := by
  rw [val_main_v76_apply]
  unfold hop
  refine Finset.sum_congr rfl fun k _ => ?_
  have el : lidx_main_v76 (ix3 b n c) k = ix3 b n k := funext fun a => Fin.ext (by match a with | ⟨0, _⟩ => rfl | ⟨1, _⟩ => rfl | ⟨2, _⟩ => rfl)
  have er : ridx_main_v76 (ix3 b n c) k = ix3 b k c := funext fun a => Fin.ext (by match a with | ⟨0, _⟩ => rfl | ⟨1, _⟩ => rfl | ⟨2, _⟩ => rfl)
  rw [el, er, v73_read, hY]

/-- One hop through the identity matrix: the batched matrix product at `(b, n, c)`, the features' rows at batch `b` given as `Y`. -/
theorem v83_read (x0 : (⟨S16x1024x2, .f32⟩ : BufTy).Contents (Elt Ideal)) (x1 x2 : (⟨S16x1024x64, .f32⟩ : BufTy).Contents (Elt Ideal)) (x4 : (⟨S2x16x1024x1024, .f32⟩ : BufTy).Contents (Elt Ideal)) (x7 : (⟨S780x192, .f32⟩ : BufTy).Contents (Elt Ideal)) (x8 : (⟨S192, .f32⟩ : BufTy).Contents (Elt Ideal)) (b : Fin 16)
    (Y : Fin 1024 → Fin 130 → EReal) (hY : ∀ (m : Fin 1024) (c : Fin 130), val_main_v59 (F := Ideal) x0 x1 x2 x4 x7 x8 (ix3 b m c) = Y m c)
    (n : Fin 1024) (c : Fin 130) :
    val_main_v83 (F := Ideal) x0 x1 x2 x4 x7 x8 (ix3 b n c) = hop eye Y n c := by
  rw [val_main_v83_apply]
  unfold hop
  refine Finset.sum_congr rfl fun k _ => ?_
  have el : lidx_main_v83 (ix3 b n c) k = ix3 b n k := funext fun a => Fin.ext (by match a with | ⟨0, _⟩ => rfl | ⟨1, _⟩ => rfl | ⟨2, _⟩ => rfl)
  have er : ridx_main_v83 (ix3 b n c) k = ix3 b k c := funext fun a => Fin.ext (by match a with | ⟨0, _⟩ => rfl | ⟨1, _⟩ => rfl | ⟨2, _⟩ => rfl)
  rw [el, er, v67_read, hY]

/-- One hop through adjacency matrix 1: the batched matrix product at `(b, n, c)`, the features' rows at batch `b` given as `Y`. -/
theorem v84_read (x0 : (⟨S16x1024x2, .f32⟩ : BufTy).Contents (Elt Ideal)) (x1 x2 : (⟨S16x1024x64, .f32⟩ : BufTy).Contents (Elt Ideal)) (x4 : (⟨S2x16x1024x1024, .f32⟩ : BufTy).Contents (Elt Ideal)) (x7 : (⟨S780x192, .f32⟩ : BufTy).Contents (Elt Ideal)) (x8 : (⟨S192, .f32⟩ : BufTy).Contents (Elt Ideal)) (b : Fin 16)
    (Y : Fin 1024 → Fin 130 → EReal) (hY : ∀ (m : Fin 1024) (c : Fin 130), val_main_v59 (F := Ideal) x0 x1 x2 x4 x7 x8 (ix3 b m c) = Y m c)
    (n : Fin 1024) (c : Fin 130) :
    val_main_v84 (F := Ideal) x0 x1 x2 x4 x7 x8 (ix3 b n c) = hop (fun n m => x4 (ix4 (1 : Fin 2) b n m)) Y n c := by
  rw [val_main_v84_apply]
  unfold hop
  refine Finset.sum_congr rfl fun k _ => ?_
  have el : lidx_main_v84 (ix3 b n c) k = ix3 b n k := funext fun a => Fin.ext (by match a with | ⟨0, _⟩ => rfl | ⟨1, _⟩ => rfl | ⟨2, _⟩ => rfl)
  have er : ridx_main_v84 (ix3 b n c) k = ix3 b k c := funext fun a => Fin.ext (by match a with | ⟨0, _⟩ => rfl | ⟨1, _⟩ => rfl | ⟨2, _⟩ => rfl)
  rw [el, er, v78_read, hY]

/-- One hop through the second Chebyshev matrix of adjacency matrix 1: the batched matrix product at `(b, n, c)`, the features' rows at batch `b` given as `Y`. -/
theorem v85_read (x0 : (⟨S16x1024x2, .f32⟩ : BufTy).Contents (Elt Ideal)) (x1 x2 : (⟨S16x1024x64, .f32⟩ : BufTy).Contents (Elt Ideal)) (x4 : (⟨S2x16x1024x1024, .f32⟩ : BufTy).Contents (Elt Ideal)) (x7 : (⟨S780x192, .f32⟩ : BufTy).Contents (Elt Ideal)) (x8 : (⟨S192, .f32⟩ : BufTy).Contents (Elt Ideal)) (b : Fin 16)
    (Y : Fin 1024 → Fin 130 → EReal) (hY : ∀ (m : Fin 1024) (c : Fin 130), val_main_v59 (F := Ideal) x0 x1 x2 x4 x7 x8 (ix3 b m c) = Y m c)
    (n : Fin 1024) (c : Fin 130) :
    val_main_v85 (F := Ideal) x0 x1 x2 x4 x7 x8 (ix3 b n c) = hop (cheb2 TWO (fun n m => x4 (ix4 (1 : Fin 2) b n m))) Y n c := by
  rw [val_main_v85_apply]
  unfold hop
  refine Finset.sum_congr rfl fun k _ => ?_
  have el : lidx_main_v85 (ix3 b n c) k = ix3 b n k := funext fun a => Fin.ext (by match a with | ⟨0, _⟩ => rfl | ⟨1, _⟩ => rfl | ⟨2, _⟩ => rfl)
  have er : ridx_main_v85 (ix3 b n c) k = ix3 b k c := funext fun a => Fin.ext (by match a with | ⟨0, _⟩ => rfl | ⟨1, _⟩ => rfl | ⟨2, _⟩ => rfl)
  rw [el, er, v82_read, hY]

end Cert.ReferenceIdeal.RefValue

end
-- ==== Proof.RefConv.lean ====
import proofs.«150459_j80977313399318_2_alg».proof.Proof.RefReadQ
import proofs.«150459_j80977313399318_2_alg».proof.Proof.SpecArr
import proofs.«150459_j80977313399318_2_alg».proof.Proof.RefCat
import proofs.«150459_j80977313399318_2_alg».proof.Proof.RefHop
import Idealize.ShloMosaic.Lib.ValueIdx
import Idealize.ShloMosaic.Lib.Pipeline.Value
import Idealize.ShloMosaic.PureOps.Ideal.Laws

/-! The two graph convolutions (six hops side by side, the 780 weight rows, the bias) read at an index, for any feature rows. -/

noncomputable section

namespace Cert.ReferenceIdeal.RefValue

open Cert.ReferenceIdeal Cert.ReferenceIdeal.Read Cert.GraphCell Idealize.ShloMosaic Idealize.ShloMosaic.ValueIdx

/-- The six hops laid side by side at `(b, n, j)`: the six feature blocks of node `n`. -/
theorem v43_read (x0 : (⟨S16x1024x2, .f32⟩ : BufTy).Contents (Elt Ideal)) (x1 x2 : (⟨S16x1024x64, .f32⟩ : BufTy).Contents (Elt Ideal)) (x4 : (⟨S2x16x1024x1024, .f32⟩ : BufTy).Contents (Elt Ideal)) (b : Fin 16)
    (Y : Fin 1024 → Fin 130 → EReal) (hY : ∀ (m : Fin 1024) (c : Fin 130), val_main_v16 (F := Ideal) x0 x1 x2 (ix3 b m c) = Y m c)
    (n : Fin 1024) (j : Fin 780) :
    val_main_v43 (F := Ideal) x0 x1 x2 x4 (ix3 b n j) = blocks6 (featsR TWO (fun n m => x4 (ix4 (0 : Fin 2) b n m)) (fun n m => x4 (ix4 (1 : Fin 2) b n m)) Y n) j := by
  unfold val_main_v43
  exact blocks6_read _ _ _ _ _ _ _ b n (featsR TWO (fun n m => x4 (ix4 (0 : Fin 2) b n m)) (fun n m => x4 (ix4 (1 : Fin 2) b n m)) Y n)
    (fun c => v31_read x0 x1 x2 b Y hY n c)
    (fun c => v32_read x0 x1 x2 x4 b Y hY n c)
    (fun c => v33_read x0 x1 x2 x4 b Y hY n c)
    (fun c => v40_read x0 x1 x2 b Y hY n c)
    (fun c => v41_read x0 x1 x2 x4 b Y hY n c)
    (fun c => v42_read x0 x1 x2 x4 b Y hY n c)
    j

/-- The feature blocks against the gates' weight rows at `(b, n, o)`. -/
theorem v44_read (x0 : (⟨S16x1024x2, .f32⟩ : BufTy).Contents (Elt Ideal)) (x1 x2 : (⟨S16x1024x64, .f32⟩ : BufTy).Contents (Elt Ideal)) (x4 : (⟨S2x16x1024x1024, .f32⟩ : BufTy).Contents (Elt Ideal)) (x7 : (⟨S780x192, .f32⟩ : BufTy).Contents (Elt Ideal)) (b : Fin 16)
    (Y : Fin 1024 → Fin 130 → EReal) (hY : ∀ (m : Fin 1024) (c : Fin 130), val_main_v16 (F := Ideal) x0 x1 x2 (ix3 b m c) = Y m c)
    (n : Fin 1024) (o : Fin 192) :
    val_main_v44 (F := Ideal) x0 x1 x2 x4 x7 (ix3 b n o) = ∑ k : Fin 780, blocks6 (featsR TWO (fun n m => x4 (ix4 (0 : Fin 2) b n m)) (fun n m => x4 (ix4 (1 : Fin 2) b n m)) Y n) k * x7 (ix2 k o) := by
  rw [val_main_v44_apply]
  refine Finset.sum_congr rfl fun k _ => ?_
  have el : lidx_main_v44 (ix3 b n o) k = ix3 b n k := funext fun a => Fin.ext (by match a with | ⟨0, _⟩ => rfl | ⟨1, _⟩ => rfl | ⟨2, _⟩ => rfl)
  have er : ridx_main_v44 (ix3 b n o) k = ix2 k o := funext fun a => Fin.ext (by match a with | ⟨0, _⟩ => rfl | ⟨1, _⟩ => rfl)
  rw [el, er, v43_read x0 x1 x2 x4 b Y hY]

/-- The bias broadcast over batch and node at `(b, n, o)`. -/
theorem v46_read (x8 : (⟨S192, .f32⟩ : BufTy).Contents (Elt Ideal)) (b : Fin 16) (n : Fin 1024) (o : Fin 192) :
    val_main_v46 (F := Ideal) x8 (ix3 b n o) = x8 (ix1 o) := by
  rw [val_main_v46_apply, val_main_v45_apply]
  have e : idx_main_v45 (idx_main_v46 (ix3 b n o)) = ix1 o := funext fun a => Fin.ext (by match a with | ⟨0, _⟩ => rfl)
  rw [e]

/-- The graph convolution through the Chebyshev matrices at `(b, n, o)`. -/
theorem v47_read (x0 : (⟨S16x1024x2, .f32⟩ : BufTy).Contents (Elt Ideal)) (x1 x2 : (⟨S16x1024x64, .f32⟩ : BufTy).Contents (Elt Ideal)) (x4 : (⟨S2x16x1024x1024, .f32⟩ : BufTy).Contents (Elt Ideal)) (x7 : (⟨S780x192, .f32⟩ : BufTy).Contents (Elt Ideal)) (x8 : (⟨S192, .f32⟩ : BufTy).Contents (Elt Ideal)) (b : Fin 16)
    (Y : Fin 1024 → Fin 130 → EReal) (hY : ∀ (m : Fin 1024) (c : Fin 130), val_main_v16 (F := Ideal) x0 x1 x2 (ix3 b m c) = Y m c)
    (n : Fin 1024) (o : Fin 192) :
    val_main_v47 (F := Ideal) x0 x1 x2 x4 x7 x8 (ix3 b n o)
      = convR TWO (fun n m => x4 (ix4 (0 : Fin 2) b n m)) (fun n m => x4 (ix4 (1 : Fin 2) b n m)) Y
          (fun j o => x7 (ix2 j o)) (fun o => x8 (ix1 o)) n o := by
  rw [val_main_v47_apply, v44_read x0 x1 x2 x4 x7 b Y hY, v46_read]
  rfl

/-- The six hops laid side by side at `(b, n, j)`: the six feature blocks of node `n`. -/
theorem v86_read (x0 : (⟨S16x1024x2, .f32⟩ : BufTy).Contents (Elt Ideal)) (x1 x2 : (⟨S16x1024x64, .f32⟩ : BufTy).Contents (Elt Ideal)) (x4 : (⟨S2x16x1024x1024, .f32⟩ : BufTy).Contents (Elt Ideal)) (x7 : (⟨S780x192, .f32⟩ : BufTy).Contents (Elt Ideal)) (x8 : (⟨S192, .f32⟩ : BufTy).Contents (Elt Ideal)) (b : Fin 16)
    (Y : Fin 1024 → Fin 130 → EReal) (hY : ∀ (m : Fin 1024) (c : Fin 130), val_main_v59 (F := Ideal) x0 x1 x2 x4 x7 x8 (ix3 b m c) = Y m c)
    (n : Fin 1024) (j : Fin 780) :
    val_main_v86 (F := Ideal) x0 x1 x2 x4 x7 x8 (ix3 b n j) = blocks6 (featsR TWO (fun n m => x4 (ix4 (0 : Fin 2) b n m)) (fun n m => x4 (ix4 (1 : Fin 2) b n m)) Y n) j := by
  unfold val_main_v86
  exact blocks6_read _ _ _ _ _ _ _ b n (featsR TWO (fun n m => x4 (ix4 (0 : Fin 2) b n m)) (fun n m => x4 (ix4 (1 : Fin 2) b n m)) Y n)
    (fun c => v74_read x0 x1 x2 x4 x7 x8 b Y hY n c)
    (fun c => v75_read x0 x1 x2 x4 x7 x8 b Y hY n c)
    (fun c => v76_read x0 x1 x2 x4 x7 x8 b Y hY n c)
    (fun c => v83_read x0 x1 x2 x4 x7 x8 b Y hY n c)
    (fun c => v84_read x0 x1 x2 x4 x7 x8 b Y hY n c)
    (fun c => v85_read x0 x1 x2 x4 x7 x8 b Y hY n c)
    j

/-- The feature blocks against the update's weight rows at `(b, n, o)`. -/
theorem v87_read (x0 : (⟨S16x1024x2, .f32⟩ : BufTy).Contents (Elt Ideal)) (x1 x2 : (⟨S16x1024x64, .f32⟩ : BufTy).Contents (Elt Ideal)) (x4 : (⟨S2x16x1024x1024, .f32⟩ : BufTy).Contents (Elt Ideal)) (x7 : (⟨S780x192, .f32⟩ : BufTy).Contents (Elt Ideal)) (x8 : (⟨S192, .f32⟩ : BufTy).Contents (Elt Ideal)) (x9 : (⟨S780x64, .f32⟩ : BufTy).Contents (Elt Ideal)) (b : Fin 16)
    (Y : Fin 1024 → Fin 130 → EReal) (hY : ∀ (m : Fin 1024) (c : Fin 130), val_main_v59 (F := Ideal) x0 x1 x2 x4 x7 x8 (ix3 b m c) = Y m c)
    (n : Fin 1024) (o : Fin 64) :
    val_main_v87 (F := Ideal) x0 x1 x2 x4 x7 x8 x9 (ix3 b n o) = ∑ k : Fin 780, blocks6 (featsR TWO (fun n m => x4 (ix4 (0 : Fin 2) b n m)) (fun n m => x4 (ix4 (1 : Fin 2) b n m)) Y n) k * x9 (ix2 k o) := by
  rw [val_main_v87_apply]
  refine Finset.sum_congr rfl fun k _ => ?_
  have el : lidx_main_v87 (ix3 b n o) k = ix3 b n k := funext fun a => Fin.ext (by match a with | ⟨0, _⟩ => rfl | ⟨1, _⟩ => rfl | ⟨2, _⟩ => rfl)
  have er : ridx_main_v87 (ix3 b n o) k = ix2 k o := funext fun a => Fin.ext (by match a with | ⟨0, _⟩ => rfl | ⟨1, _⟩ => rfl)
  rw [el, er, v86_read x0 x1 x2 x4 x7 x8 b Y hY]

/-- The bias broadcast over batch and node at `(b, n, o)`. -/
theorem v89_read (x10 : (⟨S64, .f32⟩ : BufTy).Contents (Elt Ideal)) (b : Fin 16) (n : Fin 1024) (o : Fin 64) :
    val_main_v89 (F := Ideal) x10 (ix3 b n o) = x10 (ix1 o) := by
  rw [val_main_v89_apply, val_main_v88_apply]
  have e : idx_main_v88 (idx_main_v89 (ix3 b n o)) = ix1 o := funext fun a => Fin.ext (by match a with | ⟨0, _⟩ => rfl)
  rw [e]

/-- The graph convolution through the Chebyshev matrices at `(b, n, o)`. -/
theorem v90_read (x0 : (⟨S16x1024x2, .f32⟩ : BufTy).Contents (Elt Ideal)) (x1 x2 : (⟨S16x1024x64, .f32⟩ : BufTy).Contents (Elt Ideal)) (x4 : (⟨S2x16x1024x1024, .f32⟩ : BufTy).Contents (Elt Ideal)) (x7 : (⟨S780x192, .f32⟩ : BufTy).Contents (Elt Ideal)) (x8 : (⟨S192, .f32⟩ : BufTy).Contents (Elt Ideal)) (x9 : (⟨S780x64, .f32⟩ : BufTy).Contents (Elt Ideal)) (x10 : (⟨S64, .f32⟩ : BufTy).Contents (Elt Ideal)) (b : Fin 16)
    (Y : Fin 1024 → Fin 130 → EReal) (hY : ∀ (m : Fin 1024) (c : Fin 130), val_main_v59 (F := Ideal) x0 x1 x2 x4 x7 x8 (ix3 b m c) = Y m c)
    (n : Fin 1024) (o : Fin 64) :
    val_main_v90 (F := Ideal) x0 x1 x2 x4 x7 x8 x9 x10 (ix3 b n o)
      = convR TWO (fun n m => x4 (ix4 (0 : Fin 2) b n m)) (fun n m => x4 (ix4 (1 : Fin 2) b n m)) Y
          (fun j o => x9 (ix2 j o)) (fun o => x10 (ix1 o)) n o := by
  rw [val_main_v90_apply, v87_read x0 x1 x2 x4 x7 x8 x9 b Y hY, v89_read]
  rfl

end Cert.ReferenceIdeal.RefValue

end
-- ==== Proof.RefGates.lean ====
import proofs.«150459_j80977313399318_2_alg».proof.Proof.RefReadQ
import proofs.«150459_j80977313399318_2_alg».proof.Proof.SpecArr
import proofs.«150459_j80977313399318_2_alg».proof.Proof.RefCat
import proofs.«150459_j80977313399318_2_alg».proof.Proof.RefScalar
import proofs.«150459_j80977313399318_2_alg».proof.Proof.RefConv
import Idealize.ShloMosaic.Lib.ValueIdx
import Idealize.ShloMosaic.Lib.Pipeline.Value
import Idealize.ShloMosaic.PureOps.Ideal.Laws

/-! The node features, the three gates, their slices and the candidate features read at an index. -/

noncomputable section

namespace Cert.ReferenceIdeal.RefValue

open Cert.ReferenceIdeal Cert.ReferenceIdeal.Read Cert.GraphCell Idealize.ShloMosaic Idealize.ShloMosaic.ValueIdx

/-- The three-piece join `[x | s1 | s2]` at `(b, m, c)`: the node features. -/
theorem v16_read (x0 : (⟨S16x1024x2, .f32⟩ : BufTy).Contents (Elt Ideal)) (x1 x2 : (⟨S16x1024x64, .f32⟩ : BufTy).Contents (Elt Ideal)) (b : Fin 16) (m : Fin 1024) (c : Fin 130) :
    val_main_v16 (F := Ideal) x0 x1 x2 (ix3 b m c) = feat (fun n k => x0 (ix3 b n k)) (fun n k => x1 (ix3 b n k)) (fun n k => x2 (ix3 b n k)) m c := by
  unfold val_main_v16
  exact cat3_read x0 x1 x2 _ b m c

/-- The three gates at `(b, n, o)`. -/
theorem v53_read (x0 : (⟨S16x1024x2, .f32⟩ : BufTy).Contents (Elt Ideal)) (x1 x2 : (⟨S16x1024x64, .f32⟩ : BufTy).Contents (Elt Ideal)) (x4 : (⟨S2x16x1024x1024, .f32⟩ : BufTy).Contents (Elt Ideal)) (x7 : (⟨S780x192, .f32⟩ : BufTy).Contents (Elt Ideal)) (x8 : (⟨S192, .f32⟩ : BufTy).Contents (Elt Ideal)) (b : Fin 16) (n : Fin 1024) (o : Fin 192) :
    val_main_v53 (F := Ideal) x0 x1 x2 x4 x7 x8 (ix3 b n o)
      = gates (convR TWO (fun n m => x4 (ix4 (0 : Fin 2) b n m)) (fun n m => x4 (ix4 (1 : Fin 2) b n m))) (fun n k => x0 (ix3 b n k)) (fun n k => x1 (ix3 b n k)) (fun n k => x2 (ix3 b n k)) (fun j o => x7 (ix2 j o)) (fun o => x8 (ix1 o)) n o := by
  rw [val_main_v53_apply, val_main_v52_apply, val_main_cst_5_apply, val_main_v51_apply, val_main_v50_apply, val_main_cst_4_apply,
    val_main_v49_apply, val_main_v48_apply,
    v47_read x0 x1 x2 x4 x7 x8 b (feat (fun n k => x0 (ix3 b n k)) (fun n k => x1 (ix3 b n k)) (fun n k => x2 (ix3 b n k))) (v16_read x0 x1 x2 b)]
  exact logistic_spelt _

/-- The first gate (columns 0 … 63 of the three gates) at `(b, n, o)`. -/
theorem v54_read (x0 : (⟨S16x1024x2, .f32⟩ : BufTy).Contents (Elt Ideal)) (x1 x2 : (⟨S16x1024x64, .f32⟩ : BufTy).Contents (Elt Ideal)) (x4 : (⟨S2x16x1024x1024, .f32⟩ : BufTy).Contents (Elt Ideal)) (x7 : (⟨S780x192, .f32⟩ : BufTy).Contents (Elt Ideal)) (x8 : (⟨S192, .f32⟩ : BufTy).Contents (Elt Ideal)) (b : Fin 16) (n : Fin 1024) (o : Fin 64) :
    val_main_v54 (F := Ideal) x0 x1 x2 x4 x7 x8 (ix3 b n o)
      = gates (convR TWO (fun n m => x4 (ix4 (0 : Fin 2) b n m)) (fun n m => x4 (ix4 (1 : Fin 2) b n m))) (fun n k => x0 (ix3 b n k)) (fun n k => x1 (ix3 b n k)) (fun n k => x2 (ix3 b n k)) (fun j o => x7 (ix2 j o)) (fun o => x8 (ix1 o)) n ⟨o.val, by have := o.isLt; omega⟩ := by
  rw [val_main_v54_apply]
  have e : idx_main_v54 (ix3 b n o) = ix3 b n (⟨o.val, by have := o.isLt; omega⟩ : Fin 192) := funext fun a => Fin.ext (by match a with | ⟨0, _⟩ => rfl | ⟨1, _⟩ => rfl | ⟨2, _⟩ => rfl)
  rw [e, v53_read]

/-- The second gate (columns 64 … 127 of the three gates) at `(b, n, o)`. -/
theorem v55_read (x0 : (⟨S16x1024x2, .f32⟩ : BufTy).Contents (Elt Ideal)) (x1 x2 : (⟨S16x1024x64, .f32⟩ : BufTy).Contents (Elt Ideal)) (x4 : (⟨S2x16x1024x1024, .f32⟩ : BufTy).Contents (Elt Ideal)) (x7 : (⟨S780x192, .f32⟩ : BufTy).Contents (Elt Ideal)) (x8 : (⟨S192, .f32⟩ : BufTy).Contents (Elt Ideal)) (b : Fin 16) (n : Fin 1024) (o : Fin 64) :
    val_main_v55 (F := Ideal) x0 x1 x2 x4 x7 x8 (ix3 b n o)
      = gates (convR TWO (fun n m => x4 (ix4 (0 : Fin 2) b n m)) (fun n m => x4 (ix4 (1 : Fin 2) b n m))) (fun n k => x0 (ix3 b n k)) (fun n k => x1 (ix3 b n k)) (fun n k => x2 (ix3 b n k)) (fun j o => x7 (ix2 j o)) (fun o => x8 (ix1 o)) n ⟨64 + o.val, by have := o.isLt; omega⟩ := by
  rw [val_main_v55_apply]
  have e : idx_main_v55 (ix3 b n o) = ix3 b n (⟨64 + o.val, by have := o.isLt; omega⟩ : Fin 192) := funext fun a => Fin.ext (by match a with | ⟨0, _⟩ => rfl | ⟨1, _⟩ => rfl | ⟨2, _⟩ => rfl)
  rw [e, v53_read]

/-- The third gate (columns 128 … 191 of the three gates) at `(b, n, o)`. -/
theorem v56_read (x0 : (⟨S16x1024x2, .f32⟩ : BufTy).Contents (Elt Ideal)) (x1 x2 : (⟨S16x1024x64, .f32⟩ : BufTy).Contents (Elt Ideal)) (x4 : (⟨S2x16x1024x1024, .f32⟩ : BufTy).Contents (Elt Ideal)) (x7 : (⟨S780x192, .f32⟩ : BufTy).Contents (Elt Ideal)) (x8 : (⟨S192, .f32⟩ : BufTy).Contents (Elt Ideal)) (b : Fin 16) (n : Fin 1024) (o : Fin 64) :
    val_main_v56 (F := Ideal) x0 x1 x2 x4 x7 x8 (ix3 b n o)
      = gates (convR TWO (fun n m => x4 (ix4 (0 : Fin 2) b n m)) (fun n m => x4 (ix4 (1 : Fin 2) b n m))) (fun n k => x0 (ix3 b n k)) (fun n k => x1 (ix3 b n k)) (fun n k => x2 (ix3 b n k)) (fun j o => x7 (ix2 j o)) (fun o => x8 (ix1 o)) n ⟨128 + o.val, by have := o.isLt; omega⟩ := by
  rw [val_main_v56_apply]
  have e : idx_main_v56 (ix3 b n o) = ix3 b n (⟨128 + o.val, by have := o.isLt; omega⟩ : Fin 192) := funext fun a => Fin.ext (by match a with | ⟨0, _⟩ => rfl | ⟨1, _⟩ => rfl | ⟨2, _⟩ => rfl)
  rw [e, v53_read]

/-- A gate times a state row at `(b, n, o)`. -/
theorem v57_read (x0 : (⟨S16x1024x2, .f32⟩ : BufTy).Contents (Elt Ideal)) (x1 x2 : (⟨S16x1024x64, .f32⟩ : BufTy).Contents (Elt Ideal)) (x4 : (⟨S2x16x1024x1024, .f32⟩ : BufTy).Contents (Elt Ideal)) (x7 : (⟨S780x192, .f32⟩ : BufTy).Contents (Elt Ideal)) (x8 : (⟨S192, .f32⟩ : BufTy).Contents (Elt Ideal)) (b : Fin 16) (n : Fin 1024) (o : Fin 64) :
    val_main_v57 (F := Ideal) x0 x1 x2 x4 x7 x8 (ix3 b n o)
      = gates (convR TWO (fun n m => x4 (ix4 (0 : Fin 2) b n m)) (fun n m => x4 (ix4 (1 : Fin 2) b n m))) (fun n k => x0 (ix3 b n k)) (fun n k => x1 (ix3 b n k)) (fun n k => x2 (ix3 b n k)) (fun j o => x7 (ix2 j o)) (fun o => x8 (ix1 o)) n ⟨o.val, by have := o.isLt; omega⟩ * x1 (ix3 b n o) := by
  rw [val_main_v57_apply, v54_read]
  rfl

/-- A gate times a state row at `(b, n, o)`. -/
theorem v58_read (x0 : (⟨S16x1024x2, .f32⟩ : BufTy).Contents (Elt Ideal)) (x1 x2 : (⟨S16x1024x64, .f32⟩ : BufTy).Contents (Elt Ideal)) (x4 : (⟨S2x16x1024x1024, .f32⟩ : BufTy).Contents (Elt Ideal)) (x7 : (⟨S780x192, .f32⟩ : BufTy).Contents (Elt Ideal)) (x8 : (⟨S192, .f32⟩ : BufTy).Contents (Elt Ideal)) (b : Fin 16) (n : Fin 1024) (o : Fin 64) :
    val_main_v58 (F := Ideal) x0 x1 x2 x4 x7 x8 (ix3 b n o)
      = gates (convR TWO (fun n m => x4 (ix4 (0 : Fin 2) b n m)) (fun n m => x4 (ix4 (1 : Fin 2) b n m))) (fun n k => x0 (ix3 b n k)) (fun n k => x1 (ix3 b n k)) (fun n k => x2 (ix3 b n k)) (fun j o => x7 (ix2 j o)) (fun o => x8 (ix1 o)) n ⟨64 + o.val, by have := o.isLt; omega⟩ * x2 (ix3 b n o) := by
  rw [val_main_v58_apply, v55_read]
  rfl

/-- The three-piece join `[x | z₁ · s1 | z₂ · s2]` at `(b, m, c)`: the candidate's features. -/
theorem v59_read (x0 : (⟨S16x1024x2, .f32⟩ : BufTy).Contents (Elt Ideal)) (x1 x2 : (⟨S16x1024x64, .f32⟩ : BufTy).Contents (Elt Ideal)) (x4 : (⟨S2x16x1024x1024, .f32⟩ : BufTy).Contents (Elt Ideal)) (x7 : (⟨S780x192, .f32⟩ : BufTy).Contents (Elt Ideal)) (x8 : (⟨S192, .f32⟩ : BufTy).Contents (Elt Ideal)) (b : Fin 16) (m : Fin 1024) (c : Fin 130) :
    val_main_v59 (F := Ideal) x0 x1 x2 x4 x7 x8 (ix3 b m c)
      = cand (convR TWO (fun n m => x4 (ix4 (0 : Fin 2) b n m)) (fun n m => x4 (ix4 (1 : Fin 2) b n m))) (fun n k => x0 (ix3 b n k)) (fun n k => x1 (ix3 b n k)) (fun n k => x2 (ix3 b n k)) (fun j o => x7 (ix2 j o)) (fun o => x8 (ix1 o)) m c := by
  unfold val_main_v59
  refine (cat3_read x0 (val_main_v57 (F := Ideal) x0 x1 x2 x4 x7 x8) (val_main_v58 (F := Ideal) x0 x1 x2 x4 x7 x8) _ b m c).trans ?_
  have h57 : (fun k : Fin 64 => val_main_v57 (F := Ideal) x0 x1 x2 x4 x7 x8 (ix3 b m k))
      = fun o => gates (convR TWO (fun n m => x4 (ix4 (0 : Fin 2) b n m)) (fun n m => x4 (ix4 (1 : Fin 2) b n m))) (fun n k => x0 (ix3 b n k)) (fun n k => x1 (ix3 b n k)) (fun n k => x2 (ix3 b n k)) (fun j o => x7 (ix2 j o)) (fun o => x8 (ix1 o)) m ⟨o.val, by have := o.isLt; omega⟩ * x1 (ix3 b m o) :=
    funext fun k => v57_read x0 x1 x2 x4 x7 x8 b m k
  have h58 : (fun k : Fin 64 => val_main_v58 (F := Ideal) x0 x1 x2 x4 x7 x8 (ix3 b m k))
      = fun o => gates (convR TWO (fun n m => x4 (ix4 (0 : Fin 2) b n m)) (fun n m => x4 (ix4 (1 : Fin 2) b n m))) (fun n k => x0 (ix3 b n k)) (fun n k => x1 (ix3 b n k)) (fun n k => x2 (ix3 b n k)) (fun j o => x7 (ix2 j o)) (fun o => x8 (ix1 o)) m ⟨64 + o.val, by have := o.isLt; omega⟩ * x2 (ix3 b m o) :=
    funext fun k => v58_read x0 x1 x2 x4 x7 x8 b m k
  rw [h57, h58]
  rfl

end Cert.ReferenceIdeal.RefValue

end
-- ==== Proof.RefRead.lean ====
import proofs.«150459_j80977313399318_2_alg».proof.Proof.RefReadQ
import proofs.«150459_j80977313399318_2_alg».proof.Proof.SpecArr
import proofs.«150459_j80977313399318_2_alg».proof.Proof.RefMix
import proofs.«150459_j80977313399318_2_alg».proof.Proof.RefGates
import proofs.«150459_j80977313399318_2_alg».proof.Proof.RefConv
import Idealize.ShloMosaic.Lib.ValueIdx
import Idealize.ShloMosaic.Lib.Pipeline.Value
import Idealize.ShloMosaic.PureOps.Ideal.Laws

/-! The reference's result read at an index is the cell through the Chebyshev matrices. -/

noncomputable section

namespace Cert.ReferenceIdeal.RefValue

open Cert.ReferenceIdeal Cert.ReferenceIdeal.Read Cert.GraphCell Idealize.ShloMosaic Idealize.ShloMosaic.ValueIdx

/-- The reference's result at `(b, n, o)` is the specification's cell, in the arrangement that builds the Chebyshev
    matrices first and meets all 780 weight rows. -/
theorem ref_eq (x0 : (⟨S16x1024x2, .f32⟩ : BufTy).Contents (Elt Ideal)) (x1 x2 : (⟨S16x1024x64, .f32⟩ : BufTy).Contents (Elt Ideal)) (x3 : (⟨S16x1024x16, .f32⟩ : BufTy).Contents (Elt Ideal)) (x4 : (⟨S2x16x1024x1024, .f32⟩ : BufTy).Contents (Elt Ideal)) (x5 : (⟨S146x64, .f32⟩ : BufTy).Contents (Elt Ideal)) (x6 : (⟨S64, .f32⟩ : BufTy).Contents (Elt Ideal)) (x7 : (⟨S780x192, .f32⟩ : BufTy).Contents (Elt Ideal)) (x8 : (⟨S192, .f32⟩ : BufTy).Contents (Elt Ideal)) (x9 : (⟨S780x64, .f32⟩ : BufTy).Contents (Elt Ideal)) (x10 : (⟨S64, .f32⟩ : BufTy).Contents (Elt Ideal))
    (b : Fin 16) (n : Fin 1024) (o : Fin 64) :
    Read.val_main_v96 (F := Ideal) x0 x1 x2 x3 x4 x5 x6 x7 x8 x9 x10 (ix3 b n o)
      = Cert.GraphCell.outR x0 x1 x2 x3 x4 x5 x6 x7 x8 x9 x10 b n o := by
  rw [val_main_v96_apply, val_main_v92_apply, val_main_v95_apply, val_main_v94_apply, val_main_v93_apply, val_main_cst_9_apply,
    val_main_v91_apply, v56_read, v15_read,
    v90_read x0 x1 x2 x4 x7 x8 x9 x10 b
      (cand (convR TWO (fun n m => x4 (ix4 (0 : Fin 2) b n m)) (fun n m => x4 (ix4 (1 : Fin 2) b n m))) (fun n k => x0 (ix3 b n k)) (fun n k => x1 (ix3 b n k)) (fun n k => x2 (ix3 b n k)) (fun j o => x7 (ix2 j o)) (fun o => x8 (ix1 o)))
      (v59_read x0 x1 x2 x4 x7 x8 b)]
  rfl

end Cert.ReferenceIdeal.RefValue

end
-- ==== Proof.RefArr.lean ====
/-
  The reference's result as a whole array: the cell through the Chebyshev matrices with all 780 weight rows, at every
  index.
-/
import proofs.«150459_j80977313399318_2_alg».proof.Proof.RefRead

noncomputable section

namespace Cert.ReferenceIdeal.RefValue

open Cert.ReferenceIdeal Cert.ReferenceIdeal.Read Cert.GraphCell Idealize.ShloMosaic Idealize.ShloMosaic.ValueIdx

theorem ref_arr (x0 : (⟨S16x1024x2, .f32⟩ : BufTy).Contents (Elt Ideal)) (x1 x2 : (⟨S16x1024x64, .f32⟩ : BufTy).Contents (Elt Ideal)) (x3 : (⟨S16x1024x16, .f32⟩ : BufTy).Contents (Elt Ideal)) (x4 : (⟨S2x16x1024x1024, .f32⟩ : BufTy).Contents (Elt Ideal)) (x5 : (⟨S146x64, .f32⟩ : BufTy).Contents (Elt Ideal)) (x6 : (⟨S64, .f32⟩ : BufTy).Contents (Elt Ideal)) (x7 : (⟨S780x192, .f32⟩ : BufTy).Contents (Elt Ideal)) (x8 : (⟨S192, .f32⟩ : BufTy).Contents (Elt Ideal)) (x9 : (⟨S780x64, .f32⟩ : BufTy).Contents (Elt Ideal)) (x10 : (⟨S64, .f32⟩ : BufTy).Contents (Elt Ideal)) :
    Read.val_main_v96 (F := Ideal) x0 x1 x2 x3 x4 x5 x6 x7 x8 x9 x10
      = Cert.GraphCell.outArrR x0 x1 x2 x3 x4 x5 x6 x7 x8 x9 x10 := by
  funext i
  obtain ⟨b, n, o, rfl⟩ : ∃ (b : Fin 16) (n : Fin 1024) (o : Fin 64), i = ix3 b n o := ⟨i 0, i 1, i 2, eq_ix3 i⟩
  exact ref_eq x0 x1 x2 x3 x4 x5 x6 x7 x8 x9 x10 b n o

end Cert.ReferenceIdeal.RefValue

end
-- ==== Proof.SpecLawA.lean ====
/-
  Laws of the graph convolution, part A: realness closure, the coercion of a finite real sum, block decomposition
  of a sum over 6·130 or 5·130 columns, and the three pointwise laws (identity matrix, second Chebyshev matrix,
  distributivity) on real data.
-/
import proofs.«150459_j80977313399318_2_alg».proof.Proof.Spec
import Mathlib.Algebra.BigOperators.Fin
import Mathlib.Logic.Equiv.Fin.Basic
import Mathlib.Tactic.Ring

noncomputable section

open scoped BigOperators

namespace Cert.GraphCell

open Idealize.ShloMosaic

/-! ### Realness closure -/

theorem isReal_coe (r : ℝ) : IsReal (r : EReal) := ⟨r, rfl⟩

theorem isReal_zero : IsReal 0 := ⟨0, rfl⟩

theorem isReal_one : IsReal 1 := ⟨1, rfl⟩

theorem IsReal.add {a b : EReal} (ha : IsReal a) (hb : IsReal b) : IsReal (a + b) := by
  obtain ⟨x, rfl⟩ := ha; obtain ⟨y, rfl⟩ := hb; exact ⟨x + y, (EReal.coe_add x y).symm⟩

theorem IsReal.mul {a b : EReal} (ha : IsReal a) (hb : IsReal b) : IsReal (a * b) := by
  obtain ⟨x, rfl⟩ := ha; obtain ⟨y, rfl⟩ := hb; exact ⟨x * y, (EReal.coe_mul x y).symm⟩

theorem IsReal.sub {a b : EReal} (ha : IsReal a) (hb : IsReal b) : IsReal (a - b) := by
  obtain ⟨x, rfl⟩ := ha; obtain ⟨y, rfl⟩ := hb; exact ⟨x - y, (EReal.coe_sub x y).symm⟩

theorem isReal_sum {ι : Type} (s : Finset ι) (f : ι → EReal) (h : ∀ i ∈ s, IsReal (f i)) :
    IsReal (∑ i ∈ s, f i) :=
  Finset.sum_induction f IsReal (fun _ _ ha hb => ha.add hb) isReal_zero h

/-- The logistic function of any extended real is a real number. -/
theorem isReal_logistic (x : EReal) : IsReal (Ideal.logistic x) := by
  induction x using EReal.rec with
  | bot => rw [Ideal.logistic_bot]; exact isReal_zero
  | coe r => rw [Ideal.logistic_coe]; exact isReal_coe _
  | top => rw [Ideal.logistic_top]; exact isReal_one

/-- The coercion of a finite sum of reals is the sum of the coercions. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Distributivity holds on real numbers. -/
theorem mul_add_of_isReal {a b c : EReal} (ha : IsReal a) (hb : IsReal b) (hc : IsReal c) :
    a * (b + c) = a * b + a * c := by
  obtain ⟨x, rfl⟩ := ha; obtain ⟨y, rfl⟩ := hb; obtain ⟨z, rfl⟩ := hc
  rw [← EReal.coe_add, ← EReal.coe_mul, ← EReal.coe_mul, ← EReal.coe_mul, ← EReal.coe_add, mul_add]

/-! ### Block decomposition of a sum -/

/-- A sum over `P · 130` columns is the double sum over `P` blocks of 130. -/
theorem sum_fin_blocks {M : Type} [AddCommMonoid M] (P N : ℕ) (hN : N = P * 130) (f : Fin N → M) :
    ∑ j, f j = ∑ p : Fin P, ∑ q : Fin 130,
      f ⟨q.val + 130 * p.val, by have := p.isLt; have := q.isLt; omega⟩ := by
  subst hN
  rw [← Equiv.sum_comp finProdFinEquiv f, Fintype.sum_prod_type]
  rfl

theorem blocks6_at (F : Fin 6 → Fin 130 → EReal) (p : Fin 6) (q : Fin 130) (h : q.val + 130 * p.val < 780) :
    blocks6 F ⟨q.val + 130 * p.val, h⟩ = F p q := by
  have h1 : (q.val + 130 * p.val) / 130 = p.val := by have := q.isLt; omega
  have h2 : (q.val + 130 * p.val) % 130 = q.val := by have := q.isLt; omega
  exact congrArg₂ F (Fin.ext h1) (Fin.ext h2)

theorem blocks5_at (F : Fin 5 → Fin 130 → EReal) (p : Fin 5) (q : Fin 130) (h : q.val + 130 * p.val < 650) :
    blocks5 F ⟨q.val + 130 * p.val, h⟩ = F p q := by
  have h1 : (q.val + 130 * p.val) / 130 = p.val := by have := q.isLt; omega
  have h2 : (q.val + 130 * p.val) % 130 = q.val := by have := q.isLt; omega
  exact congrArg₂ F (Fin.ext h1) (Fin.ext h2)

theorem sum_blocks6 (F : Fin 6 → Fin 130 → EReal) (w : Fin 780 → EReal) :
    ∑ j, blocks6 F j * w j = ∑ p : Fin 6, ∑ q : Fin 130,
      F p q * w ⟨q.val + 130 * p.val, by have := p.isLt; have := q.isLt; omega⟩ := by
  rw [sum_fin_blocks 6 780 (by norm_num)]
  refine Finset.sum_congr rfl (fun p _ => Finset.sum_congr rfl (fun q _ => ?_))
  rw [blocks6_at]

theorem sum_blocks5 (F G : Fin 5 → Fin 130 → EReal) :
    ∑ j, blocks5 F j * blocks5 G j = ∑ p : Fin 5, ∑ q : Fin 130, F p q * G p q := by
  rw [sum_fin_blocks 5 650 (by norm_num)]
  refine Finset.sum_congr rfl (fun p _ => Finset.sum_congr rfl (fun q _ => ?_))
  rw [blocks5_at, blocks5_at]

/-! ### The pointwise laws -/

/-- The identity matrix times `Y` is `Y` (on all extended reals: `1 · y = y`, `0 · y = 0`). -/
theorem hop_eye (Y : Fin 1024 → Fin 130 → EReal) (n : Fin 1024) (c : Fin 130) : hop eye Y n c = Y n c := by
  unfold hop eye
  simp only [ite_mul, one_mul, zero_mul, Finset.sum_ite_eq, Finset.mem_univ, if_true]

/-- On real data the second Chebyshev matrix times `Y` is the recurrence's vector:
    `((two·A)·A − I)·Y = two·A·(A·Y) − Y`. -/
theorem hop_cheb2_coe (t : ℝ) (a : Fin 1024 → Fin 1024 → ℝ) (y : Fin 1024 → Fin 130 → ℝ) (n : Fin 1024)
    (c : Fin 130) :
    hop (cheb2 (t : EReal) (fun i j => (a i j : EReal))) (fun m c => (y m c : EReal)) n c
      = hop2 (t : EReal) (fun i j => (a i j : EReal)) (fun m c => (y m c : EReal)) n c := by
  have heye : ∀ i j : Fin 1024, eye i j = ((if i = j then (1 : ℝ) else 0 : ℝ) : EReal) := by
    intro i j; unfold eye; split_ifs <;> simp
  have h1 : ∑ m, ((∑ k, t * a n k * a k m) - (if n = m then (1 : ℝ) else 0)) * y m c
      = (∑ m, ∑ k, t * a n k * a k m * y m c) - y n c := by
    simp only [sub_mul, Finset.sum_sub_distrib, Finset.sum_mul, ite_mul, one_mul, zero_mul, Finset.sum_ite_eq,
      Finset.mem_univ, if_true]
  have h2 : t * (∑ m, a n m * ∑ k, a m k * y k c) = ∑ k, ∑ m, t * a n k * a k m * y m c := by
    simp only [Finset.mul_sum]
    exact Finset.sum_congr rfl (fun k _ => Finset.sum_congr rfl (fun m _ => by ring))
  unfold hop2 hop cheb2
  simp only [heye, ← EReal.coe_mul, ← coe_sum, ← EReal.coe_sub]
  rw [h1, h2, Finset.sum_comm]

theorem hop_cheb2 (two : EReal) (htwo : IsReal two) (A : Fin 1024 → Fin 1024 → EReal)
    (hA : ∀ n m, IsReal (A n m)) (Y : Fin 1024 → Fin 130 → EReal) (hY : ∀ n c, IsReal (Y n c))
    (n : Fin 1024) (c : Fin 130) : hop (cheb2 two A) Y n c = hop2 two A Y n c := by
  obtain ⟨t, rfl⟩ := htwo
  choose a ha using hA
  choose y hy using hY
  obtain rfl : A = fun i j => (a i j : EReal) := funext fun i => funext fun j => ha i j
  obtain rfl : Y = fun m c => (y m c : EReal) := funext fun i => funext fun j => hy i j
  exact hop_cheb2_coe t a y n c

end Cert.GraphCell

end
-- ==== Proof.SpecLawB.lean ====
/-
  Laws of the graph convolution, part B: on real data the convolution through the Chebyshev matrices against all
  780 weight rows equals the convolution by the vector recurrence against the 650 folded rows.
-/
import proofs.«150459_j80977313399318_2_alg».proof.Proof.SpecLawA
import Mathlib.Tactic.Abel

noncomputable section

open scoped BigOperators

namespace Cert.GraphCell

open Idealize.ShloMosaic

section Rows

variable (two : EReal) (A0 A1 : Fin 1024 → Fin 1024 → EReal) (Y : Fin 1024 → Fin 130 → EReal) (n : Fin 1024)

theorem featsR_0 : featsR two A0 A1 Y n 0 = hop eye Y n := rfl
theorem featsR_1 : featsR two A0 A1 Y n 1 = hop A0 Y n := rfl
theorem featsR_2 : featsR two A0 A1 Y n 2 = hop (cheb2 two A0) Y n := rfl
theorem featsR_3 : featsR two A0 A1 Y n 3 = hop eye Y n := rfl
theorem featsR_4 : featsR two A0 A1 Y n 4 = hop A1 Y n := rfl
theorem featsR_5 : featsR two A0 A1 Y n 5 = hop (cheb2 two A1) Y n := rfl

theorem featsK_0 : featsK two A0 A1 Y n 0 = Y n := rfl
theorem featsK_1 : featsK two A0 A1 Y n 1 = hop A0 Y n := rfl
theorem featsK_2 : featsK two A0 A1 Y n 2 = hop2 two A0 Y n := rfl
theorem featsK_3 : featsK two A0 A1 Y n 3 = hop A1 Y n := rfl
theorem featsK_4 : featsK two A0 A1 Y n 4 = hop2 two A1 Y n := rfl

end Rows

section Fold

variable {O : Type} (W : Fin 780 → O → EReal) (q : Fin 130) (o : O)

/-- The same row of `W` whichever way its index is written. -/
theorem row_congr {i j : ℕ} (hi : i < 780) (hj : j < 780) (h : i = j) : W ⟨i, hi⟩ o = W ⟨j, hj⟩ o := by
  subst h; rfl

theorem foldRows_0 : foldRows W 0 q o
    = W ⟨q.val, by have := q.isLt; omega⟩ o + W ⟨q.val + 390, by have := q.isLt; omega⟩ o := by
  show W ⟨q.val, _⟩ o + W ⟨390 + q.val, _⟩ o = _
  rw [row_congr W o (i := 390 + q.val) (j := q.val + 390) _ _ (Nat.add_comm _ _)]

theorem foldRows_1 : foldRows W 1 q o = W ⟨q.val + 130, by have := q.isLt; omega⟩ o :=
  row_congr W o (i := 130 + q.val) _ _ (Nat.add_comm _ _)

theorem foldRows_2 : foldRows W 2 q o = W ⟨q.val + 260, by have := q.isLt; omega⟩ o :=
  row_congr W o (i := 260 + q.val) _ _ (Nat.add_comm _ _)

theorem foldRows_3 : foldRows W 3 q o = W ⟨q.val + 520, by have := q.isLt; omega⟩ o :=
  row_congr W o (i := 520 + q.val) _ _ (Nat.add_comm _ _)

theorem foldRows_4 : foldRows W 4 q o = W ⟨q.val + 650, by have := q.isLt; omega⟩ o :=
  row_congr W o (i := 650 + q.val) _ _ (Nat.add_comm _ _)

end Fold

theorem convR_eq_convK (two : EReal) (htwo : IsReal two)
    (A0 A1 : Fin 1024 → Fin 1024 → EReal) (hA0 : ∀ n m, IsReal (A0 n m)) (hA1 : ∀ n m, IsReal (A1 n m))
    (Y : Fin 1024 → Fin 130 → EReal) (hY : ∀ n c, IsReal (Y n c))
    {O : ℕ} (W : Fin 780 → Fin O → EReal) (hW : ∀ j o, IsReal (W j o)) (b : Fin O → EReal)
    (n : Fin 1024) (o : Fin O) :
    convR two A0 A1 Y W b n o = convK two A0 A1 Y (foldedW W) b n o := by
  unfold convR convK dense
  congr 1
  have hL : ∑ k, blocks6 (featsR two A0 A1 Y n) k * W k o = _ :=
    sum_blocks6 (featsR two A0 A1 Y n) (fun j => W j o)
  have hR : ∑ k, blocks5 (featsK two A0 A1 Y n) k * foldedW W k o = _ :=
    sum_blocks5 (featsK two A0 A1 Y n) (fun p q => foldRows W p q o)
  have v0 : ((0 : Fin 6) : ℕ) = 0 := rfl
  have v1 : ((1 : Fin 6) : ℕ) = 1 := rfl
  have v2 : ((2 : Fin 6) : ℕ) = 2 := rfl
  have v3 : ((3 : Fin 6) : ℕ) = 3 := rfl
  have v4 : ((4 : Fin 6) : ℕ) = 4 := rfl
  have v5 : ((5 : Fin 6) : ℕ) = 5 := rfl
  rw [hL, hR, Fin.sum_univ_six, Fin.sum_univ_five]
  simp only [featsR_0, featsR_1, featsR_2, featsR_3, featsR_4, featsR_5, featsK_0, featsK_1, featsK_2, featsK_3,
    featsK_4, hop_eye, hop_cheb2 two htwo A0 hA0 Y hY, hop_cheb2 two htwo A1 hA1 Y hY,
    foldRows_0, foldRows_1, foldRows_2, foldRows_3, foldRows_4,
    v0, v1, v2, v3, v4, v5, Nat.mul_zero, Nat.add_zero, Nat.mul_one, Nat.reduceMul]
  have d : ∑ q : Fin 130, Y n q * (W ⟨q.val, by have := q.isLt; omega⟩ o
        + W ⟨q.val + 390, by have := q.isLt; omega⟩ o)
      = ∑ q : Fin 130, Y n q * W ⟨q.val, by have := q.isLt; omega⟩ o
        + ∑ q : Fin 130, Y n q * W ⟨q.val + 390, by have := q.isLt; omega⟩ o := by
    rw [← Finset.sum_add_distrib]
    exact Finset.sum_congr rfl (fun q _ => mul_add_of_isReal (hY n q) (hW _ o) (hW _ o))
  rw [d]
  abel

end Cert.GraphCell

end
-- ==== Proof.SpecLaw.lean ====
/-
  The law of the cell: on real data the gated cell built on the convolution through the Chebyshev matrices (all
  780 weight rows) equals the cell built on the vector recurrence with the folded weight rows. The two cells differ
  only inside their two convolutions; each is the law of part B at a feature array with real entries: the node
  features `[x | s1 | s2]`, and the candidate's features `[x | z₁·s1 | z₂·s2]`, whose gate factors are values of
  the logistic function and therefore real whatever their argument.
-/
import proofs.«150459_j80977313399318_2_alg».proof.Proof.SpecLawB

noncomputable section

open scoped BigOperators

namespace Cert.GraphCell

open Idealize.ShloMosaic

theorem isReal_cat3 {a : Fin 2 → EReal} {b c : Fin 64 → EReal} (ha : ∀ k, IsReal (a k)) (hb : ∀ k, IsReal (b k))
    (hc : ∀ k, IsReal (c k)) (j : Fin 130) : IsReal (cat3 a b c j) := by
  unfold cat3
  split_ifs
  · exact ha _
  · exact hb _
  · exact hc _

section

variable (one two : EReal) (htwo : IsReal two)
  (A0 A1 : Fin 1024 → Fin 1024 → EReal) (hA0 : ∀ n m, IsReal (A0 n m)) (hA1 : ∀ n m, IsReal (A1 n m))
  (x : Fin 1024 → Fin 2 → EReal) (hx : ∀ n k, IsReal (x n k))
  (s1 s2 : Fin 1024 → Fin 64 → EReal) (hs1 : ∀ n k, IsReal (s1 n k)) (hs2 : ∀ n k, IsReal (s2 n k))
  (g : Fin 1024 → Fin 16 → EReal)
  (Wm : Fin 146 → Fin 64 → EReal) (bm : Fin 64 → EReal)
  (Wg : Fin 780 → Fin 192 → EReal) (hWg : ∀ j o, IsReal (Wg j o)) (bg : Fin 192 → EReal)
  (Wu : Fin 780 → Fin 64 → EReal) (hWu : ∀ j o, IsReal (Wu j o)) (bu : Fin 64 → EReal)

include hx hs1 hs2 in
theorem isReal_feat (n : Fin 1024) (c : Fin 130) : IsReal (feat x s1 s2 n c) :=
  isReal_cat3 (hx n) (hs1 n) (hs2 n) c

theorem isReal_gates {R : ℕ} (conv : Conv R) (W : Fin R → Fin 192 → EReal) (n : Fin 1024) (o : Fin 192) :
    IsReal (gates conv x s1 s2 W bg n o) :=
  isReal_logistic _

include hx hs1 hs2 in
theorem isReal_cand {R : ℕ} (conv : Conv R) (W : Fin R → Fin 192 → EReal) (n : Fin 1024) (c : Fin 130) :
    IsReal (cand conv x s1 s2 W bg n c) :=
  isReal_cat3 (hx n) (fun o => (isReal_gates x s1 s2 bg conv W n _).mul (hs1 n o))
    (fun o => (isReal_gates x s1 s2 bg conv W n _).mul (hs2 n o)) c

include htwo hA0 hA1 hx hs1 hs2 hWg in
theorem gates_convR_eq_convK :
    gates (convR two A0 A1) x s1 s2 Wg bg = gates (convK two A0 A1) x s1 s2 (foldedW Wg) bg := by
  funext n o
  show Ideal.logistic (convR two A0 A1 (feat x s1 s2) Wg bg n o)
    = Ideal.logistic (convK two A0 A1 (feat x s1 s2) (foldedW Wg) bg n o)
  rw [convR_eq_convK two htwo A0 A1 hA0 hA1 (feat x s1 s2) (isReal_feat x hx s1 s2 hs1 hs2) Wg hWg bg n o]

include htwo hA0 hA1 hx hs1 hs2 hWg in
theorem cand_convR_eq_convK :
    cand (convR two A0 A1) x s1 s2 Wg bg = cand (convK two A0 A1) x s1 s2 (foldedW Wg) bg := by
  funext n
  unfold cand
  rw [gates_convR_eq_convK two htwo A0 A1 hA0 hA1 x hx s1 s2 hs1 hs2 Wg hWg bg]

include htwo hA0 hA1 hx hs1 hs2 hWg hWu in
theorem candState_convR_eq_convK (n : Fin 1024) (o : Fin 64) :
    candState (convR two A0 A1) x s1 s2 Wg bg Wu bu n o
      = candState (convK two A0 A1) x s1 s2 (foldedW Wg) bg (foldedW Wu) bu n o := by
  show Ideal.tanh (convR two A0 A1 (cand (convR two A0 A1) x s1 s2 Wg bg) Wu bu n o)
    = Ideal.tanh (convK two A0 A1 (cand (convK two A0 A1) x s1 s2 (foldedW Wg) bg) (foldedW Wu) bu n o)
  rw [cand_convR_eq_convK two htwo A0 A1 hA0 hA1 x hx s1 s2 hs1 hs2 Wg hWg bg,
    convR_eq_convK two htwo A0 A1 hA0 hA1 _
      (isReal_cand x hx s1 s2 hs1 hs2 bg (convK two A0 A1) (foldedW Wg)) Wu hWu bu n o]

end

theorem cell_convR_eq_convK (one two : EReal) (hone : IsReal one) (htwo : IsReal two)
    (A0 A1 : Fin 1024 → Fin 1024 → EReal) (hA0 : ∀ n m, IsReal (A0 n m)) (hA1 : ∀ n m, IsReal (A1 n m))
    (x : Fin 1024 → Fin 2 → EReal) (hx : ∀ n k, IsReal (x n k))
    (s1 s2 : Fin 1024 → Fin 64 → EReal) (hs1 : ∀ n k, IsReal (s1 n k)) (hs2 : ∀ n k, IsReal (s2 n k))
    (g : Fin 1024 → Fin 16 → EReal)
    (Wm : Fin 146 → Fin 64 → EReal) (bm : Fin 64 → EReal)
    (Wg : Fin 780 → Fin 192 → EReal) (hWg : ∀ j o, IsReal (Wg j o)) (bg : Fin 192 → EReal)
    (Wu : Fin 780 → Fin 64 → EReal) (hWu : ∀ j o, IsReal (Wu j o)) (bu : Fin 64 → EReal)
    (n : Fin 1024) (o : Fin 64) :
    cell one (convR two A0 A1) x s1 s2 g Wm bm Wg bg Wu bu n o
      = cell one (convK two A0 A1) x s1 s2 g Wm bm (foldedW Wg) bg (foldedW Wu) bu n o := by
  unfold cell
  rw [gates_convR_eq_convK two htwo A0 A1 hA0 hA1 x hx s1 s2 hs1 hs2 Wg hWg bg,
    candState_convR_eq_convK two htwo A0 A1 hA0 hA1 x hx s1 s2 hs1 hs2 Wg hWg bg Wu hWu bu n o]

end Cert.GraphCell

end
-- ==== Proof.SpecConsts.lean ====
/-
  The two float literals of the computation at the ideal values: the binary32 words of 1.0 and 2.0 denote the real
  numbers 1 and 2.
-/
import proofs.«150459_j80977313399318_2_alg».proof.Proof.SpecArr

noncomputable section

namespace Cert.GraphCell

open Idealize.ShloMosaic

/-- The binary32 word `0x3F800000` (sign 0, exponent 127, mantissa 0) denotes 1. -/
theorem ONE_eq : ONE = 1 := by
  simp [ONE, Ideal.ofBits, Ideal.ieee]
  rw [← EReal.coe_mul, ← EReal.coe_one]
  exact congrArg _ (by norm_num)

/-- The binary32 word `0x40000000` (sign 0, exponent 128, mantissa 0) denotes 2. -/
theorem TWO_eq : TWO = 2 := by
  simp [TWO, Ideal.ofBits, Ideal.ieee]
  rw [← EReal.coe_mul, show (2 : EReal) = ((2 : ℝ) : EReal) from rfl]
  exact congrArg _ (by norm_num)

theorem isReal_ONE : IsReal ONE := ⟨1, by rw [ONE_eq, EReal.coe_one]⟩

theorem isReal_TWO : IsReal TWO := ⟨2, by rw [TWO_eq]; norm_cast⟩

end Cert.GraphCell

end
-- ==== Proof.ArrLaw.lean ====
/-
  The law of the cell on the argument arrays: when every entry of the eleven arrays is a real number, the output
  array computed through the Chebyshev matrices with all 780 weight rows equals the output array computed by the
  vector recurrence with the folded weight rows. Entry by entry this is the law of the cell; the two float
  literals 1.0 and 2.0 denote the real numbers 1 and 2.
-/
import proofs.«150459_j80977313399318_2_alg».proof.Proof.SpecLaw
import proofs.«150459_j80977313399318_2_alg».proof.Proof.SpecArr
import proofs.«150459_j80977313399318_2_alg».proof.Proof.SpecConsts

noncomputable section

namespace Cert.GraphCell

open Idealize.ShloMosaic Idealize.ShloMosaic.ValueIdx

theorem outArrR_eq_outArrK
    (a0 : (⟨3, ![16, 1024, 2]⟩ : Shape).Idx → EReal) (a1 a2 : (⟨3, ![16, 1024, 64]⟩ : Shape).Idx → EReal)
    (a3 : (⟨3, ![16, 1024, 16]⟩ : Shape).Idx → EReal) (a4 : (⟨4, ![2, 16, 1024, 1024]⟩ : Shape).Idx → EReal)
    (a5 : (⟨2, ![146, 64]⟩ : Shape).Idx → EReal) (a6 : (⟨1, ![64]⟩ : Shape).Idx → EReal)
    (a7 : (⟨2, ![780, 192]⟩ : Shape).Idx → EReal) (a8 : (⟨1, ![192]⟩ : Shape).Idx → EReal)
    (a9 : (⟨2, ![780, 64]⟩ : Shape).Idx → EReal) (a10 : (⟨1, ![64]⟩ : Shape).Idx → EReal)
    (h0 : ∀ i, IsReal (a0 i)) (h1 : ∀ i, IsReal (a1 i)) (h2 : ∀ i, IsReal (a2 i)) (h3 : ∀ i, IsReal (a3 i))
    (h4 : ∀ i, IsReal (a4 i)) (h5 : ∀ i, IsReal (a5 i)) (h6 : ∀ i, IsReal (a6 i)) (h7 : ∀ i, IsReal (a7 i))
    (h8 : ∀ i, IsReal (a8 i)) (h9 : ∀ i, IsReal (a9 i)) (h10 : ∀ i, IsReal (a10 i)) :
    outArrR a0 a1 a2 a3 a4 a5 a6 a7 a8 a9 a10 = outArrK a0 a1 a2 a3 a4 a5 a6 a7 a8 a9 a10 := by
  funext i
  unfold outArrR outArrK outR outK
  exact cell_convR_eq_convK ONE TWO isReal_ONE isReal_TWO _ _ (fun _ _ => h4 _) (fun _ _ => h4 _)
    _ (fun _ _ => h0 _) _ _ (fun _ _ => h1 _) (fun _ _ => h2 _) _ _ _ _ (fun _ _ => h7 _) _ _ (fun _ _ => h9 _) _
    (i 1) (i 2)

end Cert.GraphCell

end
-- ==== Proof.Finite.lean ====
/-
  From the precondition to real numbers.

  The precondition says, array by array, that every entry `x` satisfies `|x| < +∞` (a comparison against the
  binary32 word of +∞, folded over the array by `and`, the eleven results conjoined). On the extended reals
  `|x| = max x (−x)` is `+∞` at both infinities, so every entry of every argument array is a real number — the
  hypothesis under which the two arrangements of the graph convolution agree.
-/
import proofs.«150459_j80977313399318_2_alg».proof.Pre_finite_inputs
import proofs.«150459_j80977313399318_2_alg».proof.Proof.Spec
import Idealize.ShloMosaic.Lib.ReduceAll
import Idealize.ShloMosaic.Lib.Affine
import Idealize.ShloMosaic.Lib.ValueIdx

noncomputable section

namespace Cert.FiniteInputs

open Idealize.ShloMosaic Idealize.ShloMosaic.ValueIdx Cert.GraphCell Cert.Pre_finite_inputs

/-- The shape of a scalar has one index. -/
instance : Subsingleton S_.Idx := ⟨fun a b => funext fun d => d.elim0⟩

/-- An extended real whose absolute value compares below the word of `+∞` is a real number: at `⊥` and at `⊤`
    the absolute value `max x (−x)` is `⊤`, which is not below `⊤`. -/
theorem real_of_lt_inf (x : EReal)
    (h : FloatOps.cmpf (F := Ideal) (φ := .f32) .olt (FloatOps.hostAbsf x) (Ideal.ofBits .f32 0x7F800000#32) = 1#1) :
    IsReal x := by
  induction x using EReal.rec with
  | bot =>
    exfalso
    have e : FloatOps.cmpf (F := Ideal) (φ := .f32) .olt (FloatOps.hostAbsf (⊥ : EReal)) (Ideal.ofBits .f32 0x7F800000#32) = 0#1 := by
      show Ideal.cmp .olt (max ⊥ (-⊥)) (Ideal.ofBits .f32 0x7F800000#32) = 0#1
      simp [Ideal.cmp, Ideal.ofBits, Ideal.ieee]
    rw [e] at h; exact absurd h (by decide)
  | coe r => exact ⟨r, rfl⟩
  | top =>
    exfalso
    have e : FloatOps.cmpf (F := Ideal) (φ := .f32) .olt (FloatOps.hostAbsf (⊤ : EReal)) (Ideal.ofBits .f32 0x7F800000#32) = 0#1 := by
      show Ideal.cmp .olt (max ⊤ (-⊤)) (Ideal.ofBits .f32 0x7F800000#32) = 0#1
      simp [Ideal.cmp, Ideal.ofBits, Ideal.ieee]
    rw [e] at h; exact absurd h (by decide)

/-- One conjunct: if "every entry's absolute value is below `+∞`", folded by `and` into one bit, is 1, then every
    entry is a real number. -/
theorem entries_real {s : Shape} {axes : List (Fin s.rank)} (a : FVec Ideal s .f32) (bc) (hr : s.ReducesTo axes S_)
    (hu : 0 < S_.numel)
    (e : Host.reduce IntOp.andi (cmpf .olt (Host.absf a) (broadcastInDim s ![] bc (constant S_ .f32 0x7F800000#32)))
      (constantI S_ 1 1#1) hr hu ix0 = 1#1) (i : s.Idx) : IsReal (a i) :=
  real_of_lt_inf (a i) (Host.reduce_andi_all _ _ hr hu ix0 e i)

variable [Cert.Pre_finite_inputs.Facts]

/-- The precondition of the eleven argument arrays gives: every entry of every one of them is a real number. -/
theorem all_real (a0 : FVec Ideal S16x1024x2 .f32) (a1 a2 : FVec Ideal S16x1024x64 .f32) (a3 : FVec Ideal S16x1024x16 .f32)
    (a4 : FVec Ideal S2x16x1024x1024 .f32) (a5 : FVec Ideal S146x64 .f32) (a6 : FVec Ideal S64 .f32)
    (a7 : FVec Ideal S780x192 .f32) (a8 : FVec Ideal S192 .f32) (a9 : FVec Ideal S780x64 .f32) (a10 : FVec Ideal S64 .f32)
    (h : Cert.Pre_finite_inputs.fn (F := Ideal) a0 a1 a2 a3 a4 a5 a6 a7 a8 a9 a10 = (fun _ => 1#1)) :
    (∀ i, IsReal (a0 i)) ∧ (∀ i, IsReal (a1 i)) ∧ (∀ i, IsReal (a2 i)) ∧ (∀ i, IsReal (a3 i)) ∧ (∀ i, IsReal (a4 i))
      ∧ (∀ i, IsReal (a5 i)) ∧ (∀ i, IsReal (a6 i)) ∧ (∀ i, IsReal (a7 i)) ∧ (∀ i, IsReal (a8 i)) ∧ (∀ i, IsReal (a9 i))
      ∧ (∀ i, IsReal (a10 i)) := by
  have h0 := congrFun h ix0
  dsimp only [fn, fn_part1, fn_part2, fn_part3] at h0
  obtain ⟨h0, e10⟩ := IntOp.andi_eq_one.mp h0
  obtain ⟨h0, e9⟩ := IntOp.andi_eq_one.mp h0
  obtain ⟨h0, e8⟩ := IntOp.andi_eq_one.mp h0
  obtain ⟨h0, e7⟩ := IntOp.andi_eq_one.mp h0
  obtain ⟨h0, e6⟩ := IntOp.andi_eq_one.mp h0
  obtain ⟨h0, e5⟩ := IntOp.andi_eq_one.mp h0
  obtain ⟨h0, e4⟩ := IntOp.andi_eq_one.mp h0
  obtain ⟨h0, e3⟩ := IntOp.andi_eq_one.mp h0
  obtain ⟨h0, e2⟩ := IntOp.andi_eq_one.mp h0
  obtain ⟨e0, e1⟩ := IntOp.andi_eq_one.mp h0
  exact ⟨entries_real a0 _ _ _ e0, entries_real a1 _ _ _ e1, entries_real a2 _ _ _ e2, entries_real a3 _ _ _ e3,
    entries_real a4 _ _ _ e4, entries_real a5 _ _ _ e5, entries_real a6 _ _ _ e6, entries_real a7 _ _ _ e7,
    entries_real a8 _ _ _ e8, entries_real a9 _ _ _ e9, entries_real a10 _ _ _ e10⟩

end Cert.FiniteInputs

end
-- ==== Proof.Claims.lean ====
/-
  The claims of the certificate.

  The kernel computes, per batch element, one step of a graph-convolutional gated recurrent cell with its graph
  convolution arranged as a vector recurrence (y₀ = Y, y₁ = A y₀, y₂ = 2 A y₁ − y₀) against weight rows folded from
  780 to 650; the reference builds the Chebyshev matrices I, A, 2A² − I first and meets all 780 rows. At the ideal
  values (extended reals, exact operations) the kernel's result array is `outArrK` of the eleven argument arrays and
  the reference's is `outArrR`. The two are equal when every entry of every argument is a real number — by
  associativity of the matrix product, the identity matrix, and distributivity over the two weight blocks that meet
  y₀ — and not in general (these laws fail at infinities). Finiteness of the arguments is the stated precondition,
  and it is used exactly there. The frame claims are the runs' final memories read at the argument arrays.
-/
import proofs.«150459_j80977313399318_2_alg».proof.Defs
import proofs.«150459_j80977313399318_2_alg».proof.Proof.FrameKRun
import proofs.«150459_j80977313399318_2_alg».proof.Proof.FrameKIRun
import proofs.«150459_j80977313399318_2_alg».proof.Proof.KernelBlocks
import proofs.«150459_j80977313399318_2_alg».proof.Proof.RefRunH
import proofs.«150459_j80977313399318_2_alg».proof.Proof.RefArr
import proofs.«150459_j80977313399318_2_alg».proof.Proof.ArrLaw
import proofs.«150459_j80977313399318_2_alg».proof.Proof.Finite
import proofs.«150459_j80977313399318_2_alg».proof.Proof.Gen.Kernel
import proofs.«150459_j80977313399318_2_alg».proof.Proof.Gen.KernelIdeal
import proofs.«150459_j80977313399318_2_alg».proof.Proof.Gen.ReferenceIdeal
import proofs.«150459_j80977313399318_2_alg».proof.Proof.Gen.Pre_finite_inputs

noncomputable section

namespace Cert.Proof.Claims

open Idealize.ShloMosaic Idealize.ShloMosaic.TcCoe Idealize.SL.Sem

/-- The kernel at the bit-exact values runs to the end and leaves its argument arrays as launched. -/
theorem frame_k : Cert.frame_Kernel := fun m ρ _ => Cert.Kernel.Hand.frame (F := Bits) m ρ

/-- The kernel at the ideal values runs to the end and leaves its argument arrays as launched. -/
theorem frame_ki : Cert.frame_KernelIdeal := fun m ρ _ => Cert.KernelIdeal.Hand.frame (F := Ideal) m ρ

/-- The reference at the ideal values runs to the end and leaves its argument arrays as launched. -/
theorem frame_ri : Cert.frame_ReferenceIdeal := fun m ρ _ =>
  (θ_run Cert.ReferenceIdeal.defs _ _).mono (fun _ h c => (h c).2) (Cert.ReferenceIdeal.RunH.run (F := Ideal) m ρ)

/-- The idealization rewrote no operation. -/
theorem preserves : Cert.preserves_Kernel_KernelIdeal := trivial

/-- At the ideal values, from finite arguments that agree, the kernel's result array (the cell by the vector
    recurrence with folded weight rows) and the reference's (the cell through the Chebyshev matrices) are equal. -/
theorem algebraic : Cert.algebraic_KernelIdeal_ReferenceIdeal := by
  intro m ρ m' ρ' hpre hagree
  refine ⟨_, Cert.KernelIdeal.KValue.run m ρ, ?_⟩
  refine (θ_run Cert.ReferenceIdeal.defs _ _).mono (fun _ h c => ⟨(h c).1.trans ?_, (h c).2⟩)
    (Cert.ReferenceIdeal.RunH.run (F := Ideal) m' ρ')
  obtain ⟨e0, e1, e2, e3, e4, e5, e6, e7, e8, e9, e10⟩ := hagree c
  obtain ⟨r0, r1, r2, r3, r4, r5, r6, r7, r8, r9, r10⟩ := Cert.FiniteInputs.all_real _ _ _ _ _ _ _ _ _ _ _ (hpre c)
  rw [Cert.ReferenceIdeal.RefValue.ref_arr, e0, e1, e2, e3, e4, e5, e6, e7, e8, e9, e10]
  exact Cert.GraphCell.outArrR_eq_outArrK _ _ _ _ _ _ _ _ _ _ _ r0 r1 r2 r3 r4 r5 r6 r7 r8 r9 r10

end Cert.Proof.Claims

end
-- ==== Proof.lean ====
/-
  The proof of `Cert.Claim`: the kernel (one step of a graph-convolutional gated recurrent cell, its graph
  convolution run as a vector recurrence against folded weight rows) and the reference (the same cell through the
  Chebyshev matrices and all weight rows) both run and leave their arguments unchanged, and at the ideal values, from
  finite arguments that agree, they end with equal results. The claims are proved in Proof/Claims.lean — the frames
  from the runs, the equality of results from the law of the cell on real data (Proof/SpecLaw.lean, Proof/ArrLaw.lean)
  with finiteness read off the precondition (Proof/Finite.lean) — and assembled here behind the witnesses of the
  programs' stated facts.
-/
import proofs.«150459_j80977313399318_2_alg».proof.Defs
import proofs.«150459_j80977313399318_2_alg».proof.Proof.Claims
import proofs.«150459_j80977313399318_2_alg».proof.Proof.Gen.Kernel
import proofs.«150459_j80977313399318_2_alg».proof.Proof.Gen.Kernel.Skeleton
import proofs.«150459_j80977313399318_2_alg».proof.Proof.Gen.Kernel.Launch
import proofs.«150459_j80977313399318_2_alg».proof.Proof.Gen.Kernel.Points
import proofs.«150459_j80977313399318_2_alg».proof.Proof.Gen.KernelIdeal
import proofs.«150459_j80977313399318_2_alg».proof.Proof.Gen.KernelIdeal.Skeleton
import proofs.«150459_j80977313399318_2_alg».proof.Proof.Gen.KernelIdeal.Launch
import proofs.«150459_j80977313399318_2_alg».proof.Proof.Gen.KernelIdeal.Points
import proofs.«150459_j80977313399318_2_alg».proof.Proof.Gen.ReferenceIdeal
import proofs.«150459_j80977313399318_2_alg».proof.Proof.Gen.Pre_finite_inputs
import Idealize.ShloMosaic.Adequacy
import Idealize.ShloMosaic.Init

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
